-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S128x64 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128 .f32) (main_arg12 : FVec F S128 .f32) (main_arg13 : FVec F S128x64 .f32) (main_arg14 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x64 .f32) (main_arg14 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S128x1 : Shape := ⟨2, ![128, 1]⟩
abbrev S1x64 : Shape := ⟨2, ![1, 64]⟩

abbrev nBuf : Space → Nat
  | .hbm => 147
  | .vmem => 54
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x64, .f32⟩
  | 14 => ⟨S64, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x128, .f32⟩
  | 47 => ⟨S_, .f32⟩
  | 48 => ⟨S100000x128, .f32⟩
  | 49 => ⟨S1700000x1, .i32⟩
  | 50 => ⟨S100000x128, .f32⟩
  | 51 => ⟨S1x128, .f32⟩
  | 52 => ⟨S100000x128, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S100000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x64, .f32⟩

abbrev hbmTy0_1 (i : Nat) : BufTy := match i % 128 with
  | 0 => ⟨S100000x128, .f32⟩
  | 1 => ⟨S_, .f32⟩
  | 2 => ⟨S128x128, .f32⟩
  | 3 => ⟨S100000x1, .i32⟩
  | 4 => ⟨S128x128, .f32⟩
  | 5 => ⟨S_, .f32⟩
  | 6 => ⟨S100000, .f32⟩
  | 7 => ⟨S_, .f32⟩
  | 8 => ⟨S128, .f32⟩
  | 9 => ⟨S100000x1, .i32⟩
  | 10 => ⟨S128, .f32⟩
  | 11 => ⟨S_, .f32⟩
  | 12 => ⟨S128, .f32⟩
  | 13 => ⟨S128, .f32⟩
  | 14 => ⟨S128x1, .f32⟩
  | 15 => ⟨S128x128, .f32⟩
  | 16 => ⟨S128x128, .f32⟩
  | 17 => ⟨S1x64, .f32⟩
  | 18 => ⟨S128x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S5000x1, .f32⟩
  | .local _ .vmem, ⟨22, _⟩ => ⟨S5000x1, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S5000x1, .f32⟩
  | .local _ .vmem, ⟨40, _⟩ => ⟨S5000x1, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S128x64, .f32⟩
  | .local _ .vmem, ⟨52, _⟩ => ⟨S1x64, .f32⟩
  | .local _ .vmem, ⟨53, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57_0 : Ref sig .tc := ⟨.hbm, 90, rfl⟩
abbrev main_v57_1 : Ref sig .tc := ⟨.hbm, 91, rfl⟩
abbrev main_v57_2 : Ref sig .tc := ⟨.hbm, 92, rfl⟩
abbrev main_cst_12 : Ref sig .tc := ⟨.hbm, 93, rfl⟩
abbrev main_v58 : Ref sig .tc := ⟨.hbm, 94, rfl⟩
abbrev main_v59 : Ref sig .tc := ⟨.hbm, 95, rfl⟩
abbrev main_cst_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_16 : Ref sig .tc := ⟨.hbm, 114, rfl⟩
abbrev main_v75 : Ref sig .tc := ⟨.hbm, 115, rfl⟩
abbrev main_v76 : Ref sig .tc := ⟨.hbm, 116, rfl⟩
abbrev main_c_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_22 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg1_0 : Ref sig .tc := ⟨.vmem, 51, rfl⟩
abbrev cc6_stg2_0 : Ref sig .tc := ⟨.vmem, 52, rfl⟩
abbrev cc6_stg3_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem5_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem4_1 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem1_0 : DmaSem sig := 51
abbrev cc6_sem2_0 : DmaSem sig := 52
abbrev cc6_sem3_0 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S128x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S64_S1x64 : S64.ShapeCasts S1x64
  shapeCasts_S128x128_S128x128 : S128x128.ShapeCasts S128x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  scatter_S100000_S1700000x1_S1700000_n_0_0_1_wf : ScatterDims.WF S100000 S1700000x1 S1700000 [] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x1.size a ≤ S100000x1.size a
  hwx4_4 : ∀ i : grid4.Coords, EltTy.bits .f32 = 32 ∨ (Rect.block (s := S100000x1) S5000x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S128x128.size a ≤ S128x128.size a
  hwx6_0 : ∀ i : grid6.Coords, EltTy.bits .f32 = 32 ∨ (Rect.block (s := S128x128) S128x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v57_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v57_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v15) S5000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v74) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v84) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v98) S128x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S128x64.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩
abbrev S1x64 : Shape := ⟨2, ![1, 64]⟩

abbrev nBuf : Space → Nat
  | .hbm => 254
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x64, .f32⟩
  | 14 => ⟨S64, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S100000x128, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .i1⟩
  | 108 => ⟨S_, .f32⟩
  | 109 => ⟨S100000x128, .f32⟩
  | 110 => ⟨S100000x128, .f32⟩
  | 111 => ⟨S100000x128, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x64, .f32⟩

abbrev hbmTy0_1 (i : Nat) : BufTy := match i % 128 with
  | 0 => ⟨S1700000, .i32⟩
  | 1 => ⟨S1700000x1, .i32⟩
  | 2 => ⟨S1700000, .f32⟩
  | 3 => ⟨S1700000, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x128, .f32⟩
  | 13 => ⟨S1700000x1, .f32⟩
  | 14 => ⟨S1700000x128, .f32⟩
  | 15 => ⟨S1700000x128, .f32⟩
  | 16 => ⟨S_, .f32⟩
  | 17 => ⟨S100000x128, .f32⟩
  | 18 => ⟨S1700000x1, .i32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S128, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S100000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .i1⟩
  | 56 => ⟨S_, .f32⟩
  | 57 => ⟨S100000x128, .f32⟩
  | 58 => ⟨S100000x128, .f32⟩
  | 59 => ⟨S100000x128, .f32⟩
  | 60 => ⟨S100000x128, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000, .f32⟩
  | 79 => ⟨S1700000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x1, .f32⟩
  | 90 => ⟨S1700000x128, .f32⟩
  | 91 => ⟨S1700000x128, .f32⟩
  | 92 => ⟨S_, .f32⟩
  | 93 => ⟨S100000x128, .f32⟩
  | 94 => ⟨S1700000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .i1⟩
  | 102 => ⟨S_, .f32⟩
  | 103 => ⟨S100000x128, .f32⟩
  | 104 => ⟨S100000x128, .f32⟩
  | 105 => ⟨S100000x128, .f32⟩
  | 106 => ⟨S_, .f32⟩
  | 107 => ⟨S128x128, .f32⟩
  | 108 => ⟨S100000x1, .i32⟩
  | 109 => ⟨S128x128, .f32⟩
  | 110 => ⟨S_, .f32⟩
  | 111 => ⟨S100000, .f32⟩
  | 112 => ⟨S_, .f32⟩
  | 113 => ⟨S128, .f32⟩
  | 114 => ⟨S100000x1, .i32⟩
  | 115 => ⟨S128, .f32⟩
  | 116 => ⟨S_, .f32⟩
  | 117 => ⟨S128, .f32⟩
  | 118 => ⟨S128, .f32⟩
  | 119 => ⟨S128x1, .f32⟩
  | 120 => ⟨S128x128, .f32⟩
  | 121 => ⟨S128x128, .f32⟩
  | 122 => ⟨S128x64, .f32⟩
  | 123 => ⟨S1x64, .f32⟩
  | 124 => ⟨S128x64, .f32⟩
  | 125 => ⟨S128x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_18 : Ref sig .tc := ⟨.hbm, 122, rfl⟩
abbrev main_v85 : Ref sig .tc := ⟨.hbm, 123, rfl⟩
abbrev main_v86 : Ref sig .tc := ⟨.hbm, 124, rfl⟩
abbrev main_c_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_20 : Ref sig .tc := ⟨.hbm, 132, rfl⟩
abbrev main_v93 : Ref sig .tc := ⟨.hbm, 133, rfl⟩
abbrev main_v94 : Ref sig .tc := ⟨.hbm, 134, rfl⟩
abbrev main_c_21 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_22 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_v109 : Ref sig .tc := ⟨.hbm, 152, rfl⟩
abbrev main_cst_24 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_25 : Ref sig .tc := ⟨.hbm, 160, rfl⟩
abbrev main_v116 : Ref sig .tc := ⟨.hbm, 161, rfl⟩
abbrev main_cst_26 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_27 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_28 : Ref sig .tc := ⟨.hbm, 181, rfl⟩
abbrev main_v134 : Ref sig .tc := ⟨.hbm, 182, rfl⟩
abbrev main_v135 : Ref sig .tc := ⟨.hbm, 183, rfl⟩
abbrev main_cst_29 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_30 : Ref sig .tc := ⟨.hbm, 189, rfl⟩
abbrev main_v140 : Ref sig .tc := ⟨.hbm, 190, rfl⟩
abbrev main_v141 : Ref sig .tc := ⟨.hbm, 191, rfl⟩
abbrev main_c_31 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_c_32 : Ref sig .tc := ⟨.hbm, 198, rfl⟩
abbrev main_v147 : Ref sig .tc := ⟨.hbm, 199, rfl⟩
abbrev main_v148 : Ref sig .tc := ⟨.hbm, 200, rfl⟩
abbrev main_c_33 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_34 : Ref sig .tc := ⟨.hbm, 208, rfl⟩
abbrev main_v155 : Ref sig .tc := ⟨.hbm, 209, rfl⟩
abbrev main_v156 : Ref sig .tc := ⟨.hbm, 210, rfl⟩
abbrev main_c_35 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_36 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_37 : Ref sig .tc := ⟨.hbm, 227, rfl⟩
abbrev main_v171 : Ref sig .tc := ⟨.hbm, 228, rfl⟩
abbrev main_v172 : Ref sig .tc := ⟨.hbm, 229, rfl⟩
abbrev main_cst_38 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_cst_39 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_cst_40 : Ref sig .tc := ⟨.hbm, 238, rfl⟩
abbrev main_v179 : Ref sig .tc := ⟨.hbm, 239, rfl⟩
abbrev main_cst_41 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_42 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  scatter_S100000_S1700000x1_S1700000_n_0_0_1_wf : ScatterDims.WF S100000 S1700000x1 S1700000 [] [0] [0] 1
  dot_S100000x64_S64x128_S100000x128_1_0_0_1_n_n_wf : DotDims.WF S100000x64 S64x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x64_S128x64_1_0_0_1_n_n_wf : DotDims.WF S128x128 S128x64 S128x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

class Facts : Prop extends Facts₀ where

variable [Facts]
-- ==== Proof.KernelRun.lean ====
/-
  The idealized kernel's run with its RESULT named. The program is seven kernel launches among stretches of host
  operations; the buffer contents at each boundary are a fold from the launch memory (a stretch applies its host
  operations; a launch replaces its windows' arrays by what its write-backs leave). Every weakly fair execution
  terminates without a fault, with the result array at the last boundary's contents of its buffer and every argument
  array as launched.
-/
import proofs.«160274_j87952340288037_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run of the whole program: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v100) = W16 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v100 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelIdeal.Run

end
-- ==== Proof.Spec.lean ====
/-
  The seven fused stages of a three-layer graph convolution, each as ONE function of whole arrays, entry by entry, on the
  extended reals.

  Rows are nodes (100000 of them), columns are features. `d` is a column [100000, 1] of per-node factors, `b` a row
  [1, C] of biases, `scale` / `shift` rows [1, 128] of an affine map per feature.

  * `linScale x w d`      : (x · w) scaled per row:            (∑ₖ x(r,k) · w(k,j)) · d(r,0)
  * `postH agg d b`       : a·d + b:                            agg(r,j) · d(r,0) + b(0,j)
  * `colSum h`, `colSumSq h` : per feature, the sum over all nodes of h and of h², as rows [1, 128]
  * `bnLin h scale shift w d` : (lrelu(h·scale + shift) · w) scaled per row
  * `postLrelu agg d b`   : lrelu(agg·d + b)
  * `linBias p w b`       : p · w + b
  where lrelu y = y if y > 0 else 0.03·y, the slope being the float word 0x3CF5C28F read exactly.
-/
import Idealize.ShloMosaic.PureOps.Ideal
import Idealize.ShloMosaic.Lib.ValueIdx

noncomputable section

namespace Cert.Spec

open Idealize.ShloMosaic Idealize.ShloMosaic.ValueIdx

/-- A rank-2 array of extended reals with literal extents. -/
abbrev Arr2 (a b : Nat) : Type := (⟨2, ![a, b]⟩ : Shape).Idx → EReal

/-- The leaky rectifier: `y` where `y > 0`, else the slope word `0x3CF5C28F` (the float nearest 0.03) times `y`. -/
def lrelu (y : EReal) : EReal :=
  Scalar.select (Ideal.cmp .ogt y (Ideal.ofBits .f32 0x00000000#32)) y (Ideal.ofBits .f32 0x3CF5C28F#32 * y)

/-- `(x · w)` at `(r, j)`, times the row's factor `d(r, 0)`. -/
def linScaleAt (x : Arr2 100000 64) (w : Arr2 64 128) (d : Arr2 100000 1) (r : Fin 100000) (j : Fin 128) : EReal :=
  (∑ k : Fin 64, x (ix2 r k) * w (ix2 k j)) * d (ix2 r (0 : Fin 1))

def linScale (x : Arr2 100000 64) (w : Arr2 64 128) (d : Arr2 100000 1) : Arr2 100000 128 :=
  fun i => linScaleAt x w d (i 0) (i 1)

/-- `agg(r, j) · d(r, 0) + b(0, j)`. -/
def postHAt (agg : Arr2 100000 128) (d : Arr2 100000 1) (b : Arr2 1 128) (r : Fin 100000) (j : Fin 128) : EReal :=
  agg (ix2 r j) * d (ix2 r (0 : Fin 1)) + b (ix2 (0 : Fin 1) j)

def postH (agg : Arr2 100000 128) (d : Arr2 100000 1) (b : Arr2 1 128) : Arr2 100000 128 :=
  fun i => postHAt agg d b (i 0) (i 1)

/-- Per feature `j`, the sum over all nodes of `h(n, j)`, as a row. -/
def colSum (h : Arr2 100000 128) : Arr2 1 128 :=
  fun i => ∑ n : Fin 100000, h (ix2 n (i 1))

/-- Per feature `j`, the sum over all nodes of `h(n, j)²`, as a row. -/
def colSumSq (h : Arr2 100000 128) : Arr2 1 128 :=
  fun i => ∑ n : Fin 100000, h (ix2 n (i 1)) * h (ix2 n (i 1))

/-- `(lrelu (h · scale + shift) · w)` at `(r, j)`, times the row's factor `d(r, 0)`. -/
def bnLinAt (h : Arr2 100000 128) (scale shift : Arr2 1 128) (w : Arr2 128 128) (d : Arr2 100000 1)
    (r : Fin 100000) (j : Fin 128) : EReal :=
  (∑ k : Fin 128, lrelu (h (ix2 r k) * scale (ix2 (0 : Fin 1) k) + shift (ix2 (0 : Fin 1) k)) * w (ix2 k j))
    * d (ix2 r (0 : Fin 1))

def bnLin (h : Arr2 100000 128) (scale shift : Arr2 1 128) (w : Arr2 128 128) (d : Arr2 100000 1) : Arr2 100000 128 :=
  fun i => bnLinAt h scale shift w d (i 0) (i 1)

/-- `lrelu (agg(r, j) · d(r, 0) + b(0, j))`. -/
def postLrelu (agg : Arr2 100000 128) (d : Arr2 100000 1) (b : Arr2 1 128) : Arr2 100000 128 :=
  fun i => lrelu (postHAt agg d b (i 0) (i 1))

/-- `(p · w)(r, j) + b(0, j)`. -/
def linBiasAt (p : Arr2 128 128) (w : Arr2 128 64) (b : Arr2 1 64) (r : Fin 128) (j : Fin 64) : EReal :=
  (∑ k : Fin 128, p (ix2 r k) * w (ix2 k j)) + b (ix2 (0 : Fin 1) j)

def linBias (p : Arr2 128 128) (w : Arr2 128 64) (b : Arr2 1 64) : Arr2 128 64 :=
  fun i => linBiasAt p w b (i 0) (i 1)

end Cert.Spec

end
-- ==== Proof.KGlue.lean ====
/-
  The idealized kernel's program as ONE function of its fifteen arguments: its host operations between the seven
  launches (the edge lists, degrees and their reciprocal square roots as a column; the gather along departure nodes and
  scatter along arrival nodes; the affine map of a batch normalisation from the accumulated sums; the mean pooling),
  spelt with that program's operations, composed with the seven launches' whole-array functions.

  * `dinvCol e`            : "1/√degree where positive else 0" as a column [100000, 1]
  * `rowOf b`              : a per-feature vector as a row [1, 128]
  * `segSum e P`           : into each node the rows P[src] of the edges arriving
  * `scaleRow s q g`, `shiftRow s q g β` : from the column sums s and sums of squares q of a table:
                               mean = s/100000, var = max(q/100000 − mean², 0), scale = g·(var + ε)^(−1/2), shift = β − mean·scale
  * `meanPool x2 h`        : per graph, the sum of its nodes' rows over max(count, 1)
  * `kNet …`               : the whole network
-/
import proofs.«160274_j87952340288037_2_alg».proof.Proof.Gen.KernelIdeal
import proofs.«160274_j87952340288037_2_alg».proof.Proof.Spec
import Idealize.ShloMosaic.PureOps.Ideal

noncomputable section

namespace Cert.KGlue

open Cert.KernelIdeal Cert.KernelIdeal.Gen Idealize.ShloMosaic

abbrev Edges : Type := IVec S2x1600000 32

def srcW (e : Edges) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

def dstW (e : Edges) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

def rawIdx (w : IVec S1700000 32) : IVec S1700000x1 32 :=
  broadcastInDim S1700000x1 ![0] bcast_S1700000_S1700000x1_0 w

def normIdx (w : IVec S1700000 32) : IVec S1700000x1 32 :=
  broadcastInDim S1700000x1 ![0] bcast_S1700000_S1700000x1_0
    (select (cmpi .slt w (broadcastInDim S1700000 ![] bcast_S_S1700000 (constantI S_ 32 0#32)))
      (addi w (broadcastInDim S1700000 ![] bcast_S_S1700000 (constantI S_ 32 100000#32))) w)

def zerosN : FVec Ideal S100000 .f32 :=
  broadcastInDim S100000 ![] bcast_S_S100000 (constant (F := Ideal) S_ .f32 0x00000000#32)

def zerosNC : FVec Ideal S100000x128 .f32 :=
  broadcastInDim S100000x128 ![] bcast_S_S100000x128 (constant (F := Ideal) S_ .f32 0x00000000#32)

def deg (e : Edges) : FVec Ideal S100000 .f32 :=
  Host.scatterAdd (F := Ideal) scatter_S100000_S1700000x1_S1700000_n_0_0_1 zerosN (rawIdx (dstW e))
    (broadcastInDim S1700000 ![] bcast_S_S1700000 (constant (F := Ideal) S_ .f32 0x3F800000#32))

def dinv (e : Edges) : FVec Ideal S100000 .f32 :=
  select (cmpf .ogt (deg e) zerosN) (Host.rsqrt (F := Ideal) (deg e)) zerosN

/-- The per-node factors as a column. -/
def dinvCol (e : Edges) : FVec Ideal S100000x1 .f32 :=
  shapeCast S100000x1 (dinv e) shapeCasts_S100000_S100000x1

/-- A per-feature vector as a row. -/
def rowOf (b : FVec Ideal S128 .f32) : FVec Ideal S1x128 .f32 :=
  shapeCast S1x128 b shapeCasts_S128_S1x128

/-- Into each node the rows `P[src]` of the edges arriving. -/
def segSum (e : Edges) (P : FVec Ideal S100000x128 .f32) : FVec Ideal S100000x128 .f32 :=
  Host.scatterAdd (F := Ideal) scatter_S100000x128_S1700000x1_S1700000x128_1_0_0_1 zerosNC (rawIdx (dstW e))
    (Host.gather gather_S100000x128_S1700000x1_S1700000x128_1_0_n_n_0_1_1128 P (normIdx (srcW e)))

/-- Column means from column sums: divide by 100000. -/
def meanRow (s : FVec Ideal S1x128 .f32) : FVec Ideal S1x128 .f32 :=
  Host.divf (F := Ideal) s (broadcastInDim S1x128 ![] bcast_S_S1x128 (constant (F := Ideal) S_ .f32 0x47C35000#32))

/-- The scale of the affine map: `g · (max(q/N − mean², 0) + ε)^(−1/2)`. -/
def scaleRow (s q : FVec Ideal S1x128 .f32) (g : FVec Ideal S128 .f32) : FVec Ideal S1x128 .f32 :=
  mulf (rowOf g) (Host.rsqrt (F := Ideal) (addf
    (maximumf (subf (meanRow q) (mulf (meanRow s) (meanRow s)))
      (broadcastInDim S1x128 ![] bcast_S_S1x128 (constant (F := Ideal) S_ .f32 0x00000000#32)))
    (broadcastInDim S1x128 ![] bcast_S_S1x128 (constant (F := Ideal) S_ .f32 0x3727C5AC#32))))

/-- The shift of the affine map: `β − mean · scale`. -/
def shiftRow (s q : FVec Ideal S1x128 .f32) (g β : FVec Ideal S128 .f32) : FVec Ideal S1x128 .f32 :=
  subf (rowOf β) (mulf (meanRow s) (scaleRow s q g))

def meanPool (x2 : IVec S100000 32) (h : FVec Ideal S100000x128 .f32) : FVec Ideal S128x128 .f32 :=
  Host.divf (F := Ideal)
    (Host.scatterAdd (F := Ideal) scatter_S128x128_S100000x1_S100000x128_1_0_0_1
      (broadcastInDim S128x128 ![] bcast_S_S128x128 (constant (F := Ideal) S_ .f32 0x00000000#32))
      (broadcastInDim S100000x1 ![0] bcast_S100000_S100000x1_0 x2) h)
    (broadcastInDim S128x128 ![0, 1] bcast_S128x1_S128x128_0_1 (broadcastInDim S128x1 ![0] bcast_S128_S128x1_0
      (maximumf
        (Host.scatterAdd (F := Ideal) scatter_S128_S100000x1_S100000_n_0_0_1
          (broadcastInDim S128 ![] bcast_S_S128 (constant (F := Ideal) S_ .f32 0x00000000#32))
          (broadcastInDim S100000x1 ![0] bcast_S100000_S100000x1_0 x2)
          (broadcastInDim S100000 ![] bcast_S_S100000 (constant (F := Ideal) S_ .f32 0x3F800000#32)))
        (broadcastInDim S128 ![] bcast_S_S128 (constant (F := Ideal) S_ .f32 0x3F800000#32)))))

/-- One post-aggregation stage with statistics: the table `h = agg·d + b`. -/
def hOf (e : Edges) (P : FVec Ideal S100000x128 .f32) (b : FVec Ideal S128 .f32) : FVec Ideal S100000x128 .f32 :=
  Cert.Spec.postH (segSum e P) (dinvCol e) (rowOf b)

/-- The next layer's pre-aggregation table from `h`: normalise with the statistics of `h`, rectify, multiply by `w`,
    scale the rows. -/
def nextP (e : Edges) (h : FVec Ideal S100000x128 .f32) (g β : FVec Ideal S128 .f32) (w : FVec Ideal S128x128 .f32) :
    FVec Ideal S100000x128 .f32 :=
  Cert.Spec.bnLin h (scaleRow (Cert.Spec.colSum h) (Cert.Spec.colSumSq h) g)
    (shiftRow (Cert.Spec.colSum h) (Cert.Spec.colSumSq h) g β) w (dinvCol e)

/-- The kernel program's result as one function of its fifteen arguments. -/
def kNet (x0 : FVec Ideal S100000x64 .f32) (e : Edges) (x2 : IVec S100000 32) (w0 : FVec Ideal S64x128 .f32)
    (b0 : FVec Ideal S128 .f32) (w1 : FVec Ideal S128x128 .f32) (b1 : FVec Ideal S128 .f32) (w2 : FVec Ideal S128x128 .f32)
    (b2 g0 β0 g1 β1 : FVec Ideal S128 .f32) (lw : FVec Ideal S128x64 .f32) (lb : FVec Ideal S64 .f32) : FVec Ideal S128x64 .f32 :=
  let h0 := hOf e (Cert.Spec.linScale x0 w0 (dinvCol e)) b0
  let h1 := hOf e (nextP e h0 g0 β0 w1) b1
  let a2 := Cert.Spec.postLrelu (segSum e (nextP e h1 g1 β1 w2)) (dinvCol e) (rowOf b2)
  Cert.Spec.linBias (meanPool x2 a2) lw (shapeCast S1x64 lb shapeCasts_S64_S1x64)

end Cert.KGlue

end
-- ==== Proof.Region0.lean ====
/-
  Stage 1 of the graph convolution, the first layer's linear map: every block of 5000 rows of the output is the
  product of the same rows of the features with the whole weight matrix, each row scaled by its node's factor; the 20
  blocks tile the 100000 rows, so the whole output array is `Spec.linScale` of the three arrays the stage reads.
-/
import proofs.«160274_j87952340288037_2_alg».proof.Proof.Gen.KernelIdeal.Frame
import proofs.«160274_j87952340288037_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Two broadcasts read at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product read at an entry -/

/-- The left operand's row coordinate is the output's row. -/
theorem dot_lhs_row (i : S5000x128.Idx) (κ : dot_S5000x64_S64x128_S5000x128_1_0_0_1_n_n.contr.Idx) : (dot_S5000x64_S64x128_S5000x128_1_0_0_1_n_n.lhsIdx i κ 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl

/-- The right operand's column coordinate is the output's column. -/
theorem dot_rhs_col (i : S5000x128.Idx) (κ : dot_S5000x64_S64x128_S5000x128_1_0_0_1_n_n.contr.Idx) : (dot_S5000x64_S64x128_S5000x128_1_0_0_1_n_n.rhsIdx i κ 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product accumulated into the zero splat, at entry `(p, q)`: the sum over the contracted coordinate `k` of
    `x0(p,k) · x1(k,q)`. -/
theorem matmul_at {φ₁ φ₂ : FTy} (x0 : FVec Ideal S5000x64 φ₁) (x1 : FVec Ideal S64x128 φ₂) (p : Fin 5000) (q : Fin 128) :
    matmul dot_S5000x64_S64x128_S5000x128_1_0_0_1_n_n none x0 x1 (constant (F := Ideal) S5000x128 .f32 0x00000000#32) (ix2 p q)
      = ∑ k : Fin 64, x0 (ix2 p k) * x1 (ix2 k q) := by
  show FloatOps.matmul dot_S5000x64_S64x128_S5000x128_1_0_0_1_n_n none x0 x1 (constant (F := Ideal) S5000x128 .f32 0x00000000#32) (ix2 p q) = _
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k :=
    funext fun a => Fin.ext (by
      match a with
      | ⟨0, _⟩ => exact dot_lhs_row _ _
      | ⟨1, _⟩ => exact (dot_S5000x64_S64x128_S5000x128_1_0_0_1_n_n.lhsIdx_val_of_single rfl _ _).trans hk)
  have er : dot_S5000x64_S64x128_S5000x128_1_0_0_1_n_n.rhsIdx (ix2 p q) ((contrEquiv1 dot_S5000x64_S64x128_S5000x128_1_0_0_1_n_n 64 rfl rfl).symm k) = ix2 k q :=
    funext fun a => Fin.ext (by
      match a with
      | ⟨0, _⟩ => exact (dot_S5000x64_S64x128_S5000x128_1_0_0_1_n_n.rhsIdx_val_of_single rfl _ _).trans hk
      | ⟨1, _⟩ => exact dot_rhs_col _ _)
  rw [el, er]

/-! ## The payload at an entry -/

/-- One entry `(p, q)` of a block's payload: `(∑ₖ x0(p,k) · x1(k,q)) · x2(p,0)`. -/
theorem pay_apply (x0 : Vec Ideal S5000x64 .f32) (x1 : Vec Ideal S64x128 .f32) (x2 : Vec Ideal S5000x1 .f32)
    (p : Fin 5000) (q : Fin 128) :
    k0_pay1 x0 x1 x2 (ix2 p q)
      = (∑ k : Fin 64, x0 (ix2 p k) * x1 (ix2 k q)) * x2 (ix2 p (0 : Fin 1)) := by
  unfold k0_pay1
  simp only [mulf_apply, shapeCast_self]
  rw [broadcastTo_a1_ab_apply, matmul_at]
  rfl

/-! ## From blocks to the array -/

theorem zero_offsets : (![0, 0] : Fin 2 → Nat) = fun _ => 0 := funext fun a => by fin_cases a <;> rfl

/-- The printed index maps over the grid: the row-blocked inputs sit at block row `t`, column block 0; the weight
    matrix is always its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The output's blocks sit at block row `t`, column block 0. -/
theorem out_idx_facts : ∀ t : Fin cfg0.N,
    win0_3.index t (0 : Fin 2) = t.val ∧ win0_3.index t (1 : Fin 2) = 0 :=
  (by decide +kernel : ∀ t : Fin grid0.N, _)

/-- The stage's result as one function of the arrays it reads. -/
abbrev G (c : Dev nD) : Cert.Spec.Arr2 100000 128 :=
  Cert.Spec.linScale (V c main_arg0) (V c main_arg3) (V c main_v15)

/-- What point `t` writes back is block `t` of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero zero_offsets]
  simp only [View.ld_unit_zero (S := S5000x64) zero_offsets, View.ld_unit_zero (S := S64x128) zero_offsets,
    View.ld_unit_zero (S := S5000x1) zero_offsets]
  obtain ⟨e00, e01, e10, e11, e20, e21⟩ := idx_facts t
  obtain ⟨eo0, eo1⟩ := out_idx_facts t
  have ht : t.val < 20 := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 100000 := by have := p.isLt; omega
  show k0_pay1 (iblk0 V c 0 t) (iblk0 V c 1 t) (iblk0 V c 2 t) (ix2 p q)
    = G V c (((cfg0.win 3).blk t).view.emb (ix2 p q))
  refine (pay_apply (iblk0 V c 0 t) (iblk0 V c 1 t) (iblk0 V c 2 t) p q).trans ?_
  have hemb : ((cfg0.win 3).blk t).view.emb (ix2 p q) = ix2 (⟨t.val * 5000 + p.val, hr⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have r0 : ∀ k : Fin 64, iblk0 V c 0 t (ix2 p k) = V c main_arg0 (ix2 (⟨t.val * 5000 + p.val, hr⟩ : Fin 100000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have r1 : ∀ k : Fin 64, iblk0 V c 1 t (ix2 k q) = V c main_arg3 (ix2 k q) := fun k => by
    show V c main_arg3 (((cfg0.win 1).blk t).view.emb (ix2 k q)) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 128 + 1 * q.val = q.val; omega
  have r2 : iblk0 V c 2 t (ix2 p (0 : Fin 1)) = V c main_v15 (ix2 (⟨t.val * 5000 + p.val, hr⟩ : Fin 100000) (0 : Fin 1)) := by
    show V c main_v15 (((cfg0.win 2).blk t).view.emb (ix2 p (0 : Fin 1))) = _
    refine congrArg (V c main_v15) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  rw [r2, hemb, Finset.sum_congr rfl fun k _ => by rw [r0 k, r1 k]]
  rfl

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every row lies in the block of the point `row / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by show (i 0).val / 5000 < 20; omega
  refine ⟨⟨(i 0).val / 5000, hN⟩, flush0_3 _, ?_⟩
  rw [mem_blk]
  obtain ⟨eo0, eo1⟩ := out_idx_facts ⟨(i 0).val / 5000, hN⟩
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [eo0]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    rw [eo1]; omega

/-- The output array after the stage is `Spec.linScale` of the features, the weights and the per-row factors. -/
theorem final (c : Dev nD) :
    (dat0 (F := Ideal) V c).arrAt 3 cfg0.N
      = Cert.Spec.linScale (V c main_arg0) (V c main_arg3) (V c main_v15) :=
  (dat0 (F := Ideal) V c).arrAt_eq_of_cover 3 (G V c) (fun t _ => flushed_eq V c t) cover

end Cert.KernelIdeal.Region0

end
-- ==== Proof.Region2.lean ====
/-
  Stage 3 of the graph convolution, the second layer's normalisation, rectifier and linear map: every block of 5000
  rows of the output is lrelu (h · scale + shift) of the same rows of the features, multiplied by the whole weight matrix,
  each row scaled by its node's factor; the 20 blocks tile the 100000 rows, so the whole output array is `Spec.bnLin`
  of the five arrays the stage reads.
-/
import proofs.«160274_j87952340288037_2_alg».proof.Proof.Gen.KernelIdeal.Frame
import proofs.«160274_j87952340288037_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Two broadcasts read at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product read at an entry -/

/-- The left operand's row coordinate is the output's row. -/
theorem dot_lhs_row (i : S5000x128.Idx) (κ : dot_S5000x128_S128x128_S5000x128_1_0_0_1_n_n.contr.Idx) : (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand's column coordinate is the output's column. -/
theorem dot_rhs_col (i : S5000x128.Idx) (κ : dot_S5000x128_S128x128_S5000x128_1_0_0_1_n_n.contr.Idx) : (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated into the zero splat, at entry `(p, q)`: the sum over the contracted coordinate `k` of
    `x0(p,k) · x1(k,q)`. -/
theorem matmul_at {φ₁ φ₂ : FTy} (x0 : FVec Ideal S5000x128 φ₁) (x1 : FVec Ideal S128x128 φ₂) (p : Fin 5000) (q : Fin 128) :
    matmul dot_S5000x128_S128x128_S5000x128_1_0_0_1_n_n none x0 x1 (constant (F := Ideal) S5000x128 .f32 0x00000000#32) (ix2 p q)
      = ∑ k : Fin 128, x0 (ix2 p k) * x1 (ix2 k q) := by
  show FloatOps.matmul dot_S5000x128_S128x128_S5000x128_1_0_0_1_n_n none x0 x1 (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact dot_lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact dot_rhs_col _ _)
  rw [el, er]

/-! ## The payload at an entry -/

/-- One entry `(p, q)` of a block's payload: `(∑ₖ lrelu (x0(p,k) · x1(0,k) + x2(0,k)) · x3(k,q)) · x4(p,0)`. -/
theorem pay_apply (x0 : Vec Ideal S5000x128 .f32) (x1 : Vec Ideal S1x128 .f32) (x2 : Vec Ideal S1x128 .f32)
    (x3 : Vec Ideal S128x128 .f32) (x4 : Vec Ideal S5000x1 .f32) (p : Fin 5000) (q : Fin 128) :
    k2_pay1 x0 x1 x2 x3 x4 (ix2 p q)
      = (∑ k : Fin 128, Cert.Spec.lrelu (x0 (ix2 p k) * x1 (ix2 (0 : Fin 1) k) + x2 (ix2 (0 : Fin 1) k)) * x3 (ix2 k q))
          * x4 (ix2 p (0 : Fin 1)) := by
  unfold k2_pay1
  simp only [mulf_apply, shapeCast_self]
  rw [broadcastTo_a1_ab_apply, matmul_at]
  refine congrArg (fun s => s * x4 (ix2 p (0 : Fin 1))) (Finset.sum_congr rfl fun k _ => ?_)
  simp only [truncf_apply, select_apply, cmpf_apply, mulf_apply, addf_apply, broadcast_apply]
  rw [broadcastTo_1b_ab_apply, broadcastTo_1b_ab_apply]
  rfl

/-! ## From blocks to the array -/

theorem zero_offsets : (![0, 0] : Fin 2 → Nat) = fun _ => 0 := funext fun a => by fin_cases a <;> rfl

/-- The printed index maps over the grid: the row-blocked inputs sit at block row `t`, column block 0; the scale and
    shift rows and the weight matrix are always their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The output's blocks sit at block row `t`, column block 0. -/
theorem out_idx_facts : ∀ t : Fin cfg2.N,
    win2_5.index t (0 : Fin 2) = t.val ∧ win2_5.index t (1 : Fin 2) = 0 :=
  (by decide +kernel : ∀ t : Fin grid2.N, _)

/-- The stage's result as one function of the arrays it reads. -/
abbrev G (c : Dev nD) : Cert.Spec.Arr2 100000 128 :=
  Cert.Spec.bnLin (V c main_v28_0) (V c main_v41) (V c main_v44) (V c main_arg5) (V c main_v15)

/-- What point `t` writes back is block `t` of `G`. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S1x128) zero_offsets,
    View.ld_unit_zero (S := S128x128) zero_offsets, View.ld_unit_zero (S := S5000x1) zero_offsets]
  obtain ⟨e00, e01, e10, e11, e20, e21, e30, e31, e40, e41⟩ := idx_facts t
  obtain ⟨eo0, eo1⟩ := out_idx_facts t
  have ht : t.val < 20 := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 100000 := by have := p.isLt; omega
  show k2_pay1 (iblk2 V c 0 t) (iblk2 V c 1 t) (iblk2 V c 2 t) (iblk2 V c 3 t) (iblk2 V c 4 t) (ix2 p q)
    = G V c (((cfg2.win 5).blk t).view.emb (ix2 p q))
  refine (pay_apply (iblk2 V c 0 t) (iblk2 V c 1 t) (iblk2 V c 2 t) (iblk2 V c 3 t) (iblk2 V c 4 t) p q).trans ?_
  have hemb : ((cfg2.win 5).blk t).view.emb (ix2 p q) = ix2 (⟨t.val * 5000 + p.val, hr⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  have r0 : ∀ k : Fin 128, iblk2 V c 0 t (ix2 p k) = V c main_v28_0 (ix2 (⟨t.val * 5000 + p.val, hr⟩ : Fin 100000) k) := fun k => by
    show V c main_v28_0 (((cfg2.win 0).blk t).view.emb (ix2 p k)) = _
    refine congrArg (V c main_v28_0) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have r1 : ∀ k : Fin 128, iblk2 V c 1 t (ix2 (0 : Fin 1) k) = V c main_v41 (ix2 (0 : Fin 1) k) := fun k => by
    show V c main_v41 (((cfg2.win 1).blk t).view.emb (ix2 (0 : Fin 1) k)) = _
    refine congrArg (V c main_v41) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  have r2 : ∀ k : Fin 128, iblk2 V c 2 t (ix2 (0 : Fin 1) k) = V c main_v44 (ix2 (0 : Fin 1) k) := fun k => by
    show V c main_v44 (((cfg2.win 2).blk t).view.emb (ix2 (0 : Fin 1) k)) = _
    refine congrArg (V c main_v44) (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  have r3 : ∀ k : Fin 128, iblk2 V c 3 t (ix2 k q) = V c main_arg5 (ix2 k q) := fun k => by
    show V c main_arg5 (((cfg2.win 3).blk t).view.emb (ix2 k q)) = _
    refine congrArg (V c main_arg5) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have r4 : iblk2 V c 4 t (ix2 p (0 : Fin 1)) = V c main_v15 (ix2 (⟨t.val * 5000 + p.val, hr⟩ : Fin 100000) (0 : Fin 1)) := by
    show V c main_v15 (((cfg2.win 4).blk t).view.emb (ix2 p (0 : Fin 1))) = _
    refine congrArg (V c main_v15) (funext fun a => Fin.ext ?_)
    match a with
    | ⟨0, _⟩ => show win2_4.index t (0 : Fin 2) * 5000 + 1 * p.val = t.val * 5000 + p.val; omega
    | ⟨1, _⟩ => show win2_4.index t (1 : Fin 2) * 1 + 1 * 0 = 0; omega
  rw [r4, hemb, Finset.sum_congr rfl fun k _ => by rw [r0 k, r1 k, r2 k, r3 k]]
  rfl

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v45).slice (win2_5.rect t)).set ↔ _
  rw [View.set_slice_whole, Rect.mem_set_unit]
  exact Iff.rfl

/-- Every row lies in the block of the point `row / 5000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 5000 < cfg2.N := by show (i 0).val / 5000 < 20; omega
  refine ⟨⟨(i 0).val / 5000, hN⟩, flush2_5 _, ?_⟩
  rw [mem_blk]
  obtain ⟨eo0, eo1⟩ := out_idx_facts ⟨(i 0).val / 5000, hN⟩
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [eo0]; show (i 0).val / 5000 * 5000 ≤ (i 0).val ∧ (i 0).val < (i 0).val / 5000 * 5000 + 5000; omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    rw [eo1]; omega

/-- The output array after the stage is `Spec.bnLin` of the features, the scale and shift rows, the weights and the
    per-row factors. -/
theorem final (c : Dev nD) :
    (dat2 (F := Ideal) V c).arrAt 5 cfg2.N
      = Cert.Spec.bnLin (V c main_v28_0) (V c main_v41) (V c main_v44) (V c main_arg5) (V c main_v15) :=
  (dat2 (F := Ideal) V c).arrAt_eq_of_cover 5 (G V c) (fun t _ => flushed_eq V c t) cover

end Cert.KernelIdeal.Region2

end
-- ==== Proof.Region4.lean ====
/-
  Stage 5 of the graph convolution, the third layer's normalisation, rectifier and linear map: every block of 5000
  rows of the output is lrelu (h · scale + shift) of the same rows of the features, multiplied by the whole weight matrix,
  each row scaled by its node's factor; the 20 blocks tile the 100000 rows, so the whole output array is `Spec.bnLin`
  of the five arrays the stage reads.
-/
import proofs.«160274_j87952340288037_2_alg».proof.Proof.Gen.KernelIdeal.Frame
import proofs.«160274_j87952340288037_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Two broadcasts read at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product read at an entry -/

/-- The left operand's row coordinate is the output's row. -/
theorem dot_lhs_row (i : S5000x128.Idx) (κ : dot_S5000x128_S128x128_S5000x128_1_0_0_1_n_n.contr.Idx) : (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand's column coordinate is the output's column. -/
theorem dot_rhs_col (i : S5000x128.Idx) (κ : dot_S5000x128_S128x128_S5000x128_1_0_0_1_n_n.contr.Idx) : (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated into the zero splat, at entry `(p, q)`: the sum over the contracted coordinate `k` of
    `x0(p,k) · x1(k,q)`. -/
theorem matmul_at {φ₁ φ₂ : FTy} (x0 : FVec Ideal S5000x128 φ₁) (x1 : FVec Ideal S128x128 φ₂) (p : Fin 5000) (q : Fin 128) :
    matmul dot_S5000x128_S128x128_S5000x128_1_0_0_1_n_n none x0 x1 (constant (F := Ideal) S5000x128 .f32 0x00000000#32) (ix2 p q)
      = ∑ k : Fin 128, x0 (ix2 p k) * x1 (ix2 k q) := by
  show FloatOps.matmul dot_S5000x128_S128x128_S5000x128_1_0_0_1_n_n none x0 x1 (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact dot_lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact dot_rhs_col _ _)
  rw [el, er]

/-! ## The payload at an entry -/

/-- One entry `(p, q)` of a block's payload: `(∑ₖ lrelu (x0(p,k) · x1(0,k) + x2(0,k)) · x3(k,q)) · x4(p,0)`. -/
theorem pay_apply (x0 : Vec Ideal S5000x128 .f32) (x1 : Vec Ideal S1x128 .f32) (x2 : Vec Ideal S1x128 .f32)
    (x3 : Vec Ideal S128x128 .f32) (x4 : Vec Ideal S5000x1 .f32) (p : Fin 5000) (q : Fin 128) :
    k4_pay1 x0 x1 x2 x3 x4 (ix2 p q)
      = (∑ k : Fin 128, Cert.Spec.lrelu (x0 (ix2 p k) * x1 (ix2 (0 : Fin 1) k) + x2 (ix2 (0 : Fin 1) k)) * x3 (ix2 k q))
          * x4 (ix2 p (0 : Fin 1)) := by
  unfold k4_pay1
  simp only [mulf_apply, shapeCast_self]
  rw [broadcastTo_a1_ab_apply, matmul_at]
  refine congrArg (fun s => s * x4 (ix2 p (0 : Fin 1))) (Finset.sum_congr rfl fun k _ => ?_)
  simp only [truncf_apply, select_apply, cmpf_apply, mulf_apply, addf_apply, broadcast_apply]
  rw [broadcastTo_1b_ab_apply, broadcastTo_1b_ab_apply]
  rfl

/-! ## From blocks to the array -/

theorem zero_offsets : (![0, 0] : Fin 2 → Nat) = fun _ => 0 := funext fun a => by fin_cases a <;> rfl

/-- The printed index maps over the grid: the row-blocked inputs sit at block row `t`, column block 0; the scale and
    shift rows and the weight matrix are always their one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The output's blocks sit at block row `t`, column block 0. -/
theorem out_idx_facts : ∀ t : Fin cfg4.N,
    win4_5.index t (0 : Fin 2) = t.val ∧ win4_5.index t (1 : Fin 2) = 0 :=
  (by decide +kernel : ∀ t : Fin grid4.N, _)

/-- The stage's result as one function of the arrays it reads. -/
abbrev G (c : Dev nD) : Cert.Spec.Arr2 100000 128 :=
  Cert.Spec.bnLin (V c main_v57_0) (V c main_v70) (V c main_v73) (V c main_arg7) (V c main_v15)

/-- What point `t` writes back is block `t` of `G`. -/
theorem flushed_eq (c : Dev nD) (t : Fin cfg4.N) :
    (dat4 (F := Ideal) V c).flushed 5 t = ((cfg4.win 5).blk t).view.read (Elt Ideal) (G V c) := by
  show (cfg4.win 5).cut (grid4.coords t) ((dat4 (F := Ideal) V c).after 5 t) = _
  rw [after4_5]
  unfold out4_5
  rw [View.canon_unit_zero zero_offsets]
  simp only [View.ld_unit_zero (S := S5000x128) zero_offsets, View.ld_unit_zero (S := S1x128) zero_offsets,
    View.ld_unit_zero (S := S128x128) zero_offsets, View.ld_unit_zero (S := S5000x1) zero_offsets]
  obtain ⟨e00, e01, e10, e11, e20, e21, e30, e31, e40, e41⟩ := idx_facts t
  obtain ⟨eo0, eo1⟩ := out_idx_facts t
  have ht : t.val < 20 := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 100000 := by have := p.isLt; omega
  show k4_pay1 (iblk4 V c 0 t) (iblk4 V c 1 t) (iblk4 V c 2 t) (iblk4 V c 3 t) (iblk4 V c 4 t) (ix2 p q)
    = G V c (((cfg4.win 5).blk t).view.emb (ix2 p q))
  refine (pay_apply (iblk4 V c 0 t) (iblk4 V c 1 t) (iblk4 V c 2 t) (iblk4 V c 3 t) (iblk4 V c 4 t) p q).trans ?_
  have hemb : ((cfg4.win 5).blk t).view.emb (ix2 p q) = ix2 (⟨t.val * 5000 + p.val, hr⟩ : Fin 100000) q := by
    funext a; apply Fin.ext
    match a with
    | ⟨0, _⟩ => show win4_5.index t (0 : Fin 2) * 5000 + 1 * p.val = t.val * 5000 + p.val; omega
    | ⟨1, _⟩ => show win4_5.index t (1 : Fin 2) * 128 + 1 * q.val = q.val; omega
  have r0 : ∀ k : Fin 128, iblk4 V c 0 t (ix2 p k) = V c main_v57_0 (ix2 (⟨t.val * 5000 + p.val, hr⟩ : Fin 100000) k) := fun k => by
    show V c main_v57_0 (((cfg4.win 0).blk t).view.emb (ix2 p k)) = _
    refine congrArg (V c main_v57_0) (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  have r1 : ∀ k : Fin 128, iblk4 V c 1 t (ix2 (0 : Fin 1) k) = V c main_v70 (ix2 (0 : Fin 1) k) := fun k => by
    show V c main_v70 (((cfg4.win 1).blk t).view.emb (ix2 (0 : Fin 1) k)) = _
    refine congrArg (V c main_v70) (funext fun a => Fin.ext ?_)
    match a with
    | ⟨0, _⟩ => show win4_1.index t (0 : Fin 2) * 1 + 1 * 0 = 0; omega
    | ⟨1, _⟩ => show win4_1.index t (1 : Fin 2) * 128 + 1 * k.val = k.val; omega
  have r2 : ∀ k : Fin 128, iblk4 V c 2 t (ix2 (0 : Fin 1) k) = V c main_v73 (ix2 (0 : Fin 1) k) := fun k => by
    show V c main_v73 (((cfg4.win 2).blk t).view.emb (ix2 (0 : Fin 1) k)) = _
    refine congrArg (V c main_v73) (funext fun a => Fin.ext ?_)
    match a with
    | ⟨0, _⟩ => show win4_2.index t (0 : Fin 2) * 1 + 1 * 0 = 0; omega
    | ⟨1, _⟩ => show win4_2.index t (1 : Fin 2) * 128 + 1 * k.val = k.val; omega
  have r3 : ∀ k : Fin 128, iblk4 V c 3 t (ix2 k q) = V c main_arg7 (ix2 k q) := fun k => by
    show V c main_arg7 (((cfg4.win 3).blk t).view.emb (ix2 k q)) = _
    refine congrArg (V c main_arg7) (funext fun a => Fin.ext ?_)
    match a with
    | ⟨0, _⟩ => show win4_3.index t (0 : Fin 2) * 128 + 1 * k.val = k.val; omega
    | ⟨1, _⟩ => show win4_3.index t (1 : Fin 2) * 128 + 1 * q.val = q.val; omega
  have r4 : iblk4 V c 4 t (ix2 p (0 : Fin 1)) = V c main_v15 (ix2 (⟨t.val * 5000 + p.val, hr⟩ : Fin 100000) (0 : Fin 1)) := by
    show V c main_v15 (((cfg4.win 4).blk t).view.emb (ix2 p (0 : Fin 1))) = _
    refine congrArg (V c main_v15) (funext fun a => Fin.ext ?_)
    match a with
    | ⟨0, _⟩ => show win4_4.index t (0 : Fin 2) * 5000 + 1 * p.val = t.val * 5000 + p.val; omega
    | ⟨1, _⟩ => show win4_4.index t (1 : Fin 2) * 1 + 1 * 0 = 0; omega
  rw [r4, hemb, Finset.sum_congr rfl fun k _ => by rw [r0 k, r1 k, r2 k, r3 k]]
  rfl

/-- An index of the array is in point `t`'s block iff each coordinate is in the block's range on its axis. -/
theorem mem_blk (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v74).slice (win4_5.rect t)).set ↔ _
  rw [View.set_slice_whole, Rect.mem_set_unit]
  exact Iff.rfl

/-- Every row lies in the block of the point `row / 5000`. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : (i 0).val / 5000 < cfg4.N := by show (i 0).val / 5000 < 20; omega
  refine ⟨⟨(i 0).val / 5000, hN⟩, flush4_5 _, ?_⟩
  rw [mem_blk]
  obtain ⟨eo0, eo1⟩ := out_idx_facts ⟨(i 0).val / 5000, hN⟩
  intro a
  match a with
  | ⟨0, _⟩ =>
    show win4_5.index ⟨(i 0).val / 5000, hN⟩ (0 : Fin 2) * 5000 ≤ (i 0).val
      ∧ (i 0).val < win4_5.index ⟨(i 0).val / 5000, hN⟩ (0 : Fin 2) * 5000 + 5000
    rw [eo0]; show (i 0).val / 5000 * 5000 ≤ (i 0).val ∧ (i 0).val < (i 0).val / 5000 * 5000 + 5000; omega
  | ⟨1, _⟩ =>
    show win4_5.index ⟨(i 0).val / 5000, hN⟩ (1 : Fin 2) * 128 ≤ (i 1).val
      ∧ (i 1).val < win4_5.index ⟨(i 0).val / 5000, hN⟩ (1 : Fin 2) * 128 + 128
    rw [eo1]; omega

/-- The output array after the stage is `Spec.bnLin` of the features, the scale and shift rows, the weights and the
    per-row factors. -/
theorem final (c : Dev nD) :
    (dat4 (F := Ideal) V c).arrAt 5 cfg4.N
      = Cert.Spec.bnLin (V c main_v57_0) (V c main_v70) (V c main_v73) (V c main_arg7) (V c main_v15) :=
  (dat4 (F := Ideal) V c).arrAt_eq_of_cover 5 (G V c) (fun t _ => flushed_eq V c t) cover

end Cert.KernelIdeal.Region4

end
-- ==== Proof.Region5.lean ====
/-
  Stage 6 of the graph convolution, the last aggregation's epilogue: every block of 5000 rows of the output is
  lrelu (agg · d + b) of the same rows of the aggregate, the per-row factor and the bias row; the 20 blocks tile the
  100000 rows, so the whole output array is `Spec.postLrelu` of the three arrays the stage reads.
-/
import proofs.«160274_j87952340288037_2_alg».proof.Proof.Gen.KernelIdeal.Frame
import proofs.«160274_j87952340288037_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Two broadcasts read at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payload at an entry -/

/-- One entry `(p, q)` of a block's payload: `lrelu (x0(p,q) · x1(p,0) + x2(0,q))`. -/
theorem pay_apply (x0 : Vec Ideal S5000x128 .f32) (x1 : Vec Ideal S5000x1 .f32) (x2 : Vec Ideal S1x128 .f32)
    (p : Fin 5000) (q : Fin 128) :
    k5_pay1 x0 x1 x2 (ix2 p q)
      = Cert.Spec.lrelu (x0 (ix2 p q) * x1 (ix2 p (0 : Fin 1)) + x2 (ix2 (0 : Fin 1) q)) := by
  unfold k5_pay1
  simp only [select_apply, cmpf_apply, mulf_apply, addf_apply, broadcast_apply, shapeCast_self]
  rw [broadcastTo_a1_ab_apply, broadcastTo_1b_ab_apply]
  rfl

/-! ## From blocks to the array -/

theorem zero_offsets : (![0, 0] : Fin 2 → Nat) = fun _ => 0 := funext fun a => by fin_cases a <;> rfl

/-- The printed index maps over the grid: the row-blocked windows sit at block row `t`, column block 0; the bias row
    is always its one block. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The stage's result as one function of the arrays it reads. -/
abbrev G (c : Dev nD) : Cert.Spec.Arr2 100000 128 :=
  Cert.Spec.postLrelu (V c main_v84) (V c main_v15) (V c main_v85)

/-- What point `t` writes back is block `t` of `G`. -/
theorem flushed_eq (c : Dev nD) (t : Fin cfg5.N) :
    (dat5 (F := Ideal) V c).flushed 3 t = ((cfg5.win 3).blk t).view.read (Elt Ideal) (G V c) := by
  show (cfg5.win 3).cut (grid5.coords t) ((dat5 (F := Ideal) V c).after 3 t) = _
  rw [after5_3]
  unfold out5_3
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31⟩ := idx_facts t
  have ht : t.val < 20 := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 100000 := by have := p.isLt; omega
  show k5_pay1 (iblk5 V c 0 t) (iblk5 V c 1 t) (iblk5 V c 2 t) (ix2 p q)
    = G V c (((cfg5.win 3).blk t).view.emb (ix2 p q))
  refine (pay_apply (iblk5 V c 0 t) (iblk5 V c 1 t) (iblk5 V c 2 t) p q).trans ?_
  have hemb : ((cfg5.win 3).blk t).view.emb (ix2 p q) = ix2 (⟨t.val * 5000 + p.val, hr⟩ : Fin 100000) q := by
    funext a; apply Fin.ext
    match a with
    | ⟨0, _⟩ => show win5_3.index t (0 : Fin 2) * 5000 + 1 * p.val = t.val * 5000 + p.val; omega
    | ⟨1, _⟩ => show win5_3.index t (1 : Fin 2) * 128 + 1 * q.val = q.val; omega
  have r0 : iblk5 V c 0 t (ix2 p q) = V c main_v84 (ix2 (⟨t.val * 5000 + p.val, hr⟩ : Fin 100000) q) := by
    show V c main_v84 (((cfg5.win 0).blk t).view.emb (ix2 p q)) = _
    refine congrArg (V c main_v84) (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * q.val = q.val; omega
  have r1 : iblk5 V c 1 t (ix2 p (0 : Fin 1)) = V c main_v15 (ix2 (⟨t.val * 5000 + p.val, hr⟩ : Fin 100000) (0 : Fin 1)) := by
    show V c main_v15 (((cfg5.win 1).blk t).view.emb (ix2 p (0 : Fin 1))) = _
    refine congrArg (V c main_v15) (funext fun a => Fin.ext ?_)
    match a with
    | ⟨0, _⟩ => show win5_1.index t (0 : Fin 2) * 5000 + 1 * p.val = t.val * 5000 + p.val; omega
    | ⟨1, _⟩ => show win5_1.index t (1 : Fin 2) * 1 + 1 * 0 = 0; omega
  have r2 : iblk5 V c 2 t (ix2 (0 : Fin 1) q) = V c main_v85 (ix2 (0 : Fin 1) q) := by
    show V c main_v85 (((cfg5.win 2).blk t).view.emb (ix2 (0 : Fin 1) q)) = _
    refine congrArg (V c main_v85) (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  rw [r0, r1, r2, hemb]
  rfl

/-- An index of the array is in point `t`'s block iff each coordinate is in the block's range on its axis. -/
theorem mem_blk (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v86).slice (win5_3.rect t)).set ↔ _
  rw [View.set_slice_whole, Rect.mem_set_unit]
  exact Iff.rfl

/-- Every row lies in the block of the point `row / 5000`. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : (i 0).val / 5000 < cfg5.N := by show (i 0).val / 5000 < 20; omega
  refine ⟨⟨(i 0).val / 5000, hN⟩, flush5_3 _, ?_⟩
  rw [mem_blk]
  obtain ⟨-, -, -, -, -, -, e30, e31⟩ := idx_facts ⟨(i 0).val / 5000, hN⟩
  intro a
  match a with
  | ⟨0, _⟩ =>
    show win5_3.index ⟨(i 0).val / 5000, hN⟩ (0 : Fin 2) * 5000 ≤ (i 0).val
      ∧ (i 0).val < win5_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, hN⟩ (1 : Fin 2) * 128 ≤ (i 1).val
      ∧ (i 1).val < win5_3.index ⟨(i 0).val / 5000, hN⟩ (1 : Fin 2) * 128 + 128
    rw [e31]; omega

/-- The output array after the stage is `Spec.postLrelu` of the aggregate, the per-row factors and the bias row. -/
theorem final (c : Dev nD) :
    (dat5 (F := Ideal) V c).arrAt 3 cfg5.N
      = Cert.Spec.postLrelu (V c main_v84) (V c main_v15) (V c main_v85) :=
  (dat5 (F := Ideal) V c).arrAt_eq_of_cover 3 (G V c) (fun t _ => flushed_eq V c t) cover

end Cert.KernelIdeal.Region5

end
-- ==== Proof.Region6.lean ====
/-
  Stage 7 of the graph convolution, the readout: one grid point whose blocks are the whole arrays; the output is the
  product of the pooled features with the readout weights plus the bias row, so the whole output array is
  `Spec.linBias` of the three arrays the stage reads.
-/
import proofs.«160274_j87952340288037_2_alg».proof.Proof.Gen.KernelIdeal.Frame
import proofs.«160274_j87952340288037_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The matrix product read at an entry -/

/-- The left operand's row coordinate is the output's row. -/
theorem dot_lhs_row (i : S128x64.Idx) (κ : dot_S128x128_S128x64_S128x64_1_0_0_1_n_n.contr.Idx) : (dot_S128x128_S128x64_S128x64_1_0_0_1_n_n.lhsIdx i κ 0).val = (i 0).val := by
  unfold DotDims.lhsIdx
  rw [dif_neg (show ¬(0 : Fin S128x128.rank) ∈ dot_S128x128_S128x64_S128x64_1_0_0_1_n_n.lhsBatch by decide), dif_pos (show (0 : Fin S128x128.rank) ∈ dot_S128x128_S128x64_S128x64_1_0_0_1_n_n.lhsNonContracting by decide)]
  rfl

/-- The right operand's column coordinate is the output's column. -/
theorem dot_rhs_col (i : S128x64.Idx) (κ : dot_S128x128_S128x64_S128x64_1_0_0_1_n_n.contr.Idx) : (dot_S128x128_S128x64_S128x64_1_0_0_1_n_n.rhsIdx i κ 1).val = (i 1).val := by
  unfold DotDims.rhsIdx
  rw [dif_neg (show ¬(1 : Fin S128x64.rank) ∈ dot_S128x128_S128x64_S128x64_1_0_0_1_n_n.rhsBatch by decide), dif_pos (show (1 : Fin S128x64.rank) ∈ dot_S128x128_S128x64_S128x64_1_0_0_1_n_n.rhsNonContracting by decide)]
  rfl

/-- The product accumulated into the zero splat, at entry `(p, q)`: the sum over the contracted coordinate `k` of
    `x0(p,k) · x1(k,q)`. -/
theorem matmul_at {φ₁ φ₂ : FTy} (x0 : FVec Ideal S128x128 φ₁) (x1 : FVec Ideal S128x64 φ₂) (p : Fin 128) (q : Fin 64) :
    matmul dot_S128x128_S128x64_S128x64_1_0_0_1_n_n none x0 x1 (constant (F := Ideal) S128x64 .f32 0x00000000#32) (ix2 p q)
      = ∑ k : Fin 128, x0 (ix2 p k) * x1 (ix2 k q) := by
  show FloatOps.matmul dot_S128x128_S128x64_S128x64_1_0_0_1_n_n none x0 x1 (constant (F := Ideal) S128x64 .f32 0x00000000#32) (ix2 p q) = _
  rw [Ideal.matmul_constant_zero_apply, ← Equiv.sum_comp (contrEquiv1 dot_S128x128_S128x64_S128x64_1_0_0_1_n_n 128 rfl rfl).symm]
  refine Finset.sum_congr rfl fun k _ => ?_
  have hk := contrEquiv1_symm_val dot_S128x128_S128x64_S128x64_1_0_0_1_n_n 128 rfl rfl k
  have el : dot_S128x128_S128x64_S128x64_1_0_0_1_n_n.lhsIdx (ix2 p q) ((contrEquiv1 dot_S128x128_S128x64_S128x64_1_0_0_1_n_n 128 rfl rfl).symm k) = ix2 p k :=
    funext fun a => Fin.ext (by
      match a with
      | ⟨0, _⟩ => exact dot_lhs_row _ _
      | ⟨1, _⟩ => exact (dot_S128x128_S128x64_S128x64_1_0_0_1_n_n.lhsIdx_val_of_single rfl _ _).trans hk)
  have er : dot_S128x128_S128x64_S128x64_1_0_0_1_n_n.rhsIdx (ix2 p q) ((contrEquiv1 dot_S128x128_S128x64_S128x64_1_0_0_1_n_n 128 rfl rfl).symm k) = ix2 k q :=
    funext fun a => Fin.ext (by
      match a with
      | ⟨0, _⟩ => exact (dot_S128x128_S128x64_S128x64_1_0_0_1_n_n.rhsIdx_val_of_single rfl _ _).trans hk
      | ⟨1, _⟩ => exact dot_rhs_col _ _)
  rw [el, er]

/-! ## The payload at an entry -/

/-- One entry `(p, q)` of the payload: `(∑ₖ x0(p,k) · x1(k,q)) + x2(0,q)`. -/
theorem pay_apply (x0 : Vec Ideal S128x128 .f32) (x1 : Vec Ideal S128x64 .f32) (x2 : Vec Ideal S1x64 .f32)
    (p : Fin 128) (q : Fin 64) :
    k6_pay1 x0 x1 x2 (ix2 p q)
      = (∑ k : Fin 128, x0 (ix2 p k) * x1 (ix2 k q)) + x2 (ix2 (0 : Fin 1) q) := by
  unfold k6_pay1
  simp only [addf_apply, shapeCast_self]
  rw [broadcastTo_1b_ab_apply, matmul_at]
  rfl

/-! ## From the one block to the array -/

theorem zero_offsets : (![0, 0] : Fin 2 → Nat) = fun _ => 0 := funext fun a => by fin_cases a <;> rfl

/-- The printed index maps over the one-point grid: every input window is its whole array. -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- So is the output window. -/
theorem out_idx_facts : ∀ t : Fin cfg6.N,
    win6_3.index t (0 : Fin 2) = 0 ∧ win6_3.index t (1 : Fin 2) = 0 :=
  (by decide +kernel : ∀ t : Fin grid6.N, _)

/-- The stage's result as one function of the arrays it reads. -/
abbrev G (c : Dev nD) : Cert.Spec.Arr2 128 64 :=
  Cert.Spec.linBias (V c main_v98) (V c main_arg13) (V c main_v99)

/-- What the point writes back is `G` read through the one block. -/
theorem flushed_eq (c : Dev nD) (t : Fin cfg6.N) :
    (dat6 (F := Ideal) V c).flushed 3 t = ((cfg6.win 3).blk t).view.read (Elt Ideal) (G V c) := by
  show (cfg6.win 3).cut (grid6.coords t) ((dat6 (F := Ideal) V c).after 3 t) = _
  rw [after6_3]
  unfold out6_3
  rw [View.canon_unit_zero zero_offsets]
  simp only [View.ld_unit_zero (S := S128x128) zero_offsets, View.ld_unit_zero (S := S128x64) zero_offsets,
    View.ld_unit_zero (S := S1x64) zero_offsets]
  obtain ⟨e00, e01, e10, e11, e20, e21⟩ := idx_facts t
  obtain ⟨eo0, eo1⟩ := out_idx_facts t
  refine funext fun (j : S128x64.Idx) => ?_
  obtain ⟨p, q, rfl⟩ : ∃ (p : Fin 128) (q : Fin 64), j = ix2 p q := ⟨j 0, j 1, eq_ix2 j⟩
  show k6_pay1 (iblk6 V c 0 t) (iblk6 V c 1 t) (iblk6 V c 2 t) (ix2 p q)
    = G V c (((cfg6.win 3).blk t).view.emb (ix2 p q))
  refine (pay_apply (iblk6 V c 0 t) (iblk6 V c 1 t) (iblk6 V c 2 t) p q).trans ?_
  have hemb : ((cfg6.win 3).blk t).view.emb (ix2 p q) = ix2 p q := by
    funext a; apply Fin.ext
    match a with
    | ⟨0, _⟩ => show win6_3.index t (0 : Fin 2) * 128 + 1 * p.val = p.val; omega
    | ⟨1, _⟩ => show win6_3.index t (1 : Fin 2) * 64 + 1 * q.val = q.val; omega
  have r0 : ∀ k : Fin 128, iblk6 V c 0 t (ix2 p k) = V c main_v98 (ix2 p k) := fun k => by
    show V c main_v98 (((cfg6.win 0).blk t).view.emb (ix2 p k)) = _
    refine congrArg (V c main_v98) (funext fun a => Fin.ext ?_)
    match a with
    | ⟨0, _⟩ => show win6_0.index t (0 : Fin 2) * 128 + 1 * p.val = p.val; omega
    | ⟨1, _⟩ => show win6_0.index t (1 : Fin 2) * 128 + 1 * k.val = k.val; omega
  have r1 : ∀ k : Fin 128, iblk6 V c 1 t (ix2 k q) = V c main_arg13 (ix2 k q) := fun k => by
    show V c main_arg13 (((cfg6.win 1).blk t).view.emb (ix2 k q)) = _
    refine congrArg (V c main_arg13) (funext fun a => Fin.ext ?_)
    match a with
    | ⟨0, _⟩ => show win6_1.index t (0 : Fin 2) * 128 + 1 * k.val = k.val; omega
    | ⟨1, _⟩ => show win6_1.index t (1 : Fin 2) * 64 + 1 * q.val = q.val; omega
  have r2 : iblk6 V c 2 t (ix2 (0 : Fin 1) q) = V c main_v99 (ix2 (0 : Fin 1) q) := by
    show V c main_v99 (((cfg6.win 2).blk t).view.emb (ix2 (0 : Fin 1) q)) = _
    refine congrArg (V c main_v99) (funext fun a => Fin.ext ?_)
    match a with
    | ⟨0, _⟩ => show win6_2.index t (0 : Fin 2) * 1 + 1 * 0 = 0; omega
    | ⟨1, _⟩ => show win6_2.index t (1 : Fin 2) * 64 + 1 * q.val = q.val; omega
  rw [r2, hemb, Finset.sum_congr rfl fun k _ => by rw [r0 k, r1 k]]
  rfl

/-- An index of the array is in the point's block iff each coordinate is in the block's range on its axis. -/
theorem mem_blk (t : Fin cfg6.N) (i : S128x64.Idx) :
    i ∈ ((cfg6.win 3).blk t).view.set ↔ ∀ a : Fin 2, win6_3.index t a * S128x64.size a ≤ (i a).val
      ∧ (i a).val < win6_3.index t a * S128x64.size a + S128x64.size a := by
  show i ∈ ((View.whole main_v100).slice (win6_3.rect t)).set ↔ _
  rw [View.set_slice_whole, Rect.mem_set_unit]
  exact Iff.rfl

/-- The one block is the whole array. -/
theorem cover (i : S128x64.Idx) :
    ∃ t : Fin cfg6.N, (cfg6.win 3).flush t = true ∧ i ∈ ((cfg6.win 3).blk t).view.set := by
  have hi0 : (i 0).val < 128 := (i 0).isLt
  have hi1 : (i 1).val < 64 := (i 1).isLt
  have hN : 0 < cfg6.N := by show 0 < 1; omega
  refine ⟨⟨0, hN⟩, flush6_3 _, ?_⟩
  rw [mem_blk]
  obtain ⟨eo0, eo1⟩ := out_idx_facts ⟨0, hN⟩
  intro a
  match a with
  | ⟨0, _⟩ =>
    show win6_3.index ⟨0, hN⟩ (0 : Fin 2) * 128 ≤ (i 0).val ∧ (i 0).val < win6_3.index ⟨0, hN⟩ (0 : Fin 2) * 128 + 128
    rw [eo0]; omega
  | ⟨1, _⟩ =>
    show win6_3.index ⟨0, hN⟩ (1 : Fin 2) * 64 ≤ (i 1).val ∧ (i 1).val < win6_3.index ⟨0, hN⟩ (1 : Fin 2) * 64 + 64
    rw [eo1]; omega

/-- The output array after the stage is `Spec.linBias` of the pooled features, the readout weights and the bias row. -/
theorem final (c : Dev nD) :
    (dat6 (F := Ideal) V c).arrAt 3 cfg6.N
      = Cert.Spec.linBias (V c main_v98) (V c main_arg13) (V c main_v99) :=
  (dat6 (F := Ideal) V c).arrAt_eq_of_cover 3 (G V c) (fun t _ => flushed_eq V c t) cover

end Cert.KernelIdeal.Region6

end
-- ==== Proof.Region1.lean ====
/-
  The statistics stage of the first layer: per grid point t of 20 the body forms h = agg · d + b on a block of 5000 rows
  (agg a [100000, 128] array, d a column [100000, 1] of per-row factors, b a row [1, 128] of biases), stores that block,
  and adds the block's column sums of h and of h · h into two [1, 128] rows that stay resident over the whole grid; at
  point 0 the two rows are first set to zero.

  What is proved, on the extended reals, for the arrays as the region finds them:
    * the first output ends holding h, entry by entry (row n is written by point n / 5000);
    * the second ends holding, per feature j, the sum over all 100000 rows of h(n, j);
    * the third ends holding, per feature j, the sum over all 100000 rows of h(n, j) · h(n, j).

  The road: each control case's stored values are the payload functions of the loaded blocks; the payloads read at an
  index (a column broadcast, a row broadcast, a lane sum over the 5000 rows of a block from the zero word); a block's
  row r at point t is row 5000 · t + r of the array; the invariant "after point n the two rows hold the sums over the
  rows below 5000 · (n + 1)" by induction on n; splitting the 100000 rows into 20 stretches of 5000 is
  Finset.sum_range_add, and + on the extended reals is commutative and associative — nothing else is used.
-/
import proofs.«160274_j87952340288037_2_alg».proof.Proof.Gen.KernelIdeal.Frame
import proofs.«160274_j87952340288037_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

/-! ## What each control case leaves in each output's staging buffer -/

section Pieces
variable {F : FTy → Type} [FloatOps F]

theorem hz : (![0, 0] : Fin 2 → Nat) = fun _ => 0 := funext fun a => by fin_cases a <;> rfl

/-- At a later point the stored block is agg · d + b of the loaded blocks. -/
theorem out_B_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_3 c i a1 h1 a2 h2 a3 h3 a4 h4 a5 h5 a6 h6 hc x0 x1 x2 xo4 xo5 = k1_pay3 x0 x1 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S1x128) hz]

/-- At a later point the row of sums is the row found there plus the block's column sums. -/
theorem out_B_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_4 c i a1 h1 a2 h2 a3 h3 a4 h4 a5 h5 a6 h6 hc x0 x1 x2 xo4 xo5 = k1_pay4 x0 x1 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S1x128) hz]

/-- At a later point the row of sums of squares is the row found there plus the block's column sums of squares. -/
theorem out_B_5 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_5 c i a1 h1 a2 h2 a3 h3 a4 h4 a5 h5 a6 h6 hc x0 x1 x2 xo4 xo5 = k1_pay5 x0 x1 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S1x128) hz]

/-- At the first point the stored block is agg · d + b of the loaded blocks. -/
theorem out_A_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond1_0 i)
    (x0 : Vec F S5000x128 .f32) (x1 : Vec F S5000x1 .f32) (x2 : Vec F S1x128 .f32) :
    out1_A_3 c i a1 h1 a2 h2 a3 h3 a4 h4 a5 h5 a6 h6 hc x0 x1 x2 = k1_pay3 x0 x1 x2 := by
  unfold out1_A_3
  rw [View.read_writes_eq_canon _ _ _ (cover1_A_3 c i a1 h1 a2 h2 a3 h3 a4 h4 a5 h5 a6 h6 hc x0 x1 x2)]
  unfold kernelRun1_A
  dsimp only
  rw [View.canon_unit_zero hz]
  simp only [View.readAt_eq_ld, h1.read_unread, h2.read_unread, h3.read_unread,
    View.ld_unit_zero (S := S5000x128) hz, View.ld_unit_zero (S := S5000x1) hz, View.ld_unit_zero (S := S1x128) hz]

/-- At the first point the row of sums is the zero row just stored plus the block's column sums. -/
theorem out_A_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond1_0 i)
    (x0 : Vec F S5000x128 .f32) (x1 : Vec F S5000x1 .f32) (x2 : Vec F S1x128 .f32) :
    out1_A_4 c i a1 h1 a2 h2 a3 h3 a4 h4 a5 h5 a6 h6 hc x0 x1 x2 = k1_pay4 x0 x1 x2 k1_pay1 := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

/-- At the first point the row of sums of squares is the zero row just stored plus the block's column sums of squares. -/
theorem out_A_5 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond1_0 i)
    (x0 : Vec F S5000x128 .f32) (x1 : Vec F S5000x1 .f32) (x2 : Vec F S1x128 .f32) :
    out1_A_5 c i a1 h1 a2 h2 a3 h3 a4 h4 a5 h5 a6 h6 hc x0 x1 x2 = k1_pay5 x0 x1 x2 k1_pay2 := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

end Pieces

/-! ## The payloads at an index, on the extended reals -/

section Payloads

/-- A column [a, 1] broadcast along the lanes to [a, b] reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored block at (r, j): agg(r, j) · d(r, 0) + b(0, j). -/
theorem pay3_apply (x0 : Vec Ideal S5000x128 .f32) (x1 : Vec Ideal S5000x1 .f32) (x2 : Vec Ideal S1x128 .f32)
    (r : Fin 5000) (j : Fin 128) :
    k1_pay3 (F := Ideal) x0 x1 x2 (ix2 r j) = x0 (ix2 r j) * x1 (ix2 r (0 : Fin 1)) + x2 (ix2 (0 : Fin 1) j) := by
  unfold k1_pay3
  simp only [shapeCast_self]
  show x0 (ix2 r j) * broadcastTo S5000x128 x1 broadcasts_S5000x1_S5000x128 (ix2 r j)
      + broadcastTo S5000x128 x2 broadcasts_S1x128_S5000x128 (ix2 r j) = _
  rw [broadcastTo_a1_ab_apply x1 broadcasts_S5000x1_S5000x128 r j,
    broadcastTo_1b_ab_apply x2 broadcasts_S1x128_S5000x128 r j]

/-- The zero rows at any index are 0. -/
theorem pay1_apply (u : Fin 1) (j : Fin 128) : k1_pay1 (F := Ideal) (ix2 u j) = 0 := by
  unfold k1_pay1
  exact Ideal.ofBits_zero_f32

theorem pay2_apply (u : Fin 1) (j : Fin 128) : k1_pay2 (F := Ideal) (ix2 u j) = 0 := by
  unfold k1_pay2
  exact Ideal.ofBits_zero_f32

/-- A lane sum over the 5000 rows of a block, from the zero word, cast to one row: at (0, j) the sum of column j. -/
theorem colsum_apply (src : FVec Ideal S5000x128 .f32) (hφ : FKind.Formats .f32)
    (hacc : (0x00000000#32 : BitVec 32) = FKind.add.neutral .f32 hφ) (j : Fin 128) :
    shapeCast S1x128 (multiReduction (F := Ideal) .add [0] S128 src 0x00000000#32 reduces_S5000x128_S128 hφ hacc)
        shapeCasts_S128_S1x128 (ix2 (0 : Fin 1) j)
      = ∑ r : Fin 5000, src (ix2 r j) := by
  refine (shapeCast_a_1a_apply _ shapeCasts_S128_S1x128 (0 : Fin 1) j).trans ?_
  refine (Ideal.multiReduction_add_single src 0x00000000#32 reduces_S5000x128_S128 hφ hacc (ix1 j)).trans ?_
  show ∑ r : Fin 5000, src (reduces_S5000x128_S128.lift (ix1 j) r) = ∑ r : Fin 5000, src (ix2 r j)
  refine Finset.sum_congr rfl fun r _ => congrArg src ?_
  funext a
  match a with
  | ⟨0, _⟩ => rfl
  | ⟨1, _⟩ => rfl

/-- The row of sums at (0, j): the row found there plus the block's column sum. -/
theorem pay4_apply (x0 : Vec Ideal S5000x128 .f32) (x1 : Vec Ideal S5000x1 .f32) (x2 : Vec Ideal S1x128 .f32)
    (acc : Vec Ideal S1x128 .f32) (j : Fin 128) :
    k1_pay4 (F := Ideal) x0 x1 x2 acc (ix2 (0 : Fin 1) j)
      = acc (ix2 (0 : Fin 1) j) + ∑ r : Fin 5000, k1_pay3 (F := Ideal) x0 x1 x2 (ix2 r j) := by
  unfold k1_pay4
  simp only [shapeCast_self]
  exact congrArg (acc (ix2 (0 : Fin 1) j) + ·) (colsum_apply (k1_pay3 (F := Ideal) x0 x1 x2) _ _ j)

/-- The row of sums of squares at (0, j): the row found there plus the block's column sum of squares. -/
theorem pay5_apply (x0 : Vec Ideal S5000x128 .f32) (x1 : Vec Ideal S5000x1 .f32) (x2 : Vec Ideal S1x128 .f32)
    (acc : Vec Ideal S1x128 .f32) (j : Fin 128) :
    k1_pay5 (F := Ideal) x0 x1 x2 acc (ix2 (0 : Fin 1) j)
      = acc (ix2 (0 : Fin 1) j)
        + ∑ r : Fin 5000, k1_pay3 (F := Ideal) x0 x1 x2 (ix2 r j) * k1_pay3 (F := Ideal) x0 x1 x2 (ix2 r j) := by
  unfold k1_pay5
  simp only [shapeCast_self]
  exact congrArg (acc (ix2 (0 : Fin 1) j) + ·)
    (colsum_apply (mulf (k1_pay3 (F := Ideal) x0 x1 x2) (k1_pay3 (F := Ideal) x0 x1 x2)) _ _ j)

end Payloads

/-! ## The input blocks, read at an index -/

section Blocks
variable {F : FTy → Type} [FloatOps F]
variable (V : (c : Dev nD) → (b : Ref sig .tc) → Buf (Elt F) ((c : Thread nD τ).loc b))

/-- The printed index maps, decided over the grid: the three row-blocked windows sit at block t, the rows whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem N_eq : cfg1.N = 20 := N_1

/-- Row r of block t is row 5000·t + r of the array. -/
abbrev row (t : Fin cfg1.N) (r : Fin 5000) : Fin 100000 :=
  ⟨5000 * t.val + r.val, by have := lt_of_lt_of_eq t.isLt N_eq; have := r.isLt; omega⟩

theorem iblk_agg (c : Dev nD) (t : Fin cfg1.N) (r : Fin 5000) (j : Fin 128) :
    (iblk1 V c 0 t : Vec F S5000x128 .f32) (ix2 r j) = (V c main_v26 : S100000x128.Idx → Elt F .f32) (ix2 (row t r) j) := by
  obtain ⟨e0, e1, -⟩ := idx_facts t
  unfold iblk1
  rw [View.read_apply]
  show V c main_v26 _ = V c main_v26 _
  congr 1
  funext a
  apply Fin.ext
  match a with
  | ⟨0, _⟩ => show win1_0.index t 0 * 5000 + 1 * r.val = 5000 * t.val + r.val; rw [e0]; omega
  | ⟨1, _⟩ => show win1_0.index t 1 * 128 + 1 * j.val = j.val; rw [e1]; omega

theorem iblk_d (c : Dev nD) (t : Fin cfg1.N) (r : Fin 5000) (u : Fin 1) :
    (iblk1 V c 1 t : Vec F S5000x1 .f32) (ix2 r u) = (V c main_v15 : S100000x1.Idx → Elt F .f32) (ix2 (row t r) (0 : Fin 1)) := by
  obtain ⟨-, -, e0, e1, -⟩ := idx_facts t
  unfold iblk1
  rw [View.read_apply]
  show V c main_v15 _ = V c main_v15 _
  congr 1
  funext a
  apply Fin.ext
  match a with
  | ⟨0, _⟩ => show win1_1.index t 0 * 5000 + 1 * r.val = 5000 * t.val + r.val; rw [e0]; omega
  | ⟨1, _⟩ => show win1_1.index t 1 * 1 + 1 * u.val = 0; rw [e1]; omega

theorem iblk_b (c : Dev nD) (t : Fin cfg1.N) (u : Fin 1) (j : Fin 128) :
    (iblk1 V c 2 t : Vec F S1x128 .f32) (ix2 u j) = (V c main_v27 : S1x128.Idx → Elt F .f32) (ix2 (0 : Fin 1) j) := by
  obtain ⟨-, -, -, -, e0, e1, -⟩ := idx_facts t
  unfold iblk1
  rw [View.read_apply]
  show V c main_v27 _ = V c main_v27 _
  congr 1
  funext a
  apply Fin.ext
  match a with
  | ⟨0, _⟩ => show win1_2.index t 0 * 1 + 1 * u.val = 0; rw [e0]; omega
  | ⟨1, _⟩ => show win1_2.index t 1 * 128 + 1 * j.val = j.val; rw [e1]; omega

end Blocks

/-! ## The three outputs point by point, then as whole arrays -/

section Sums

/-- A function of the rows extended by 0 to every natural number, so that partial sums range over naturals. -/
def ext (f : Fin 100000 → EReal) (n : ℕ) : EReal := if h : n < 100000 then f ⟨n, h⟩ else 0

theorem ext_row (f : Fin 100000 → EReal) (t : Fin cfg1.N) (r : Fin 5000) :
    ext f (5000 * t.val + r.val) = f (row t r) := dif_pos (row t r).isLt

/-- A block's column sum is the sum over the block's stretch of rows. -/
theorem sum_block (f : Fin 100000 → EReal) (t : Fin cfg1.N) :
    ∑ r : Fin 5000, f (row t r) = ∑ r ∈ Finset.range 5000, ext f (5000 * t.val + r) := by
  rw [Finset.sum_range]
  exact Finset.sum_congr rfl fun r _ => (ext_row f t r).symm

/-- All 100000 rows. -/
theorem sum_all (f : Fin 100000 → EReal) : ∑ m ∈ Finset.range 100000, ext f m = ∑ n : Fin 100000, f n := by
  rw [Finset.sum_range]
  exact Finset.sum_congr rfl fun n _ => dif_pos n.isLt

/-- One more block of 5000 rows. -/
theorem sum_step (g : ℕ → EReal) (n : ℕ) :
    ∑ m ∈ Finset.range (5000 * (n + 1)), g m
      = ∑ m ∈ Finset.range (5000 * n), g m + ∑ r ∈ Finset.range 5000, g (5000 * n + r) := by
  rw [show 5000 * (n + 1) = 5000 * n + 5000 from by omega, Finset.sum_range_add]

/-- The first block of 5000 rows. -/
theorem sum_first (g : ℕ → EReal) :
    ∑ m ∈ Finset.range (5000 * (0 + 1)), g m = 0 + ∑ r ∈ Finset.range 5000, g (5000 * 0 + r) := by
  rw [sum_step g 0, Nat.mul_zero, Finset.range_zero, Finset.sum_empty]

end Sums

section Outputs
variable (V : (c : Dev nD) → (b : Ref sig .tc) → Buf (Elt Ideal) ((c : Thread nD τ).loc b))

/-- h = agg · d + b at row n, feature j, of the arrays as the region finds them. -/
abbrev hAt (c : Dev nD) (n : Fin 100000) (j : Fin 128) : EReal :=
  Cert.Spec.postHAt (V c main_v26) (V c main_v15) (V c main_v27) n j

/-- The stored block of point t at (r, j) is h at row 5000·t + r. -/
theorem pay3_blk (c : Dev nD) (t : Fin cfg1.N) (r : Fin 5000) (j : Fin 128) :
    k1_pay3 (F := Ideal) (iblk1 V c 0 t) (iblk1 V c 1 t) (iblk1 V c 2 t) (ix2 r j) = hAt V c (row t r) j := by
  refine (pay3_apply (iblk1 V c 0 t) (iblk1 V c 1 t) (iblk1 V c 2 t) r j).trans ?_
  exact congrArg₂ (· + ·) (congrArg₂ (· * ·) (iblk_agg V c t r j) (iblk_d V c t r 0)) (iblk_b V c t 0 j)

/-- What the three staging buffers hold after the first point of the grid. -/
theorem outs_first (c : Dev nD) (t : Fin cfg1.N) (h0 : t.val % 20 = 0) :
    outsAt1 V c t.val t.isLt
      = (k1_pay3 (iblk1 V c 0 t) (iblk1 V c 1 t) (iblk1 V c 2 t),
         k1_pay4 (iblk1 V c 0 t) (iblk1 V c 1 t) (iblk1 V c 2 t) (k1_pay1 (F := Ideal)),
         k1_pay5 (iblk1 V c 0 t) (iblk1 V c 1 t) (iblk1 V c 2 t) (k1_pay2 (F := Ideal))) := by
  rw [outsAt1_A V c t h0, out_A_3, out_A_4, out_A_5]

/-- What they hold after a later point, over what the point before left. -/
theorem outs_later (c : Dev nD) (t : Fin cfg1.N) (h0 : ¬t.val % 20 = 0) :
    outsAt1 V c t.val t.isLt
      = (k1_pay3 (iblk1 V c 0 t) (iblk1 V c 1 t) (iblk1 V c 2 t),
         k1_pay4 (iblk1 V c 0 t) (iblk1 V c 1 t) (iblk1 V c 2 t)
           (outsAt1 V c (t.val - 1) (Nat.lt_of_le_of_lt (Nat.sub_le _ _) t.isLt)).2.1,
         k1_pay5 (iblk1 V c 0 t) (iblk1 V c 1 t) (iblk1 V c 2 t)
           (outsAt1 V c (t.val - 1) (Nat.lt_of_le_of_lt (Nat.sub_le _ _) t.isLt)).2.2) := by
  rw [outsAt1_B V c t h0, out_B_3, out_B_4, out_B_5]

end Outputs

section Invariant
variable (V : (c : Dev nD) → (b : Ref sig .tc) → Buf (Elt Ideal) ((c : Thread nD τ).loc b))

/-- The column sums of point t's stored block, as sums over its stretch of rows. -/
theorem blk_sum (c : Dev nD) (t : Fin cfg1.N) (j : Fin 128) :
    ∑ r : Fin 5000, k1_pay3 (F := Ideal) (iblk1 V c 0 t) (iblk1 V c 1 t) (iblk1 V c 2 t) (ix2 r j)
      = ∑ r ∈ Finset.range 5000, ext (fun k => hAt V c k j) (5000 * t.val + r) :=
  (Finset.sum_congr rfl fun r _ => pay3_blk V c t r j).trans (sum_block (fun k => hAt V c k j) t)

theorem blk_sumsq (c : Dev nD) (t : Fin cfg1.N) (j : Fin 128) :
    ∑ r : Fin 5000, k1_pay3 (F := Ideal) (iblk1 V c 0 t) (iblk1 V c 1 t) (iblk1 V c 2 t) (ix2 r j)
        * k1_pay3 (F := Ideal) (iblk1 V c 0 t) (iblk1 V c 1 t) (iblk1 V c 2 t) (ix2 r j)
      = ∑ r ∈ Finset.range 5000, ext (fun k => hAt V c k j * hAt V c k j) (5000 * t.val + r) :=
  (Finset.sum_congr rfl fun r _ => congrArg₂ (· * ·) (pay3_blk V c t r j) (pay3_blk V c t r j)).trans
    (sum_block (fun k => hAt V c k j * hAt V c k j) t)

/-- THE INVARIANT: after point n the two resident rows hold, per feature j, the sums over the rows below
    5000·(n + 1) of h and of h². -/
theorem acc_inv (c : Dev nD) (j : Fin 128) : ∀ (n : ℕ) (hn : n < cfg1.N),
    (outsAt1 V c n hn).2.1 (ix2 (0 : Fin 1) j)
        = ∑ m ∈ Finset.range (5000 * (n + 1)), ext (fun k => hAt V c k j) m
    ∧ (outsAt1 V c n hn).2.2 (ix2 (0 : Fin 1) j)
        = ∑ m ∈ Finset.range (5000 * (n + 1)), ext (fun k => hAt V c k j * hAt V c k j) m
  | 0, hn => by
    have e : outsAt1 V c 0 hn = _ := outs_first V c ⟨0, hn⟩ rfl
    rw [e]
    refine ⟨?_, ?_⟩
    · show k1_pay4 (F := Ideal) (iblk1 V c 0 ⟨0, hn⟩) (iblk1 V c 1 ⟨0, hn⟩) (iblk1 V c 2 ⟨0, hn⟩) (k1_pay1 (F := Ideal))
        (ix2 (0 : Fin 1) j) = _
      refine (pay4_apply (iblk1 V c 0 ⟨0, hn⟩) (iblk1 V c 1 ⟨0, hn⟩) (iblk1 V c 2 ⟨0, hn⟩) (k1_pay1 (F := Ideal)) j).trans ?_
      rw [pay1_apply, blk_sum V c ⟨0, hn⟩ j]
      exact (sum_first (ext fun k => hAt V c k j)).symm
    · show k1_pay5 (F := Ideal) (iblk1 V c 0 ⟨0, hn⟩) (iblk1 V c 1 ⟨0, hn⟩) (iblk1 V c 2 ⟨0, hn⟩) (k1_pay2 (F := Ideal))
        (ix2 (0 : Fin 1) j) = _
      refine (pay5_apply (iblk1 V c 0 ⟨0, hn⟩) (iblk1 V c 1 ⟨0, hn⟩) (iblk1 V c 2 ⟨0, hn⟩) (k1_pay2 (F := Ideal)) j).trans ?_
      rw [pay2_apply, blk_sumsq V c ⟨0, hn⟩ j]
      exact (sum_first (ext fun k => hAt V c k j * hAt V c k j)).symm
  | n + 1, hn => by
    have hN : cfg1.N = 20 := N_eq
    have hB : ¬(⟨n + 1, hn⟩ : Fin cfg1.N).val % 20 = 0 := by dsimp only; omega
    have ih := acc_inv c j n (Nat.lt_of_succ_lt hn)
    have e : outsAt1 V c (n + 1) hn = _ := outs_later V c ⟨n + 1, hn⟩ hB
    rw [e]
    refine ⟨?_, ?_⟩
    · show k1_pay4 (F := Ideal) (iblk1 V c 0 ⟨n + 1, hn⟩) (iblk1 V c 1 ⟨n + 1, hn⟩) (iblk1 V c 2 ⟨n + 1, hn⟩)
        (outsAt1 V c n (Nat.lt_of_succ_lt hn)).2.1 (ix2 (0 : Fin 1) j) = _
      refine (pay4_apply (iblk1 V c 0 ⟨n + 1, hn⟩) (iblk1 V c 1 ⟨n + 1, hn⟩) (iblk1 V c 2 ⟨n + 1, hn⟩)
        (outsAt1 V c n (Nat.lt_of_succ_lt hn)).2.1 j).trans ?_
      rw [ih.1, blk_sum V c ⟨n + 1, hn⟩ j]
      exact (sum_step (ext fun k => hAt V c k j) (n + 1)).symm
    · show k1_pay5 (F := Ideal) (iblk1 V c 0 ⟨n + 1, hn⟩) (iblk1 V c 1 ⟨n + 1, hn⟩) (iblk1 V c 2 ⟨n + 1, hn⟩)
        (outsAt1 V c n (Nat.lt_of_succ_lt hn)).2.2 (ix2 (0 : Fin 1) j) = _
      refine (pay5_apply (iblk1 V c 0 ⟨n + 1, hn⟩) (iblk1 V c 1 ⟨n + 1, hn⟩) (iblk1 V c 2 ⟨n + 1, hn⟩)
        (outsAt1 V c n (Nat.lt_of_succ_lt hn)).2.2 j).trans ?_
      rw [ih.2, blk_sumsq V c ⟨n + 1, hn⟩ j]
      exact (sum_step (ext fun k => hAt V c k j * hAt V c k j) (n + 1)).symm

end Invariant

section Finals
variable (V : (c : Dev nD) → (b : Ref sig .tc) → Buf (Elt Ideal) ((c : Thread nD τ).loc b))

/-- h as a whole array. -/
abbrev Hspec (c : Dev nD) : Cert.Spec.Arr2 100000 128 :=
  Cert.Spec.postH (V c main_v26) (V c main_v15) (V c main_v27)

theorem pay3_blk' (c : Dev nD) (t : Fin cfg1.N) (y : S5000x128.Idx) :
    k1_pay3 (F := Ideal) (iblk1 V c 0 t) (iblk1 V c 1 t) (iblk1 V c 2 t) y = hAt V c (row t (y 0)) (y 1) :=
  (congrArg (k1_pay3 (F := Ideal) (iblk1 V c 0 t) (iblk1 V c 1 t) (iblk1 V c 2 t)) (eq_ix2 y)).trans
    (pay3_blk V c t (y 0) (y 1))

/-- The specification's functions at explicit coordinates. -/
theorem postH_ix (A : Cert.Spec.Arr2 100000 128) (D : Cert.Spec.Arr2 100000 1) (B : Cert.Spec.Arr2 1 128)
    (n : Fin 100000) (q : Fin 128) : Cert.Spec.postH A D B (ix2 n q) = Cert.Spec.postHAt A D B n q := rfl

theorem colSum_row (h : Cert.Spec.Arr2 100000 128) (q : Fin 128) :
    Cert.Spec.colSum h (ix2 (0 : Fin 1) q) = ∑ n : Fin 100000, h (ix2 n q) := rfl

theorem colSumSq_row (h : Cert.Spec.Arr2 100000 128) (q : Fin 128) :
    Cert.Spec.colSumSq h (ix2 (0 : Fin 1) q) = ∑ n : Fin 100000, h (ix2 n q) * h (ix2 n q) := rfl

theorem rows_all : 5000 * (19 + 1) = 100000 := by norm_num

/-- What every point writes back of h is its block of h. -/
theorem flushed_h (c : Dev nD) (t : Fin cfg1.N) :
    (dat1 (F := Ideal) V c).flushed 3 t = ((cfg1.win 3).blk t).view.read (Elt Ideal) (Hspec V c) := by
  obtain ⟨-, -, -, -, -, -, e0, e1, -⟩ := idx_facts t
  show (cfg1.win 3).cut (grid1.coords t) ((dat1 (F := Ideal) V c).after 3 t) = _
  rw [after1_3]
  have e : (outsAt1 V c t.val t.isLt).1 = k1_pay3 (F := Ideal) (iblk1 V c 0 t) (iblk1 V c 1 t) (iblk1 V c 2 t) := by
    by_cases h0 : t.val % 20 = 0
    · rw [outs_first V c t h0]
    · rw [outs_later V c t h0]
  rw [e]
  funext y
  have hemb : ((cfg1.win 3).blk t).view.emb y = ix2 (row t (y 0)) (y 1) := by
    funext a; apply Fin.ext
    match a with
    | ⟨0, _⟩ => show win1_3.index t (0 : Fin 2) * 5000 + 1 * (y 0).val = 5000 * t.val + (y 0).val; rw [e0]; omega
    | ⟨1, _⟩ => show win1_3.index t (1 : Fin 2) * 128 + 1 * (y 1).val = (y 1).val; rw [e1]; omega
  show k1_pay3 (F := Ideal) (iblk1 V c 0 t) (iblk1 V c 1 t) (iblk1 V c 2 t) y = Hspec V c (((cfg1.win 3).blk t).view.emb y)
  rw [hemb]
  exact pay3_blk' V c t y

/-- An index of the array is in point t's block iff each coordinate is in the block's range on its axis. -/
theorem mem_blk_h (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28_0).slice (win1_3.rect t)).set ↔ _
  rw [View.set_slice_whole, Rect.mem_set_unit]
  exact Iff.rfl

/-- THE FIRST OUTPUT after the region: h, row by row; row n is written by point n / 5000. -/
theorem final_h (c : Dev nD) :
    (dat1 (F := Ideal) V c).arrAt 3 cfg1.N = Cert.Spec.postH (V c main_v26) (V c main_v15) (V c main_v27) :=
  (dat1 (F := Ideal) V c).arrAt_eq_of_cover 3 (Hspec V c) (fun t _ => flushed_h V c t) fun i => by
    have hi0 : (i 0).val < 100000 := (i 0).isLt
    have hi1 : (i 1).val < 128 := (i 1).isLt
    have hN : cfg1.N = 20 := N_eq
    obtain ⟨t, ht⟩ : ∃ t : Fin cfg1.N, t.val = (i 0).val / 5000 := ⟨⟨(i 0).val / 5000, by omega⟩, rfl⟩
    obtain ⟨-, -, -, -, -, -, e0, e1, -⟩ := idx_facts t
    refine ⟨t, flush1_3 t, ?_⟩
    rw [mem_blk_h]
    intro a
    match a with
    | ⟨0, _⟩ =>
      show win1_3.index t (0 : Fin 2) * 5000 ≤ (i 0).val ∧ (i 0).val < win1_3.index t (0 : Fin 2) * 5000 + 5000
      rw [e0]; omega
    | ⟨1, _⟩ =>
      show win1_3.index t (1 : Fin 2) * 128 ≤ (i 1).val ∧ (i 1).val < win1_3.index t (1 : Fin 2) * 128 + 128
      rw [e1]; omega

/-- A one-row index is (0, its lane). -/
theorem eq_row0 (y : S1x128.Idx) : y = ix2 (0 : Fin 1) (y 1) := by
  funext a
  match a with
  | ⟨0, _⟩ => exact Fin.ext (by have : (y 0).val < 1 := (y 0).isLt; show (y 0).val = 0; omega)
  | ⟨1, _⟩ => rfl

/-- A resident one-row block, written back, is the row itself: the window's block is its whole array. -/
theorem row_block_4 (t : Fin cfg1.N) (X : Vec Ideal S1x128 .f32) (G : Cert.Spec.Arr2 1 128)
    (h : ∀ q : Fin 128, X (ix2 (0 : Fin 1) q) = G (ix2 (0 : Fin 1) q)) :
    (cfg1.win 4).cut (grid1.coords t) X = ((cfg1.win 4).blk t).view.read (Elt Ideal) G := by
  obtain ⟨-, -, -, -, -, -, -, -, e0, e1, -⟩ := idx_facts t
  funext y
  have hemb : ((cfg1.win 4).blk t).view.emb y = ix2 (0 : Fin 1) (y 1) := by
    funext a; apply Fin.ext
    match a with
    | ⟨0, _⟩ =>
      show win1_4.index t (0 : Fin 2) * 1 + 1 * (y 0).val = 0
      have : (y 0).val < 1 := (y 0).isLt
      rw [e0]; omega
    | ⟨1, _⟩ => show win1_4.index t (1 : Fin 2) * 128 + 1 * (y 1).val = (y 1).val; rw [e1]; omega
  show X y = G (((cfg1.win 4).blk t).view.emb y)
  rw [hemb]
  exact (congrArg X (eq_row0 y)).trans (h (y 1))

/-- What the last point writes back of the row of sums is the column sums of h. -/
theorem flushed_sum (c : Dev nD) (t : Fin cfg1.N) (hf : (cfg1.win 4).flush t = true) :
    (dat1 (F := Ideal) V c).flushed 4 t
      = ((cfg1.win 4).blk t).view.read (Elt Ideal) (Cert.Spec.colSum (Hspec V c)) := by
  have hN : cfg1.N = 20 := N_eq
  have h19 : t.val = 19 := by have := (flush1_4 t).mp hf; have := t.isLt; omega
  show (cfg1.win 4).cut (grid1.coords t) ((dat1 (F := Ideal) V c).after 4 t) = _
  rw [after1_4]
  refine row_block_4 t (outsAt1 V c t.val t.isLt).2.1 (Cert.Spec.colSum (Hspec V c)) fun q => ?_
  rw [colSum_row]
  refine ((acc_inv V c q t.val t.isLt).1).trans ?_
  rw [h19, rows_all]
  exact (sum_all (fun k => hAt V c k q)).trans
    (Finset.sum_congr rfl fun n _ => (postH_ix (V c main_v26) (V c main_v15) (V c main_v27) n q).symm)

theorem mem_blk_sum (t : Fin cfg1.N) (i : S1x128.Idx) :
    i ∈ ((cfg1.win 4).blk t).view.set ↔ ∀ a : Fin 2, win1_4.index t a * S1x128.size a ≤ (i a).val
      ∧ (i a).val < win1_4.index t a * S1x128.size a + S1x128.size a := by
  show i ∈ ((View.whole main_v28_1).slice (win1_4.rect t)).set ↔ _
  rw [View.set_slice_whole, Rect.mem_set_unit]
  exact Iff.rfl

/-- THE SECOND OUTPUT after the region: per feature, the sum of h over all rows. -/
theorem final_sum (c : Dev nD) :
    (dat1 (F := Ideal) V c).arrAt 4 cfg1.N
      = Cert.Spec.colSum (Cert.Spec.postH (V c main_v26) (V c main_v15) (V c main_v27)) :=
  (dat1 (F := Ideal) V c).arrAt_eq_of_cover 4 (Cert.Spec.colSum (Hspec V c)) (fun t hf => flushed_sum V c t hf) fun i => by
    have hi0 : (i 0).val < 1 := (i 0).isLt
    have hi1 : (i 1).val < 128 := (i 1).isLt
    have hN : cfg1.N = 20 := N_eq
    obtain ⟨t, ht⟩ : ∃ t : Fin cfg1.N, t.val = 19 := ⟨⟨19, by omega⟩, rfl⟩
    obtain ⟨-, -, -, -, -, -, -, -, e0, e1, -⟩ := idx_facts t
    refine ⟨t, (flush1_4 t).mpr (by omega), ?_⟩
    rw [mem_blk_sum]
    intro a
    match a with
    | ⟨0, _⟩ =>
      show win1_4.index t (0 : Fin 2) * 1 ≤ (i 0).val ∧ (i 0).val < win1_4.index t (0 : Fin 2) * 1 + 1
      rw [e0]; omega
    | ⟨1, _⟩ =>
      show win1_4.index t (1 : Fin 2) * 128 ≤ (i 1).val ∧ (i 1).val < win1_4.index t (1 : Fin 2) * 128 + 128
      rw [e1]; omega

/-- A resident one-row block, written back, is the row itself: the window's block is its whole array. -/
theorem row_block_5 (t : Fin cfg1.N) (X : Vec Ideal S1x128 .f32) (G : Cert.Spec.Arr2 1 128)
    (h : ∀ q : Fin 128, X (ix2 (0 : Fin 1) q) = G (ix2 (0 : Fin 1) q)) :
    (cfg1.win 5).cut (grid1.coords t) X = ((cfg1.win 5).blk t).view.read (Elt Ideal) G := by
  obtain ⟨-, -, -, -, -, -, -, -, -, -, e0, e1⟩ := idx_facts t
  funext y
  have hemb : ((cfg1.win 5).blk t).view.emb y = ix2 (0 : Fin 1) (y 1) := by
    funext a; apply Fin.ext
    match a with
    | ⟨0, _⟩ =>
      show win1_5.index t (0 : Fin 2) * 1 + 1 * (y 0).val = 0
      have : (y 0).val < 1 := (y 0).isLt
      rw [e0]; omega
    | ⟨1, _⟩ => show win1_5.index t (1 : Fin 2) * 128 + 1 * (y 1).val = (y 1).val; rw [e1]; omega
  show X y = G (((cfg1.win 5).blk t).view.emb y)
  rw [hemb]
  exact (congrArg X (eq_row0 y)).trans (h (y 1))

/-- What the last point writes back of the row of sums of squares is the column sums of h². -/
theorem flushed_sq (c : Dev nD) (t : Fin cfg1.N) (hf : (cfg1.win 5).flush t = true) :
    (dat1 (F := Ideal) V c).flushed 5 t
      = ((cfg1.win 5).blk t).view.read (Elt Ideal) (Cert.Spec.colSumSq (Hspec V c)) := by
  have hN : cfg1.N = 20 := N_eq
  have h19 : t.val = 19 := by have := (flush1_5 t).mp hf; have := t.isLt; omega
  show (cfg1.win 5).cut (grid1.coords t) ((dat1 (F := Ideal) V c).after 5 t) = _
  rw [after1_5]
  refine row_block_5 t (outsAt1 V c t.val t.isLt).2.2 (Cert.Spec.colSumSq (Hspec V c)) fun q => ?_
  rw [colSumSq_row]
  refine ((acc_inv V c q t.val t.isLt).2).trans ?_
  rw [h19, rows_all]
  exact (sum_all (fun k => hAt V c k q * hAt V c k q)).trans
    (Finset.sum_congr rfl fun n _ => congrArg₂ (· * ·) (postH_ix (V c main_v26) (V c main_v15) (V c main_v27) n q).symm
        (postH_ix (V c main_v26) (V c main_v15) (V c main_v27) n q).symm)

theorem mem_blk_sq (t : Fin cfg1.N) (i : S1x128.Idx) :
    i ∈ ((cfg1.win 5).blk t).view.set ↔ ∀ a : Fin 2, win1_5.index t a * S1x128.size a ≤ (i a).val
      ∧ (i a).val < win1_5.index t a * S1x128.size a + S1x128.size a := by
  show i ∈ ((View.whole main_v28_2).slice (win1_5.rect t)).set ↔ _
  rw [View.set_slice_whole, Rect.mem_set_unit]
  exact Iff.rfl

/-- THE THIRD OUTPUT after the region: per feature, the sum of h² over all rows. -/
theorem final_sq (c : Dev nD) :
    (dat1 (F := Ideal) V c).arrAt 5 cfg1.N
      = Cert.Spec.colSumSq (Cert.Spec.postH (V c main_v26) (V c main_v15) (V c main_v27)) :=
  (dat1 (F := Ideal) V c).arrAt_eq_of_cover 5 (Cert.Spec.colSumSq (Hspec V c)) (fun t hf => flushed_sq V c t hf) fun i => by
    have hi0 : (i 0).val < 1 := (i 0).isLt
    have hi1 : (i 1).val < 128 := (i 1).isLt
    have hN : cfg1.N = 20 := N_eq
    obtain ⟨t, ht⟩ : ∃ t : Fin cfg1.N, t.val = 19 := ⟨⟨19, by omega⟩, rfl⟩
    obtain ⟨-, -, -, -, -, -, -, -, -, -, e0, e1⟩ := idx_facts t
    refine ⟨t, (flush1_5 t).mpr (by omega), ?_⟩
    rw [mem_blk_sq]
    intro a
    match a with
    | ⟨0, _⟩ =>
      show win1_5.index t (0 : Fin 2) * 1 ≤ (i 0).val ∧ (i 0).val < win1_5.index t (0 : Fin 2) * 1 + 1
      rw [e0]; omega
    | ⟨1, _⟩ =>
      show win1_5.index t (1 : Fin 2) * 128 ≤ (i 1).val ∧ (i 1).val < win1_5.index t (1 : Fin 2) * 128 + 128
      rw [e1]; omega

end Finals

end Cert.KernelIdeal.Region1

end
-- ==== Proof.Region3.lean ====
/-
  The statistics stage of the second layer: per grid point t of 20 the body forms h = agg · d + b on a block of 5000 rows
  (agg a [100000, 128] array, d a column [100000, 1] of per-row factors, b a row [1, 128] of biases), stores that block,
  and adds the block's column sums of h and of h · h into two [1, 128] rows that stay resident over the whole grid; at
  point 0 the two rows are first set to zero.

  What is proved, on the extended reals, for the arrays as the region finds them:
    * the first output ends holding h, entry by entry (row n is written by point n / 5000);
    * the second ends holding, per feature j, the sum over all 100000 rows of h(n, j);
    * the third ends holding, per feature j, the sum over all 100000 rows of h(n, j) · h(n, j).

  The road: each control case's stored values are the payload functions of the loaded blocks; the payloads read at an
  index (a column broadcast, a row broadcast, a lane sum over the 5000 rows of a block from the zero word); a block's
  row r at point t is row 5000 · t + r of the array; the invariant "after point n the two rows hold the sums over the
  rows below 5000 · (n + 1)" by induction on n; splitting the 100000 rows into 20 stretches of 5000 is
  Finset.sum_range_add, and + on the extended reals is commutative and associative — nothing else is used.
-/
import proofs.«160274_j87952340288037_2_alg».proof.Proof.Gen.KernelIdeal.Frame
import proofs.«160274_j87952340288037_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen

/-! ## What each control case leaves in each output's staging buffer -/

section Pieces
variable {F : FTy → Type} [FloatOps F]

theorem hz : (![0, 0] : Fin 2 → Nat) = fun _ => 0 := funext fun a => by fin_cases a <;> rfl

/-- At a later point the stored block is agg · d + b of the loaded blocks. -/
theorem out_B_3 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S5000x128 .f32) (x1 : Vec F S5000x1 .f32) (x2 : Vec F S1x128 .f32) (xo4 xo5 : Vec F S1x128 .f32) :
    out3_B_3 c i a1 h1 a2 h2 a3 h3 a4 h4 a5 h5 a6 h6 hc x0 x1 x2 xo4 xo5 = k3_pay3 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S1x128) hz]

/-- At a later point the row of sums is the row found there plus the block's column sums. -/
theorem out_B_4 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S5000x128 .f32) (x1 : Vec F S5000x1 .f32) (x2 : Vec F S1x128 .f32) (xo4 xo5 : Vec F S1x128 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S1x128) hz]

/-- At a later point the row of sums of squares is the row found there plus the block's column sums of squares. -/
theorem out_B_5 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S5000x128 .f32) (x1 : Vec F S5000x1 .f32) (x2 : Vec F S1x128 .f32) (xo4 xo5 : Vec F S1x128 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S1x128) hz]

/-- At the first point the stored block is agg · d + b of the loaded blocks. -/
theorem out_A_3 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S5000x128 .f32) (x1 : Vec F S5000x1 .f32) (x2 : Vec F S1x128 .f32) :
    out3_A_3 c i a1 h1 a2 h2 a3 h3 a4 h4 a5 h5 a6 h6 hc x0 x1 x2 = k3_pay3 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  rw [View.canon_unit_zero hz]
  simp only [View.readAt_eq_ld, h1.read_unread, h2.read_unread, h3.read_unread,
    View.ld_unit_zero (S := S5000x128) hz, View.ld_unit_zero (S := S5000x1) hz, View.ld_unit_zero (S := S1x128) hz]

/-- At the first point the row of sums is the zero row just stored plus the block's column sums. -/
theorem out_A_4 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S5000x128 .f32) (x1 : Vec F S5000x1 .f32) (x2 : Vec F S1x128 .f32) :
    out3_A_4 c i a1 h1 a2 h2 a3 h3 a4 h4 a5 h5 a6 h6 hc x0 x1 x2 = k3_pay4 x0 x1 x2 k3_pay1 := by
  unfold out3_A_4
  rw [View.read_writes_eq_canon _ _ _ (cover3_A_4 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

/-- At the first point the row of sums of squares is the zero row just stored plus the block's column sums of squares. -/
theorem out_A_5 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S5000x128 .f32) (x1 : Vec F S5000x1 .f32) (x2 : Vec F S1x128 .f32) :
    out3_A_5 c i a1 h1 a2 h2 a3 h3 a4 h4 a5 h5 a6 h6 hc x0 x1 x2 = k3_pay5 x0 x1 x2 k3_pay2 := by
  unfold out3_A_5
  rw [View.read_writes_eq_canon _ _ _ (cover3_A_5 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

end Pieces

/-! ## The payloads at an index, on the extended reals -/

section Payloads

/-- A column [a, 1] broadcast along the lanes to [a, b] reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored block at (r, j): agg(r, j) · d(r, 0) + b(0, j). -/
theorem pay3_apply (x0 : Vec Ideal S5000x128 .f32) (x1 : Vec Ideal S5000x1 .f32) (x2 : Vec Ideal S1x128 .f32)
    (r : Fin 5000) (j : Fin 128) :
    k3_pay3 (F := Ideal) x0 x1 x2 (ix2 r j) = x0 (ix2 r j) * x1 (ix2 r (0 : Fin 1)) + x2 (ix2 (0 : Fin 1) j) := by
  unfold k3_pay3
  simp only [shapeCast_self]
  show x0 (ix2 r j) * broadcastTo S5000x128 x1 broadcasts_S5000x1_S5000x128 (ix2 r j)
      + broadcastTo S5000x128 x2 broadcasts_S1x128_S5000x128 (ix2 r j) = _
  rw [broadcastTo_a1_ab_apply x1 broadcasts_S5000x1_S5000x128 r j,
    broadcastTo_1b_ab_apply x2 broadcasts_S1x128_S5000x128 r j]

/-- The zero rows at any index are 0. -/
theorem pay1_apply (u : Fin 1) (j : Fin 128) : k3_pay1 (F := Ideal) (ix2 u j) = 0 := by
  unfold k3_pay1
  exact Ideal.ofBits_zero_f32

theorem pay2_apply (u : Fin 1) (j : Fin 128) : k3_pay2 (F := Ideal) (ix2 u j) = 0 := by
  unfold k3_pay2
  exact Ideal.ofBits_zero_f32

/-- A lane sum over the 5000 rows of a block, from the zero word, cast to one row: at (0, j) the sum of column j. -/
theorem colsum_apply (src : FVec Ideal S5000x128 .f32) (hφ : FKind.Formats .f32)
    (hacc : (0x00000000#32 : BitVec 32) = FKind.add.neutral .f32 hφ) (j : Fin 128) :
    shapeCast S1x128 (multiReduction (F := Ideal) .add [0] S128 src 0x00000000#32 reduces_S5000x128_S128 hφ hacc)
        shapeCasts_S128_S1x128 (ix2 (0 : Fin 1) j)
      = ∑ r : Fin 5000, src (ix2 r j) := by
  refine (shapeCast_a_1a_apply _ shapeCasts_S128_S1x128 (0 : Fin 1) j).trans ?_
  refine (Ideal.multiReduction_add_single src 0x00000000#32 reduces_S5000x128_S128 hφ hacc (ix1 j)).trans ?_
  show ∑ r : Fin 5000, src (reduces_S5000x128_S128.lift (ix1 j) r) = ∑ r : Fin 5000, src (ix2 r j)
  refine Finset.sum_congr rfl fun r _ => congrArg src ?_
  funext a
  match a with
  | ⟨0, _⟩ => rfl
  | ⟨1, _⟩ => rfl

/-- The row of sums at (0, j): the row found there plus the block's column sum. -/
theorem pay4_apply (x0 : Vec Ideal S5000x128 .f32) (x1 : Vec Ideal S5000x1 .f32) (x2 : Vec Ideal S1x128 .f32)
    (acc : Vec Ideal S1x128 .f32) (j : Fin 128) :
    k3_pay4 (F := Ideal) x0 x1 x2 acc (ix2 (0 : Fin 1) j)
      = acc (ix2 (0 : Fin 1) j) + ∑ r : Fin 5000, k3_pay3 (F := Ideal) x0 x1 x2 (ix2 r j) := by
  unfold k3_pay4
  simp only [shapeCast_self]
  exact congrArg (acc (ix2 (0 : Fin 1) j) + ·) (colsum_apply (k3_pay3 (F := Ideal) x0 x1 x2) _ _ j)

/-- The row of sums of squares at (0, j): the row found there plus the block's column sum of squares. -/
theorem pay5_apply (x0 : Vec Ideal S5000x128 .f32) (x1 : Vec Ideal S5000x1 .f32) (x2 : Vec Ideal S1x128 .f32)
    (acc : Vec Ideal S1x128 .f32) (j : Fin 128) :
    k3_pay5 (F := Ideal) x0 x1 x2 acc (ix2 (0 : Fin 1) j)
      = acc (ix2 (0 : Fin 1) j)
        + ∑ r : Fin 5000, k3_pay3 (F := Ideal) x0 x1 x2 (ix2 r j) * k3_pay3 (F := Ideal) x0 x1 x2 (ix2 r j) := by
  unfold k3_pay5
  simp only [shapeCast_self]
  exact congrArg (acc (ix2 (0 : Fin 1) j) + ·)
    (colsum_apply (mulf (k3_pay3 (F := Ideal) x0 x1 x2) (k3_pay3 (F := Ideal) x0 x1 x2)) _ _ j)

end Payloads

/-! ## The input blocks, read at an index -/

section Blocks
variable {F : FTy → Type} [FloatOps F]
variable (V : (c : Dev nD) → (b : Ref sig .tc) → Buf (Elt F) ((c : Thread nD τ).loc b))

/-- The printed index maps, decided over the grid: the three row-blocked windows sit at block t, the rows whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem N_eq : cfg3.N = 20 := N_3

/-- Row r of block t is row 5000·t + r of the array. -/
abbrev row (t : Fin cfg3.N) (r : Fin 5000) : Fin 100000 :=
  ⟨5000 * t.val + r.val, by have := lt_of_lt_of_eq t.isLt N_eq; have := r.isLt; omega⟩

theorem iblk_agg (c : Dev nD) (t : Fin cfg3.N) (r : Fin 5000) (j : Fin 128) :
    (iblk3 V c 0 t : Vec F S5000x128 .f32) (ix2 r j) = (V c main_v55 : S100000x128.Idx → Elt F .f32) (ix2 (row t r) j) := by
  obtain ⟨e0, e1, -⟩ := idx_facts t
  unfold iblk3
  rw [View.read_apply]
  show V c main_v55 _ = V c main_v55 _
  congr 1
  funext a
  apply Fin.ext
  match a with
  | ⟨0, _⟩ => show win3_0.index t 0 * 5000 + 1 * r.val = 5000 * t.val + r.val; rw [e0]; omega
  | ⟨1, _⟩ => show win3_0.index t 1 * 128 + 1 * j.val = j.val; rw [e1]; omega

theorem iblk_d (c : Dev nD) (t : Fin cfg3.N) (r : Fin 5000) (u : Fin 1) :
    (iblk3 V c 1 t : Vec F S5000x1 .f32) (ix2 r u) = (V c main_v15 : S100000x1.Idx → Elt F .f32) (ix2 (row t r) (0 : Fin 1)) := by
  obtain ⟨-, -, e0, e1, -⟩ := idx_facts t
  unfold iblk3
  rw [View.read_apply]
  show V c main_v15 _ = V c main_v15 _
  congr 1
  funext a
  apply Fin.ext
  match a with
  | ⟨0, _⟩ => show win3_1.index t 0 * 5000 + 1 * r.val = 5000 * t.val + r.val; rw [e0]; omega
  | ⟨1, _⟩ => show win3_1.index t 1 * 1 + 1 * u.val = 0; rw [e1]; omega

theorem iblk_b (c : Dev nD) (t : Fin cfg3.N) (u : Fin 1) (j : Fin 128) :
    (iblk3 V c 2 t : Vec F S1x128 .f32) (ix2 u j) = (V c main_v56 : S1x128.Idx → Elt F .f32) (ix2 (0 : Fin 1) j) := by
  obtain ⟨-, -, -, -, e0, e1, -⟩ := idx_facts t
  unfold iblk3
  rw [View.read_apply]
  show V c main_v56 _ = V c main_v56 _
  congr 1
  funext a
  apply Fin.ext
  match a with
  | ⟨0, _⟩ => show win3_2.index t 0 * 1 + 1 * u.val = 0; rw [e0]; omega
  | ⟨1, _⟩ => show win3_2.index t 1 * 128 + 1 * j.val = j.val; rw [e1]; omega

end Blocks

/-! ## The three outputs point by point, then as whole arrays -/

section Sums

/-- A function of the rows extended by 0 to every natural number, so that partial sums range over naturals. -/
def ext (f : Fin 100000 → EReal) (n : ℕ) : EReal := if h : n < 100000 then f ⟨n, h⟩ else 0

theorem ext_row (f : Fin 100000 → EReal) (t : Fin cfg3.N) (r : Fin 5000) :
    ext f (5000 * t.val + r.val) = f (row t r) := dif_pos (row t r).isLt

/-- A block's column sum is the sum over the block's stretch of rows. -/
theorem sum_block (f : Fin 100000 → EReal) (t : Fin cfg3.N) :
    ∑ r : Fin 5000, f (row t r) = ∑ r ∈ Finset.range 5000, ext f (5000 * t.val + r) := by
  rw [Finset.sum_range]
  exact Finset.sum_congr rfl fun r _ => (ext_row f t r).symm

/-- All 100000 rows. -/
theorem sum_all (f : Fin 100000 → EReal) : ∑ m ∈ Finset.range 100000, ext f m = ∑ n : Fin 100000, f n := by
  rw [Finset.sum_range]
  exact Finset.sum_congr rfl fun n _ => dif_pos n.isLt

/-- One more block of 5000 rows. -/
theorem sum_step (g : ℕ → EReal) (n : ℕ) :
    ∑ m ∈ Finset.range (5000 * (n + 1)), g m
      = ∑ m ∈ Finset.range (5000 * n), g m + ∑ r ∈ Finset.range 5000, g (5000 * n + r) := by
  rw [show 5000 * (n + 1) = 5000 * n + 5000 from by omega, Finset.sum_range_add]

/-- The first block of 5000 rows. -/
theorem sum_first (g : ℕ → EReal) :
    ∑ m ∈ Finset.range (5000 * (0 + 1)), g m = 0 + ∑ r ∈ Finset.range 5000, g (5000 * 0 + r) := by
  rw [sum_step g 0, Nat.mul_zero, Finset.range_zero, Finset.sum_empty]

end Sums

section Outputs
variable (V : (c : Dev nD) → (b : Ref sig .tc) → Buf (Elt Ideal) ((c : Thread nD τ).loc b))

/-- h = agg · d + b at row n, feature j, of the arrays as the region finds them. -/
abbrev hAt (c : Dev nD) (n : Fin 100000) (j : Fin 128) : EReal :=
  Cert.Spec.postHAt (V c main_v55) (V c main_v15) (V c main_v56) n j

/-- The stored block of point t at (r, j) is h at row 5000·t + r. -/
theorem pay3_blk (c : Dev nD) (t : Fin cfg3.N) (r : Fin 5000) (j : Fin 128) :
    k3_pay3 (F := Ideal) (iblk3 V c 0 t) (iblk3 V c 1 t) (iblk3 V c 2 t) (ix2 r j) = hAt V c (row t r) j := by
  refine (pay3_apply (iblk3 V c 0 t) (iblk3 V c 1 t) (iblk3 V c 2 t) r j).trans ?_
  exact congrArg₂ (· + ·) (congrArg₂ (· * ·) (iblk_agg V c t r j) (iblk_d V c t r 0)) (iblk_b V c t 0 j)

/-- What the three staging buffers hold after the first point of the grid. -/
theorem outs_first (c : Dev nD) (t : Fin cfg3.N) (h0 : t.val % 20 = 0) :
    outsAt3 V c t.val t.isLt
      = (k3_pay3 (iblk3 V c 0 t) (iblk3 V c 1 t) (iblk3 V c 2 t),
         k3_pay4 (iblk3 V c 0 t) (iblk3 V c 1 t) (iblk3 V c 2 t) (k3_pay1 (F := Ideal)),
         k3_pay5 (iblk3 V c 0 t) (iblk3 V c 1 t) (iblk3 V c 2 t) (k3_pay2 (F := Ideal))) := by
  rw [outsAt3_A V c t h0, out_A_3, out_A_4, out_A_5]

/-- What they hold after a later point, over what the point before left. -/
theorem outs_later (c : Dev nD) (t : Fin cfg3.N) (h0 : ¬t.val % 20 = 0) :
    outsAt3 V c t.val t.isLt
      = (k3_pay3 (iblk3 V c 0 t) (iblk3 V c 1 t) (iblk3 V c 2 t),
         k3_pay4 (iblk3 V c 0 t) (iblk3 V c 1 t) (iblk3 V c 2 t)
           (outsAt3 V c (t.val - 1) (Nat.lt_of_le_of_lt (Nat.sub_le _ _) t.isLt)).2.1,
         k3_pay5 (iblk3 V c 0 t) (iblk3 V c 1 t) (iblk3 V c 2 t)
           (outsAt3 V c (t.val - 1) (Nat.lt_of_le_of_lt (Nat.sub_le _ _) t.isLt)).2.2) := by
  rw [outsAt3_B V c t h0, out_B_3, out_B_4, out_B_5]

end Outputs

section Invariant
variable (V : (c : Dev nD) → (b : Ref sig .tc) → Buf (Elt Ideal) ((c : Thread nD τ).loc b))

/-- The column sums of point t's stored block, as sums over its stretch of rows. -/
theorem blk_sum (c : Dev nD) (t : Fin cfg3.N) (j : Fin 128) :
    ∑ r : Fin 5000, k3_pay3 (F := Ideal) (iblk3 V c 0 t) (iblk3 V c 1 t) (iblk3 V c 2 t) (ix2 r j)
      = ∑ r ∈ Finset.range 5000, ext (fun k => hAt V c k j) (5000 * t.val + r) :=
  (Finset.sum_congr rfl fun r _ => pay3_blk V c t r j).trans (sum_block (fun k => hAt V c k j) t)

theorem blk_sumsq (c : Dev nD) (t : Fin cfg3.N) (j : Fin 128) :
    ∑ r : Fin 5000, k3_pay3 (F := Ideal) (iblk3 V c 0 t) (iblk3 V c 1 t) (iblk3 V c 2 t) (ix2 r j)
        * k3_pay3 (F := Ideal) (iblk3 V c 0 t) (iblk3 V c 1 t) (iblk3 V c 2 t) (ix2 r j)
      = ∑ r ∈ Finset.range 5000, ext (fun k => hAt V c k j * hAt V c k j) (5000 * t.val + r) :=
  (Finset.sum_congr rfl fun r _ => congrArg₂ (· * ·) (pay3_blk V c t r j) (pay3_blk V c t r j)).trans
    (sum_block (fun k => hAt V c k j * hAt V c k j) t)

/-- THE INVARIANT: after point n the two resident rows hold, per feature j, the sums over the rows below
    5000·(n + 1) of h and of h². -/
theorem acc_inv (c : Dev nD) (j : Fin 128) : ∀ (n : ℕ) (hn : n < cfg3.N),
    (outsAt3 V c n hn).2.1 (ix2 (0 : Fin 1) j)
        = ∑ m ∈ Finset.range (5000 * (n + 1)), ext (fun k => hAt V c k j) m
    ∧ (outsAt3 V c n hn).2.2 (ix2 (0 : Fin 1) j)
        = ∑ m ∈ Finset.range (5000 * (n + 1)), ext (fun k => hAt V c k j * hAt V c k j) m
  | 0, hn => by
    have e : outsAt3 V c 0 hn = _ := outs_first V c ⟨0, hn⟩ rfl
    rw [e]
    refine ⟨?_, ?_⟩
    · show k3_pay4 (F := Ideal) (iblk3 V c 0 ⟨0, hn⟩) (iblk3 V c 1 ⟨0, hn⟩) (iblk3 V c 2 ⟨0, hn⟩) (k3_pay1 (F := Ideal))
        (ix2 (0 : Fin 1) j) = _
      refine (pay4_apply (iblk3 V c 0 ⟨0, hn⟩) (iblk3 V c 1 ⟨0, hn⟩) (iblk3 V c 2 ⟨0, hn⟩) (k3_pay1 (F := Ideal)) j).trans ?_
      rw [pay1_apply, blk_sum V c ⟨0, hn⟩ j]
      exact (sum_first (ext fun k => hAt V c k j)).symm
    · show k3_pay5 (F := Ideal) (iblk3 V c 0 ⟨0, hn⟩) (iblk3 V c 1 ⟨0, hn⟩) (iblk3 V c 2 ⟨0, hn⟩) (k3_pay2 (F := Ideal))
        (ix2 (0 : Fin 1) j) = _
      refine (pay5_apply (iblk3 V c 0 ⟨0, hn⟩) (iblk3 V c 1 ⟨0, hn⟩) (iblk3 V c 2 ⟨0, hn⟩) (k3_pay2 (F := Ideal)) j).trans ?_
      rw [pay2_apply, blk_sumsq V c ⟨0, hn⟩ j]
      exact (sum_first (ext fun k => hAt V c k j * hAt V c k j)).symm
  | n + 1, hn => by
    have hN : cfg3.N = 20 := N_eq
    have hB : ¬(⟨n + 1, hn⟩ : Fin cfg3.N).val % 20 = 0 := by dsimp only; omega
    have ih := acc_inv c j n (Nat.lt_of_succ_lt hn)
    have e : outsAt3 V c (n + 1) hn = _ := outs_later V c ⟨n + 1, hn⟩ hB
    rw [e]
    refine ⟨?_, ?_⟩
    · show k3_pay4 (F := Ideal) (iblk3 V c 0 ⟨n + 1, hn⟩) (iblk3 V c 1 ⟨n + 1, hn⟩) (iblk3 V c 2 ⟨n + 1, hn⟩)
        (outsAt3 V c n (Nat.lt_of_succ_lt hn)).2.1 (ix2 (0 : Fin 1) j) = _
      refine (pay4_apply (iblk3 V c 0 ⟨n + 1, hn⟩) (iblk3 V c 1 ⟨n + 1, hn⟩) (iblk3 V c 2 ⟨n + 1, hn⟩)
        (outsAt3 V c n (Nat.lt_of_succ_lt hn)).2.1 j).trans ?_
      rw [ih.1, blk_sum V c ⟨n + 1, hn⟩ j]
      exact (sum_step (ext fun k => hAt V c k j) (n + 1)).symm
    · show k3_pay5 (F := Ideal) (iblk3 V c 0 ⟨n + 1, hn⟩) (iblk3 V c 1 ⟨n + 1, hn⟩) (iblk3 V c 2 ⟨n + 1, hn⟩)
        (outsAt3 V c n (Nat.lt_of_succ_lt hn)).2.2 (ix2 (0 : Fin 1) j) = _
      refine (pay5_apply (iblk3 V c 0 ⟨n + 1, hn⟩) (iblk3 V c 1 ⟨n + 1, hn⟩) (iblk3 V c 2 ⟨n + 1, hn⟩)
        (outsAt3 V c n (Nat.lt_of_succ_lt hn)).2.2 j).trans ?_
      rw [ih.2, blk_sumsq V c ⟨n + 1, hn⟩ j]
      exact (sum_step (ext fun k => hAt V c k j * hAt V c k j) (n + 1)).symm

end Invariant

section Finals
variable (V : (c : Dev nD) → (b : Ref sig .tc) → Buf (Elt Ideal) ((c : Thread nD τ).loc b))

/-- h as a whole array. -/
abbrev Hspec (c : Dev nD) : Cert.Spec.Arr2 100000 128 :=
  Cert.Spec.postH (V c main_v55) (V c main_v15) (V c main_v56)

theorem pay3_blk' (c : Dev nD) (t : Fin cfg3.N) (y : S5000x128.Idx) :
    k3_pay3 (F := Ideal) (iblk3 V c 0 t) (iblk3 V c 1 t) (iblk3 V c 2 t) y = hAt V c (row t (y 0)) (y 1) :=
  (congrArg (k3_pay3 (F := Ideal) (iblk3 V c 0 t) (iblk3 V c 1 t) (iblk3 V c 2 t)) (eq_ix2 y)).trans
    (pay3_blk V c t (y 0) (y 1))

/-- The specification's functions at explicit coordinates. -/
theorem postH_ix (A : Cert.Spec.Arr2 100000 128) (D : Cert.Spec.Arr2 100000 1) (B : Cert.Spec.Arr2 1 128)
    (n : Fin 100000) (q : Fin 128) : Cert.Spec.postH A D B (ix2 n q) = Cert.Spec.postHAt A D B n q := rfl

theorem colSum_row (h : Cert.Spec.Arr2 100000 128) (q : Fin 128) :
    Cert.Spec.colSum h (ix2 (0 : Fin 1) q) = ∑ n : Fin 100000, h (ix2 n q) := rfl

theorem colSumSq_row (h : Cert.Spec.Arr2 100000 128) (q : Fin 128) :
    Cert.Spec.colSumSq h (ix2 (0 : Fin 1) q) = ∑ n : Fin 100000, h (ix2 n q) * h (ix2 n q) := rfl

theorem rows_all : 5000 * (19 + 1) = 100000 := by norm_num

/-- What every point writes back of h is its block of h. -/
theorem flushed_h (c : Dev nD) (t : Fin cfg3.N) :
    (dat3 (F := Ideal) V c).flushed 3 t = ((cfg3.win 3).blk t).view.read (Elt Ideal) (Hspec V c) := by
  obtain ⟨-, -, -, -, -, -, e0, e1, -⟩ := idx_facts t
  show (cfg3.win 3).cut (grid3.coords t) ((dat3 (F := Ideal) V c).after 3 t) = _
  rw [after3_3]
  have e : (outsAt3 V c t.val t.isLt).1 = k3_pay3 (F := Ideal) (iblk3 V c 0 t) (iblk3 V c 1 t) (iblk3 V c 2 t) := by
    by_cases h0 : t.val % 20 = 0
    · rw [outs_first V c t h0]
    · rw [outs_later V c t h0]
  rw [e]
  funext y
  have hemb : ((cfg3.win 3).blk t).view.emb y = ix2 (row t (y 0)) (y 1) := by
    funext a; apply Fin.ext
    match a with
    | ⟨0, _⟩ => show win3_3.index t (0 : Fin 2) * 5000 + 1 * (y 0).val = 5000 * t.val + (y 0).val; rw [e0]; omega
    | ⟨1, _⟩ => show win3_3.index t (1 : Fin 2) * 128 + 1 * (y 1).val = (y 1).val; rw [e1]; omega
  show k3_pay3 (F := Ideal) (iblk3 V c 0 t) (iblk3 V c 1 t) (iblk3 V c 2 t) y = Hspec V c (((cfg3.win 3).blk t).view.emb y)
  rw [hemb]
  exact pay3_blk' V c t y

/-- An index of the array is in point t's block iff each coordinate is in the block's range on its axis. -/
theorem mem_blk_h (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v57_0).slice (win3_3.rect t)).set ↔ _
  rw [View.set_slice_whole, Rect.mem_set_unit]
  exact Iff.rfl

/-- THE FIRST OUTPUT after the region: h, row by row; row n is written by point n / 5000. -/
theorem final_h (c : Dev nD) :
    (dat3 (F := Ideal) V c).arrAt 3 cfg3.N = Cert.Spec.postH (V c main_v55) (V c main_v15) (V c main_v56) :=
  (dat3 (F := Ideal) V c).arrAt_eq_of_cover 3 (Hspec V c) (fun t _ => flushed_h V c t) fun i => by
    have hi0 : (i 0).val < 100000 := (i 0).isLt
    have hi1 : (i 1).val < 128 := (i 1).isLt
    have hN : cfg3.N = 20 := N_eq
    obtain ⟨t, ht⟩ : ∃ t : Fin cfg3.N, t.val = (i 0).val / 5000 := ⟨⟨(i 0).val / 5000, by omega⟩, rfl⟩
    obtain ⟨-, -, -, -, -, -, e0, e1, -⟩ := idx_facts t
    refine ⟨t, flush3_3 t, ?_⟩
    rw [mem_blk_h]
    intro a
    match a with
    | ⟨0, _⟩ =>
      show win3_3.index t (0 : Fin 2) * 5000 ≤ (i 0).val ∧ (i 0).val < win3_3.index t (0 : Fin 2) * 5000 + 5000
      rw [e0]; omega
    | ⟨1, _⟩ =>
      show win3_3.index t (1 : Fin 2) * 128 ≤ (i 1).val ∧ (i 1).val < win3_3.index t (1 : Fin 2) * 128 + 128
      rw [e1]; omega

/-- A one-row index is (0, its lane). -/
theorem eq_row0 (y : S1x128.Idx) : y = ix2 (0 : Fin 1) (y 1) := by
  funext a
  match a with
  | ⟨0, _⟩ => exact Fin.ext (by have : (y 0).val < 1 := (y 0).isLt; show (y 0).val = 0; omega)
  | ⟨1, _⟩ => rfl

/-- A resident one-row block, written back, is the row itself: the window's block is its whole array. -/
theorem row_block_4 (t : Fin cfg3.N) (X : Vec Ideal S1x128 .f32) (G : Cert.Spec.Arr2 1 128)
    (h : ∀ q : Fin 128, X (ix2 (0 : Fin 1) q) = G (ix2 (0 : Fin 1) q)) :
    (cfg3.win 4).cut (grid3.coords t) X = ((cfg3.win 4).blk t).view.read (Elt Ideal) G := by
  obtain ⟨-, -, -, -, -, -, -, -, e0, e1, -⟩ := idx_facts t
  funext y
  have hemb : ((cfg3.win 4).blk t).view.emb y = ix2 (0 : Fin 1) (y 1) := by
    funext a; apply Fin.ext
    match a with
    | ⟨0, _⟩ =>
      show win3_4.index t (0 : Fin 2) * 1 + 1 * (y 0).val = 0
      have : (y 0).val < 1 := (y 0).isLt
      rw [e0]; omega
    | ⟨1, _⟩ => show win3_4.index t (1 : Fin 2) * 128 + 1 * (y 1).val = (y 1).val; rw [e1]; omega
  show X y = G (((cfg3.win 4).blk t).view.emb y)
  rw [hemb]
  exact (congrArg X (eq_row0 y)).trans (h (y 1))

/-- What the last point writes back of the row of sums is the column sums of h. -/
theorem flushed_sum (c : Dev nD) (t : Fin cfg3.N) (hf : (cfg3.win 4).flush t = true) :
    (dat3 (F := Ideal) V c).flushed 4 t
      = ((cfg3.win 4).blk t).view.read (Elt Ideal) (Cert.Spec.colSum (Hspec V c)) := by
  have hN : cfg3.N = 20 := N_eq
  have h19 : t.val = 19 := by have := (flush3_4 t).mp hf; have := t.isLt; omega
  show (cfg3.win 4).cut (grid3.coords t) ((dat3 (F := Ideal) V c).after 4 t) = _
  rw [after3_4]
  refine row_block_4 t (outsAt3 V c t.val t.isLt).2.1 (Cert.Spec.colSum (Hspec V c)) fun q => ?_
  rw [colSum_row]
  refine ((acc_inv V c q t.val t.isLt).1).trans ?_
  rw [h19, rows_all]
  exact (sum_all (fun k => hAt V c k q)).trans
    (Finset.sum_congr rfl fun n _ => (postH_ix (V c main_v55) (V c main_v15) (V c main_v56) n q).symm)

theorem mem_blk_sum (t : Fin cfg3.N) (i : S1x128.Idx) :
    i ∈ ((cfg3.win 4).blk t).view.set ↔ ∀ a : Fin 2, win3_4.index t a * S1x128.size a ≤ (i a).val
      ∧ (i a).val < win3_4.index t a * S1x128.size a + S1x128.size a := by
  show i ∈ ((View.whole main_v57_1).slice (win3_4.rect t)).set ↔ _
  rw [View.set_slice_whole, Rect.mem_set_unit]
  exact Iff.rfl

/-- THE SECOND OUTPUT after the region: per feature, the sum of h over all rows. -/
theorem final_sum (c : Dev nD) :
    (dat3 (F := Ideal) V c).arrAt 4 cfg3.N
      = Cert.Spec.colSum (Cert.Spec.postH (V c main_v55) (V c main_v15) (V c main_v56)) :=
  (dat3 (F := Ideal) V c).arrAt_eq_of_cover 4 (Cert.Spec.colSum (Hspec V c)) (fun t hf => flushed_sum V c t hf) fun i => by
    have hi0 : (i 0).val < 1 := (i 0).isLt
    have hi1 : (i 1).val < 128 := (i 1).isLt
    have hN : cfg3.N = 20 := N_eq
    obtain ⟨t, ht⟩ : ∃ t : Fin cfg3.N, t.val = 19 := ⟨⟨19, by omega⟩, rfl⟩
    obtain ⟨-, -, -, -, -, -, -, -, e0, e1, -⟩ := idx_facts t
    refine ⟨t, (flush3_4 t).mpr (by omega), ?_⟩
    rw [mem_blk_sum]
    intro a
    match a with
    | ⟨0, _⟩ =>
      show win3_4.index t (0 : Fin 2) * 1 ≤ (i 0).val ∧ (i 0).val < win3_4.index t (0 : Fin 2) * 1 + 1
      rw [e0]; omega
    | ⟨1, _⟩ =>
      show win3_4.index t (1 : Fin 2) * 128 ≤ (i 1).val ∧ (i 1).val < win3_4.index t (1 : Fin 2) * 128 + 128
      rw [e1]; omega

/-- A resident one-row block, written back, is the row itself: the window's block is its whole array. -/
theorem row_block_5 (t : Fin cfg3.N) (X : Vec Ideal S1x128 .f32) (G : Cert.Spec.Arr2 1 128)
    (h : ∀ q : Fin 128, X (ix2 (0 : Fin 1) q) = G (ix2 (0 : Fin 1) q)) :
    (cfg3.win 5).cut (grid3.coords t) X = ((cfg3.win 5).blk t).view.read (Elt Ideal) G := by
  obtain ⟨-, -, -, -, -, -, -, -, -, -, e0, e1⟩ := idx_facts t
  funext y
  have hemb : ((cfg3.win 5).blk t).view.emb y = ix2 (0 : Fin 1) (y 1) := by
    funext a; apply Fin.ext
    match a with
    | ⟨0, _⟩ =>
      show win3_5.index t (0 : Fin 2) * 1 + 1 * (y 0).val = 0
      have : (y 0).val < 1 := (y 0).isLt
      rw [e0]; omega
    | ⟨1, _⟩ => show win3_5.index t (1 : Fin 2) * 128 + 1 * (y 1).val = (y 1).val; rw [e1]; omega
  show X y = G (((cfg3.win 5).blk t).view.emb y)
  rw [hemb]
  exact (congrArg X (eq_row0 y)).trans (h (y 1))

/-- What the last point writes back of the row of sums of squares is the column sums of h². -/
theorem flushed_sq (c : Dev nD) (t : Fin cfg3.N) (hf : (cfg3.win 5).flush t = true) :
    (dat3 (F := Ideal) V c).flushed 5 t
      = ((cfg3.win 5).blk t).view.read (Elt Ideal) (Cert.Spec.colSumSq (Hspec V c)) := by
  have hN : cfg3.N = 20 := N_eq
  have h19 : t.val = 19 := by have := (flush3_5 t).mp hf; have := t.isLt; omega
  show (cfg3.win 5).cut (grid3.coords t) ((dat3 (F := Ideal) V c).after 5 t) = _
  rw [after3_5]
  refine row_block_5 t (outsAt3 V c t.val t.isLt).2.2 (Cert.Spec.colSumSq (Hspec V c)) fun q => ?_
  rw [colSumSq_row]
  refine ((acc_inv V c q t.val t.isLt).2).trans ?_
  rw [h19, rows_all]
  exact (sum_all (fun k => hAt V c k q * hAt V c k q)).trans
    (Finset.sum_congr rfl fun n _ => congrArg₂ (· * ·) (postH_ix (V c main_v55) (V c main_v15) (V c main_v56) n q).symm
        (postH_ix (V c main_v55) (V c main_v15) (V c main_v56) n q).symm)

theorem mem_blk_sq (t : Fin cfg3.N) (i : S1x128.Idx) :
    i ∈ ((cfg3.win 5).blk t).view.set ↔ ∀ a : Fin 2, win3_5.index t a * S1x128.size a ≤ (i a).val
      ∧ (i a).val < win3_5.index t a * S1x128.size a + S1x128.size a := by
  show i ∈ ((View.whole main_v57_2).slice (win3_5.rect t)).set ↔ _
  rw [View.set_slice_whole, Rect.mem_set_unit]
  exact Iff.rfl

/-- THE THIRD OUTPUT after the region: per feature, the sum of h² over all rows. -/
theorem final_sq (c : Dev nD) :
    (dat3 (F := Ideal) V c).arrAt 5 cfg3.N
      = Cert.Spec.colSumSq (Cert.Spec.postH (V c main_v55) (V c main_v15) (V c main_v56)) :=
  (dat3 (F := Ideal) V c).arrAt_eq_of_cover 5 (Cert.Spec.colSumSq (Hspec V c)) (fun t hf => flushed_sq V c t hf) fun i => by
    have hi0 : (i 0).val < 1 := (i 0).isLt
    have hi1 : (i 1).val < 128 := (i 1).isLt
    have hN : cfg3.N = 20 := N_eq
    obtain ⟨t, ht⟩ : ∃ t : Fin cfg3.N, t.val = 19 := ⟨⟨19, by omega⟩, rfl⟩
    obtain ⟨-, -, -, -, -, -, -, -, -, -, e0, e1⟩ := idx_facts t
    refine ⟨t, (flush3_5 t).mpr (by omega), ?_⟩
    rw [mem_blk_sq]
    intro a
    match a with
    | ⟨0, _⟩ =>
      show win3_5.index t (0 : Fin 2) * 1 ≤ (i 0).val ∧ (i 0).val < win3_5.index t (0 : Fin 2) * 1 + 1
      rw [e0]; omega
    | ⟨1, _⟩ =>
      show win3_5.index t (1 : Fin 2) * 128 ≤ (i 1).val ∧ (i 1).val < win3_5.index t (1 : Fin 2) * 128 + 128
      rw [e1]; omega

end Finals

end Cert.KernelIdeal.Region3

end
-- ==== Proof.KernelChain.lean ====
/-
  The idealized kernel's run, boundary by boundary: the buffer contents at each boundary between a stretch of host
  operations and a kernel launch, as functions of the fifteen argument arrays as launched. A host stretch is read off
  its printed operations; a launch replaces its output arrays by the whole-array function of its input arrays proved
  for that stage; a buffer that nothing in between writes keeps its contents. The last boundary's result buffer is the
  whole network `KGlue.kNet` of the arguments.
-/
import proofs.«160274_j87952340288037_2_alg».proof.Proof.Gen.KernelIdeal.Frame
import proofs.«160274_j87952340288037_2_alg».proof.Proof.Spec
import proofs.«160274_j87952340288037_2_alg».proof.Proof.KGlue
import proofs.«160274_j87952340288037_2_alg».proof.Proof.Region0
import proofs.«160274_j87952340288037_2_alg».proof.Proof.Region2
import proofs.«160274_j87952340288037_2_alg».proof.Proof.Region4
import proofs.«160274_j87952340288037_2_alg».proof.Proof.Region5
import proofs.«160274_j87952340288037_2_alg».proof.Proof.Region6
import proofs.«160274_j87952340288037_2_alg».proof.Proof.Region1
import proofs.«160274_j87952340288037_2_alg».proof.Proof.Region3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

/-! ## Lines of host operations, read at one buffer from ANY starting contents -/

/-- The contents after a line of operations are the contents after its tail from the contents after its head. -/
theorem after_append (a b : List (HloOp τ sig (Elt Ideal))) (V : Valuation τ sig (Elt Ideal)) :
    StableHlo.after (a ++ b) V = StableHlo.after b (StableHlo.after a V) := by
  induction a generalizing V with
  | nil => rfl
  | cons op a ih => rw [List.cons_append, StableHlo.after_cons, StableHlo.after_cons, ih]

/-- A line may be run in two parts, cut anywhere. -/
theorem after_take_drop (k : Nat) (l : List (HloOp τ sig (Elt Ideal))) (V : Valuation τ sig (Elt Ideal)) :
    StableHlo.after l V = StableHlo.after (l.drop k) (StableHlo.after (l.take k) V) := by
  conv_lhs => rw [← List.take_append_drop k l]
  exact after_append _ _ _

/-- A concatenation of the edge list's row with the node list depends only on the two parts. -/
theorem concat_congr (a a' : IVec S1600000 32) (b b' : IVec S100000 32) (ha : a = a') (hb : b = b') :
    concatenate S1700000 0 [⟨S1600000, a⟩, ⟨S100000, b⟩] concatenates_S1600000_S100000_S1700000_d0
      = concatenate S1700000 0 [⟨S1600000, a'⟩, ⟨S100000, b'⟩] concatenates_S1600000_S100000_S1700000_d0 := by
  subst ha hb; rfl

/-- "No operation of the line writes this buffer", for a line written out operation by operation. -/
macro "host_forall " ops:ident : tactic =>
  `(tactic| (simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

set_option maxHeartbeats 4000000 in
/-- The departure nodes of the edges, self loops appended. -/
theorem host0_src (X : Valuation τ sig (Elt Ideal)) :
    (StableHlo.after hostOps0 X (Proc.devRef .tc main_v3) : IVec S1700000 32) = KGlue.srcW (X (Proc.devRef .tc main_arg1)) := by
  simp only [hostOps0]
  after_results_simp
  unfold KGlue.srcW
  refine concat_congr _ _ _ _ ?_ ?_ <;> (after_results_simp <;> rfl)

set_option maxHeartbeats 4000000 in
/-- The arrival nodes of the edges, self loops appended. -/
theorem host0_dst (X : Valuation τ sig (Elt Ideal)) :
    (StableHlo.after hostOps0 X (Proc.devRef .tc main_v6) : IVec S1700000 32) = KGlue.dstW (X (Proc.devRef .tc main_arg1)) := by
  simp only [hostOps0]
  after_results_simp
  unfold KGlue.dstW
  refine concat_congr _ _ _ _ ?_ ?_ <;> (after_results_simp <;> rfl)

set_option maxHeartbeats 4000000 in
/-- The same arrival nodes after the first seven operations only. -/
theorem head0_dst (X : Valuation τ sig (Elt Ideal)) :
    (StableHlo.after (List.take 7 hostOps0) X (Proc.devRef .tc main_v6) : IVec S1700000 32) = KGlue.dstW (X (Proc.devRef .tc main_arg1)) := by
  simp only [hostOps0, List.take_succ_cons, List.take_zero]
  after_results_simp
  unfold KGlue.dstW
  refine concat_congr _ _ _ _ ?_ ?_ <;> (after_results_simp <;> rfl)

set_option maxHeartbeats 4000000 in
/-- The rest of the first stretch, from contents in which the arrival nodes are known: "degree > 0" … -/
theorem tail0_pos (X : Valuation τ sig (Elt Ideal)) (e : KGlue.Edges)
    (h6 : (X (Proc.devRef .tc main_v6) : IVec S1700000 32) = KGlue.dstW e) :
    (StableHlo.after (List.drop 7 hostOps0) X (Proc.devRef .tc main_v12) : IVec S100000 1)
      = cmpf .ogt (KGlue.deg e) KGlue.zerosN := by
  simp only [hostOps0, List.drop_succ_cons, List.drop_zero]
  after_results_simp
  rw [h6]
  rfl

set_option maxHeartbeats 4000000 in
/-- … the reciprocal square root of the degree … -/
theorem tail0_rsqrt (X : Valuation τ sig (Elt Ideal)) (e : KGlue.Edges)
    (h6 : (X (Proc.devRef .tc main_v6) : IVec S1700000 32) = KGlue.dstW e) :
    (StableHlo.after (List.drop 7 hostOps0) X (Proc.devRef .tc main_v13) : FVec Ideal S100000 .f32)
      = Host.rsqrt (F := Ideal) (KGlue.deg e) := by
  simp only [hostOps0, List.drop_succ_cons, List.drop_zero]
  after_results_simp
  rw [h6]
  rfl

set_option maxHeartbeats 4000000 in
/-- … and the zero the call is given. -/
theorem tail0_zero (X : Valuation τ sig (Elt Ideal)) :
    (StableHlo.after (List.drop 7 hostOps0) X (Proc.devRef .tc main_cst_2) : FVec Ideal S_ .f32)
      = constant (F := Ideal) S_ .f32 0x00000000#32 := by
  simp only [hostOps0, List.drop_succ_cons, List.drop_zero]
  after_results_simp

set_option maxHeartbeats 4000000 in
/-- The call: the second operand where the condition holds, the splat of the third elsewhere. -/
theorem where_result (Y : Valuation τ sig (Elt Ideal)) :
    (StableHlo.after hostOps0_1 Y (Proc.devRef .tc main_v14) : FVec Ideal S100000 .f32)
      = select (Y (Proc.devRef .tc main_v12) : IVec S100000 1) (Y (Proc.devRef .tc main_v13) : FVec Ideal S100000 .f32)
          (broadcastInDim S100000 ![] bcast_S_S100000 (Y (Proc.devRef .tc main_cst_2) : FVec Ideal S_ .f32)) := by
  simp only [hostOps0_1]
  after_results_simp
  rfl

set_option maxHeartbeats 4000000 in
/-- The reshape after the call: the vector as a column. -/
theorem column_result (Z : Valuation τ sig (Elt Ideal)) :
    (StableHlo.after hostOps0_2 Z (Proc.devRef .tc main_v15) : FVec Ideal S100000x1 .f32)
      = shapeCast S100000x1 (Z (Proc.devRef .tc main_v14) : FVec Ideal S100000 .f32) shapeCasts_S100000_S100000x1 := by
  simp only [hostOps0_2]
  after_results_simp
  rfl

/-- Together: the per-node factors "1/√degree where positive else 0" as a column. -/
theorem tail0_dinv (X : Valuation τ sig (Elt Ideal)) (e : KGlue.Edges)
    (h6 : (X (Proc.devRef .tc main_v6) : IVec S1700000 32) = KGlue.dstW e) :
    (StableHlo.after hostOps0_2 (StableHlo.after hostOps0_1 (StableHlo.after (List.drop 7 hostOps0) X)) (Proc.devRef .tc main_v15)
        : FVec Ideal S100000x1 .f32) = KGlue.dinvCol e := by
  rw [column_result, where_result, tail0_pos X e h6, tail0_rsqrt X e h6, tail0_zero X]
  rfl

set_option maxHeartbeats 4000000 in
/-- Host stretch 1: into each node the rows, taken at the departure nodes, of the edges arriving. -/
theorem host1_agg (X : Valuation τ sig (Elt Ideal)) (e : KGlue.Edges) (P : FVec Ideal S100000x128 .f32)
    (h3 : (X (Proc.devRef .tc main_v3) : IVec S1700000 32) = KGlue.srcW e) (h6 : (X (Proc.devRef .tc main_v6) : IVec S1700000 32) = KGlue.dstW e)
    (hP : (X (Proc.devRef .tc main_v16) : FVec Ideal S100000x128 .f32) = P) :
    (StableHlo.after hostOps1 X (Proc.devRef .tc main_v26) : FVec Ideal S100000x128 .f32) = KGlue.segSum e P := by
  simp only [hostOps1]
  after_results_simp
  rw [h3, h6, hP]
  rfl

set_option maxHeartbeats 4000000 in
/-- Host stretch 1: the bias vector as a row. -/
theorem host1_row (X : Valuation τ sig (Elt Ideal)) :
    (StableHlo.after hostOps1 X (Proc.devRef .tc main_v27) : FVec Ideal S1x128 .f32) = KGlue.rowOf (X (Proc.devRef .tc main_arg4)) := by
  simp only [hostOps1]
  after_results_simp
  rfl

set_option maxHeartbeats 4000000 in
/-- Host stretch 3: into each node the rows, taken at the departure nodes, of the edges arriving. -/
theorem host3_agg (X : Valuation τ sig (Elt Ideal)) (e : KGlue.Edges) (P : FVec Ideal S100000x128 .f32)
    (h3 : (X (Proc.devRef .tc main_v3) : IVec S1700000 32) = KGlue.srcW e) (h6 : (X (Proc.devRef .tc main_v6) : IVec S1700000 32) = KGlue.dstW e)
    (hP : (X (Proc.devRef .tc main_v45) : FVec Ideal S100000x128 .f32) = P) :
    (StableHlo.after hostOps3 X (Proc.devRef .tc main_v55) : FVec Ideal S100000x128 .f32) = KGlue.segSum e P := by
  simp only [hostOps3]
  after_results_simp
  rw [h3, h6, hP]
  rfl

set_option maxHeartbeats 4000000 in
/-- Host stretch 3: the bias vector as a row. -/
theorem host3_row (X : Valuation τ sig (Elt Ideal)) :
    (StableHlo.after hostOps3 X (Proc.devRef .tc main_v56) : FVec Ideal S1x128 .f32) = KGlue.rowOf (X (Proc.devRef .tc main_arg6)) := by
  simp only [hostOps3]
  after_results_simp
  rfl

set_option maxHeartbeats 4000000 in
/-- Host stretch 5: into each node the rows, taken at the departure nodes, of the edges arriving. -/
theorem host5_agg (X : Valuation τ sig (Elt Ideal)) (e : KGlue.Edges) (P : FVec Ideal S100000x128 .f32)
    (h3 : (X (Proc.devRef .tc main_v3) : IVec S1700000 32) = KGlue.srcW e) (h6 : (X (Proc.devRef .tc main_v6) : IVec S1700000 32) = KGlue.dstW e)
    (hP : (X (Proc.devRef .tc main_v74) : FVec Ideal S100000x128 .f32) = P) :
    (StableHlo.after hostOps5 X (Proc.devRef .tc main_v84) : FVec Ideal S100000x128 .f32) = KGlue.segSum e P := by
  simp only [hostOps5]
  after_results_simp
  rw [h3, h6, hP]
  rfl

set_option maxHeartbeats 4000000 in
/-- Host stretch 5: the bias vector as a row. -/
theorem host5_row (X : Valuation τ sig (Elt Ideal)) :
    (StableHlo.after hostOps5 X (Proc.devRef .tc main_v85) : FVec Ideal S1x128 .f32) = KGlue.rowOf (X (Proc.devRef .tc main_arg8)) := by
  simp only [hostOps5]
  after_results_simp
  rfl

set_option maxHeartbeats 4000000 in
/-- Host stretch 2: the scale row of the normalisation from the column sums and sums of squares. -/
theorem host2_scale (X : Valuation τ sig (Elt Ideal)) :
    (StableHlo.after hostOps2 X (Proc.devRef .tc main_v41) : FVec Ideal S1x128 .f32)
      = KGlue.scaleRow (X (Proc.devRef .tc main_v28_1)) (X (Proc.devRef .tc main_v28_2)) (X (Proc.devRef .tc main_arg9)) := by
  simp only [hostOps2]
  after_results_simp
  rfl

set_option maxHeartbeats 4000000 in
/-- Host stretch 2: the shift row of the normalisation. -/
theorem host2_shift (X : Valuation τ sig (Elt Ideal)) :
    (StableHlo.after hostOps2 X (Proc.devRef .tc main_v44) : FVec Ideal S1x128 .f32)
      = KGlue.shiftRow (X (Proc.devRef .tc main_v28_1)) (X (Proc.devRef .tc main_v28_2)) (X (Proc.devRef .tc main_arg9)) (X (Proc.devRef .tc main_arg10)) := by
  simp only [hostOps2]
  after_results_simp
  rfl

set_option maxHeartbeats 4000000 in
/-- Host stretch 4: the scale row of the normalisation from the column sums and sums of squares. -/
theorem host4_scale (X : Valuation τ sig (Elt Ideal)) :
    (StableHlo.after hostOps4 X (Proc.devRef .tc main_v70) : FVec Ideal S1x128 .f32)
      = KGlue.scaleRow (X (Proc.devRef .tc main_v57_1)) (X (Proc.devRef .tc main_v57_2)) (X (Proc.devRef .tc main_arg11)) := by
  simp only [hostOps4]
  after_results_simp
  rfl

set_option maxHeartbeats 4000000 in
/-- Host stretch 4: the shift row of the normalisation. -/
theorem host4_shift (X : Valuation τ sig (Elt Ideal)) :
    (StableHlo.after hostOps4 X (Proc.devRef .tc main_v73) : FVec Ideal S1x128 .f32)
      = KGlue.shiftRow (X (Proc.devRef .tc main_v57_1)) (X (Proc.devRef .tc main_v57_2)) (X (Proc.devRef .tc main_arg11)) (X (Proc.devRef .tc main_arg12)) := by
  simp only [hostOps4]
  after_results_simp
  rfl

set_option maxHeartbeats 4000000 in
/-- Host stretch 6: per graph, the mean of its nodes' rows. -/
theorem host6_pool (X : Valuation τ sig (Elt Ideal)) :
    (StableHlo.after hostOps6 X (Proc.devRef .tc main_v98) : FVec Ideal S128x128 .f32)
      = KGlue.meanPool (X (Proc.devRef .tc main_arg2)) (X (Proc.devRef .tc main_v86)) := by
  simp only [hostOps6]
  after_results_simp
  rfl

set_option maxHeartbeats 4000000 in
/-- Host stretch 6: the readout bias as a row. -/
theorem host6_bias (X : Valuation τ sig (Elt Ideal)) :
    (StableHlo.after hostOps6 X (Proc.devRef .tc main_v99) : FVec Ideal S1x64 .f32)
      = shapeCast S1x64 (X (Proc.devRef .tc main_arg14)) shapeCasts_S64_S1x64 := by
  simp only [hostOps6]
  after_results_simp
  rfl

/-! ## The run's boundaries -/

section Boundaries

variable (m : (ℓ : Loc nD τ sig) → Buf (Elt Ideal) ℓ) (ρ : Dev nD → PrngReg) (c : Dev nD)

/-- The edge list as launched, and the per-node factors from it. -/
abbrev edges : KGlue.Edges := (m ((c : Thread nD τ).loc main_arg1))
abbrev dcol : FVec Ideal S100000x1 .f32 := KGlue.dinvCol (edges m c)

/-- The tables of the three layers, as functions of the arguments as launched. -/
def p0 : FVec Ideal S100000x128 .f32 := Cert.Spec.linScale (m ((c : Thread nD τ).loc main_arg0)) (m ((c : Thread nD τ).loc main_arg3)) (dcol m c)
def h0 : FVec Ideal S100000x128 .f32 := KGlue.hOf (edges m c) (p0 m c) (m ((c : Thread nD τ).loc main_arg4))
def p1 : FVec Ideal S100000x128 .f32 := KGlue.nextP (edges m c) (h0 m c) (m ((c : Thread nD τ).loc main_arg9)) (m ((c : Thread nD τ).loc main_arg10)) (m ((c : Thread nD τ).loc main_arg5))
def h1 : FVec Ideal S100000x128 .f32 := KGlue.hOf (edges m c) (p1 m c) (m ((c : Thread nD τ).loc main_arg6))
def p2 : FVec Ideal S100000x128 .f32 := KGlue.nextP (edges m c) (h1 m c) (m ((c : Thread nD τ).loc main_arg11)) (m ((c : Thread nD τ).loc main_arg12)) (m ((c : Thread nD τ).loc main_arg7))
def act2 : FVec Ideal S100000x128 .f32 := Cert.Spec.postLrelu (KGlue.segSum (edges m c) (p2 m c)) (dcol m c) (KGlue.rowOf (m ((c : Thread nD τ).loc main_arg8)))

-- what the second and fourth launches leave, taken as given here and supplied at the end
variable
  (R1h : (dat1 (F := Ideal) (V5 m ρ) c).arrAt 3 cfg1.N = Cert.Spec.postH (V5 m ρ c main_v26) (V5 m ρ c main_v15) (V5 m ρ c main_v27))
  (R1s : (dat1 (F := Ideal) (V5 m ρ) c).arrAt 4 cfg1.N = Cert.Spec.colSum (Cert.Spec.postH (V5 m ρ c main_v26) (V5 m ρ c main_v15) (V5 m ρ c main_v27)))
  (R1q : (dat1 (F := Ideal) (V5 m ρ) c).arrAt 5 cfg1.N = Cert.Spec.colSumSq (Cert.Spec.postH (V5 m ρ c main_v26) (V5 m ρ c main_v15) (V5 m ρ c main_v27)))
  (R3h : (dat3 (F := Ideal) (V9 m ρ) c).arrAt 3 cfg3.N = Cert.Spec.postH (V9 m ρ c main_v55) (V9 m ρ c main_v15) (V9 m ρ c main_v56))
  (R3s : (dat3 (F := Ideal) (V9 m ρ) c).arrAt 4 cfg3.N = Cert.Spec.colSum (Cert.Spec.postH (V9 m ρ c main_v55) (V9 m ρ c main_v15) (V9 m ρ c main_v56)))
  (R3q : (dat3 (F := Ideal) (V9 m ρ) c).arrAt 5 cfg3.N = Cert.Spec.colSumSq (Cert.Spec.postH (V9 m ρ c main_v55) (V9 m ρ c main_v15) (V9 m ρ c main_v56)))
include R1h R1s R1q R3h R3s R3q

/-! ### The arguments, where they are read -/

theorem A3_arg0 : W3 m ρ c (Proc.devRef .tc main_arg0) = (m ((c : Thread nD τ).loc main_arg0)) :=
  ((show W3 m ρ c (Proc.devRef .tc main_arg0) = W2 m ρ c (Proc.devRef .tc main_arg0) from StableHlo.after_of_forall_not_mem (b := Proc.devRef .tc main_arg0) _ _ (List.forall_iff_forall_mem.mp (by host_forall hostOps0_2))).trans ((show W2 m ρ c (Proc.devRef .tc main_arg0) = W1 m ρ c (Proc.devRef .tc main_arg0) from StableHlo.after_of_forall_not_mem (b := Proc.devRef .tc main_arg0) _ _ (List.forall_iff_forall_mem.mp (by host_forall hostOps0_1))).trans (show W1 m ρ c (Proc.devRef .tc main_arg0) = W0 m ρ c (Proc.devRef .tc main_arg0) from StableHlo.after_of_forall_not_mem (b := Proc.devRef .tc main_arg0) _ _ (List.forall_iff_forall_mem.mp (by host_forall hostOps0))))).trans rfl

theorem A3_arg3 : W3 m ρ c (Proc.devRef .tc main_arg3) = (m ((c : Thread nD τ).loc main_arg3)) :=
  ((show W3 m ρ c (Proc.devRef .tc main_arg3) = W2 m ρ c (Proc.devRef .tc main_arg3) from StableHlo.after_of_forall_not_mem (b := Proc.devRef .tc main_arg3) _ _ (List.forall_iff_forall_mem.mp (by host_forall hostOps0_2))).trans ((show W2 m ρ c (Proc.devRef .tc main_arg3) = W1 m ρ c (Proc.devRef .tc main_arg3) from StableHlo.after_of_forall_not_mem (b := Proc.devRef .tc main_arg3) _ _ (List.forall_iff_forall_mem.mp (by host_forall hostOps0_1))).trans (show W1 m ρ c (Proc.devRef .tc main_arg3) = W0 m ρ c (Proc.devRef .tc main_arg3) from StableHlo.after_of_forall_not_mem (b := Proc.devRef .tc main_arg3) _ _ (List.forall_iff_forall_mem.mp (by host_forall hostOps0))))).trans rfl

theorem A4_arg4 : W4 m ρ c (Proc.devRef .tc main_arg4) = (m ((c : Thread nD τ).loc main_arg4)) :=
  ((W4_of_ne m ρ c main_arg4 (by decide)).trans ((show W3 m ρ c (Proc.devRef .tc main_arg4) = W2 m ρ c (Proc.devRef .tc main_arg4) from StableHlo.after_of_forall_not_mem (b := Proc.devRef .tc main_arg4) _ _ (List.forall_iff_forall_mem.mp (by host_forall hostOps0_2))).trans ((show W2 m ρ c (Proc.devRef .tc main_arg4) = W1 m ρ c (Proc.devRef .tc main_arg4) from StableHlo.after_of_forall_not_mem (b := Proc.devRef .tc main_arg4) _ _ (List.forall_iff_forall_mem.mp (by host_forall hostOps0_1))).trans (show W1 m ρ c (Proc.devRef .tc main_arg4) = W0 m ρ c (Proc.devRef .tc main_arg4) from StableHlo.after_of_forall_not_mem (b := Proc.devRef .tc main_arg4) _ _ (List.forall_iff_forall_mem.mp (by host_forall hostOps0)))))).trans rfl

theorem A6_arg9 : W6 m ρ c (Proc.devRef .tc main_arg9) = (m ((c : Thread nD τ).loc main_arg9)) :=
  ((W6_of_ne m ρ c main_arg9 (by decide)).trans ((show W5 m ρ c (Proc.devRef .tc main_arg9) = W4 m ρ c (Proc.devRef .tc main_arg9) from StableHlo.after_of_forall_not_mem (b := Proc.devRef .tc main_arg9) _ _ (List.forall_iff_forall_mem.mp (by host_forall hostOps1))).trans ((W4_of_ne m ρ c main_arg9 (by decide)).trans ((show W3 m ρ c (Proc.devRef .tc main_arg9) = W2 m ρ c (Proc.devRef .tc main_arg9) from StableHlo.after_of_forall_not_mem (b := Proc.devRef .tc main_arg9) _ _ (List.forall_iff_forall_mem.mp (by host_forall hostOps0_2))).trans ((show W2 m ρ c (Proc.devRef .tc main_arg9) = W1 m ρ c (Proc.devRef .tc main_arg9) from StableHlo.after_of_forall_not_mem (b := Proc.devRef .tc main_arg9) _ _ (List.forall_iff_forall_mem.mp (by host_forall hostOps0_1))).trans (show W1 m ρ c (Proc.devRef .tc main_arg9) = W0 m ρ c (Proc.devRef .tc main_arg9) from StableHlo.after_of_forall_not_mem (b := Proc.devRef .tc main_arg9) _ _ (List.forall_iff_forall_mem.mp (by host_forall hostOps0)))))))).trans rfl

theorem A6_arg10 : W6 m ρ c (Proc.devRef .tc main_arg10) = (m ((c : Thread nD τ).loc main_arg10)) :=
  ((W6_of_ne m ρ c main_arg10 (by decide)).trans ((show W5 m ρ c (Proc.devRef .tc main_arg10) = W4 m ρ c (Proc.devRef .tc main_arg10) from StableHlo.after_of_forall_not_mem (b := Proc.devRef .tc main_arg10) _ _ (List.forall_iff_forall_mem.mp (by host_forall hostOps1))).trans ((W4_of_ne m ρ c main_arg10 (by decide)).trans ((show W3 m ρ c (Proc.devRef .tc main_arg10) = W2 m ρ c (Proc.devRef .tc main_arg10) from StableHlo.after_of_forall_not_mem (b := Proc.devRef .tc main_arg10) _ _ (List.forall_iff_forall_mem.mp (by host_forall hostOps0_2))).trans ((show W2 m ρ c (Proc.devRef .tc main_arg10) = W1 m ρ c (Proc.devRef .tc main_arg10) from StableHlo.after_of_forall_not_mem (b := Proc.devRef .tc main_arg10) _ _ (List.forall_iff_forall_mem.mp (by host_forall hostOps0_1))).trans (show W1 m ρ c (Proc.devRef .tc main_arg10) = W0 m ρ c (Proc.devRef .tc main_arg10) from StableHlo.after_of_forall_not_mem (b := Proc.devRef .tc main_arg10) _ _ (List.forall_iff_forall_mem.mp (by host_forall hostOps0)))))))).trans rfl

theorem A7_arg5 : W7 m ρ c (Proc.devRef .tc main_arg5) = (m ((c : Thread nD τ).loc main_arg5)) :=
  ((show W7 m ρ c (Proc.devRef .tc main_arg5) = W6 m ρ c (Proc.devRef .tc main_arg5) from StableHlo.after_of_forall_not_mem (b := Proc.devRef .tc main_arg5) _ _ (List.forall_iff_forall_mem.mp (by host_forall hostOps2))).trans ((W6_of_ne m ρ c main_arg5 (by decide)).trans ((show W5 m ρ c (Proc.devRef .tc main_arg5) = W4 m ρ c (Proc.devRef .tc main_arg5) from StableHlo.after_of_forall_not_mem (b := Proc.devRef .tc main_arg5) _ _ (List.forall_iff_forall_mem.mp (by host_forall hostOps1))).trans ((W4_of_ne m ρ c main_arg5 (by decide)).trans ((show W3 m ρ c (Proc.devRef .tc main_arg5) = W2 m ρ c (Proc.devRef .tc main_arg5) from StableHlo.after_of_forall_not_mem (b := Proc.devRef .tc main_arg5) _ _ (List.forall_iff_forall_mem.mp (by host_forall hostOps0_2))).trans ((show W2 m ρ c (Proc.devRef .tc main_arg5) = W1 m ρ c (Proc.devRef .tc main_arg5) from StableHlo.after_of_forall_not_mem (b := Proc.devRef .tc main_arg5) _ _ (List.forall_iff_forall_mem.mp (by host_forall hostOps0_1))).trans (show W1 m ρ c (Proc.devRef .tc main_arg5) = W0 m ρ c (Proc.devRef .tc main_arg5) from StableHlo.after_of_forall_not_mem (b := Proc.devRef .tc main_arg5) _ _ (List.forall_iff_forall_mem.mp (by host_forall hostOps0))))))))).trans rfl

theorem A8_arg6 : W8 m ρ c (Proc.devRef .tc main_arg6) = (m ((c : Thread nD τ).loc main_arg6)) :=
  ((W8_of_ne m ρ c main_arg6 (by decide)).trans ((show W7 m ρ c (Proc.devRef .tc main_arg6) = W6 m ρ c (Proc.devRef .tc main_arg6) from StableHlo.after_of_forall_not_mem (b := Proc.devRef .tc main_arg6) _ _ (List.forall_iff_forall_mem.mp (by host_forall hostOps2))).trans ((W6_of_ne m ρ c main_arg6 (by decide)).trans ((show W5 m ρ c (Proc.devRef .tc main_arg6) = W4 m ρ c (Proc.devRef .tc main_arg6) from StableHlo.after_of_forall_not_mem (b := Proc.devRef .tc main_arg6) _ _ (List.forall_iff_forall_mem.mp (by host_forall hostOps1))).trans ((W4_of_ne m ρ c main_arg6 (by decide)).trans ((show W3 m ρ c (Proc.devRef .tc main_arg6) = W2 m ρ c (Proc.devRef .tc main_arg6) from StableHlo.after_of_forall_not_mem (b := Proc.devRef .tc main_arg6) _ _ (List.forall_iff_forall_mem.mp (by host_forall hostOps0_2))).trans ((show W2 m ρ c (Proc.devRef .tc main_arg6) = W1 m ρ c (Proc.devRef .tc main_arg6) from StableHlo.after_of_forall_not_mem (b := Proc.devRef .tc main_arg6) _ _ (List.forall_iff_forall_mem.mp (by host_forall hostOps0_1))).trans (show W1 m ρ c (Proc.devRef .tc main_arg6) = W0 m ρ c (Proc.devRef .tc main_arg6) from StableHlo.after_of_forall_not_mem (b := Proc.devRef .tc main_arg6) _ _ (List.forall_iff_forall_mem.mp (by host_forall hostOps0)))))))))).trans rfl

theorem A10_arg11 : W10 m ρ c (Proc.devRef .tc main_arg11) = (m ((c : Thread nD τ).loc main_arg11)) :=
  ((W10_of_ne m ρ c main_arg11 (by decide)).trans ((show W9 m ρ c (Proc.devRef .tc main_arg11) = W8 m ρ c (Proc.devRef .tc main_arg11) from StableHlo.after_of_forall_not_mem (b := Proc.devRef .tc main_arg11) _ _ (List.forall_iff_forall_mem.mp (by host_forall hostOps3))).trans ((W8_of_ne m ρ c main_arg11 (by decide)).trans ((show W7 m ρ c (Proc.devRef .tc main_arg11) = W6 m ρ c (Proc.devRef .tc main_arg11) from StableHlo.after_of_forall_not_mem (b := Proc.devRef .tc main_arg11) _ _ (List.forall_iff_forall_mem.mp (by host_forall hostOps2))).trans ((W6_of_ne m ρ c main_arg11 (by decide)).trans ((show W5 m ρ c (Proc.devRef .tc main_arg11) = W4 m ρ c (Proc.devRef .tc main_arg11) from StableHlo.after_of_forall_not_mem (b := Proc.devRef .tc main_arg11) _ _ (List.forall_iff_forall_mem.mp (by host_forall hostOps1))).trans ((W4_of_ne m ρ c main_arg11 (by decide)).trans ((show W3 m ρ c (Proc.devRef .tc main_arg11) = W2 m ρ c (Proc.devRef .tc main_arg11) from StableHlo.after_of_forall_not_mem (b := Proc.devRef .tc main_arg11) _ _ (List.forall_iff_forall_mem.mp (by host_forall hostOps0_2))).trans ((show W2 m ρ c (Proc.devRef .tc main_arg11) = W1 m ρ c (Proc.devRef .tc main_arg11) from StableHlo.after_of_forall_not_mem (b := Proc.devRef .tc main_arg11) _ _ (List.forall_iff_forall_mem.mp (by host_forall hostOps0_1))).trans (show W1 m ρ c (Proc.devRef .tc main_arg11) = W0 m ρ c (Proc.devRef .tc main_arg11) from StableHlo.after_of_forall_not_mem (b := Proc.devRef .tc main_arg11) _ _ (List.forall_iff_forall_mem.mp (by host_forall hostOps0)))))))))))).trans rfl

theorem A10_arg12 : W10 m ρ c (Proc.devRef .tc main_arg12) = (m ((c : Thread nD τ).loc main_arg12)) :=
  ((W10_of_ne m ρ c main_arg12 (by decide)).trans ((show W9 m ρ c (Proc.devRef .tc main_arg12) = W8 m ρ c (Proc.devRef .tc main_arg12) from StableHlo.after_of_forall_not_mem (b := Proc.devRef .tc main_arg12) _ _ (List.forall_iff_forall_mem.mp (by host_forall hostOps3))).trans ((W8_of_ne m ρ c main_arg12 (by decide)).trans ((show W7 m ρ c (Proc.devRef .tc main_arg12) = W6 m ρ c (Proc.devRef .tc main_arg12) from StableHlo.after_of_forall_not_mem (b := Proc.devRef .tc main_arg12) _ _ (List.forall_iff_forall_mem.mp (by host_forall hostOps2))).trans ((W6_of_ne m ρ c main_arg12 (by decide)).trans ((show W5 m ρ c (Proc.devRef .tc main_arg12) = W4 m ρ c (Proc.devRef .tc main_arg12) from StableHlo.after_of_forall_not_mem (b := Proc.devRef .tc main_arg12) _ _ (List.forall_iff_forall_mem.mp (by host_forall hostOps1))).trans ((W4_of_ne m ρ c main_arg12 (by decide)).trans ((show W3 m ρ c (Proc.devRef .tc main_arg12) = W2 m ρ c (Proc.devRef .tc main_arg12) from StableHlo.after_of_forall_not_mem (b := Proc.devRef .tc main_arg12) _ _ (List.forall_iff_forall_mem.mp (by host_forall hostOps0_2))).trans ((show W2 m ρ c (Proc.devRef .tc main_arg12) = W1 m ρ c (Proc.devRef .tc main_arg12) from StableHlo.after_of_forall_not_mem (b := Proc.devRef .tc main_arg12) _ _ (List.forall_iff_forall_mem.mp (by host_forall hostOps0_1))).trans (show W1 m ρ c (Proc.devRef .tc main_arg12) = W0 m ρ c (Proc.devRef .tc main_arg12) from StableHlo.after_of_forall_not_mem (b := Proc.devRef .tc main_arg12) _ _ (List.forall_iff_forall_mem.mp (by host_forall hostOps0)))))))))))).trans rfl

theorem A11_arg7 : W11 m ρ c (Proc.devRef .tc main_arg7) = (m ((c : Thread nD τ).loc main_arg7)) :=
  ((show W11 m ρ c (Proc.devRef .tc main_arg7) = W10 m ρ c (Proc.devRef .tc main_arg7) from StableHlo.after_of_forall_not_mem (b := Proc.devRef .tc main_arg7) _ _ (List.forall_iff_forall_mem.mp (by host_forall hostOps4))).trans ((W10_of_ne m ρ c main_arg7 (by decide)).trans ((show W9 m ρ c (Proc.devRef .tc main_arg7) = W8 m ρ c (Proc.devRef .tc main_arg7) from StableHlo.after_of_forall_not_mem (b := Proc.devRef .tc main_arg7) _ _ (List.forall_iff_forall_mem.mp (by host_forall hostOps3))).trans ((W8_of_ne m ρ c main_arg7 (by decide)).trans ((show W7 m ρ c (Proc.devRef .tc main_arg7) = W6 m ρ c (Proc.devRef .tc main_arg7) from StableHlo.after_of_forall_not_mem (b := Proc.devRef .tc main_arg7) _ _ (List.forall_iff_forall_mem.mp (by host_forall hostOps2))).trans ((W6_of_ne m ρ c main_arg7 (by decide)).trans ((show W5 m ρ c (Proc.devRef .tc main_arg7) = W4 m ρ c (Proc.devRef .tc main_arg7) from StableHlo.after_of_forall_not_mem (b := Proc.devRef .tc main_arg7) _ _ (List.forall_iff_forall_mem.mp (by host_forall hostOps1))).trans ((W4_of_ne m ρ c main_arg7 (by decide)).trans ((show W3 m ρ c (Proc.devRef .tc main_arg7) = W2 m ρ c (Proc.devRef .tc main_arg7) from StableHlo.after_of_forall_not_mem (b := Proc.devRef .tc main_arg7) _ _ (List.forall_iff_forall_mem.mp (by host_forall hostOps0_2))).trans ((show W2 m ρ c (Proc.devRef .tc main_arg7) = W1 m ρ c (Proc.devRef .tc main_arg7) from StableHlo.after_of_forall_not_mem (b := Proc.devRef .tc main_arg7) _ _ (List.forall_iff_forall_mem.mp (by host_forall hostOps0_1))).trans (show W1 m ρ c (Proc.devRef .tc main_arg7) = W0 m ρ c (Proc.devRef .tc main_arg7) from StableHlo.after_of_forall_not_mem (b := Proc.devRef .tc main_arg7) _ _ (List.forall_iff_forall_mem.mp (by host_forall hostOps0))))))))))))).trans rfl

theorem A12_arg8 : W12 m ρ c (Proc.devRef .tc main_arg8) = (m ((c : Thread nD τ).loc main_arg8)) :=
  ((W12_of_ne m ρ c main_arg8 (by decide)).trans ((show W11 m ρ c (Proc.devRef .tc main_arg8) = W10 m ρ c (Proc.devRef .tc main_arg8) from StableHlo.after_of_forall_not_mem (b := Proc.devRef .tc main_arg8) _ _ (List.forall_iff_forall_mem.mp (by host_forall hostOps4))).trans ((W10_of_ne m ρ c main_arg8 (by decide)).trans ((show W9 m ρ c (Proc.devRef .tc main_arg8) = W8 m ρ c (Proc.devRef .tc main_arg8) from StableHlo.after_of_forall_not_mem (b := Proc.devRef .tc main_arg8) _ _ (List.forall_iff_forall_mem.mp (by host_forall hostOps3))).trans ((W8_of_ne m ρ c main_arg8 (by decide)).trans ((show W7 m ρ c (Proc.devRef .tc main_arg8) = W6 m ρ c (Proc.devRef .tc main_arg8) from StableHlo.after_of_forall_not_mem (b := Proc.devRef .tc main_arg8) _ _ (List.forall_iff_forall_mem.mp (by host_forall hostOps2))).trans ((W6_of_ne m ρ c main_arg8 (by decide)).trans ((show W5 m ρ c (Proc.devRef .tc main_arg8) = W4 m ρ c (Proc.devRef .tc main_arg8) from StableHlo.after_of_forall_not_mem (b := Proc.devRef .tc main_arg8) _ _ (List.forall_iff_forall_mem.mp (by host_forall hostOps1))).trans ((W4_of_ne m ρ c main_arg8 (by decide)).trans ((show W3 m ρ c (Proc.devRef .tc main_arg8) = W2 m ρ c (Proc.devRef .tc main_arg8) from StableHlo.after_of_forall_not_mem (b := Proc.devRef .tc main_arg8) _ _ (List.forall_iff_forall_mem.mp (by host_forall hostOps0_2))).trans ((show W2 m ρ c (Proc.devRef .tc main_arg8) = W1 m ρ c (Proc.devRef .tc main_arg8) from StableHlo.after_of_forall_not_mem (b := Proc.devRef .tc main_arg8) _ _ (List.forall_iff_forall_mem.mp (by host_forall hostOps0_1))).trans (show W1 m ρ c (Proc.devRef .tc main_arg8) = W0 m ρ c (Proc.devRef .tc main_arg8) from StableHlo.after_of_forall_not_mem (b := Proc.devRef .tc main_arg8) _ _ (List.forall_iff_forall_mem.mp (by host_forall hostOps0)))))))))))))).trans rfl

theorem A14_arg2 : W14 m ρ c (Proc.devRef .tc main_arg2) = (m ((c : Thread nD τ).loc main_arg2)) :=
  ((W14_of_ne m ρ c main_arg2 (by decide)).trans ((show W13 m ρ c (Proc.devRef .tc main_arg2) = W12 m ρ c (Proc.devRef .tc main_arg2) from StableHlo.after_of_forall_not_mem (b := Proc.devRef .tc main_arg2) _ _ (List.forall_iff_forall_mem.mp (by host_forall hostOps5))).trans ((W12_of_ne m ρ c main_arg2 (by decide)).trans ((show W11 m ρ c (Proc.devRef .tc main_arg2) = W10 m ρ c (Proc.devRef .tc main_arg2) from StableHlo.after_of_forall_not_mem (b := Proc.devRef .tc main_arg2) _ _ (List.forall_iff_forall_mem.mp (by host_forall hostOps4))).trans ((W10_of_ne m ρ c main_arg2 (by decide)).trans ((show W9 m ρ c (Proc.devRef .tc main_arg2) = W8 m ρ c (Proc.devRef .tc main_arg2) from StableHlo.after_of_forall_not_mem (b := Proc.devRef .tc main_arg2) _ _ (List.forall_iff_forall_mem.mp (by host_forall hostOps3))).trans ((W8_of_ne m ρ c main_arg2 (by decide)).trans ((show W7 m ρ c (Proc.devRef .tc main_arg2) = W6 m ρ c (Proc.devRef .tc main_arg2) from StableHlo.after_of_forall_not_mem (b := Proc.devRef .tc main_arg2) _ _ (List.forall_iff_forall_mem.mp (by host_forall hostOps2))).trans ((W6_of_ne m ρ c main_arg2 (by decide)).trans ((show W5 m ρ c (Proc.devRef .tc main_arg2) = W4 m ρ c (Proc.devRef .tc main_arg2) from StableHlo.after_of_forall_not_mem (b := Proc.devRef .tc main_arg2) _ _ (List.forall_iff_forall_mem.mp (by host_forall hostOps1))).trans ((W4_of_ne m ρ c main_arg2 (by decide)).trans ((show W3 m ρ c (Proc.devRef .tc main_arg2) = W2 m ρ c (Proc.devRef .tc main_arg2) from StableHlo.after_of_forall_not_mem (b := Proc.devRef .tc main_arg2) _ _ (List.forall_iff_forall_mem.mp (by host_forall hostOps0_2))).trans ((show W2 m ρ c (Proc.devRef .tc main_arg2) = W1 m ρ c (Proc.devRef .tc main_arg2) from StableHlo.after_of_forall_not_mem (b := Proc.devRef .tc main_arg2) _ _ (List.forall_iff_forall_mem.mp (by host_forall hostOps0_1))).trans (show W1 m ρ c (Proc.devRef .tc main_arg2) = W0 m ρ c (Proc.devRef .tc main_arg2) from StableHlo.after_of_forall_not_mem (b := Proc.devRef .tc main_arg2) _ _ (List.forall_iff_forall_mem.mp (by host_forall hostOps0)))))))))))))))).trans rfl

theorem A14_arg14 : W14 m ρ c (Proc.devRef .tc main_arg14) = (m ((c : Thread nD τ).loc main_arg14)) :=
  ((W14_of_ne m ρ c main_arg14 (by decide)).trans ((show W13 m ρ c (Proc.devRef .tc main_arg14) = W12 m ρ c (Proc.devRef .tc main_arg14) from StableHlo.after_of_forall_not_mem (b := Proc.devRef .tc main_arg14) _ _ (List.forall_iff_forall_mem.mp (by host_forall hostOps5))).trans ((W12_of_ne m ρ c main_arg14 (by decide)).trans ((show W11 m ρ c (Proc.devRef .tc main_arg14) = W10 m ρ c (Proc.devRef .tc main_arg14) from StableHlo.after_of_forall_not_mem (b := Proc.devRef .tc main_arg14) _ _ (List.forall_iff_forall_mem.mp (by host_forall hostOps4))).trans ((W10_of_ne m ρ c main_arg14 (by decide)).trans ((show W9 m ρ c (Proc.devRef .tc main_arg14) = W8 m ρ c (Proc.devRef .tc main_arg14) from StableHlo.after_of_forall_not_mem (b := Proc.devRef .tc main_arg14) _ _ (List.forall_iff_forall_mem.mp (by host_forall hostOps3))).trans ((W8_of_ne m ρ c main_arg14 (by decide)).trans ((show W7 m ρ c (Proc.devRef .tc main_arg14) = W6 m ρ c (Proc.devRef .tc main_arg14) from StableHlo.after_of_forall_not_mem (b := Proc.devRef .tc main_arg14) _ _ (List.forall_iff_forall_mem.mp (by host_forall hostOps2))).trans ((W6_of_ne m ρ c main_arg14 (by decide)).trans ((show W5 m ρ c (Proc.devRef .tc main_arg14) = W4 m ρ c (Proc.devRef .tc main_arg14) from StableHlo.after_of_forall_not_mem (b := Proc.devRef .tc main_arg14) _ _ (List.forall_iff_forall_mem.mp (by host_forall hostOps1))).trans ((W4_of_ne m ρ c main_arg14 (by decide)).trans ((show W3 m ρ c (Proc.devRef .tc main_arg14) = W2 m ρ c (Proc.devRef .tc main_arg14) from StableHlo.after_of_forall_not_mem (b := Proc.devRef .tc main_arg14) _ _ (List.forall_iff_forall_mem.mp (by host_forall hostOps0_2))).trans ((show W2 m ρ c (Proc.devRef .tc main_arg14) = W1 m ρ c (Proc.devRef .tc main_arg14) from StableHlo.after_of_forall_not_mem (b := Proc.devRef .tc main_arg14) _ _ (List.forall_iff_forall_mem.mp (by host_forall hostOps0_1))).trans (show W1 m ρ c (Proc.devRef .tc main_arg14) = W0 m ρ c (Proc.devRef .tc main_arg14) from StableHlo.after_of_forall_not_mem (b := Proc.devRef .tc main_arg14) _ _ (List.forall_iff_forall_mem.mp (by host_forall hostOps0)))))))))))))))).trans rfl

theorem A15_arg13 : W15 m ρ c (Proc.devRef .tc main_arg13) = (m ((c : Thread nD τ).loc main_arg13)) :=
  ((show W15 m ρ c (Proc.devRef .tc main_arg13) = W14 m ρ c (Proc.devRef .tc main_arg13) from StableHlo.after_of_forall_not_mem (b := Proc.devRef .tc main_arg13) _ _ (List.forall_iff_forall_mem.mp (by host_forall hostOps6))).trans ((W14_of_ne m ρ c main_arg13 (by decide)).trans ((show W13 m ρ c (Proc.devRef .tc main_arg13) = W12 m ρ c (Proc.devRef .tc main_arg13) from StableHlo.after_of_forall_not_mem (b := Proc.devRef .tc main_arg13) _ _ (List.forall_iff_forall_mem.mp (by host_forall hostOps5))).trans ((W12_of_ne m ρ c main_arg13 (by decide)).trans ((show W11 m ρ c (Proc.devRef .tc main_arg13) = W10 m ρ c (Proc.devRef .tc main_arg13) from StableHlo.after_of_forall_not_mem (b := Proc.devRef .tc main_arg13) _ _ (List.forall_iff_forall_mem.mp (by host_forall hostOps4))).trans ((W10_of_ne m ρ c main_arg13 (by decide)).trans ((show W9 m ρ c (Proc.devRef .tc main_arg13) = W8 m ρ c (Proc.devRef .tc main_arg13) from StableHlo.after_of_forall_not_mem (b := Proc.devRef .tc main_arg13) _ _ (List.forall_iff_forall_mem.mp (by host_forall hostOps3))).trans ((W8_of_ne m ρ c main_arg13 (by decide)).trans ((show W7 m ρ c (Proc.devRef .tc main_arg13) = W6 m ρ c (Proc.devRef .tc main_arg13) from StableHlo.after_of_forall_not_mem (b := Proc.devRef .tc main_arg13) _ _ (List.forall_iff_forall_mem.mp (by host_forall hostOps2))).trans ((W6_of_ne m ρ c main_arg13 (by decide)).trans ((show W5 m ρ c (Proc.devRef .tc main_arg13) = W4 m ρ c (Proc.devRef .tc main_arg13) from StableHlo.after_of_forall_not_mem (b := Proc.devRef .tc main_arg13) _ _ (List.forall_iff_forall_mem.mp (by host_forall hostOps1))).trans ((W4_of_ne m ρ c main_arg13 (by decide)).trans ((show W3 m ρ c (Proc.devRef .tc main_arg13) = W2 m ρ c (Proc.devRef .tc main_arg13) from StableHlo.after_of_forall_not_mem (b := Proc.devRef .tc main_arg13) _ _ (List.forall_iff_forall_mem.mp (by host_forall hostOps0_2))).trans ((show W2 m ρ c (Proc.devRef .tc main_arg13) = W1 m ρ c (Proc.devRef .tc main_arg13) from StableHlo.after_of_forall_not_mem (b := Proc.devRef .tc main_arg13) _ _ (List.forall_iff_forall_mem.mp (by host_forall hostOps0_1))).trans (show W1 m ρ c (Proc.devRef .tc main_arg13) = W0 m ρ c (Proc.devRef .tc main_arg13) from StableHlo.after_of_forall_not_mem (b := Proc.devRef .tc main_arg13) _ _ (List.forall_iff_forall_mem.mp (by host_forall hostOps0))))))))))))))))).trans rfl

/-! ### The edge lists and the per-node factors -/

theorem W1_src : (W1 m ρ c (Proc.devRef .tc main_v3) : IVec S1700000 32) = KGlue.srcW (edges m c) := host0_src (W0 m ρ c)
theorem W1_dst : (W1 m ρ c (Proc.devRef .tc main_v6) : IVec S1700000 32) = KGlue.dstW (edges m c) := host0_dst (W0 m ρ c)

theorem W3_dinv : (W3 m ρ c (Proc.devRef .tc main_v15) : FVec Ideal S100000x1 .f32) = (dcol m c) := by
  dsimp only [W3, W2, W1]
  rw [after_take_drop 7 hostOps0]
  exact tail0_dinv _ _ (head0_dst (W0 m ρ c))

theorem W4_src : (W4 m ρ c (Proc.devRef .tc main_v3) : IVec S1700000 32) = KGlue.srcW (edges m c) :=
  ((W4_of_ne m ρ c main_v3 (by decide)).trans ((show W3 m ρ c (Proc.devRef .tc main_v3) = W2 m ρ c (Proc.devRef .tc main_v3) from StableHlo.after_of_forall_not_mem (b := Proc.devRef .tc main_v3) _ _ (List.forall_iff_forall_mem.mp (by host_forall hostOps0_2))).trans (show W2 m ρ c (Proc.devRef .tc main_v3) = W1 m ρ c (Proc.devRef .tc main_v3) from StableHlo.after_of_forall_not_mem (b := Proc.devRef .tc main_v3) _ _ (List.forall_iff_forall_mem.mp (by host_forall hostOps0_1))))).trans (W1_src m ρ c R1h R1s R1q R3h R3s R3q)

theorem W4_dst : (W4 m ρ c (Proc.devRef .tc main_v6) : IVec S1700000 32) = KGlue.dstW (edges m c) :=
  ((W4_of_ne m ρ c main_v6 (by decide)).trans ((show W3 m ρ c (Proc.devRef .tc main_v6) = W2 m ρ c (Proc.devRef .tc main_v6) from StableHlo.after_of_forall_not_mem (b := Proc.devRef .tc main_v6) _ _ (List.forall_iff_forall_mem.mp (by host_forall hostOps0_2))).trans (show W2 m ρ c (Proc.devRef .tc main_v6) = W1 m ρ c (Proc.devRef .tc main_v6) from StableHlo.after_of_forall_not_mem (b := Proc.devRef .tc main_v6) _ _ (List.forall_iff_forall_mem.mp (by host_forall hostOps0_1))))).trans (W1_dst m ρ c R1h R1s R1q R3h R3s R3q)

theorem W8_src : (W8 m ρ c (Proc.devRef .tc main_v3) : IVec S1700000 32) = KGlue.srcW (edges m c) :=
  ((W8_of_ne m ρ c main_v3 (by decide)).trans ((show W7 m ρ c (Proc.devRef .tc main_v3) = W6 m ρ c (Proc.devRef .tc main_v3) from StableHlo.after_of_forall_not_mem (b := Proc.devRef .tc main_v3) _ _ (List.forall_iff_forall_mem.mp (by host_forall hostOps2))).trans ((W6_of_ne m ρ c main_v3 (by decide)).trans (show W5 m ρ c (Proc.devRef .tc main_v3) = W4 m ρ c (Proc.devRef .tc main_v3) from StableHlo.after_of_forall_not_mem (b := Proc.devRef .tc main_v3) _ _ (List.forall_iff_forall_mem.mp (by host_forall hostOps1)))))).trans (W4_src m ρ c R1h R1s R1q R3h R3s R3q)

theorem W8_dst : (W8 m ρ c (Proc.devRef .tc main_v6) : IVec S1700000 32) = KGlue.dstW (edges m c) :=
  ((W8_of_ne m ρ c main_v6 (by decide)).trans ((show W7 m ρ c (Proc.devRef .tc main_v6) = W6 m ρ c (Proc.devRef .tc main_v6) from StableHlo.after_of_forall_not_mem (b := Proc.devRef .tc main_v6) _ _ (List.forall_iff_forall_mem.mp (by host_forall hostOps2))).trans ((W6_of_ne m ρ c main_v6 (by decide)).trans (show W5 m ρ c (Proc.devRef .tc main_v6) = W4 m ρ c (Proc.devRef .tc main_v6) from StableHlo.after_of_forall_not_mem (b := Proc.devRef .tc main_v6) _ _ (List.forall_iff_forall_mem.mp (by host_forall hostOps1)))))).trans (W4_dst m ρ c R1h R1s R1q R3h R3s R3q)

theorem W12_src : (W12 m ρ c (Proc.devRef .tc main_v3) : IVec S1700000 32) = KGlue.srcW (edges m c) :=
  ((W12_of_ne m ρ c main_v3 (by decide)).trans ((show W11 m ρ c (Proc.devRef .tc main_v3) = W10 m ρ c (Proc.devRef .tc main_v3) from StableHlo.after_of_forall_not_mem (b := Proc.devRef .tc main_v3) _ _ (List.forall_iff_forall_mem.mp (by host_forall hostOps4))).trans ((W10_of_ne m ρ c main_v3 (by decide)).trans (show W9 m ρ c (Proc.devRef .tc main_v3) = W8 m ρ c (Proc.devRef .tc main_v3) from StableHlo.after_of_forall_not_mem (b := Proc.devRef .tc main_v3) _ _ (List.forall_iff_forall_mem.mp (by host_forall hostOps3)))))).trans (W8_src m ρ c R1h R1s R1q R3h R3s R3q)

theorem W12_dst : (W12 m ρ c (Proc.devRef .tc main_v6) : IVec S1700000 32) = KGlue.dstW (edges m c) :=
  ((W12_of_ne m ρ c main_v6 (by decide)).trans ((show W11 m ρ c (Proc.devRef .tc main_v6) = W10 m ρ c (Proc.devRef .tc main_v6) from StableHlo.after_of_forall_not_mem (b := Proc.devRef .tc main_v6) _ _ (List.forall_iff_forall_mem.mp (by host_forall hostOps4))).trans ((W10_of_ne m ρ c main_v6 (by decide)).trans (show W9 m ρ c (Proc.devRef .tc main_v6) = W8 m ρ c (Proc.devRef .tc main_v6) from StableHlo.after_of_forall_not_mem (b := Proc.devRef .tc main_v6) _ _ (List.forall_iff_forall_mem.mp (by host_forall hostOps3)))))).trans (W8_dst m ρ c R1h R1s R1q R3h R3s R3q)

theorem W5_dinv : (W5 m ρ c (Proc.devRef .tc main_v15) : FVec Ideal S100000x1 .f32) = (dcol m c) :=
  ((show W5 m ρ c (Proc.devRef .tc main_v15) = W4 m ρ c (Proc.devRef .tc main_v15) from StableHlo.after_of_forall_not_mem (b := Proc.devRef .tc main_v15) _ _ (List.forall_iff_forall_mem.mp (by host_forall hostOps1))).trans ((W4_arr m ρ c 2).trans (((dat0 (V3 m ρ) c).arrAt_in 2 rfl _).trans (A_eq0 (V3 m ρ) c 2)))).trans (W3_dinv m ρ c R1h R1s R1q R3h R3s R3q)

theorem W7_dinv : (W7 m ρ c (Proc.devRef .tc main_v15) : FVec Ideal S100000x1 .f32) = (dcol m c) :=
  ((show W7 m ρ c (Proc.devRef .tc main_v15) = W6 m ρ c (Proc.devRef .tc main_v15) from StableHlo.after_of_forall_not_mem (b := Proc.devRef .tc main_v15) _ _ (List.forall_iff_forall_mem.mp (by host_forall hostOps2))).trans ((W6_arr m ρ c 1).trans (((dat1 (V5 m ρ) c).arrAt_in 1 rfl _).trans (A_eq1 (V5 m ρ) c 1)))).trans (W5_dinv m ρ c R1h R1s R1q R3h R3s R3q)

theorem W9_dinv : (W9 m ρ c (Proc.devRef .tc main_v15) : FVec Ideal S100000x1 .f32) = (dcol m c) :=
  ((show W9 m ρ c (Proc.devRef .tc main_v15) = W8 m ρ c (Proc.devRef .tc main_v15) from StableHlo.after_of_forall_not_mem (b := Proc.devRef .tc main_v15) _ _ (List.forall_iff_forall_mem.mp (by host_forall hostOps3))).trans ((W8_arr m ρ c 4).trans (((dat2 (V7 m ρ) c).arrAt_in 4 rfl _).trans (A_eq2 (V7 m ρ) c 4)))).trans (W7_dinv m ρ c R1h R1s R1q R3h R3s R3q)

theorem W11_dinv : (W11 m ρ c (Proc.devRef .tc main_v15) : FVec Ideal S100000x1 .f32) = (dcol m c) :=
  ((show W11 m ρ c (Proc.devRef .tc main_v15) = W10 m ρ c (Proc.devRef .tc main_v15) from StableHlo.after_of_forall_not_mem (b := Proc.devRef .tc main_v15) _ _ (List.forall_iff_forall_mem.mp (by host_forall hostOps4))).trans ((W10_arr m ρ c 1).trans (((dat3 (V9 m ρ) c).arrAt_in 1 rfl _).trans (A_eq3 (V9 m ρ) c 1)))).trans (W9_dinv m ρ c R1h R1s R1q R3h R3s R3q)

theorem W13_dinv : (W13 m ρ c (Proc.devRef .tc main_v15) : FVec Ideal S100000x1 .f32) = (dcol m c) :=
  ((show W13 m ρ c (Proc.devRef .tc main_v15) = W12 m ρ c (Proc.devRef .tc main_v15) from StableHlo.after_of_forall_not_mem (b := Proc.devRef .tc main_v15) _ _ (List.forall_iff_forall_mem.mp (by host_forall hostOps5))).trans ((W12_arr m ρ c 4).trans (((dat4 (V11 m ρ) c).arrAt_in 4 rfl _).trans (A_eq4 (V11 m ρ) c 4)))).trans (W11_dinv m ρ c R1h R1s R1q R3h R3s R3q)

/-! ### Layer 1 -/

/-- After the first launch: the features times the weights, rows scaled. -/
theorem W4_p0 : (W4 m ρ c (Proc.devRef .tc main_v16) : FVec Ideal S100000x128 .f32) = p0 m c := by
  refine (W4_arr m ρ c 3).trans ((Cert.KernelIdeal.Region0.final (V3 m ρ) c).trans ?_)
  show Cert.Spec.linScale (W3 m ρ c (Proc.devRef .tc main_arg0)) (W3 m ρ c (Proc.devRef .tc main_arg3)) (W3 m ρ c (Proc.devRef .tc main_v15)) = _
  rw [A3_arg0 m ρ c R1h R1s R1q R3h R3s R3q, A3_arg3 m ρ c R1h R1s R1q R3h R3s R3q, W3_dinv m ρ c R1h R1s R1q R3h R3s R3q]
  rfl

theorem W5_agg : (W5 m ρ c (Proc.devRef .tc main_v26) : FVec Ideal S100000x128 .f32) = KGlue.segSum (edges m c) (p0 m c) :=
  host1_agg (W4 m ρ c) _ _ (W4_src m ρ c R1h R1s R1q R3h R3s R3q) (W4_dst m ρ c R1h R1s R1q R3h R3s R3q) (W4_p0 m ρ c R1h R1s R1q R3h R3s R3q)

theorem W5_row : (W5 m ρ c (Proc.devRef .tc main_v27) : FVec Ideal S1x128 .f32) = KGlue.rowOf (m ((c : Thread nD τ).loc main_arg4)) :=
  (host1_row (W4 m ρ c)).trans (congrArg KGlue.rowOf (A4_arg4 m ρ c R1h R1s R1q R3h R3s R3q))

theorem W6_h0 : (W6 m ρ c (Proc.devRef .tc main_v28_0) : FVec Ideal S100000x128 .f32) = h0 m c := by
  refine (W6_arr m ρ c 3).trans (R1h.trans ?_)
  show Cert.Spec.postH (W5 m ρ c (Proc.devRef .tc main_v26)) (W5 m ρ c (Proc.devRef .tc main_v15)) (W5 m ρ c (Proc.devRef .tc main_v27)) = _
  rw [W5_agg m ρ c R1h R1s R1q R3h R3s R3q, W5_dinv m ρ c R1h R1s R1q R3h R3s R3q, W5_row m ρ c R1h R1s R1q R3h R3s R3q]
  rfl

theorem W6_sum : (W6 m ρ c (Proc.devRef .tc main_v28_1) : FVec Ideal S1x128 .f32) = Cert.Spec.colSum (h0 m c) := by
  refine (W6_arr m ρ c 4).trans (R1s.trans ?_)
  show Cert.Spec.colSum (Cert.Spec.postH (W5 m ρ c (Proc.devRef .tc main_v26)) (W5 m ρ c (Proc.devRef .tc main_v15)) (W5 m ρ c (Proc.devRef .tc main_v27))) = _
  rw [W5_agg m ρ c R1h R1s R1q R3h R3s R3q, W5_dinv m ρ c R1h R1s R1q R3h R3s R3q, W5_row m ρ c R1h R1s R1q R3h R3s R3q]
  rfl

theorem W6_sq : (W6 m ρ c (Proc.devRef .tc main_v28_2) : FVec Ideal S1x128 .f32) = Cert.Spec.colSumSq (h0 m c) := by
  refine (W6_arr m ρ c 5).trans (R1q.trans ?_)
  show Cert.Spec.colSumSq (Cert.Spec.postH (W5 m ρ c (Proc.devRef .tc main_v26)) (W5 m ρ c (Proc.devRef .tc main_v15)) (W5 m ρ c (Proc.devRef .tc main_v27))) = _
  rw [W5_agg m ρ c R1h R1s R1q R3h R3s R3q, W5_dinv m ρ c R1h R1s R1q R3h R3s R3q, W5_row m ρ c R1h R1s R1q R3h R3s R3q]
  rfl

/-! ### Layer 2 -/

theorem W7_scale : (W7 m ρ c (Proc.devRef .tc main_v41) : FVec Ideal S1x128 .f32)
    = KGlue.scaleRow (Cert.Spec.colSum (h0 m c)) (Cert.Spec.colSumSq (h0 m c)) (m ((c : Thread nD τ).loc main_arg9)) := by
  refine (host2_scale (W6 m ρ c)).trans ?_
  rw [W6_sum m ρ c R1h R1s R1q R3h R3s R3q, W6_sq m ρ c R1h R1s R1q R3h R3s R3q, A6_arg9 m ρ c R1h R1s R1q R3h R3s R3q]

theorem W7_shift : (W7 m ρ c (Proc.devRef .tc main_v44) : FVec Ideal S1x128 .f32)
    = KGlue.shiftRow (Cert.Spec.colSum (h0 m c)) (Cert.Spec.colSumSq (h0 m c)) (m ((c : Thread nD τ).loc main_arg9)) (m ((c : Thread nD τ).loc main_arg10)) := by
  refine (host2_shift (W6 m ρ c)).trans ?_
  rw [W6_sum m ρ c R1h R1s R1q R3h R3s R3q, W6_sq m ρ c R1h R1s R1q R3h R3s R3q, A6_arg9 m ρ c R1h R1s R1q R3h R3s R3q, A6_arg10 m ρ c R1h R1s R1q R3h R3s R3q]

theorem W7_h0 : (W7 m ρ c (Proc.devRef .tc main_v28_0) : FVec Ideal S100000x128 .f32) = h0 m c :=
  (show W7 m ρ c (Proc.devRef .tc main_v28_0) = W6 m ρ c (Proc.devRef .tc main_v28_0) from StableHlo.after_of_forall_not_mem (b := Proc.devRef .tc main_v28_0) _ _ (List.forall_iff_forall_mem.mp (by host_forall hostOps2))).trans (W6_h0 m ρ c R1h R1s R1q R3h R3s R3q)

theorem W8_p1 : (W8 m ρ c (Proc.devRef .tc main_v45) : FVec Ideal S100000x128 .f32) = p1 m c := by
  refine (W8_arr m ρ c 5).trans ((Cert.KernelIdeal.Region2.final (V7 m ρ) c).trans ?_)
  show Cert.Spec.bnLin (W7 m ρ c (Proc.devRef .tc main_v28_0)) (W7 m ρ c (Proc.devRef .tc main_v41)) (W7 m ρ c (Proc.devRef .tc main_v44)) (W7 m ρ c (Proc.devRef .tc main_arg5)) (W7 m ρ c (Proc.devRef .tc main_v15)) = _
  rw [W7_h0 m ρ c R1h R1s R1q R3h R3s R3q, W7_scale m ρ c R1h R1s R1q R3h R3s R3q, W7_shift m ρ c R1h R1s R1q R3h R3s R3q, A7_arg5 m ρ c R1h R1s R1q R3h R3s R3q, W7_dinv m ρ c R1h R1s R1q R3h R3s R3q]
  rfl

theorem W9_agg : (W9 m ρ c (Proc.devRef .tc main_v55) : FVec Ideal S100000x128 .f32) = KGlue.segSum (edges m c) (p1 m c) :=
  host3_agg (W8 m ρ c) _ _ (W8_src m ρ c R1h R1s R1q R3h R3s R3q) (W8_dst m ρ c R1h R1s R1q R3h R3s R3q) (W8_p1 m ρ c R1h R1s R1q R3h R3s R3q)

theorem W9_row : (W9 m ρ c (Proc.devRef .tc main_v56) : FVec Ideal S1x128 .f32) = KGlue.rowOf (m ((c : Thread nD τ).loc main_arg6)) :=
  (host3_row (W8 m ρ c)).trans (congrArg KGlue.rowOf (A8_arg6 m ρ c R1h R1s R1q R3h R3s R3q))

theorem W10_h1 : (W10 m ρ c (Proc.devRef .tc main_v57_0) : FVec Ideal S100000x128 .f32) = h1 m c := by
  refine (W10_arr m ρ c 3).trans (R3h.trans ?_)
  show Cert.Spec.postH (W9 m ρ c (Proc.devRef .tc main_v55)) (W9 m ρ c (Proc.devRef .tc main_v15)) (W9 m ρ c (Proc.devRef .tc main_v56)) = _
  rw [W9_agg m ρ c R1h R1s R1q R3h R3s R3q, W9_dinv m ρ c R1h R1s R1q R3h R3s R3q, W9_row m ρ c R1h R1s R1q R3h R3s R3q]
  rfl

theorem W10_sum : (W10 m ρ c (Proc.devRef .tc main_v57_1) : FVec Ideal S1x128 .f32) = Cert.Spec.colSum (h1 m c) := by
  refine (W10_arr m ρ c 4).trans (R3s.trans ?_)
  show Cert.Spec.colSum (Cert.Spec.postH (W9 m ρ c (Proc.devRef .tc main_v55)) (W9 m ρ c (Proc.devRef .tc main_v15)) (W9 m ρ c (Proc.devRef .tc main_v56))) = _
  rw [W9_agg m ρ c R1h R1s R1q R3h R3s R3q, W9_dinv m ρ c R1h R1s R1q R3h R3s R3q, W9_row m ρ c R1h R1s R1q R3h R3s R3q]
  rfl

theorem W10_sq : (W10 m ρ c (Proc.devRef .tc main_v57_2) : FVec Ideal S1x128 .f32) = Cert.Spec.colSumSq (h1 m c) := by
  refine (W10_arr m ρ c 5).trans (R3q.trans ?_)
  show Cert.Spec.colSumSq (Cert.Spec.postH (W9 m ρ c (Proc.devRef .tc main_v55)) (W9 m ρ c (Proc.devRef .tc main_v15)) (W9 m ρ c (Proc.devRef .tc main_v56))) = _
  rw [W9_agg m ρ c R1h R1s R1q R3h R3s R3q, W9_dinv m ρ c R1h R1s R1q R3h R3s R3q, W9_row m ρ c R1h R1s R1q R3h R3s R3q]
  rfl

/-! ### Layer 3 -/

theorem W11_scale : (W11 m ρ c (Proc.devRef .tc main_v70) : FVec Ideal S1x128 .f32)
    = KGlue.scaleRow (Cert.Spec.colSum (h1 m c)) (Cert.Spec.colSumSq (h1 m c)) (m ((c : Thread nD τ).loc main_arg11)) := by
  refine (host4_scale (W10 m ρ c)).trans ?_
  rw [W10_sum m ρ c R1h R1s R1q R3h R3s R3q, W10_sq m ρ c R1h R1s R1q R3h R3s R3q, A10_arg11 m ρ c R1h R1s R1q R3h R3s R3q]

theorem W11_shift : (W11 m ρ c (Proc.devRef .tc main_v73) : FVec Ideal S1x128 .f32)
    = KGlue.shiftRow (Cert.Spec.colSum (h1 m c)) (Cert.Spec.colSumSq (h1 m c)) (m ((c : Thread nD τ).loc main_arg11)) (m ((c : Thread nD τ).loc main_arg12)) := by
  refine (host4_shift (W10 m ρ c)).trans ?_
  rw [W10_sum m ρ c R1h R1s R1q R3h R3s R3q, W10_sq m ρ c R1h R1s R1q R3h R3s R3q, A10_arg11 m ρ c R1h R1s R1q R3h R3s R3q, A10_arg12 m ρ c R1h R1s R1q R3h R3s R3q]

theorem W11_h1 : (W11 m ρ c (Proc.devRef .tc main_v57_0) : FVec Ideal S100000x128 .f32) = h1 m c :=
  (show W11 m ρ c (Proc.devRef .tc main_v57_0) = W10 m ρ c (Proc.devRef .tc main_v57_0) from StableHlo.after_of_forall_not_mem (b := Proc.devRef .tc main_v57_0) _ _ (List.forall_iff_forall_mem.mp (by host_forall hostOps4))).trans (W10_h1 m ρ c R1h R1s R1q R3h R3s R3q)

theorem W12_p2 : (W12 m ρ c (Proc.devRef .tc main_v74) : FVec Ideal S100000x128 .f32) = p2 m c := by
  refine (W12_arr m ρ c 5).trans ((Cert.KernelIdeal.Region4.final (V11 m ρ) c).trans ?_)
  show Cert.Spec.bnLin (W11 m ρ c (Proc.devRef .tc main_v57_0)) (W11 m ρ c (Proc.devRef .tc main_v70)) (W11 m ρ c (Proc.devRef .tc main_v73)) (W11 m ρ c (Proc.devRef .tc main_arg7)) (W11 m ρ c (Proc.devRef .tc main_v15)) = _
  rw [W11_h1 m ρ c R1h R1s R1q R3h R3s R3q, W11_scale m ρ c R1h R1s R1q R3h R3s R3q, W11_shift m ρ c R1h R1s R1q R3h R3s R3q, A11_arg7 m ρ c R1h R1s R1q R3h R3s R3q, W11_dinv m ρ c R1h R1s R1q R3h R3s R3q]
  rfl

theorem W13_agg : (W13 m ρ c (Proc.devRef .tc main_v84) : FVec Ideal S100000x128 .f32) = KGlue.segSum (edges m c) (p2 m c) :=
  host5_agg (W12 m ρ c) _ _ (W12_src m ρ c R1h R1s R1q R3h R3s R3q) (W12_dst m ρ c R1h R1s R1q R3h R3s R3q) (W12_p2 m ρ c R1h R1s R1q R3h R3s R3q)

theorem W13_row : (W13 m ρ c (Proc.devRef .tc main_v85) : FVec Ideal S1x128 .f32) = KGlue.rowOf (m ((c : Thread nD τ).loc main_arg8)) :=
  (host5_row (W12 m ρ c)).trans (congrArg KGlue.rowOf (A12_arg8 m ρ c R1h R1s R1q R3h R3s R3q))

theorem W14_act : (W14 m ρ c (Proc.devRef .tc main_v86) : FVec Ideal S100000x128 .f32) = act2 m c := by
  refine (W14_arr m ρ c 3).trans ((Cert.KernelIdeal.Region5.final (V13 m ρ) c).trans ?_)
  show Cert.Spec.postLrelu (W13 m ρ c (Proc.devRef .tc main_v84)) (W13 m ρ c (Proc.devRef .tc main_v15)) (W13 m ρ c (Proc.devRef .tc main_v85)) = _
  rw [W13_agg m ρ c R1h R1s R1q R3h R3s R3q, W13_dinv m ρ c R1h R1s R1q R3h R3s R3q, W13_row m ρ c R1h R1s R1q R3h R3s R3q]
  rfl

/-! ### The readout -/

theorem W15_pool : (W15 m ρ c (Proc.devRef .tc main_v98) : FVec Ideal S128x128 .f32) = KGlue.meanPool (m ((c : Thread nD τ).loc main_arg2)) (act2 m c) := by
  refine (host6_pool (W14 m ρ c)).trans ?_
  rw [A14_arg2 m ρ c R1h R1s R1q R3h R3s R3q, W14_act m ρ c R1h R1s R1q R3h R3s R3q]

theorem W15_bias : (W15 m ρ c (Proc.devRef .tc main_v99) : FVec Ideal S1x64 .f32) = shapeCast S1x64 (m ((c : Thread nD τ).loc main_arg14)) shapeCasts_S64_S1x64 := by
  refine (host6_bias (W14 m ρ c)).trans ?_
  rw [A14_arg14 m ρ c R1h R1s R1q R3h R3s R3q]

/-- The result buffer at the last boundary, from the two launches' facts taken as given. -/
theorem result_eq_of : (W16 m ρ c (Proc.devRef .tc main_v100) : FVec Ideal S128x64 .f32)
    = Cert.KGlue.kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W16_arr m ρ c 3).trans ((Cert.KernelIdeal.Region6.final (V15 m ρ) c).trans ?_)
  show Cert.Spec.linBias (W15 m ρ c (Proc.devRef .tc main_v98)) (W15 m ρ c (Proc.devRef .tc main_arg13)) (W15 m ρ c (Proc.devRef .tc main_v99)) = _
  rw [W15_pool m ρ c R1h R1s R1q R3h R3s R3q, A15_arg13 m ρ c R1h R1s R1q R3h R3s R3q, W15_bias m ρ c R1h R1s R1q R3h R3s R3q]
  rfl

end Boundaries

/-- THE RESULT: the result buffer at the last boundary is the whole network of the arguments as launched. -/
theorem result_eq (m : (ℓ : Loc nD τ sig) → Buf (Elt Ideal) ℓ) (ρ : Dev nD → PrngReg) (c : Dev nD) :
    (W16 (F := Ideal) m ρ c (Proc.devRef .tc main_v100) : FVec Ideal S128x64 .f32)
      = Cert.KGlue.kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  result_eq_of m ρ c
    (Cert.KernelIdeal.Region1.final_h (V5 m ρ) c) (Cert.KernelIdeal.Region1.final_sum (V5 m ρ) c) (Cert.KernelIdeal.Region1.final_sq (V5 m ρ) c)
    (Cert.KernelIdeal.Region3.final_h (V9 m ρ) c) (Cert.KernelIdeal.Region3.final_sum (V9 m ρ) c) (Cert.KernelIdeal.Region3.final_sq (V9 m ρ) c)

end Cert.KernelIdeal.Chain

end
-- ==== Proof.Glue.lean ====
/-
  The host-side pieces of the graph convolution network, each as ONE function of whole arrays at the ideal values,
  spelt with the reference program's operations. Both programs compute the edge lists, the degrees and their
  reciprocal square roots, the gathers along departure nodes, the scatters along arrival nodes and the mean pooling
  with these same operations; they differ in where the normalising factors are multiplied in and in how the batch
  statistics are computed, which is what the laws proved elsewhere join.

  * `srcW e`, `dstW e`   : the departure and arrival words of the 1.7 million edges (the 1.6 million given edges followed
                         by one self-loop per node), read off the [2, 1600000] edge array `e`.
  * `rawIdx w`, `normIdx w` : the words as an [E, 1] index array, raw, and normalised ("w + N where w < 0").
  * `deg e`, `dinv e`   : per node, the number of edges arriving, and "its reciprocal square root where positive, else 0".
  * `refConv e H b`      : the reference's layer on the product H = A·W: scatter along dst of H[src]·(dinv[src]·dinv[dst]), plus b.
  * `segSum e P`         : scatter along dst of the rows P[src] (what the kernel's program does between its launches).
  * `refBN h g β`        : batch normalisation of the columns of h with the centred two-pass variance.
  * `refLrelu y`         : the leaky rectifier on a whole array.
  * `meanPool x2 h`      : per graph, the sum of its nodes' rows over max(count, 1).
  * `refOut p w b`       : p·w + b on [128, 128]·[128, 64].
-/
import proofs.«160274_j87952340288037_2_alg».proof.Proof.Gen.ReferenceIdeal
import Idealize.ShloMosaic.PureOps.Ideal

noncomputable section

namespace Cert.Glue

open Cert.ReferenceIdeal Cert.ReferenceIdeal.Gen Idealize.ShloMosaic

/-- The [2, 1600000] array of edge words. -/
abbrev Edges : Type := IVec S2x1600000 32

/-- Departure words: row 0 of the edge array, then the self-loops 0 … N−1. -/
def srcW (e : Edges) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Arrival words: row 1 of the edge array, then the self-loops 0 … N−1. -/
def dstW (e : Edges) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The words as an [E, 1] index array. -/
def rawIdx (w : IVec S1700000 32) : IVec S1700000x1 32 :=
  broadcastInDim S1700000x1 ![0] bcast_S1700000_S1700000x1_0 w

/-- The words normalised ("w + 100000 where w < 0, read signed"), as an [E, 1] index array. -/
def normIdx (w : IVec S1700000 32) : IVec S1700000x1 32 :=
  broadcastInDim S1700000x1 ![0] bcast_S1700000_S1700000x1_0
    (select (cmpi .slt w (broadcastInDim S1700000 ![] bcast_S_S1700000 (constantI S_ 32 0#32)))
      (addi w (broadcastInDim S1700000 ![] bcast_S_S1700000 (constantI S_ 32 100000#32))) w)

/-- Zeros on the nodes. -/
def zerosN : FVec Ideal S100000 .f32 :=
  broadcastInDim S100000 ![] bcast_S_S100000 (constant (F := Ideal) S_ .f32 0x00000000#32)

/-- Zeros on nodes × features. -/
def zerosNC : FVec Ideal S100000x128 .f32 :=
  broadcastInDim S100000x128 ![] bcast_S_S100000x128 (constant (F := Ideal) S_ .f32 0x00000000#32)

/-- Per node, the number of edges arriving at it (a scatter of ones along the raw arrival words). -/
def deg (e : Edges) : FVec Ideal S100000 .f32 :=
  Host.scatterAdd (F := Ideal) scatter_S100000_S1700000x1_S1700000_n_0_0_1 zerosN (rawIdx (dstW e))
    (broadcastInDim S1700000 ![] bcast_S_S1700000 (constant (F := Ideal) S_ .f32 0x3F800000#32))

/-- Per node, the reciprocal square root of its degree where that is positive, else 0. -/
def dinv (e : Edges) : FVec Ideal S100000 .f32 :=
  select (cmpf .ogt (deg e) zerosN) (Host.rsqrt (F := Ideal) (deg e)) zerosN

/-- A per-node vector gathered along normalised words. -/
def gatherVec (d : FVec Ideal S100000 .f32) (w : IVec S1700000 32) : FVec Ideal S1700000 .f32 :=
  Host.gather gather_S100000_S1700000x1_S1700000_n_0_n_n_0_1_1 d (normIdx w)

/-- The rows of a node table gathered along normalised words. -/
def gatherRows (H : FVec Ideal S100000x128 .f32) (w : IVec S1700000 32) : FVec Ideal S1700000x128 .f32 :=
  Host.gather gather_S100000x128_S1700000x1_S1700000x128_1_0_n_n_0_1_1128 H (normIdx w)

/-- A per-edge factor stretched over the 128 features. -/
def perEdge (v : FVec Ideal S1700000 .f32) : FVec Ideal S1700000x128 .f32 :=
  broadcastInDim S1700000x128 ![0, 1] bcast_S1700000x1_S1700000x128_0_1 (broadcastInDim S1700000x1 ![0] bcast_S1700000_S1700000x1_0 v)

/-- A per-feature vector stretched over the nodes. -/
def rows (v : FVec Ideal S128 .f32) : FVec Ideal S100000x128 .f32 :=
  broadcastInDim S100000x128 ![0, 1] bcast_S1x128_S100000x128_0_1 (broadcastInDim S1x128 ![1] bcast_S128_S1x128_1 v)

/-- The accumulating scatter of per-edge rows into zeros along the raw arrival words. -/
def scatterDst (e : Edges) (U : FVec Ideal S1700000x128 .f32) : FVec Ideal S100000x128 .f32 :=
  Host.scatterAdd (F := Ideal) scatter_S100000x128_S1700000x1_S1700000x128_1_0_0_1 zerosNC (rawIdx (dstW e)) U

/-- The reference's layer on the product `H`: into each node the rows `H[src]·(dinv[src]·dinv[dst])` of the edges arriving,
    plus the bias. -/
def refConv (e : Edges) (H : FVec Ideal S100000x128 .f32) (b : FVec Ideal S128 .f32) : FVec Ideal S100000x128 .f32 :=
  addf (scatterDst e (mulf (gatherRows H (srcW e))
      (perEdge (mulf (gatherVec (dinv e) (srcW e)) (gatherVec (dinv e) (dstW e)))))) (rows b)

/-- Into each node the rows `P[src]` of the edges arriving. -/
def segSum (e : Edges) (P : FVec Ideal S100000x128 .f32) : FVec Ideal S100000x128 .f32 :=
  scatterDst e (gatherRows P (srcW e))

/-- Per feature, the sum over the nodes divided by 100000. -/
def colMean (h : FVec Ideal S100000x128 .f32) : FVec Ideal S128 .f32 :=
  Host.divf (F := Ideal) (Host.reduceAdd (F := Ideal) h (constant (F := Ideal) S_ .f32 0x00000000#32) reducesTo_S100000x128_S128_d0 h_S_)
    (broadcastInDim S128 ![] bcast_S_S128 (constant (F := Ideal) S_ .f32 0x47C35000#32))

/-- Batch normalisation of each column: centre, divide by the root of (the mean of the centred squares + ε), scale by
    `g`, shift by `β`. -/
def refBN (h : FVec Ideal S100000x128 .f32) (g β : FVec Ideal S128 .f32) : FVec Ideal S100000x128 .f32 :=
  addf (mulf (mulf (subf h (rows (colMean h)))
      (rows (Host.rsqrt (F := Ideal) (addf (colMean (mulf (subf h (rows (colMean h))) (subf h (rows (colMean h)))))
        (broadcastInDim S128 ![] bcast_S_S128 (constant (F := Ideal) S_ .f32 0x3727C5AC#32))))))
      (rows g)) (rows β)

/-- The leaky rectifier on a whole array. -/
def refLrelu (y : FVec Ideal S100000x128 .f32) : FVec Ideal S100000x128 .f32 :=
  select (cmpf .ogt y zerosNC) y
    (mulf (broadcastInDim S100000x128 ![] bcast_S_S100000x128 (constant (F := Ideal) S_ .f32 0x3CF5C28F#32)) y)

/-- Mean pooling per graph: the scatter of the nodes' rows along the graph words, over max(node count, 1). -/
def meanPool (x2 : IVec S100000 32) (h : FVec Ideal S100000x128 .f32) : FVec Ideal S128x128 .f32 :=
  Host.divf (F := Ideal)
    (Host.scatterAdd (F := Ideal) scatter_S128x128_S100000x1_S100000x128_1_0_0_1
      (broadcastInDim S128x128 ![] bcast_S_S128x128 (constant (F := Ideal) S_ .f32 0x00000000#32))
      (broadcastInDim S100000x1 ![0] bcast_S100000_S100000x1_0 x2) h)
    (broadcastInDim S128x128 ![0, 1] bcast_S128x1_S128x128_0_1 (broadcastInDim S128x1 ![0] bcast_S128_S128x1_0
      (maximumf
        (Host.scatterAdd (F := Ideal) scatter_S128_S100000x1_S100000_n_0_0_1
          (broadcastInDim S128 ![] bcast_S_S128 (constant (F := Ideal) S_ .f32 0x00000000#32))
          (broadcastInDim S100000x1 ![0] bcast_S100000_S100000x1_0 x2)
          (broadcastInDim S100000 ![] bcast_S_S100000 (constant (F := Ideal) S_ .f32 0x3F800000#32)))
        (broadcastInDim S128 ![] bcast_S_S128 (constant (F := Ideal) S_ .f32 0x3F800000#32)))))

/-- The final dense layer: `p·w + b`. -/
def refOut (p : FVec Ideal S128x128 .f32) (w : FVec Ideal S128x64 .f32) (b : FVec Ideal S64 .f32) : FVec Ideal S128x64 .f32 :=
  addf (Host.dotGeneral (F := Ideal) dot_S128x128_S128x64_S128x64_1_0_0_1_n_n none p w)
    (broadcastInDim S128x64 ![0, 1] bcast_S1x64_S128x64_0_1 (broadcastInDim S1x64 ![1] bcast_S64_S1x64_1 b))

/-- The reference program's result as one function of its fifteen arguments. -/
def refNet (x0 : FVec Ideal S100000x64 .f32) (e : Edges) (x2 : IVec S100000 32) (w0 : FVec Ideal S64x128 .f32)
    (b0 : FVec Ideal S128 .f32) (w1 : FVec Ideal S128x128 .f32) (b1 : FVec Ideal S128 .f32) (w2 : FVec Ideal S128x128 .f32)
    (b2 g0 β0 g1 β1 : FVec Ideal S128 .f32) (lw : FVec Ideal S128x64 .f32) (lb : FVec Ideal S64 .f32) : FVec Ideal S128x64 .f32 :=
  let h0 := refConv e (Host.dotGeneral (F := Ideal) dot_S100000x64_S64x128_S100000x128_1_0_0_1_n_n none x0 w0) b0
  let a0 := refLrelu (refBN h0 g0 β0)
  let h1 := refConv e (Host.dotGeneral (F := Ideal) dot_S100000x128_S128x128_S100000x128_1_0_0_1_n_n none a0 w1) b1
  let a1 := refLrelu (refBN h1 g1 β1)
  let h2 := refConv e (Host.dotGeneral (F := Ideal) dot_S100000x128_S128x128_S100000x128_1_0_0_1_n_n none a1 w2) b2
  refOut (meanPool x2 (refLrelu h2)) lw lb

end Cert.Glue

end
-- ==== Proof.RefStages.lean ====
/-
  The reference program's run, read in stages. Its line of 239 host operations is cut into eight consecutive pieces, after
  each of which one more stage's value is complete: the edge words, the nodes' reciprocal root degrees, a layer's output,
  a normalised and rectified layer, …, the pooled and projected result. For each piece: from ANY contents of the buffers
  that give the piece's inputs the named values, the piece leaves its output buffer at the corresponding function of
  Glue.lean applied to those values, and leaves the buffers later pieces still read as they were. Chaining the eight
  pieces gives the whole run as `Glue.refNet` of the fifteen arguments.
-/
import proofs.«160274_j87952340288037_2_alg».proof.Proof.RefRunP
import proofs.«160274_j87952340288037_2_alg».proof.Proof.Glue
import Idealize.ShloMosaic.PureOps.Ideal
import Idealize.ShloMosaic.Lib.StableHlo.Run

noncomputable section

namespace Cert.ReferenceIdeal.Stages

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Running a line that is two lines one after the other: run the first, then the second from what it leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of the given edges' words with the self-loops' depends only on the two parts. -/
theorem concat_congr (a a' : IVec S1600000 32) (b b' : IVec S100000 32) (ha : a = a') (hb : b = b') :
    concatenate S1700000 0 [⟨S1600000, a⟩, ⟨S100000, b⟩] concatenates_S1600000_S100000_S1700000_d0
      = concatenate S1700000 0 [⟨S1600000, a'⟩, ⟨S100000, b'⟩] concatenates_S1600000_S100000_S1700000_d0 := by
  subst ha hb; rfl

/-! ## The line in eight pieces -/

/-- Operations 0 to 6 of the program's line. -/
abbrev segA0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 7 to 20 of the program's line. -/
abbrev segA1 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 21 to 59 of the program's line. -/
abbrev segL1 : List (HloOp τ sig (Elt F)) :=
  [ binary main_arg0 main_arg3 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v14 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v15 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- Operations 60 to 96 of the program's line. -/
abbrev segN1 : List (HloOp τ sig (Elt F)) :=
  [ nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v46 main_v51 main_v52 (subf : (⟨S100000x128, .f32⟩ : BufTy).Contents (Elt F) → (⟨S100000x128, .f32⟩ : BufTy).Contents (Elt F) → (⟨S100000x128, .f32⟩ : BufTy).Contents (Elt F)),
    binary main_v52 main_v52 main_v53 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v53 main_cst_11 main_v54 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v49 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v46 main_v58 main_v59 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v60 (broadcastInDim S128 ![] bcast_S_S128 : (⟨S_, .f32⟩ : BufTy).Contents (Elt F) → (⟨S128, .f32⟩ : BufTy).Contents (Elt F)),
    binary main_v56 main_v60 main_v61 (addf : (⟨S128, .f32⟩ : BufTy).Contents (Elt F) → (⟨S128, .f32⟩ : BufTy).Contents (Elt F) → (⟨S128, .f32⟩ : BufTy).Contents (Elt F)),
    unary main_v61 main_v62 (Host.rsqrt : (⟨S128, .f32⟩ : BufTy).Contents (Elt F) → (⟨S128, .f32⟩ : BufTy).Contents (Elt F)),
    unary main_v62 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v59 main_v64 main_v65 (mulf : (⟨S100000x128, .f32⟩ : BufTy).Contents (Elt F) → (⟨S100000x128, .f32⟩ : BufTy).Contents (Elt F) → (⟨S100000x128, .f32⟩ : BufTy).Contents (Elt F)),
    unary main_arg9 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (mulf : (⟨S100000x128, .f32⟩ : BufTy).Contents (Elt F) → (⟨S100000x128, .f32⟩ : BufTy).Contents (Elt F) → (⟨S100000x128, .f32⟩ : BufTy).Contents (Elt F)),
    unary main_arg10 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x00000000#32),
    unary main_cst_14 main_v72 (broadcastInDim S100000x128 ![] bcast_S_S100000x128 : (⟨S_, .f32⟩ : BufTy).Contents (Elt F) → (⟨S100000x128, .f32⟩ : BufTy).Contents (Elt F)),
    binary main_v71 main_v72 main_v73 (cmpf .ogt : (⟨S100000x128, .f32⟩ : BufTy).Contents (Elt F) → (⟨S100000x128, .f32⟩ : BufTy).Contents (Elt F) → (⟨S100000x128, .i1⟩ : BufTy).Contents (Elt F)),
    nullary main_cst_15 (constant S_ .f32 0x3CF5C28F#32),
    unary main_cst_15 main_v74 (broadcastInDim S100000x128 ![] bcast_S_S100000x128 : (⟨S_, .f32⟩ : BufTy).Contents (Elt F) → (⟨S100000x128, .f32⟩ : BufTy).Contents (Elt F)),
    binary main_v74 main_v71 main_v75 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v73) (TRef.of (T := ⟨S100000x128, .f32⟩) main_v71) (TRef.of (T := ⟨S100000x128, .f32⟩) main_v75) (TRef.of (T := ⟨S100000x128, .f32⟩) main_v76) select ]

/-- Operations 97 to 135 of the program's line. -/
abbrev segL2 : List (HloOp τ sig (Elt F)) :=
  [ binary main_v76 main_arg5 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v78 (broadcastInDim S1700000 ![] bcast_S_S1700000 : (⟨S_, .i32⟩ : BufTy).Contents (Elt F) → (⟨S1700000, .i32⟩ : BufTy).Contents (Elt F)),
    binary main_v3 main_v78 main_v79 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v80 (broadcastInDim S1700000 ![] bcast_S_S1700000 : (⟨S_, .i32⟩ : BufTy).Contents (Elt F) → (⟨S1700000, .i32⟩ : BufTy).Contents (Elt F)),
    binary main_v3 main_v80 main_v81 (addi : (⟨S1700000, .i32⟩ : BufTy).Contents (Elt F) → (⟨S1700000, .i32⟩ : BufTy).Contents (Elt F) → (⟨S1700000, .i32⟩ : BufTy).Contents (Elt F)),
    ternary main_v79 main_v81 main_v3 main_v82 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v82 main_v83 (broadcastInDim S1700000x1 ![0] bcast_S1700000_S1700000x1_0 : (⟨S1700000, .i32⟩ : BufTy).Contents (Elt F) → (⟨S1700000x1, .i32⟩ : BufTy).Contents (Elt F)),
    binary main_v14 main_v83 main_v84 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_18 (constantI S_ 32 0#32),
    unary main_c_18 main_v85 (broadcastInDim S1700000 ![] bcast_S_S1700000 : (⟨S_, .i32⟩ : BufTy).Contents (Elt F) → (⟨S1700000, .i32⟩ : BufTy).Contents (Elt F)),
    binary main_v6 main_v85 main_v86 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v87 (broadcastInDim S1700000 ![] bcast_S_S1700000 : (⟨S_, .i32⟩ : BufTy).Contents (Elt F) → (⟨S1700000, .i32⟩ : BufTy).Contents (Elt F)),
    binary main_v6 main_v87 main_v88 (addi : (⟨S1700000, .i32⟩ : BufTy).Contents (Elt F) → (⟨S1700000, .i32⟩ : BufTy).Contents (Elt F) → (⟨S1700000, .i32⟩ : BufTy).Contents (Elt F)),
    ternary main_v86 main_v88 main_v6 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v89 main_v90 (broadcastInDim S1700000x1 ![0] bcast_S1700000_S1700000x1_0 : (⟨S1700000, .i32⟩ : BufTy).Contents (Elt F) → (⟨S1700000x1, .i32⟩ : BufTy).Contents (Elt F)),
    binary main_v14 main_v90 main_v91 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v84 main_v91 main_v92 (mulf : (⟨S1700000, .f32⟩ : BufTy).Contents (Elt F) → (⟨S1700000, .f32⟩ : BufTy).Contents (Elt F) → (⟨S1700000, .f32⟩ : BufTy).Contents (Elt F)),
    nullary main_c_20 (constantI S_ 32 0#32),
    unary main_c_20 main_v93 (broadcastInDim S1700000 ![] bcast_S_S1700000 : (⟨S_, .i32⟩ : BufTy).Contents (Elt F) → (⟨S1700000, .i32⟩ : BufTy).Contents (Elt F)),
    binary main_v3 main_v93 main_v94 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v95 (broadcastInDim S1700000 ![] bcast_S_S1700000 : (⟨S_, .i32⟩ : BufTy).Contents (Elt F) → (⟨S1700000, .i32⟩ : BufTy).Contents (Elt F)),
    binary main_v3 main_v95 main_v96 (addi : (⟨S1700000, .i32⟩ : BufTy).Contents (Elt F) → (⟨S1700000, .i32⟩ : BufTy).Contents (Elt F) → (⟨S1700000, .i32⟩ : BufTy).Contents (Elt F)),
    ternary main_v94 main_v96 main_v3 main_v97 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v97 main_v98 (broadcastInDim S1700000x1 ![0] bcast_S1700000_S1700000x1_0 : (⟨S1700000, .i32⟩ : BufTy).Contents (Elt F) → (⟨S1700000x1, .i32⟩ : BufTy).Contents (Elt F)),
    binary main_v77 main_v98 main_v99 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v92 main_v100 (broadcastInDim S1700000x1 ![0] bcast_S1700000_S1700000x1_0 : (⟨S1700000, .f32⟩ : BufTy).Contents (Elt F) → (⟨S1700000x1, .f32⟩ : BufTy).Contents (Elt F)),
    unary main_v100 main_v101 (broadcastInDim S1700000x128 ![0, 1] bcast_S1700000x1_S1700000x128_0_1 : (⟨S1700000x1, .f32⟩ : BufTy).Contents (Elt F) → (⟨S1700000x128, .f32⟩ : BufTy).Contents (Elt F)),
    binary main_v99 main_v101 main_v102 (mulf : (⟨S1700000x128, .f32⟩ : BufTy).Contents (Elt F) → (⟨S1700000x128, .f32⟩ : BufTy).Contents (Elt F) → (⟨S1700000x128, .f32⟩ : BufTy).Contents (Elt F)),
    nullary main_cst_22 (constant S_ .f32 0x00000000#32),
    unary main_cst_22 main_v103 (broadcastInDim S100000x128 ![] bcast_S_S100000x128 : (⟨S_, .f32⟩ : BufTy).Contents (Elt F) → (⟨S100000x128, .f32⟩ : BufTy).Contents (Elt F)),
    unary main_v6 main_v104 (broadcastInDim S1700000x1 ![0] bcast_S1700000_S1700000x1_0 : (⟨S1700000, .i32⟩ : BufTy).Contents (Elt F) → (⟨S1700000x1, .i32⟩ : BufTy).Contents (Elt F)),
    ternary main_v103 main_v104 main_v102 main_v105 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v106 (broadcastInDim S1x128 ![1] bcast_S128_S1x128_1 : (⟨S128, .f32⟩ : BufTy).Contents (Elt F) → (⟨S1x128, .f32⟩ : BufTy).Contents (Elt F)),
    unary main_v106 main_v107 (broadcastInDim S100000x128 ![0, 1] bcast_S1x128_S100000x128_0_1 : (⟨S1x128, .f32⟩ : BufTy).Contents (Elt F) → (⟨S100000x128, .f32⟩ : BufTy).Contents (Elt F)),
    binary main_v105 main_v107 main_v108 (addf : (⟨S100000x128, .f32⟩ : BufTy).Contents (Elt F) → (⟨S100000x128, .f32⟩ : BufTy).Contents (Elt F) → (⟨S100000x128, .f32⟩ : BufTy).Contents (Elt F)) ]

/-- Operations 136 to 172 of the program's line. -/
abbrev segN2 : List (HloOp τ sig (Elt F)) :=
  [ nullary main_cst_23 (constant S_ .f32 0x00000000#32),
    binary main_v108 main_cst_23 main_v109 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_24 (constant S_ .f32 0x47C35000#32),
    unary main_cst_24 main_v110 (broadcastInDim S128 ![] bcast_S_S128 : (⟨S_, .f32⟩ : BufTy).Contents (Elt F) → (⟨S128, .f32⟩ : BufTy).Contents (Elt F)),
    binary main_v109 main_v110 main_v111 (Host.divf : (⟨S128, .f32⟩ : BufTy).Contents (Elt F) → (⟨S128, .f32⟩ : BufTy).Contents (Elt F) → (⟨S128, .f32⟩ : BufTy).Contents (Elt F)),
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S100000x128 ![0, 1] bcast_S1x128_S100000x128_0_1 : (⟨S1x128, .f32⟩ : BufTy).Contents (Elt F) → (⟨S100000x128, .f32⟩ : BufTy).Contents (Elt F)),
    binary main_v108 main_v113 main_v114 (subf : (⟨S100000x128, .f32⟩ : BufTy).Contents (Elt F) → (⟨S100000x128, .f32⟩ : BufTy).Contents (Elt F) → (⟨S100000x128, .f32⟩ : BufTy).Contents (Elt F)),
    binary main_v114 main_v114 main_v115 (mulf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x00000000#32),
    binary main_v115 main_cst_25 main_v116 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_26 (constant S_ .f32 0x47C35000#32),
    unary main_cst_26 main_v117 (broadcastInDim S128 ![] bcast_S_S128 : (⟨S_, .f32⟩ : BufTy).Contents (Elt F) → (⟨S128, .f32⟩ : BufTy).Contents (Elt F)),
    binary main_v116 main_v117 main_v118 (Host.divf : (⟨S128, .f32⟩ : BufTy).Contents (Elt F) → (⟨S128, .f32⟩ : BufTy).Contents (Elt F) → (⟨S128, .f32⟩ : BufTy).Contents (Elt F)),
    unary main_v111 main_v119 (broadcastInDim S1x128 ![1] bcast_S128_S1x128_1 : (⟨S128, .f32⟩ : BufTy).Contents (Elt F) → (⟨S1x128, .f32⟩ : BufTy).Contents (Elt F)),
    unary main_v119 main_v120 (broadcastInDim S100000x128 ![0, 1] bcast_S1x128_S100000x128_0_1 : (⟨S1x128, .f32⟩ : BufTy).Contents (Elt F) → (⟨S100000x128, .f32⟩ : BufTy).Contents (Elt F)),
    binary main_v108 main_v120 main_v121 (subf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x3727C5AC#32),
    unary main_cst_27 main_v122 (broadcastInDim S128 ![] bcast_S_S128 : (⟨S_, .f32⟩ : BufTy).Contents (Elt F) → (⟨S128, .f32⟩ : BufTy).Contents (Elt F)),
    binary main_v118 main_v122 main_v123 (addf : (⟨S128, .f32⟩ : BufTy).Contents (Elt F) → (⟨S128, .f32⟩ : BufTy).Contents (Elt F) → (⟨S128, .f32⟩ : BufTy).Contents (Elt F)),
    unary main_v123 main_v124 (Host.rsqrt : (⟨S128, .f32⟩ : BufTy).Contents (Elt F) → (⟨S128, .f32⟩ : BufTy).Contents (Elt F)),
    unary main_v124 main_v125 (broadcastInDim S1x128 ![1] bcast_S128_S1x128_1 : (⟨S128, .f32⟩ : BufTy).Contents (Elt F) → (⟨S1x128, .f32⟩ : BufTy).Contents (Elt F)),
    unary main_v125 main_v126 (broadcastInDim S100000x128 ![0, 1] bcast_S1x128_S100000x128_0_1 : (⟨S1x128, .f32⟩ : BufTy).Contents (Elt F) → (⟨S100000x128, .f32⟩ : BufTy).Contents (Elt F)),
    binary main_v121 main_v126 main_v127 (mulf : (⟨S100000x128, .f32⟩ : BufTy).Contents (Elt F) → (⟨S100000x128, .f32⟩ : BufTy).Contents (Elt F) → (⟨S100000x128, .f32⟩ : BufTy).Contents (Elt F)),
    unary main_arg11 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v127 main_v129 main_v130 (mulf : (⟨S100000x128, .f32⟩ : BufTy).Contents (Elt F) → (⟨S100000x128, .f32⟩ : BufTy).Contents (Elt F) → (⟨S100000x128, .f32⟩ : BufTy).Contents (Elt F)),
    unary main_arg12 main_v131 (broadcastInDim S1x128 ![1] bcast_S128_S1x128_1 : (⟨S128, .f32⟩ : BufTy).Contents (Elt F) → (⟨S1x128, .f32⟩ : BufTy).Contents (Elt F)),
    unary main_v131 main_v132 (broadcastInDim S100000x128 ![0, 1] bcast_S1x128_S100000x128_0_1 : (⟨S1x128, .f32⟩ : BufTy).Contents (Elt F) → (⟨S100000x128, .f32⟩ : BufTy).Contents (Elt F)),
    binary main_v130 main_v132 main_v133 (addf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x00000000#32),
    unary main_cst_28 main_v134 (broadcastInDim S100000x128 ![] bcast_S_S100000x128 : (⟨S_, .f32⟩ : BufTy).Contents (Elt F) → (⟨S100000x128, .f32⟩ : BufTy).Contents (Elt F)),
    binary main_v133 main_v134 main_v135 (cmpf .ogt : (⟨S100000x128, .f32⟩ : BufTy).Contents (Elt F) → (⟨S100000x128, .f32⟩ : BufTy).Contents (Elt F) → (⟨S100000x128, .i1⟩ : BufTy).Contents (Elt F)),
    nullary main_cst_29 (constant S_ .f32 0x3CF5C28F#32),
    unary main_cst_29 main_v136 (broadcastInDim S100000x128 ![] bcast_S_S100000x128 : (⟨S_, .f32⟩ : BufTy).Contents (Elt F) → (⟨S100000x128, .f32⟩ : BufTy).Contents (Elt F)),
    binary main_v136 main_v133 main_v137 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v135) (TRef.of (T := ⟨S100000x128, .f32⟩) main_v133) (TRef.of (T := ⟨S100000x128, .f32⟩) main_v137) (TRef.of (T := ⟨S100000x128, .f32⟩) main_v138) select ]

/-- Operations 173 to 211 of the program's line. -/
abbrev segL3 : List (HloOp τ sig (Elt F)) :=
  [ binary main_v138 main_arg7 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_30 (constantI S_ 32 0#32),
    unary main_c_30 main_v140 (broadcastInDim S1700000 ![] bcast_S_S1700000 : (⟨S_, .i32⟩ : BufTy).Contents (Elt F) → (⟨S1700000, .i32⟩ : BufTy).Contents (Elt F)),
    binary main_v3 main_v140 main_v141 (cmpi .slt : (⟨S1700000, .i32⟩ : BufTy).Contents (Elt F) → (⟨S1700000, .i32⟩ : BufTy).Contents (Elt F) → (⟨S1700000, .i1⟩ : BufTy).Contents (Elt F)),
    nullary main_c_31 (constantI S_ 32 100000#32),
    unary main_c_31 main_v142 (broadcastInDim S1700000 ![] bcast_S_S1700000 : (⟨S_, .i32⟩ : BufTy).Contents (Elt F) → (⟨S1700000, .i32⟩ : BufTy).Contents (Elt F)),
    binary main_v3 main_v142 main_v143 (addi : (⟨S1700000, .i32⟩ : BufTy).Contents (Elt F) → (⟨S1700000, .i32⟩ : BufTy).Contents (Elt F) → (⟨S1700000, .i32⟩ : BufTy).Contents (Elt F)),
    ternary main_v141 main_v143 main_v3 main_v144 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v144 main_v145 (broadcastInDim S1700000x1 ![0] bcast_S1700000_S1700000x1_0 : (⟨S1700000, .i32⟩ : BufTy).Contents (Elt F) → (⟨S1700000x1, .i32⟩ : BufTy).Contents (Elt F)),
    binary main_v14 main_v145 main_v146 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_32 (constantI S_ 32 0#32),
    unary main_c_32 main_v147 (broadcastInDim S1700000 ![] bcast_S_S1700000 : (⟨S_, .i32⟩ : BufTy).Contents (Elt F) → (⟨S1700000, .i32⟩ : BufTy).Contents (Elt F)),
    binary main_v6 main_v147 main_v148 (cmpi .slt : (⟨S1700000, .i32⟩ : BufTy).Contents (Elt F) → (⟨S1700000, .i32⟩ : BufTy).Contents (Elt F) → (⟨S1700000, .i1⟩ : BufTy).Contents (Elt F)),
    nullary main_c_33 (constantI S_ 32 100000#32),
    unary main_c_33 main_v149 (broadcastInDim S1700000 ![] bcast_S_S1700000 : (⟨S_, .i32⟩ : BufTy).Contents (Elt F) → (⟨S1700000, .i32⟩ : BufTy).Contents (Elt F)),
    binary main_v6 main_v149 main_v150 (addi : (⟨S1700000, .i32⟩ : BufTy).Contents (Elt F) → (⟨S1700000, .i32⟩ : BufTy).Contents (Elt F) → (⟨S1700000, .i32⟩ : BufTy).Contents (Elt F)),
    ternary main_v148 main_v150 main_v6 main_v151 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v151 main_v152 (broadcastInDim S1700000x1 ![0] bcast_S1700000_S1700000x1_0 : (⟨S1700000, .i32⟩ : BufTy).Contents (Elt F) → (⟨S1700000x1, .i32⟩ : BufTy).Contents (Elt F)),
    binary main_v14 main_v152 main_v153 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v146 main_v153 main_v154 (mulf : (⟨S1700000, .f32⟩ : BufTy).Contents (Elt F) → (⟨S1700000, .f32⟩ : BufTy).Contents (Elt F) → (⟨S1700000, .f32⟩ : BufTy).Contents (Elt F)),
    nullary main_c_34 (constantI S_ 32 0#32),
    unary main_c_34 main_v155 (broadcastInDim S1700000 ![] bcast_S_S1700000 : (⟨S_, .i32⟩ : BufTy).Contents (Elt F) → (⟨S1700000, .i32⟩ : BufTy).Contents (Elt F)),
    binary main_v3 main_v155 main_v156 (cmpi .slt : (⟨S1700000, .i32⟩ : BufTy).Contents (Elt F) → (⟨S1700000, .i32⟩ : BufTy).Contents (Elt F) → (⟨S1700000, .i1⟩ : BufTy).Contents (Elt F)),
    nullary main_c_35 (constantI S_ 32 100000#32),
    unary main_c_35 main_v157 (broadcastInDim S1700000 ![] bcast_S_S1700000 : (⟨S_, .i32⟩ : BufTy).Contents (Elt F) → (⟨S1700000, .i32⟩ : BufTy).Contents (Elt F)),
    binary main_v3 main_v157 main_v158 (addi : (⟨S1700000, .i32⟩ : BufTy).Contents (Elt F) → (⟨S1700000, .i32⟩ : BufTy).Contents (Elt F) → (⟨S1700000, .i32⟩ : BufTy).Contents (Elt F)),
    ternary main_v156 main_v158 main_v3 main_v159 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v159 main_v160 (broadcastInDim S1700000x1 ![0] bcast_S1700000_S1700000x1_0 : (⟨S1700000, .i32⟩ : BufTy).Contents (Elt F) → (⟨S1700000x1, .i32⟩ : BufTy).Contents (Elt F)),
    binary main_v139 main_v160 main_v161 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v154 main_v162 (broadcastInDim S1700000x1 ![0] bcast_S1700000_S1700000x1_0 : (⟨S1700000, .f32⟩ : BufTy).Contents (Elt F) → (⟨S1700000x1, .f32⟩ : BufTy).Contents (Elt F)),
    unary main_v162 main_v163 (broadcastInDim S1700000x128 ![0, 1] bcast_S1700000x1_S1700000x128_0_1 : (⟨S1700000x1, .f32⟩ : BufTy).Contents (Elt F) → (⟨S1700000x128, .f32⟩ : BufTy).Contents (Elt F)),
    binary main_v161 main_v163 main_v164 (mulf : (⟨S1700000x128, .f32⟩ : BufTy).Contents (Elt F) → (⟨S1700000x128, .f32⟩ : BufTy).Contents (Elt F) → (⟨S1700000x128, .f32⟩ : BufTy).Contents (Elt F)),
    nullary main_cst_36 (constant S_ .f32 0x00000000#32),
    unary main_cst_36 main_v165 (broadcastInDim S100000x128 ![] bcast_S_S100000x128 : (⟨S_, .f32⟩ : BufTy).Contents (Elt F) → (⟨S100000x128, .f32⟩ : BufTy).Contents (Elt F)),
    unary main_v6 main_v166 (broadcastInDim S1700000x1 ![0] bcast_S1700000_S1700000x1_0 : (⟨S1700000, .i32⟩ : BufTy).Contents (Elt F) → (⟨S1700000x1, .i32⟩ : BufTy).Contents (Elt F)),
    ternary main_v165 main_v166 main_v164 main_v167 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v168 (broadcastInDim S1x128 ![1] bcast_S128_S1x128_1 : (⟨S128, .f32⟩ : BufTy).Contents (Elt F) → (⟨S1x128, .f32⟩ : BufTy).Contents (Elt F)),
    unary main_v168 main_v169 (broadcastInDim S100000x128 ![0, 1] bcast_S1x128_S100000x128_0_1 : (⟨S1x128, .f32⟩ : BufTy).Contents (Elt F) → (⟨S100000x128, .f32⟩ : BufTy).Contents (Elt F)),
    binary main_v167 main_v169 main_v170 (addf : (⟨S100000x128, .f32⟩ : BufTy).Contents (Elt F) → (⟨S100000x128, .f32⟩ : BufTy).Contents (Elt F) → (⟨S100000x128, .f32⟩ : BufTy).Contents (Elt F)) ]

/-- Operations 212 to 238 of the program's line. -/
abbrev segT : List (HloOp τ sig (Elt F)) :=
  [ nullary main_cst_37 (constant S_ .f32 0x00000000#32),
    unary main_cst_37 main_v171 (broadcastInDim S100000x128 ![] bcast_S_S100000x128 : (⟨S_, .f32⟩ : BufTy).Contents (Elt F) → (⟨S100000x128, .f32⟩ : BufTy).Contents (Elt F)),
    binary main_v170 main_v171 main_v172 (cmpf .ogt : (⟨S100000x128, .f32⟩ : BufTy).Contents (Elt F) → (⟨S100000x128, .f32⟩ : BufTy).Contents (Elt F) → (⟨S100000x128, .i1⟩ : BufTy).Contents (Elt F)),
    nullary main_cst_38 (constant S_ .f32 0x3CF5C28F#32),
    unary main_cst_38 main_v173 (broadcastInDim S100000x128 ![] bcast_S_S100000x128 : (⟨S_, .f32⟩ : BufTy).Contents (Elt F) → (⟨S100000x128, .f32⟩ : BufTy).Contents (Elt F)),
    binary main_v173 main_v170 main_v174 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v172) (TRef.of (T := ⟨S100000x128, .f32⟩) main_v170) (TRef.of (T := ⟨S100000x128, .f32⟩) main_v174) (TRef.of (T := ⟨S100000x128, .f32⟩) main_v175) select,
    nullary main_cst_39 (constant S_ .f32 0x00000000#32),
    unary main_cst_39 main_v176 (broadcastInDim S128x128 ![] bcast_S_S128x128 : (⟨S_, .f32⟩ : BufTy).Contents (Elt F) → (⟨S128x128, .f32⟩ : BufTy).Contents (Elt F)),
    unary main_arg2 main_v177 (broadcastInDim S100000x1 ![0] bcast_S100000_S100000x1_0 : (⟨S100000, .i32⟩ : BufTy).Contents (Elt F) → (⟨S100000x1, .i32⟩ : BufTy).Contents (Elt F)),
    ternary main_v176 main_v177 main_v175 main_v178 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    nullary main_cst_40 (constant S_ .f32 0x3F800000#32),
    unary main_cst_40 main_v179 (broadcastInDim S100000 ![] bcast_S_S100000 : (⟨S_, .f32⟩ : BufTy).Contents (Elt F) → (⟨S100000, .f32⟩ : BufTy).Contents (Elt F)),
    nullary main_cst_41 (constant S_ .f32 0x00000000#32),
    unary main_cst_41 main_v180 (broadcastInDim S128 ![] bcast_S_S128 : (⟨S_, .f32⟩ : BufTy).Contents (Elt F) → (⟨S128, .f32⟩ : BufTy).Contents (Elt F)),
    unary main_arg2 main_v181 (broadcastInDim S100000x1 ![0] bcast_S100000_S100000x1_0 : (⟨S100000, .i32⟩ : BufTy).Contents (Elt F) → (⟨S100000x1, .i32⟩ : BufTy).Contents (Elt F)),
    ternary main_v180 main_v181 main_v179 main_v182 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_42 (constant S_ .f32 0x3F800000#32),
    unary main_cst_42 main_v183 (broadcastInDim S128 ![] bcast_S_S128 : (⟨S_, .f32⟩ : BufTy).Contents (Elt F) → (⟨S128, .f32⟩ : BufTy).Contents (Elt F)),
    binary main_v182 main_v183 main_v184 (maximumf : (⟨S128, .f32⟩ : BufTy).Contents (Elt F) → (⟨S128, .f32⟩ : BufTy).Contents (Elt F) → (⟨S128, .f32⟩ : BufTy).Contents (Elt F)),
    unary main_v184 main_v185 (broadcastInDim S128x1 ![0] bcast_S128_S128x1_0 : (⟨S128, .f32⟩ : BufTy).Contents (Elt F) → (⟨S128x1, .f32⟩ : BufTy).Contents (Elt F)),
    unary main_v185 main_v186 (broadcastInDim S128x128 ![0, 1] bcast_S128x1_S128x128_0_1 : (⟨S128x1, .f32⟩ : BufTy).Contents (Elt F) → (⟨S128x128, .f32⟩ : BufTy).Contents (Elt F)),
    binary main_v178 main_v186 main_v187 (Host.divf : (⟨S128x128, .f32⟩ : BufTy).Contents (Elt F) → (⟨S128x128, .f32⟩ : BufTy).Contents (Elt F) → (⟨S128x128, .f32⟩ : BufTy).Contents (Elt F)),
    binary main_v187 main_arg13 main_v188 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    unary main_arg14 main_v189 (broadcastInDim S1x64 ![1] bcast_S64_S1x64_1 : (⟨S64, .f32⟩ : BufTy).Contents (Elt F) → (⟨S1x64, .f32⟩ : BufTy).Contents (Elt F)),
    unary main_v189 main_v190 (broadcastInDim S128x64 ![0, 1] bcast_S1x64_S128x64_0_1 : (⟨S1x64, .f32⟩ : BufTy).Contents (Elt F) → (⟨S128x64, .f32⟩ : BufTy).Contents (Elt F)),
    binary main_v188 main_v190 main_v191 (addf : (⟨S128x64, .f32⟩ : BufTy).Contents (Elt F) → (⟨S128x64, .f32⟩ : BufTy).Contents (Elt F) → (⟨S128x64, .f32⟩ : BufTy).Contents (Elt F)) ]

set_option maxRecDepth 8192 in
/-- The program's line is the eight pieces in order. -/
theorem ops_split : (ops : List (HloOp τ sig (Elt F)))
    = segA0 ++ (segA1 ++ (segL1 ++ (segN1 ++ (segL2 ++ (segN2 ++ (segL3 ++ segT)))))) := rfl

/-! ## What each piece leaves untouched -/

set_option maxHeartbeats 4000000 in
theorem A0_keeps_main_arg0 (V : Valuation τ sig (Elt Ideal)) :
    after (segA0 (F := Ideal)) V (Proc.devRef .tc main_arg0) = V (Proc.devRef .tc main_arg0) := by
  after_results_simp <;> rfl

set_option maxHeartbeats 4000000 in
theorem A0_keeps_main_arg3 (V : Valuation τ sig (Elt Ideal)) :
    after (segA0 (F := Ideal)) V (Proc.devRef .tc main_arg3) = V (Proc.devRef .tc main_arg3) := by
  after_results_simp <;> rfl

set_option maxHeartbeats 4000000 in
theorem A0_keeps_main_arg4 (V : Valuation τ sig (Elt Ideal)) :
    after (segA0 (F := Ideal)) V (Proc.devRef .tc main_arg4) = V (Proc.devRef .tc main_arg4) := by
  after_results_simp <;> rfl

set_option maxHeartbeats 4000000 in
theorem A0_keeps_main_arg9 (V : Valuation τ sig (Elt Ideal)) :
    after (segA0 (F := Ideal)) V (Proc.devRef .tc main_arg9) = V (Proc.devRef .tc main_arg9) := by
  after_results_simp <;> rfl

set_option maxHeartbeats 4000000 in
theorem A0_keeps_main_arg10 (V : Valuation τ sig (Elt Ideal)) :
    after (segA0 (F := Ideal)) V (Proc.devRef .tc main_arg10) = V (Proc.devRef .tc main_arg10) := by
  after_results_simp <;> rfl

set_option maxHeartbeats 4000000 in
theorem A0_keeps_main_arg5 (V : Valuation τ sig (Elt Ideal)) :
    after (segA0 (F := Ideal)) V (Proc.devRef .tc main_arg5) = V (Proc.devRef .tc main_arg5) := by
  after_results_simp <;> rfl

set_option maxHeartbeats 4000000 in
theorem A0_keeps_main_arg6 (V : Valuation τ sig (Elt Ideal)) :
    after (segA0 (F := Ideal)) V (Proc.devRef .tc main_arg6) = V (Proc.devRef .tc main_arg6) := by
  after_results_simp <;> rfl

set_option maxHeartbeats 4000000 in
theorem A0_keeps_main_arg11 (V : Valuation τ sig (Elt Ideal)) :
    after (segA0 (F := Ideal)) V (Proc.devRef .tc main_arg11) = V (Proc.devRef .tc main_arg11) := by
  after_results_simp <;> rfl

set_option maxHeartbeats 4000000 in
theorem A0_keeps_main_arg12 (V : Valuation τ sig (Elt Ideal)) :
    after (segA0 (F := Ideal)) V (Proc.devRef .tc main_arg12) = V (Proc.devRef .tc main_arg12) := by
  after_results_simp <;> rfl

set_option maxHeartbeats 4000000 in
theorem A0_keeps_main_arg7 (V : Valuation τ sig (Elt Ideal)) :
    after (segA0 (F := Ideal)) V (Proc.devRef .tc main_arg7) = V (Proc.devRef .tc main_arg7) := by
  after_results_simp <;> rfl

set_option maxHeartbeats 4000000 in
theorem A0_keeps_main_arg8 (V : Valuation τ sig (Elt Ideal)) :
    after (segA0 (F := Ideal)) V (Proc.devRef .tc main_arg8) = V (Proc.devRef .tc main_arg8) := by
  after_results_simp <;> rfl

set_option maxHeartbeats 4000000 in
theorem A0_keeps_main_arg2 (V : Valuation τ sig (Elt Ideal)) :
    after (segA0 (F := Ideal)) V (Proc.devRef .tc main_arg2) = V (Proc.devRef .tc main_arg2) := by
  after_results_simp <;> rfl

set_option maxHeartbeats 4000000 in
theorem A0_keeps_main_arg13 (V : Valuation τ sig (Elt Ideal)) :
    after (segA0 (F := Ideal)) V (Proc.devRef .tc main_arg13) = V (Proc.devRef .tc main_arg13) := by
  after_results_simp <;> rfl

set_option maxHeartbeats 4000000 in
theorem A0_keeps_main_arg14 (V : Valuation τ sig (Elt Ideal)) :
    after (segA0 (F := Ideal)) V (Proc.devRef .tc main_arg14) = V (Proc.devRef .tc main_arg14) := by
  after_results_simp <;> rfl

set_option maxHeartbeats 4000000 in
theorem A1_keeps_main_arg0 (V : Valuation τ sig (Elt Ideal)) :
    after (segA1 (F := Ideal)) V (Proc.devRef .tc main_arg0) = V (Proc.devRef .tc main_arg0) := by
  after_results_simp <;> rfl

set_option maxHeartbeats 4000000 in
theorem A1_keeps_main_arg3 (V : Valuation τ sig (Elt Ideal)) :
    after (segA1 (F := Ideal)) V (Proc.devRef .tc main_arg3) = V (Proc.devRef .tc main_arg3) := by
  after_results_simp <;> rfl

set_option maxHeartbeats 4000000 in
theorem A1_keeps_main_arg4 (V : Valuation τ sig (Elt Ideal)) :
    after (segA1 (F := Ideal)) V (Proc.devRef .tc main_arg4) = V (Proc.devRef .tc main_arg4) := by
  after_results_simp <;> rfl

set_option maxHeartbeats 4000000 in
theorem A1_keeps_main_v3 (V : Valuation τ sig (Elt Ideal)) :
    after (segA1 (F := Ideal)) V (Proc.devRef .tc main_v3) = V (Proc.devRef .tc main_v3) := by
  after_results_simp <;> rfl

set_option maxHeartbeats 4000000 in
theorem A1_keeps_main_v6 (V : Valuation τ sig (Elt Ideal)) :
    after (segA1 (F := Ideal)) V (Proc.devRef .tc main_v6) = V (Proc.devRef .tc main_v6) := by
  after_results_simp <;> rfl

set_option maxHeartbeats 4000000 in
theorem A1_keeps_main_arg9 (V : Valuation τ sig (Elt Ideal)) :
    after (segA1 (F := Ideal)) V (Proc.devRef .tc main_arg9) = V (Proc.devRef .tc main_arg9) := by
  after_results_simp <;> rfl

set_option maxHeartbeats 4000000 in
theorem A1_keeps_main_arg10 (V : Valuation τ sig (Elt Ideal)) :
    after (segA1 (F := Ideal)) V (Proc.devRef .tc main_arg10) = V (Proc.devRef .tc main_arg10) := by
  after_results_simp <;> rfl

set_option maxHeartbeats 4000000 in
theorem A1_keeps_main_arg5 (V : Valuation τ sig (Elt Ideal)) :
    after (segA1 (F := Ideal)) V (Proc.devRef .tc main_arg5) = V (Proc.devRef .tc main_arg5) := by
  after_results_simp <;> rfl

set_option maxHeartbeats 4000000 in
theorem A1_keeps_main_arg6 (V : Valuation τ sig (Elt Ideal)) :
    after (segA1 (F := Ideal)) V (Proc.devRef .tc main_arg6) = V (Proc.devRef .tc main_arg6) := by
  after_results_simp <;> rfl

set_option maxHeartbeats 4000000 in
theorem A1_keeps_main_arg11 (V : Valuation τ sig (Elt Ideal)) :
    after (segA1 (F := Ideal)) V (Proc.devRef .tc main_arg11) = V (Proc.devRef .tc main_arg11) := by
  after_results_simp <;> rfl

set_option maxHeartbeats 4000000 in
theorem A1_keeps_main_arg12 (V : Valuation τ sig (Elt Ideal)) :
    after (segA1 (F := Ideal)) V (Proc.devRef .tc main_arg12) = V (Proc.devRef .tc main_arg12) := by
  after_results_simp <;> rfl

set_option maxHeartbeats 4000000 in
theorem A1_keeps_main_arg7 (V : Valuation τ sig (Elt Ideal)) :
    after (segA1 (F := Ideal)) V (Proc.devRef .tc main_arg7) = V (Proc.devRef .tc main_arg7) := by
  after_results_simp <;> rfl

set_option maxHeartbeats 4000000 in
theorem A1_keeps_main_arg8 (V : Valuation τ sig (Elt Ideal)) :
    after (segA1 (F := Ideal)) V (Proc.devRef .tc main_arg8) = V (Proc.devRef .tc main_arg8) := by
  after_results_simp <;> rfl

set_option maxHeartbeats 4000000 in
theorem A1_keeps_main_arg2 (V : Valuation τ sig (Elt Ideal)) :
    after (segA1 (F := Ideal)) V (Proc.devRef .tc main_arg2) = V (Proc.devRef .tc main_arg2) := by
  after_results_simp <;> rfl

set_option maxHeartbeats 4000000 in
theorem A1_keeps_main_arg13 (V : Valuation τ sig (Elt Ideal)) :
    after (segA1 (F := Ideal)) V (Proc.devRef .tc main_arg13) = V (Proc.devRef .tc main_arg13) := by
  after_results_simp <;> rfl

set_option maxHeartbeats 4000000 in
theorem A1_keeps_main_arg14 (V : Valuation τ sig (Elt Ideal)) :
    after (segA1 (F := Ideal)) V (Proc.devRef .tc main_arg14) = V (Proc.devRef .tc main_arg14) := by
  after_results_simp <;> rfl

set_option maxHeartbeats 4000000 in
theorem L1_keeps_main_arg9 (V : Valuation τ sig (Elt Ideal)) :
    after (segL1 (F := Ideal)) V (Proc.devRef .tc main_arg9) = V (Proc.devRef .tc main_arg9) := by
  after_results_simp <;> rfl

set_option maxHeartbeats 4000000 in
theorem L1_keeps_main_arg10 (V : Valuation τ sig (Elt Ideal)) :
    after (segL1 (F := Ideal)) V (Proc.devRef .tc main_arg10) = V (Proc.devRef .tc main_arg10) := by
  after_results_simp <;> rfl

set_option maxHeartbeats 4000000 in
theorem L1_keeps_main_arg5 (V : Valuation τ sig (Elt Ideal)) :
    after (segL1 (F := Ideal)) V (Proc.devRef .tc main_arg5) = V (Proc.devRef .tc main_arg5) := by
  after_results_simp <;> rfl

set_option maxHeartbeats 4000000 in
theorem L1_keeps_main_arg6 (V : Valuation τ sig (Elt Ideal)) :
    after (segL1 (F := Ideal)) V (Proc.devRef .tc main_arg6) = V (Proc.devRef .tc main_arg6) := by
  after_results_simp <;> rfl

set_option maxHeartbeats 4000000 in
theorem L1_keeps_main_v3 (V : Valuation τ sig (Elt Ideal)) :
    after (segL1 (F := Ideal)) V (Proc.devRef .tc main_v3) = V (Proc.devRef .tc main_v3) := by
  after_results_simp <;> rfl

set_option maxHeartbeats 4000000 in
theorem L1_keeps_main_v6 (V : Valuation τ sig (Elt Ideal)) :
    after (segL1 (F := Ideal)) V (Proc.devRef .tc main_v6) = V (Proc.devRef .tc main_v6) := by
  after_results_simp <;> rfl

set_option maxHeartbeats 4000000 in
theorem L1_keeps_main_v14 (V : Valuation τ sig (Elt Ideal)) :
    after (segL1 (F := Ideal)) V (Proc.devRef .tc main_v14) = V (Proc.devRef .tc main_v14) := by
  after_results_simp <;> rfl

set_option maxHeartbeats 4000000 in
theorem L1_keeps_main_arg11 (V : Valuation τ sig (Elt Ideal)) :
    after (segL1 (F := Ideal)) V (Proc.devRef .tc main_arg11) = V (Proc.devRef .tc main_arg11) := by
  after_results_simp <;> rfl

set_option maxHeartbeats 4000000 in
theorem L1_keeps_main_arg12 (V : Valuation τ sig (Elt Ideal)) :
    after (segL1 (F := Ideal)) V (Proc.devRef .tc main_arg12) = V (Proc.devRef .tc main_arg12) := by
  after_results_simp <;> rfl

set_option maxHeartbeats 4000000 in
theorem L1_keeps_main_arg7 (V : Valuation τ sig (Elt Ideal)) :
    after (segL1 (F := Ideal)) V (Proc.devRef .tc main_arg7) = V (Proc.devRef .tc main_arg7) := by
  after_results_simp <;> rfl

set_option maxHeartbeats 4000000 in
theorem L1_keeps_main_arg8 (V : Valuation τ sig (Elt Ideal)) :
    after (segL1 (F := Ideal)) V (Proc.devRef .tc main_arg8) = V (Proc.devRef .tc main_arg8) := by
  after_results_simp <;> rfl

set_option maxHeartbeats 4000000 in
theorem L1_keeps_main_arg2 (V : Valuation τ sig (Elt Ideal)) :
    after (segL1 (F := Ideal)) V (Proc.devRef .tc main_arg2) = V (Proc.devRef .tc main_arg2) := by
  after_results_simp <;> rfl

set_option maxHeartbeats 4000000 in
theorem L1_keeps_main_arg13 (V : Valuation τ sig (Elt Ideal)) :
    after (segL1 (F := Ideal)) V (Proc.devRef .tc main_arg13) = V (Proc.devRef .tc main_arg13) := by
  after_results_simp <;> rfl

set_option maxHeartbeats 4000000 in
theorem L1_keeps_main_arg14 (V : Valuation τ sig (Elt Ideal)) :
    after (segL1 (F := Ideal)) V (Proc.devRef .tc main_arg14) = V (Proc.devRef .tc main_arg14) := by
  after_results_simp <;> rfl

set_option maxHeartbeats 4000000 in
theorem N1_keeps_main_arg5 (V : Valuation τ sig (Elt Ideal)) :
    after (segN1 (F := Ideal)) V (Proc.devRef .tc main_arg5) = V (Proc.devRef .tc main_arg5) := by
  after_results_simp <;> rfl

set_option maxHeartbeats 4000000 in
theorem N1_keeps_main_arg6 (V : Valuation τ sig (Elt Ideal)) :
    after (segN1 (F := Ideal)) V (Proc.devRef .tc main_arg6) = V (Proc.devRef .tc main_arg6) := by
  after_results_simp <;> rfl

set_option maxHeartbeats 4000000 in
theorem N1_keeps_main_v3 (V : Valuation τ sig (Elt Ideal)) :
    after (segN1 (F := Ideal)) V (Proc.devRef .tc main_v3) = V (Proc.devRef .tc main_v3) := by
  after_results_simp <;> rfl

set_option maxHeartbeats 4000000 in
theorem N1_keeps_main_v6 (V : Valuation τ sig (Elt Ideal)) :
    after (segN1 (F := Ideal)) V (Proc.devRef .tc main_v6) = V (Proc.devRef .tc main_v6) := by
  after_results_simp <;> rfl

set_option maxHeartbeats 4000000 in
theorem N1_keeps_main_v14 (V : Valuation τ sig (Elt Ideal)) :
    after (segN1 (F := Ideal)) V (Proc.devRef .tc main_v14) = V (Proc.devRef .tc main_v14) := by
  after_results_simp <;> rfl

set_option maxHeartbeats 4000000 in
theorem N1_keeps_main_arg11 (V : Valuation τ sig (Elt Ideal)) :
    after (segN1 (F := Ideal)) V (Proc.devRef .tc main_arg11) = V (Proc.devRef .tc main_arg11) := by
  after_results_simp <;> rfl

set_option maxHeartbeats 4000000 in
theorem N1_keeps_main_arg12 (V : Valuation τ sig (Elt Ideal)) :
    after (segN1 (F := Ideal)) V (Proc.devRef .tc main_arg12) = V (Proc.devRef .tc main_arg12) := by
  after_results_simp <;> rfl

set_option maxHeartbeats 4000000 in
theorem N1_keeps_main_arg7 (V : Valuation τ sig (Elt Ideal)) :
    after (segN1 (F := Ideal)) V (Proc.devRef .tc main_arg7) = V (Proc.devRef .tc main_arg7) := by
  after_results_simp <;> rfl

set_option maxHeartbeats 4000000 in
theorem N1_keeps_main_arg8 (V : Valuation τ sig (Elt Ideal)) :
    after (segN1 (F := Ideal)) V (Proc.devRef .tc main_arg8) = V (Proc.devRef .tc main_arg8) := by
  after_results_simp <;> rfl

set_option maxHeartbeats 4000000 in
theorem N1_keeps_main_arg2 (V : Valuation τ sig (Elt Ideal)) :
    after (segN1 (F := Ideal)) V (Proc.devRef .tc main_arg2) = V (Proc.devRef .tc main_arg2) := by
  after_results_simp <;> rfl

set_option maxHeartbeats 4000000 in
theorem N1_keeps_main_arg13 (V : Valuation τ sig (Elt Ideal)) :
    after (segN1 (F := Ideal)) V (Proc.devRef .tc main_arg13) = V (Proc.devRef .tc main_arg13) := by
  after_results_simp <;> rfl

set_option maxHeartbeats 4000000 in
theorem N1_keeps_main_arg14 (V : Valuation τ sig (Elt Ideal)) :
    after (segN1 (F := Ideal)) V (Proc.devRef .tc main_arg14) = V (Proc.devRef .tc main_arg14) := by
  after_results_simp <;> rfl

set_option maxHeartbeats 4000000 in
theorem L2_keeps_main_arg11 (V : Valuation τ sig (Elt Ideal)) :
    after (segL2 (F := Ideal)) V (Proc.devRef .tc main_arg11) = V (Proc.devRef .tc main_arg11) := by
  after_results_simp <;> rfl

set_option maxHeartbeats 4000000 in
theorem L2_keeps_main_arg12 (V : Valuation τ sig (Elt Ideal)) :
    after (segL2 (F := Ideal)) V (Proc.devRef .tc main_arg12) = V (Proc.devRef .tc main_arg12) := by
  after_results_simp <;> rfl

set_option maxHeartbeats 4000000 in
theorem L2_keeps_main_arg7 (V : Valuation τ sig (Elt Ideal)) :
    after (segL2 (F := Ideal)) V (Proc.devRef .tc main_arg7) = V (Proc.devRef .tc main_arg7) := by
  after_results_simp <;> rfl

set_option maxHeartbeats 4000000 in
theorem L2_keeps_main_arg8 (V : Valuation τ sig (Elt Ideal)) :
    after (segL2 (F := Ideal)) V (Proc.devRef .tc main_arg8) = V (Proc.devRef .tc main_arg8) := by
  after_results_simp <;> rfl

set_option maxHeartbeats 4000000 in
theorem L2_keeps_main_v3 (V : Valuation τ sig (Elt Ideal)) :
    after (segL2 (F := Ideal)) V (Proc.devRef .tc main_v3) = V (Proc.devRef .tc main_v3) := by
  after_results_simp <;> rfl

set_option maxHeartbeats 4000000 in
theorem L2_keeps_main_v6 (V : Valuation τ sig (Elt Ideal)) :
    after (segL2 (F := Ideal)) V (Proc.devRef .tc main_v6) = V (Proc.devRef .tc main_v6) := by
  after_results_simp <;> rfl

set_option maxHeartbeats 4000000 in
theorem L2_keeps_main_v14 (V : Valuation τ sig (Elt Ideal)) :
    after (segL2 (F := Ideal)) V (Proc.devRef .tc main_v14) = V (Proc.devRef .tc main_v14) := by
  after_results_simp <;> rfl

set_option maxHeartbeats 4000000 in
theorem L2_keeps_main_arg2 (V : Valuation τ sig (Elt Ideal)) :
    after (segL2 (F := Ideal)) V (Proc.devRef .tc main_arg2) = V (Proc.devRef .tc main_arg2) := by
  after_results_simp <;> rfl

set_option maxHeartbeats 4000000 in
theorem L2_keeps_main_arg13 (V : Valuation τ sig (Elt Ideal)) :
    after (segL2 (F := Ideal)) V (Proc.devRef .tc main_arg13) = V (Proc.devRef .tc main_arg13) := by
  after_results_simp <;> rfl

set_option maxHeartbeats 4000000 in
theorem L2_keeps_main_arg14 (V : Valuation τ sig (Elt Ideal)) :
    after (segL2 (F := Ideal)) V (Proc.devRef .tc main_arg14) = V (Proc.devRef .tc main_arg14) := by
  after_results_simp <;> rfl

set_option maxHeartbeats 4000000 in
theorem N2_keeps_main_arg7 (V : Valuation τ sig (Elt Ideal)) :
    after (segN2 (F := Ideal)) V (Proc.devRef .tc main_arg7) = V (Proc.devRef .tc main_arg7) := by
  after_results_simp <;> rfl

set_option maxHeartbeats 4000000 in
theorem N2_keeps_main_arg8 (V : Valuation τ sig (Elt Ideal)) :
    after (segN2 (F := Ideal)) V (Proc.devRef .tc main_arg8) = V (Proc.devRef .tc main_arg8) := by
  after_results_simp <;> rfl

set_option maxHeartbeats 4000000 in
theorem N2_keeps_main_v3 (V : Valuation τ sig (Elt Ideal)) :
    after (segN2 (F := Ideal)) V (Proc.devRef .tc main_v3) = V (Proc.devRef .tc main_v3) := by
  after_results_simp <;> rfl

set_option maxHeartbeats 4000000 in
theorem N2_keeps_main_v6 (V : Valuation τ sig (Elt Ideal)) :
    after (segN2 (F := Ideal)) V (Proc.devRef .tc main_v6) = V (Proc.devRef .tc main_v6) := by
  after_results_simp <;> rfl

set_option maxHeartbeats 4000000 in
theorem N2_keeps_main_v14 (V : Valuation τ sig (Elt Ideal)) :
    after (segN2 (F := Ideal)) V (Proc.devRef .tc main_v14) = V (Proc.devRef .tc main_v14) := by
  after_results_simp <;> rfl

set_option maxHeartbeats 4000000 in
theorem N2_keeps_main_arg2 (V : Valuation τ sig (Elt Ideal)) :
    after (segN2 (F := Ideal)) V (Proc.devRef .tc main_arg2) = V (Proc.devRef .tc main_arg2) := by
  after_results_simp <;> rfl

set_option maxHeartbeats 4000000 in
theorem N2_keeps_main_arg13 (V : Valuation τ sig (Elt Ideal)) :
    after (segN2 (F := Ideal)) V (Proc.devRef .tc main_arg13) = V (Proc.devRef .tc main_arg13) := by
  after_results_simp <;> rfl

set_option maxHeartbeats 4000000 in
theorem N2_keeps_main_arg14 (V : Valuation τ sig (Elt Ideal)) :
    after (segN2 (F := Ideal)) V (Proc.devRef .tc main_arg14) = V (Proc.devRef .tc main_arg14) := by
  after_results_simp <;> rfl

set_option maxHeartbeats 4000000 in
theorem L3_keeps_main_arg2 (V : Valuation τ sig (Elt Ideal)) :
    after (segL3 (F := Ideal)) V (Proc.devRef .tc main_arg2) = V (Proc.devRef .tc main_arg2) := by
  after_results_simp <;> rfl

set_option maxHeartbeats 4000000 in
theorem L3_keeps_main_arg13 (V : Valuation τ sig (Elt Ideal)) :
    after (segL3 (F := Ideal)) V (Proc.devRef .tc main_arg13) = V (Proc.devRef .tc main_arg13) := by
  after_results_simp <;> rfl

set_option maxHeartbeats 4000000 in
theorem L3_keeps_main_arg14 (V : Valuation τ sig (Elt Ideal)) :
    after (segL3 (F := Ideal)) V (Proc.devRef .tc main_arg14) = V (Proc.devRef .tc main_arg14) := by
  after_results_simp <;> rfl

/-! ## What each piece computes -/

/-- The departure words: row 0 of the edge array, then the self-loops. -/
theorem A0_v3 (V : Valuation τ sig (Elt Ideal)) (e : Glue.Edges) (he : V (Proc.devRef .tc main_arg1) = e) :
    after (segA0 (F := Ideal)) V (Proc.devRef .tc main_v3) = Glue.srcW e := by
  subst he
  after_results_simp
  unfold Glue.srcW
  refine concat_congr _ _ _ _ ?_ ?_ <;> (after_results_simp <;> rfl)

/-- The arrival words: row 1 of the edge array, then the self-loops. -/
theorem A0_v6 (V : Valuation τ sig (Elt Ideal)) (e : Glue.Edges) (he : V (Proc.devRef .tc main_arg1) = e) :
    after (segA0 (F := Ideal)) V (Proc.devRef .tc main_v6) = Glue.dstW e := by
  subst he
  after_results_simp
  unfold Glue.dstW
  refine concat_congr _ _ _ _ ?_ ?_ <;> (after_results_simp <;> rfl)

/-- The nodes' reciprocal root degrees, from the arrival words. -/
theorem A1_v14 (V : Valuation τ sig (Elt Ideal)) (e : Glue.Edges) (h6 : V (Proc.devRef .tc main_v6) = Glue.dstW e) :
    after (segA1 (F := Ideal)) V (Proc.devRef .tc main_v14) = Glue.dinv e := by
  after_results_simp
  simp only [h6, TRef.toBuf, TRef.ofBuf, cast_eq, id_eq]
  unfold Glue.dinv Glue.deg Glue.zerosN Glue.rawIdx
  rfl

set_option maxRecDepth 8192 in
set_option maxHeartbeats 4000000 in
/-- A layer: the product of the layer's input with its weights, gathered along the departure words, scaled per edge by the two
    ends' reciprocal root degrees, summed into the arrival nodes, plus the bias. -/
theorem L1_out (V : Valuation τ sig (Elt Ideal)) (e : Glue.Edges) (x : FVec Ideal S100000x64 .f32) (w : FVec Ideal S64x128 .f32) (b : FVec Ideal S128 .f32)
    (h3 : V (Proc.devRef .tc main_v3) = Glue.srcW e) (h6 : V (Proc.devRef .tc main_v6) = Glue.dstW e) (h14 : V (Proc.devRef .tc main_v14) = Glue.dinv e)
    (hx : V (Proc.devRef .tc main_arg0) = x) (hw : V (Proc.devRef .tc main_arg3) = w) (hb : V (Proc.devRef .tc main_arg4) = b) :
    after (segL1 (F := Ideal)) V (Proc.devRef .tc main_v46) = Glue.refConv e (Host.dotGeneral (F := Ideal) dot_S100000x64_S64x128_S100000x128_1_0_0_1_n_n none x w) b := by
  subst hx hw hb
  after_results_simp
  simp only [h3, h6, h14, TRef.toBuf, TRef.ofBuf, cast_eq, id_eq]
  unfold Glue.refConv Glue.scatterDst Glue.gatherRows Glue.gatherVec Glue.perEdge Glue.rows Glue.rawIdx Glue.normIdx Glue.zerosNC
  rfl

set_option maxRecDepth 8192 in
set_option maxHeartbeats 4000000 in
/-- Batch normalisation of a layer's output followed by the leaky rectifier. -/
theorem N1_out (V : Valuation τ sig (Elt Ideal)) (h : FVec Ideal S100000x128 .f32) (g β : FVec Ideal S128 .f32)
    (hh : V (Proc.devRef .tc main_v46) = h) (hg : V (Proc.devRef .tc main_arg9) = g) (hβ : V (Proc.devRef .tc main_arg10) = β) :
    after (segN1 (F := Ideal)) V (Proc.devRef .tc main_v76) = Glue.refLrelu (Glue.refBN h g β) := by
  subst hh hg hβ
  after_results_simp
  simp only [TRef.toBuf, TRef.ofBuf, cast_eq, id_eq]
  unfold Glue.refLrelu Glue.refBN Glue.colMean Glue.rows Glue.zerosNC
  rfl

set_option maxRecDepth 8192 in
set_option maxHeartbeats 4000000 in
/-- A layer: the product of the layer's input with its weights, gathered along the departure words, scaled per edge by the two
    ends' reciprocal root degrees, summed into the arrival nodes, plus the bias. -/
theorem L2_out (V : Valuation τ sig (Elt Ideal)) (e : Glue.Edges) (x : FVec Ideal S100000x128 .f32) (w : FVec Ideal S128x128 .f32) (b : FVec Ideal S128 .f32)
    (h3 : V (Proc.devRef .tc main_v3) = Glue.srcW e) (h6 : V (Proc.devRef .tc main_v6) = Glue.dstW e) (h14 : V (Proc.devRef .tc main_v14) = Glue.dinv e)
    (hx : V (Proc.devRef .tc main_v76) = x) (hw : V (Proc.devRef .tc main_arg5) = w) (hb : V (Proc.devRef .tc main_arg6) = b) :
    after (segL2 (F := Ideal)) V (Proc.devRef .tc main_v108) = Glue.refConv e (Host.dotGeneral (F := Ideal) dot_S100000x128_S128x128_S100000x128_1_0_0_1_n_n none x w) b := by
  subst hx hw hb
  after_results_simp
  simp only [h3, h6, h14, TRef.toBuf, TRef.ofBuf, cast_eq, id_eq]
  unfold Glue.refConv Glue.scatterDst Glue.gatherRows Glue.gatherVec Glue.perEdge Glue.rows Glue.rawIdx Glue.normIdx Glue.zerosNC
  rfl

set_option maxRecDepth 8192 in
set_option maxHeartbeats 4000000 in
/-- Batch normalisation of a layer's output followed by the leaky rectifier. -/
theorem N2_out (V : Valuation τ sig (Elt Ideal)) (h : FVec Ideal S100000x128 .f32) (g β : FVec Ideal S128 .f32)
    (hh : V (Proc.devRef .tc main_v108) = h) (hg : V (Proc.devRef .tc main_arg11) = g) (hβ : V (Proc.devRef .tc main_arg12) = β) :
    after (segN2 (F := Ideal)) V (Proc.devRef .tc main_v138) = Glue.refLrelu (Glue.refBN h g β) := by
  subst hh hg hβ
  after_results_simp
  simp only [TRef.toBuf, TRef.ofBuf, cast_eq, id_eq]
  unfold Glue.refLrelu Glue.refBN Glue.colMean Glue.rows Glue.zerosNC
  rfl

set_option maxRecDepth 8192 in
set_option maxHeartbeats 4000000 in
/-- A layer: the product of the layer's input with its weights, gathered along the departure words, scaled per edge by the two
    ends' reciprocal root degrees, summed into the arrival nodes, plus the bias. -/
theorem L3_out (V : Valuation τ sig (Elt Ideal)) (e : Glue.Edges) (x : FVec Ideal S100000x128 .f32) (w : FVec Ideal S128x128 .f32) (b : FVec Ideal S128 .f32)
    (h3 : V (Proc.devRef .tc main_v3) = Glue.srcW e) (h6 : V (Proc.devRef .tc main_v6) = Glue.dstW e) (h14 : V (Proc.devRef .tc main_v14) = Glue.dinv e)
    (hx : V (Proc.devRef .tc main_v138) = x) (hw : V (Proc.devRef .tc main_arg7) = w) (hb : V (Proc.devRef .tc main_arg8) = b) :
    after (segL3 (F := Ideal)) V (Proc.devRef .tc main_v170) = Glue.refConv e (Host.dotGeneral (F := Ideal) dot_S100000x128_S128x128_S100000x128_1_0_0_1_n_n none x w) b := by
  subst hx hw hb
  after_results_simp
  simp only [h3, h6, h14, TRef.toBuf, TRef.ofBuf, cast_eq, id_eq]
  unfold Glue.refConv Glue.scatterDst Glue.gatherRows Glue.gatherVec Glue.perEdge Glue.rows Glue.rawIdx Glue.normIdx Glue.zerosNC
  rfl

set_option maxRecDepth 8192 in
set_option maxHeartbeats 4000000 in
/-- The last layer's output rectified, pooled per graph, and projected. -/
theorem T_out (V : Valuation τ sig (Elt Ideal)) (h : FVec Ideal S100000x128 .f32) (x2 : IVec S100000 32) (lw : FVec Ideal S128x64 .f32) (lb : FVec Ideal S64 .f32)
    (hh : V (Proc.devRef .tc main_v170) = h) (h2 : V (Proc.devRef .tc main_arg2) = x2) (hw : V (Proc.devRef .tc main_arg13) = lw) (hb : V (Proc.devRef .tc main_arg14) = lb) :
    after (segT (F := Ideal)) V (Proc.devRef .tc main_v191) = Glue.refOut (Glue.meanPool x2 (Glue.refLrelu h)) lw lb := by
  subst hh h2 hw hb
  after_results_simp
  simp only [TRef.toBuf, TRef.ofBuf, cast_eq, id_eq]
  unfold Glue.refOut Glue.meanPool Glue.refLrelu Glue.zerosNC
  rfl

/-! ## The eight pieces chained -/

set_option maxRecDepth 8192 in
/-- From any contents that give the fifteen arguments' buffers the named values, the eight pieces in order leave the
    result buffer at `Glue.refNet` of those values. -/
theorem chain (V0 : Valuation τ sig (Elt Ideal))
    (x0 : FVec Ideal S100000x64 .f32) (h0 : V0 (Proc.devRef .tc main_arg0) = x0)
    (e : Glue.Edges) (h1 : V0 (Proc.devRef .tc main_arg1) = e)
    (x2 : IVec S100000 32) (h2 : V0 (Proc.devRef .tc main_arg2) = x2)
    (w0 : FVec Ideal S64x128 .f32) (h3 : V0 (Proc.devRef .tc main_arg3) = w0)
    (b0 : FVec Ideal S128 .f32) (h4 : V0 (Proc.devRef .tc main_arg4) = b0)
    (w1 : FVec Ideal S128x128 .f32) (h5 : V0 (Proc.devRef .tc main_arg5) = w1)
    (b1 : FVec Ideal S128 .f32) (h6 : V0 (Proc.devRef .tc main_arg6) = b1)
    (w2 : FVec Ideal S128x128 .f32) (h7 : V0 (Proc.devRef .tc main_arg7) = w2)
    (b2 : FVec Ideal S128 .f32) (h8 : V0 (Proc.devRef .tc main_arg8) = b2)
    (g0 : FVec Ideal S128 .f32) (h9 : V0 (Proc.devRef .tc main_arg9) = g0)
    (β0 : FVec Ideal S128 .f32) (h10 : V0 (Proc.devRef .tc main_arg10) = β0)
    (g1 : FVec Ideal S128 .f32) (h11 : V0 (Proc.devRef .tc main_arg11) = g1)
    (β1 : FVec Ideal S128 .f32) (h12 : V0 (Proc.devRef .tc main_arg12) = β1)
    (lw : FVec Ideal S128x64 .f32) (h13 : V0 (Proc.devRef .tc main_arg13) = lw)
    (lb : FVec Ideal S64 .f32) (h14 : V0 (Proc.devRef .tc main_arg14) = lb)
    : after (segT (F := Ideal)) (after (segL3 (F := Ideal)) (after (segN2 (F := Ideal)) (after (segL2 (F := Ideal)) (after (segN1 (F := Ideal)) (after (segL1 (F := Ideal)) (after (segA1 (F := Ideal)) (after (segA0 (F := Ideal)) V0))))))) (Proc.devRef .tc main_v191)
      = Glue.refNet x0 e x2 w0 b0 w1 b1 w2 b2 g0 β0 g1 β1 lw lb := by
  have s0_main_v3 := A0_v3 V0 e h1
  have s0_main_v6 := A0_v6 V0 e h1
  have s0_main_arg0 := (A0_keeps_main_arg0 V0).trans h0
  have s0_main_arg3 := (A0_keeps_main_arg3 V0).trans h3
  have s0_main_arg4 := (A0_keeps_main_arg4 V0).trans h4
  have s0_main_arg9 := (A0_keeps_main_arg9 V0).trans h9
  have s0_main_arg10 := (A0_keeps_main_arg10 V0).trans h10
  have s0_main_arg5 := (A0_keeps_main_arg5 V0).trans h5
  have s0_main_arg6 := (A0_keeps_main_arg6 V0).trans h6
  have s0_main_arg11 := (A0_keeps_main_arg11 V0).trans h11
  have s0_main_arg12 := (A0_keeps_main_arg12 V0).trans h12
  have s0_main_arg7 := (A0_keeps_main_arg7 V0).trans h7
  have s0_main_arg8 := (A0_keeps_main_arg8 V0).trans h8
  have s0_main_arg2 := (A0_keeps_main_arg2 V0).trans h2
  have s0_main_arg13 := (A0_keeps_main_arg13 V0).trans h13
  have s0_main_arg14 := (A0_keeps_main_arg14 V0).trans h14
  have s1_main_v14 := A1_v14 (after (segA0 (F := Ideal)) V0) e s0_main_v6
  have s1_main_arg0 := (A1_keeps_main_arg0 (after (segA0 (F := Ideal)) V0)).trans s0_main_arg0
  have s1_main_arg3 := (A1_keeps_main_arg3 (after (segA0 (F := Ideal)) V0)).trans s0_main_arg3
  have s1_main_arg4 := (A1_keeps_main_arg4 (after (segA0 (F := Ideal)) V0)).trans s0_main_arg4
  have s1_main_v3 := (A1_keeps_main_v3 (after (segA0 (F := Ideal)) V0)).trans s0_main_v3
  have s1_main_v6 := (A1_keeps_main_v6 (after (segA0 (F := Ideal)) V0)).trans s0_main_v6
  have s1_main_arg9 := (A1_keeps_main_arg9 (after (segA0 (F := Ideal)) V0)).trans s0_main_arg9
  have s1_main_arg10 := (A1_keeps_main_arg10 (after (segA0 (F := Ideal)) V0)).trans s0_main_arg10
  have s1_main_arg5 := (A1_keeps_main_arg5 (after (segA0 (F := Ideal)) V0)).trans s0_main_arg5
  have s1_main_arg6 := (A1_keeps_main_arg6 (after (segA0 (F := Ideal)) V0)).trans s0_main_arg6
  have s1_main_arg11 := (A1_keeps_main_arg11 (after (segA0 (F := Ideal)) V0)).trans s0_main_arg11
  have s1_main_arg12 := (A1_keeps_main_arg12 (after (segA0 (F := Ideal)) V0)).trans s0_main_arg12
  have s1_main_arg7 := (A1_keeps_main_arg7 (after (segA0 (F := Ideal)) V0)).trans s0_main_arg7
  have s1_main_arg8 := (A1_keeps_main_arg8 (after (segA0 (F := Ideal)) V0)).trans s0_main_arg8
  have s1_main_arg2 := (A1_keeps_main_arg2 (after (segA0 (F := Ideal)) V0)).trans s0_main_arg2
  have s1_main_arg13 := (A1_keeps_main_arg13 (after (segA0 (F := Ideal)) V0)).trans s0_main_arg13
  have s1_main_arg14 := (A1_keeps_main_arg14 (after (segA0 (F := Ideal)) V0)).trans s0_main_arg14
  have s2_main_v46 := L1_out (after (segA1 (F := Ideal)) (after (segA0 (F := Ideal)) V0)) e _ _ _ s1_main_v3 s1_main_v6 s1_main_v14 s1_main_arg0 s1_main_arg3 s1_main_arg4
  have s2_main_arg9 := (L1_keeps_main_arg9 (after (segA1 (F := Ideal)) (after (segA0 (F := Ideal)) V0))).trans s1_main_arg9
  have s2_main_arg10 := (L1_keeps_main_arg10 (after (segA1 (F := Ideal)) (after (segA0 (F := Ideal)) V0))).trans s1_main_arg10
  have s2_main_arg5 := (L1_keeps_main_arg5 (after (segA1 (F := Ideal)) (after (segA0 (F := Ideal)) V0))).trans s1_main_arg5
  have s2_main_arg6 := (L1_keeps_main_arg6 (after (segA1 (F := Ideal)) (after (segA0 (F := Ideal)) V0))).trans s1_main_arg6
  have s2_main_v3 := (L1_keeps_main_v3 (after (segA1 (F := Ideal)) (after (segA0 (F := Ideal)) V0))).trans s1_main_v3
  have s2_main_v6 := (L1_keeps_main_v6 (after (segA1 (F := Ideal)) (after (segA0 (F := Ideal)) V0))).trans s1_main_v6
  have s2_main_v14 := (L1_keeps_main_v14 (after (segA1 (F := Ideal)) (after (segA0 (F := Ideal)) V0))).trans s1_main_v14
  have s2_main_arg11 := (L1_keeps_main_arg11 (after (segA1 (F := Ideal)) (after (segA0 (F := Ideal)) V0))).trans s1_main_arg11
  have s2_main_arg12 := (L1_keeps_main_arg12 (after (segA1 (F := Ideal)) (after (segA0 (F := Ideal)) V0))).trans s1_main_arg12
  have s2_main_arg7 := (L1_keeps_main_arg7 (after (segA1 (F := Ideal)) (after (segA0 (F := Ideal)) V0))).trans s1_main_arg7
  have s2_main_arg8 := (L1_keeps_main_arg8 (after (segA1 (F := Ideal)) (after (segA0 (F := Ideal)) V0))).trans s1_main_arg8
  have s2_main_arg2 := (L1_keeps_main_arg2 (after (segA1 (F := Ideal)) (after (segA0 (F := Ideal)) V0))).trans s1_main_arg2
  have s2_main_arg13 := (L1_keeps_main_arg13 (after (segA1 (F := Ideal)) (after (segA0 (F := Ideal)) V0))).trans s1_main_arg13
  have s2_main_arg14 := (L1_keeps_main_arg14 (after (segA1 (F := Ideal)) (after (segA0 (F := Ideal)) V0))).trans s1_main_arg14
  have s3_main_v76 := N1_out (after (segL1 (F := Ideal)) (after (segA1 (F := Ideal)) (after (segA0 (F := Ideal)) V0))) _ _ _ s2_main_v46 s2_main_arg9 s2_main_arg10
  have s3_main_arg5 := (N1_keeps_main_arg5 (after (segL1 (F := Ideal)) (after (segA1 (F := Ideal)) (after (segA0 (F := Ideal)) V0)))).trans s2_main_arg5
  have s3_main_arg6 := (N1_keeps_main_arg6 (after (segL1 (F := Ideal)) (after (segA1 (F := Ideal)) (after (segA0 (F := Ideal)) V0)))).trans s2_main_arg6
  have s3_main_v3 := (N1_keeps_main_v3 (after (segL1 (F := Ideal)) (after (segA1 (F := Ideal)) (after (segA0 (F := Ideal)) V0)))).trans s2_main_v3
  have s3_main_v6 := (N1_keeps_main_v6 (after (segL1 (F := Ideal)) (after (segA1 (F := Ideal)) (after (segA0 (F := Ideal)) V0)))).trans s2_main_v6
  have s3_main_v14 := (N1_keeps_main_v14 (after (segL1 (F := Ideal)) (after (segA1 (F := Ideal)) (after (segA0 (F := Ideal)) V0)))).trans s2_main_v14
  have s3_main_arg11 := (N1_keeps_main_arg11 (after (segL1 (F := Ideal)) (after (segA1 (F := Ideal)) (after (segA0 (F := Ideal)) V0)))).trans s2_main_arg11
  have s3_main_arg12 := (N1_keeps_main_arg12 (after (segL1 (F := Ideal)) (after (segA1 (F := Ideal)) (after (segA0 (F := Ideal)) V0)))).trans s2_main_arg12
  have s3_main_arg7 := (N1_keeps_main_arg7 (after (segL1 (F := Ideal)) (after (segA1 (F := Ideal)) (after (segA0 (F := Ideal)) V0)))).trans s2_main_arg7
  have s3_main_arg8 := (N1_keeps_main_arg8 (after (segL1 (F := Ideal)) (after (segA1 (F := Ideal)) (after (segA0 (F := Ideal)) V0)))).trans s2_main_arg8
  have s3_main_arg2 := (N1_keeps_main_arg2 (after (segL1 (F := Ideal)) (after (segA1 (F := Ideal)) (after (segA0 (F := Ideal)) V0)))).trans s2_main_arg2
  have s3_main_arg13 := (N1_keeps_main_arg13 (after (segL1 (F := Ideal)) (after (segA1 (F := Ideal)) (after (segA0 (F := Ideal)) V0)))).trans s2_main_arg13
  have s3_main_arg14 := (N1_keeps_main_arg14 (after (segL1 (F := Ideal)) (after (segA1 (F := Ideal)) (after (segA0 (F := Ideal)) V0)))).trans s2_main_arg14
  have s4_main_v108 := L2_out (after (segN1 (F := Ideal)) (after (segL1 (F := Ideal)) (after (segA1 (F := Ideal)) (after (segA0 (F := Ideal)) V0)))) e _ _ _ s3_main_v3 s3_main_v6 s3_main_v14 s3_main_v76 s3_main_arg5 s3_main_arg6
  have s4_main_arg11 := (L2_keeps_main_arg11 (after (segN1 (F := Ideal)) (after (segL1 (F := Ideal)) (after (segA1 (F := Ideal)) (after (segA0 (F := Ideal)) V0))))).trans s3_main_arg11
  have s4_main_arg12 := (L2_keeps_main_arg12 (after (segN1 (F := Ideal)) (after (segL1 (F := Ideal)) (after (segA1 (F := Ideal)) (after (segA0 (F := Ideal)) V0))))).trans s3_main_arg12
  have s4_main_arg7 := (L2_keeps_main_arg7 (after (segN1 (F := Ideal)) (after (segL1 (F := Ideal)) (after (segA1 (F := Ideal)) (after (segA0 (F := Ideal)) V0))))).trans s3_main_arg7
  have s4_main_arg8 := (L2_keeps_main_arg8 (after (segN1 (F := Ideal)) (after (segL1 (F := Ideal)) (after (segA1 (F := Ideal)) (after (segA0 (F := Ideal)) V0))))).trans s3_main_arg8
  have s4_main_v3 := (L2_keeps_main_v3 (after (segN1 (F := Ideal)) (after (segL1 (F := Ideal)) (after (segA1 (F := Ideal)) (after (segA0 (F := Ideal)) V0))))).trans s3_main_v3
  have s4_main_v6 := (L2_keeps_main_v6 (after (segN1 (F := Ideal)) (after (segL1 (F := Ideal)) (after (segA1 (F := Ideal)) (after (segA0 (F := Ideal)) V0))))).trans s3_main_v6
  have s4_main_v14 := (L2_keeps_main_v14 (after (segN1 (F := Ideal)) (after (segL1 (F := Ideal)) (after (segA1 (F := Ideal)) (after (segA0 (F := Ideal)) V0))))).trans s3_main_v14
  have s4_main_arg2 := (L2_keeps_main_arg2 (after (segN1 (F := Ideal)) (after (segL1 (F := Ideal)) (after (segA1 (F := Ideal)) (after (segA0 (F := Ideal)) V0))))).trans s3_main_arg2
  have s4_main_arg13 := (L2_keeps_main_arg13 (after (segN1 (F := Ideal)) (after (segL1 (F := Ideal)) (after (segA1 (F := Ideal)) (after (segA0 (F := Ideal)) V0))))).trans s3_main_arg13
  have s4_main_arg14 := (L2_keeps_main_arg14 (after (segN1 (F := Ideal)) (after (segL1 (F := Ideal)) (after (segA1 (F := Ideal)) (after (segA0 (F := Ideal)) V0))))).trans s3_main_arg14
  have s5_main_v138 := N2_out (after (segL2 (F := Ideal)) (after (segN1 (F := Ideal)) (after (segL1 (F := Ideal)) (after (segA1 (F := Ideal)) (after (segA0 (F := Ideal)) V0))))) _ _ _ s4_main_v108 s4_main_arg11 s4_main_arg12
  have s5_main_arg7 := (N2_keeps_main_arg7 (after (segL2 (F := Ideal)) (after (segN1 (F := Ideal)) (after (segL1 (F := Ideal)) (after (segA1 (F := Ideal)) (after (segA0 (F := Ideal)) V0)))))).trans s4_main_arg7
  have s5_main_arg8 := (N2_keeps_main_arg8 (after (segL2 (F := Ideal)) (after (segN1 (F := Ideal)) (after (segL1 (F := Ideal)) (after (segA1 (F := Ideal)) (after (segA0 (F := Ideal)) V0)))))).trans s4_main_arg8
  have s5_main_v3 := (N2_keeps_main_v3 (after (segL2 (F := Ideal)) (after (segN1 (F := Ideal)) (after (segL1 (F := Ideal)) (after (segA1 (F := Ideal)) (after (segA0 (F := Ideal)) V0)))))).trans s4_main_v3
  have s5_main_v6 := (N2_keeps_main_v6 (after (segL2 (F := Ideal)) (after (segN1 (F := Ideal)) (after (segL1 (F := Ideal)) (after (segA1 (F := Ideal)) (after (segA0 (F := Ideal)) V0)))))).trans s4_main_v6
  have s5_main_v14 := (N2_keeps_main_v14 (after (segL2 (F := Ideal)) (after (segN1 (F := Ideal)) (after (segL1 (F := Ideal)) (after (segA1 (F := Ideal)) (after (segA0 (F := Ideal)) V0)))))).trans s4_main_v14
  have s5_main_arg2 := (N2_keeps_main_arg2 (after (segL2 (F := Ideal)) (after (segN1 (F := Ideal)) (after (segL1 (F := Ideal)) (after (segA1 (F := Ideal)) (after (segA0 (F := Ideal)) V0)))))).trans s4_main_arg2
  have s5_main_arg13 := (N2_keeps_main_arg13 (after (segL2 (F := Ideal)) (after (segN1 (F := Ideal)) (after (segL1 (F := Ideal)) (after (segA1 (F := Ideal)) (after (segA0 (F := Ideal)) V0)))))).trans s4_main_arg13
  have s5_main_arg14 := (N2_keeps_main_arg14 (after (segL2 (F := Ideal)) (after (segN1 (F := Ideal)) (after (segL1 (F := Ideal)) (after (segA1 (F := Ideal)) (after (segA0 (F := Ideal)) V0)))))).trans s4_main_arg14
  have s6_main_v170 := L3_out (after (segN2 (F := Ideal)) (after (segL2 (F := Ideal)) (after (segN1 (F := Ideal)) (after (segL1 (F := Ideal)) (after (segA1 (F := Ideal)) (after (segA0 (F := Ideal)) V0)))))) e _ _ _ s5_main_v3 s5_main_v6 s5_main_v14 s5_main_v138 s5_main_arg7 s5_main_arg8
  have s6_main_arg2 := (L3_keeps_main_arg2 (after (segN2 (F := Ideal)) (after (segL2 (F := Ideal)) (after (segN1 (F := Ideal)) (after (segL1 (F := Ideal)) (after (segA1 (F := Ideal)) (after (segA0 (F := Ideal)) V0))))))).trans s5_main_arg2
  have s6_main_arg13 := (L3_keeps_main_arg13 (after (segN2 (F := Ideal)) (after (segL2 (F := Ideal)) (after (segN1 (F := Ideal)) (after (segL1 (F := Ideal)) (after (segA1 (F := Ideal)) (after (segA0 (F := Ideal)) V0))))))).trans s5_main_arg13
  have s6_main_arg14 := (L3_keeps_main_arg14 (after (segN2 (F := Ideal)) (after (segL2 (F := Ideal)) (after (segN1 (F := Ideal)) (after (segL1 (F := Ideal)) (after (segA1 (F := Ideal)) (after (segA0 (F := Ideal)) V0))))))).trans s5_main_arg14
  have fin := T_out (after (segL3 (F := Ideal)) (after (segN2 (F := Ideal)) (after (segL2 (F := Ideal)) (after (segN1 (F := Ideal)) (after (segL1 (F := Ideal)) (after (segA1 (F := Ideal)) (after (segA0 (F := Ideal)) V0))))))) _ _ _ _ s6_main_v170 s6_main_arg2 s6_main_arg13 s6_main_arg14
  unfold Glue.refNet
  exact fin

/-! ## The run's result -/

/-- The reference program's result, as the run reads it back, is `Glue.refNet` of the fifteen arguments as launched. -/
theorem res_eq (m : (ℓ : Loc nD τ sig) → Buf (Elt Ideal) ℓ) (c : Dev nD) :
    Cert.ReferenceIdeal.ValueP.res_main_v191 (F := Ideal) m c
      = Cert.Glue.refNet (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14)) := by
  have hs : Cert.ReferenceIdeal.ValueP.res_main_v191 (F := Ideal) m c
      = after (segT (F := Ideal)) (after (segL3 (F := Ideal)) (after (segN2 (F := Ideal)) (after (segL2 (F := Ideal)) (after (segN1 (F := Ideal)) (after (segL1 (F := Ideal)) (after (segA1 (F := Ideal)) (after (segA0 (F := Ideal)) (launchContents m c)))))))) (Proc.devRef .tc main_v191) := by
    unfold Cert.ReferenceIdeal.ValueP.res_main_v191
    rw [ops_split]
    simp only [after_append]
  rw [hs]
  exact chain (launchContents m c) _ rfl _ rfl _ rfl _ rfl _ rfl _ rfl _ rfl _ rfl _ rfl _ rfl _ rfl _ rfl _ rfl _ rfl _ rfl

end Cert.ReferenceIdeal.Stages

end
-- ==== Proof.LibEdgeIndex.lean ====
/-
  EDGE INDEXING: which operand element a gather along an edge list reads, and which operand element a scatter along an
  edge list lands on, for the three sets of dimension numbers that "table[edge]" (a row of a table, or an entry of a
  vector, per edge) and "sum per-edge values into nodes" lower to.

  Setting. A graph has N nodes and E edges; an edge list is an integer array of shape [E, 1] whose word at (e, 0) names
  a node. Write k(e) for that word read as a SIGNED integer.

  * Gather of rows. For a table of shape [N, C] and dimension numbers offset_dims = [1], collapsed_slice_dims = [0],
    start_index_map = [0], index_vector_dim = 1, slice_sizes = [1, C] and no batching axes, the result has shape [E, C]
    and its element (e, f) is the table's element (clamp k(e), f), where clamp k = min (max k 0) (N - 1): on the
    collapsed axis 0 the operand coordinate is the start index, clamped so that the slice of size 1 fits, and on axis 1
    the start is 0 and the coordinate is the result's offset coordinate f (`gather_rows_operandIdx`,
    `gather_rows_apply`).
  * Gather of entries. For a vector of shape [N] and dimension numbers offset_dims = [], collapsed_slice_dims = [0],
    start_index_map = [0], index_vector_dim = 1, slice_sizes = [1], the result has shape [E] and its element e is the
    vector's element clamp k(e) (`gather_entries_operandIdx`, `gather_entries_apply`).
  * Scatter into entries. For an operand of shape [N], updates of shape [E] and dimension numbers
    update_window_dims = [], inserted_window_dims = [0], scatter_dims_to_operand_dims = [0], index_vector_dim = 1,
    update e has start k(e) on axis 0 (NOT clamped) and window coordinate 0 (`scatter_entries_start`,
    `scatter_entries_window`); so it lands on operand element k(e) when 0 ≤ k(e) < N
    (`scatter_entries_resultIdx`) and is dropped otherwise (`scatter_entries_resultIdx_none`).

  The natural number (k).toNat is max k 0, so min (k).toNat (N - 1) is the clamp above.

  Every statement is about an ARBITRARY record of dimension numbers whose fields are given by equations; for a record
  written with literal fields each equation holds by `rfl`. The proofs replace the record by the literal one (the
  equations are substituted), evaluate the list lookups of the index functions on it, and identify the start-indices
  index "the result's batch coordinates with component 0 on the index vector's axis" with (e, 0) axis by axis.
-/
import Idealize.ShloMosaic.Lib.ValueIdx

open Idealize.ShloMosaic Idealize.ShloMosaic.ValueIdx

namespace Cert.LibEdgeIndex

/-! ## Scatter into the entries of a vector -/

section ScatterEntries
variable {N E w : Nat}

/-- The start on axis 0 of update `e` is the edge word `idx[e, 0]` read signed (no clamping), and its window
    coordinate there is 0 (axis 0 is an inserted window axis, so no update axis is a window axis of it). -/
theorem scatter_entries_start_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt ∧ d.window (ix1 e) 0 = 0 := by
  obtain ⟨uw, iw, sd, iv, wf⟩ := d
  simp only at h1 h2 h3 h4
  subst h1 h2 h3 h4
  generalize hd : (⟨[], [0], [0], 1, wf⟩ : ScatterDims ⟨1, ![N]⟩ ⟨2, ![E, 1]⟩ ⟨1, ![E]⟩) = d
  -- axis 0 is named by the scatter-dims-to-operand-dims map, at position 0
  have hmem : (0 : Fin 1) ∈ d.scatterDimsToOperandDims := by subst hd; exact List.mem_singleton.mpr rfl
  -- the scatter-indices index read for that component is (e, 0)
  have hsi : d.siIdx (ix1 e) ⟨List.idxOf (0 : Fin 1) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_⟩
  · unfold ScatterDims.start
    rw [dif_pos hmem, hsi]
  · -- the operand's kept axes are the axes of [N] outside [0]: none
    unfold ScatterDims.window
    rw [dif_neg]
    subst hd
    show (0 : Fin 1) ∉ (List.finRange 1).filter (· ∉ [0])
    decide

/-- The start on axis 0 of update `e`: the edge word read signed. -/
theorem scatter_entries_start (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt :=
  (scatter_entries_start_window d h1 h2 h3 h4 idx e).1

/-- The window coordinate on axis 0 of update `e`: zero. -/
theorem scatter_entries_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.window (ix1 e) 0 = 0 :=
  (scatter_entries_start_window d h1 h2 h3 h4 idx e).2

/-- AN EDGE WORD IN RANGE LANDS ON ITS NODE: when `0 ≤ idx[e, 0] < N` (read signed), update `e` lands on operand
    element `idx[e, 0]`. -/
theorem scatter_entries_resultIdx (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hlo : 0 ≤ (idx (ix2 e 0)).toInt) (hhi : (idx (ix2 e 0)).toInt < N) :
    d.resultIdx? (ix1 e) idx = some (ix1 ⟨(idx (ix2 e 0)).toInt.toNat, by omega⟩) := by
  obtain ⟨hst, hwin⟩ := scatter_entries_start_window d h1 h2 h3 h4 idx e
  -- the landing index is inside the operand on its one axis
  have hcond : ∀ a, 0 ≤ d.start (ix1 e) idx a + d.window (ix1 e) a ∧
      d.start (ix1 e) idx a + d.window (ix1 e) a < (⟨1, ![N]⟩ : Shape).size a := by
    intro a
    obtain rfl : a = 0 := Subsingleton.elim _ _
    rw [hst, hwin]
    show 0 ≤ (idx (ix2 e 0)).toInt + ((0 : Nat) : Int) ∧ (idx (ix2 e 0)).toInt + ((0 : Nat) : Int) < (N : Int)
    omega
  unfold ScatterDims.resultIdx?
  rw [dif_pos hcond]
  congr 1
  funext a
  obtain rfl : a = 0 := Subsingleton.elim _ _
  refine Fin.ext ?_
  show (d.start (ix1 e) idx 0 + d.window (ix1 e) 0).toNat = (idx (ix2 e 0)).toInt.toNat
  rw [hst, hwin]
  simp

/-- AN EDGE WORD OUT OF RANGE IS DROPPED: when `idx[e, 0]` (read signed) is negative or at least `N`, update `e`
    lands nowhere. -/
theorem scatter_entries_resultIdx_none (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hout : (idx (ix2 e 0)).toInt < 0 ∨ (N : Int) ≤ (idx (ix2 e 0)).toInt) :
    d.resultIdx? (ix1 e) idx = none := by
  obtain ⟨hst, hwin⟩ := scatter_entries_start_window d h1 h2 h3 h4 idx e
  unfold ScatterDims.resultIdx?
  rw [dif_neg]
  intro h
  have h0 := h 0
  rw [hst, hwin] at h0
  have h0' : 0 ≤ (idx (ix2 e 0)).toInt + ((0 : Nat) : Int) ∧ (idx (ix2 e 0)).toInt + ((0 : Nat) : Int) < (N : Int) := h0
  omega

end ScatterEntries

/-! ## Gather of the rows of a table -/

section GatherRows
variable {N E C w : Nat}

/-- THE ROW GATHER'S OPERAND INDEX: result element `(e, f)` reads the table at row `idx[e, 0]`, read signed and
    clamped into `[0, N − 1]`, and column `f`. -/
theorem gather_rows_operandIdx (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec ⟨2, ![E, 1]⟩ w) (e : Fin E) (f : Fin C) :
    d.operandIdx (ix2 e f) idx = ix2 ⟨min (idx (ix2 e 0)).toInt.toNat (N - 1), by omega⟩ f := by
  obtain ⟨od, cd, ob, sb, sm, iv, ss, wf⟩ := d
  simp only at h1 h2 h3 h4 h5 h6 h7
  subst h1 h2 h3 h4 h5 h6 h7
  generalize hd : (⟨[1], [0], [], [], [0], 1, ![1, C], wf⟩ : GatherDims ⟨2, ![N, C]⟩ ⟨2, ![E, 1]⟩ ⟨2, ![E, C]⟩) = d
  -- axis 0 is named by the start index map, at position 0
  have hmem : (0 : Fin 2) ∈ d.startIndexMap := by subst hd; exact List.mem_singleton.mpr rfl
  -- the start-indices index read for that component is (e, 0)
  have hsi : d.siIdx (ix2 e f) ⟨List.idxOf (0 : Fin 2) d.startIndexMap,
      List.idxOf_lt_length_iff.2 hmem⟩ = ix2 e 0 := by
    subst hd
    funext b; refine Fin.ext ?_
    match b with
    | ⟨0, _⟩ => rfl
    | ⟨1, _⟩ => rfl
  -- there is no batching axis
  have hob : ∀ a : Fin 2, a ∉ d.operandBatchingDims := by subst hd; exact fun _ => List.not_mem_nil
  -- axis 0: the start is the clamped edge word (size N, slice size 1); axis 1 is not in the start index map
  have hst0 : d.start (ix2 e f) idx 0 = min (idx (ix2 e 0)).toInt.toNat (N - 1) := by
    unfold GatherDims.start
    rw [dif_pos hmem, hsi]
    subst hd
    rfl
  have hst1 : d.start (ix2 e f) idx 1 = 0 := by
    unfold GatherDims.start
    rw [dif_neg]
    subst hd
    show (1 : Fin 2) ∉ [(0 : Fin 2)]
    decide
  -- axis 0 is collapsed: no offset; axis 1 is the one kept axis and reads the result's offset axis 1
  have hoff0 : d.offCoord (ix2 e f) 0 = 0 := by
    refine d.offCoord_eq_zero _ _ (fun h => ((d.mem_sKept _).mp h).1 ?_)
    subst hd
    exact List.mem_singleton.mpr rfl
  have hoff1 : d.offCoord (ix2 e f) 1 = f.val := by
    subst hd
    unfold GatherDims.offCoord
    rw [dif_pos]
    · rfl
    · show (1 : Fin 2) ∈ (List.finRange 2).filter (· ∉ [(0 : Fin 2)] ++ [])
      decide
  funext a
  refine Fin.ext ?_
  match a with
  | ⟨0, _⟩ =>
    show d.start (ix2 e f) idx 0 + d.batchCoord (ix2 e f) 0 + d.offCoord (ix2 e f) 0 = _
    rw [d.batchCoord_eq_zero _ _ (hob 0), hoff0, hst0]
    rfl
  | ⟨1, _⟩ =>
    show d.start (ix2 e f) idx 1 + d.batchCoord (ix2 e f) 1 + d.offCoord (ix2 e f) 1 = _
    rw [d.batchCoord_eq_zero _ _ (hob 1), hoff1, hst1]
    simp

/-- THE ROW GATHER READ AT `(e, f)`: the table at the clamped row and column `f`. -/
theorem gather_rows_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (f : Fin C) :
    Host.gather d x idx (ix2 e f) = x (ix2 ⟨min (idx (ix2 e 0)).toInt.toNat (N - 1), by omega⟩ f) := by
  unfold Host.gather
  rw [gather_rows_operandIdx hN d h1 h2 h3 h4 h5 h6 h7 idx e f]

end GatherRows

/-! ## Gather of the entries of a vector -/

section GatherEntries
variable {N E w : Nat}

/-- THE ENTRY GATHER'S OPERAND INDEX: result element `e` reads the vector at `idx[e, 0]`, read signed and clamped
    into `[0, N − 1]`. -/
theorem gather_entries_operandIdx (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec ⟨2, ![E, 1]⟩ w) (e : Fin E) :
    d.operandIdx (ix1 e) idx = ix1 ⟨min (idx (ix2 e 0)).toInt.toNat (N - 1), by omega⟩ := by
  obtain ⟨od, cd, ob, sb, sm, iv, ss, wf⟩ := d
  simp only at h1 h2 h3 h4 h5 h6 h7
  subst h1 h2 h3 h4 h5 h6 h7
  generalize hd : (⟨[], [0], [], [], [0], 1, ![1], wf⟩ : GatherDims ⟨1, ![N]⟩ ⟨2, ![E, 1]⟩ ⟨1, ![E]⟩) = d
  -- axis 0 is named by the start index map, at position 0
  have hmem : (0 : Fin 1) ∈ d.startIndexMap := by subst hd; exact List.mem_singleton.mpr rfl
  -- the start-indices index read for that component is (e, 0)
  have hsi : d.siIdx (ix1 e) ⟨List.idxOf (0 : Fin 1) d.startIndexMap,
      List.idxOf_lt_length_iff.2 hmem⟩ = ix2 e 0 := by
    subst hd
    funext b; refine Fin.ext ?_
    match b with
    | ⟨0, _⟩ => rfl
    | ⟨1, _⟩ => rfl
  -- no batching axis; the start is the clamped edge word (size N, slice size 1); axis 0 is collapsed: no offset
  have hob : (0 : Fin 1) ∉ d.operandBatchingDims := by subst hd; exact List.not_mem_nil
  have hst0 : d.start (ix1 e) idx 0 = min (idx (ix2 e 0)).toInt.toNat (N - 1) := by
    unfold GatherDims.start
    rw [dif_pos hmem, hsi]
    subst hd
    rfl
  have hoff0 : d.offCoord (ix1 e) 0 = 0 := by
    refine d.offCoord_eq_zero _ _ (fun h => ((d.mem_sKept _).mp h).1 ?_)
    subst hd
    exact List.mem_singleton.mpr rfl
  funext a
  obtain rfl : a = 0 := Subsingleton.elim _ _
  refine Fin.ext ?_
  show d.start (ix1 e) idx 0 + d.batchCoord (ix1 e) 0 + d.offCoord (ix1 e) 0 = _
  rw [d.batchCoord_eq_zero _ _ hob, hoff0, hst0]
  rfl

/-- THE ENTRY GATHER READ AT `e`: the vector at the clamped edge word. -/
theorem gather_entries_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  rw [gather_entries_operandIdx hN d h1 h2 h3 h4 h5 h6 h7 idx e]

end GatherEntries

end Cert.LibEdgeIndex
-- ==== Proof.LibEdgePerm.lean ====
/-
  SUMS OVER EDGES DO NOT DEPEND ON THE ORDER OF THE EDGE LIST.

  Setting. A graph has N nodes and E edges; an edge list is an integer array of shape [E, 1] whose word at (e, 0) names
  the node edge e arrives at. "Sum per-edge values into nodes" is the accumulating scatter: node n receives the sum of the
  values of the edges whose word, read signed, is n; an edge whose word names no node contributes nothing. At the ideal
  values (extended reals, exact addition) the result at an element is the operand's element plus the finite sum of the
  updates landing on it — a sum over a SET of update indices, with no order.

  * Scatter into rows. For an operand [N, C], updates [E, C] and dimension numbers update_window_dims = [1],
    inserted_window_dims = [0], scatter_dims_to_operand_dims = [0], index_vector_dim = 1, update (e, f) has start
    (word of e read signed, 0) and window coordinate (0, f) (`scatter_rows_start_window`). So where update (e, f) lands
    depends on the edge list only through the word of e: two edge lists that give e and e' the same word land (e, f) and
    (e', f) on the same element (`scatter_rows_resultIdx_congr`; `scatter_entries_resultIdx_congr` for an operand [N] with
    updates [E]).
  * Hence: if σ is a bijection of the edges, and one edge list and one family of updates are the other edge list and
    family read through σ (edge e of the first is edge σ e of the second), the two accumulating scatters into the same
    operand are equal (`hostScatterAdd_rows_perm`, `hostScatterAdd_entries_perm`): the sum over update indices is
    re-indexed along σ.

  Every statement is about ARBITRARY records of dimension numbers whose fields are given by equations; for a record
  written with literal fields each equation holds by `rfl`.
-/
import Idealize.ShloMosaic.Lib.ValueIdx
import Idealize.ShloMosaic.PureOps.Ideal
import proofs.«160274_j87952340288037_2_alg».proof.Proof.LibEdgeIndex

open Idealize.ShloMosaic Idealize.ShloMosaic.ValueIdx

namespace Cert.LibEdgePerm

/-! ## Where an update lands is a function of its start and window coordinates -/

/-- Two updates (of two scatters into one operand shape) whose starts and window coordinates agree on every axis land on
    the same element, or are both dropped. -/
theorem resultIdx?_congr {s si u : Shape} {w : Nat} (d d' : ScatterDims s si u) (j j' : u.Idx) (idx idx' : IVec si w)
    (hs : ∀ a, d.start j idx a = d'.start j' idx' a) (hw : ∀ a, d.window j a = d'.window j' a) :
    d.resultIdx? j idx = d'.resultIdx? j' idx' := by
  have hs' : d.start j idx = d'.start j' idx' := funext hs
  have hw' : d.window j = d'.window j' := funext hw
  unfold ScatterDims.resultIdx?
  simp only [hs', hw']

/-! ## Sums over a rank-1 index -/

/-- A rank-1 index is its one coordinate … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Scatter into the rows of a table -/

section Rows
variable {N E C w : Nat}

/-- Update `(e, f)` of a row scatter: on axis 0 its start is the edge word `idx[e, 0]` read signed and its window
    coordinate 0 (axis 0 is an inserted window axis); on axis 1 its start is 0 (the index vector has one component, for
    axis 0) and its window coordinate is `f`. -/
theorem scatter_rows_start_window (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (idx : IVec ⟨2, ![E, 1]⟩ w) (e : Fin E) (f : Fin C) :
    d.start (ix2 e f) idx 0 = (idx (ix2 e 0)).toInt ∧ d.start (ix2 e f) idx 1 = 0
      ∧ d.window (ix2 e f) 0 = 0 ∧ d.window (ix2 e f) 1 = f.val := by
  obtain ⟨uw, iw, sd, iv, wf⟩ := d
  simp only at h1 h2 h3 h4
  subst h1 h2 h3 h4
  generalize hd : (⟨[1], [0], [0], 1, wf⟩ : ScatterDims ⟨2, ![N, C]⟩ ⟨2, ![E, 1]⟩ ⟨2, ![E, C]⟩) = d
  -- axis 0 is named by the scatter-dims-to-operand-dims map, at position 0
  have hmem : (0 : Fin 2) ∈ d.scatterDimsToOperandDims := by subst hd; exact List.mem_singleton.mpr rfl
  -- the scatter-indices index read for that component is (e, 0)
  have hsi : d.siIdx (ix2 e f) ⟨List.idxOf (0 : Fin 2) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_, ?_, ?_⟩
  · unfold ScatterDims.start
    rw [dif_pos hmem, hsi]
  · unfold ScatterDims.start
    rw [dif_neg]
    subst hd
    show (1 : Fin 2) ∉ [(0 : Fin 2)]
    decide
  · -- the operand's kept axes are the axes of [N, C] outside [0]: axis 1 only
    unfold ScatterDims.window
    rw [dif_neg]
    subst hd
    show (0 : Fin 2) ∉ (List.finRange 2).filter (· ∉ [(0 : Fin 2)])
    decide
  · subst hd
    unfold ScatterDims.window
    rw [dif_pos]
    · rfl
    · show (1 : Fin 2) ∈ (List.finRange 2).filter (· ∉ [(0 : Fin 2)])
      decide

/-- Two edge lists that give `e` and `e'` the same word land updates `(e, f)` and `(e', f)` on the same element. -/
theorem scatter_rows_resultIdx_congr (d d' : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (h1' : d'.updateWindowDims = [1]) (h2' : d'.insertedWindowDims = [0])
    (h3' : d'.scatterDimsToOperandDims = [0]) (h4' : d'.indexVectorDim = 1)
    (idx idx' : IVec ⟨2, ![E, 1]⟩ w) (e e' : Fin E) (f : Fin C) (h : idx (ix2 e 0) = idx' (ix2 e' 0)) :
    d.resultIdx? (ix2 e f) idx = d'.resultIdx? (ix2 e' f) idx' := by
  obtain ⟨s0, s1, w0, w1⟩ := scatter_rows_start_window d h1 h2 h3 h4 idx e f
  obtain ⟨s0', s1', w0', w1'⟩ := scatter_rows_start_window d' h1' h2' h3' h4' idx' e' f
  refine resultIdx?_congr d d' _ _ _ _ (fun a => ?_) (fun a => ?_)
  · match a with
    | ⟨0, _⟩ => exact s0.trans ((congrArg BitVec.toInt h).trans s0'.symm)
    | ⟨1, _⟩ => exact s1.trans s1'.symm
  · match a with
    | ⟨0, _⟩ => exact w0.trans w0'.symm
    | ⟨1, _⟩ => exact w1.trans w1'.symm

/-- RELABELLING THE EDGES DOES NOT CHANGE THE ROW SUMS: if `σ` is a bijection of the edges and the first edge list and
    updates are the second read through `σ`, the two accumulating scatters into `z` are equal. -/
theorem hostScatterAdd_rows_perm (d d' : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (h1' : d'.updateWindowDims = [1]) (h2' : d'.insertedWindowDims = [0])
    (h3' : d'.scatterDimsToOperandDims = [0]) (h4' : d'.indexVectorDim = 1)
    (σ : Fin E → Fin E) (hσ : Function.Bijective σ)
    (z : (⟨2, ![N, C]⟩ : Shape).Idx → EReal) (idx idx' : IVec ⟨2, ![E, 1]⟩ w)
    (upd upd' : (⟨2, ![E, C]⟩ : Shape).Idx → EReal)
    (hi : ∀ e, idx (ix2 e 0) = idx' (ix2 (σ e) 0)) (hu : ∀ e f, upd (ix2 e f) = upd' (ix2 (σ e) f)) :
    Ideal.hostScatterAdd d z idx upd = Ideal.hostScatterAdd d' z idx' upd' := by
  funext i
  unfold Ideal.hostScatterAdd
  refine congrArg (z i + ·) ?_
  rw [Finset.sum_filter, Finset.sum_filter, sum_idx2, sum_idx2]
  refine Eq.trans ?_ (hσ.sum_comp _)
  refine Finset.sum_congr rfl fun e _ => ?_
  refine Finset.sum_congr rfl fun f _ => ?_
  rw [scatter_rows_resultIdx_congr d d' h1 h2 h3 h4 h1' h2' h3' h4' idx idx' e (σ e) f (hi e), hu e f]

end Rows

/-! ## Scatter into the entries of a vector -/

section Entries
variable {N E w : Nat}

/-- Two edge lists that give `e` and `e'` the same word land updates `e` and `e'` on the same entry. -/
theorem scatter_entries_resultIdx_congr (d d' : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (h1' : d'.updateWindowDims = []) (h2' : d'.insertedWindowDims = [0])
    (h3' : d'.scatterDimsToOperandDims = [0]) (h4' : d'.indexVectorDim = 1)
    (idx idx' : IVec ⟨2, ![E, 1]⟩ w) (e e' : Fin E) (h : idx (ix2 e 0) = idx' (ix2 e' 0)) :
    d.resultIdx? (ix1 e) idx = d'.resultIdx? (ix1 e') idx' := by
  obtain ⟨s0, w0⟩ := Cert.LibEdgeIndex.scatter_entries_start_window d h1 h2 h3 h4 idx e
  obtain ⟨s0', w0'⟩ := Cert.LibEdgeIndex.scatter_entries_start_window d' h1' h2' h3' h4' idx' e'
  refine resultIdx?_congr d d' _ _ _ _ (fun a => ?_) (fun a => ?_)
  · obtain rfl : a = 0 := Subsingleton.elim _ _
    exact s0.trans ((congrArg BitVec.toInt h).trans s0'.symm)
  · obtain rfl : a = 0 := Subsingleton.elim _ _
    exact w0.trans w0'.symm

/-- RELABELLING THE EDGES DOES NOT CHANGE THE ENTRY SUMS. -/
theorem hostScatterAdd_entries_perm (d d' : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (h1' : d'.updateWindowDims = []) (h2' : d'.insertedWindowDims = [0])
    (h3' : d'.scatterDimsToOperandDims = [0]) (h4' : d'.indexVectorDim = 1)
    (σ : Fin E → Fin E) (hσ : Function.Bijective σ)
    (z : (⟨1, ![N]⟩ : Shape).Idx → EReal) (idx idx' : IVec ⟨2, ![E, 1]⟩ w)
    (upd upd' : (⟨1, ![E]⟩ : Shape).Idx → EReal)
    (hi : ∀ e, idx (ix2 e 0) = idx' (ix2 (σ e) 0)) (hu : ∀ e, upd (ix1 e) = upd' (ix1 (σ e))) :
    Ideal.hostScatterAdd d z idx upd = Ideal.hostScatterAdd d' z idx' upd' := by
  funext i
  unfold Ideal.hostScatterAdd
  refine congrArg (z i + ·) ?_
  rw [Finset.sum_filter, Finset.sum_filter, sum_idx1, sum_idx1]
  refine Eq.trans ?_ (hσ.sum_comp _)
  refine Finset.sum_congr rfl fun e _ => ?_
  rw [scatter_entries_resultIdx_congr d d' h1 h2 h3 h4 h1' h2' h3' h4' idx idx' e (σ e) (hi e), hu e]

end Entries

end Cert.LibEdgePerm
-- ==== Proof.LibSegmentFactor.lean ====
/-
  A FACTOR THAT DEPENDS ONLY ON THE NODE AN EDGE ARRIVES AT COMES OUT OF THE SUM OVER THE EDGES ARRIVING THERE.

  Setting. A graph has N nodes and E edges; an edge list is an integer array of shape [E, 1] whose word at (e, 0) names
  the node edge e arrives at. Write k(e) for that word read as a SIGNED integer. "Sum per-edge rows into nodes" is the
  accumulating scatter of rows: for an operand [N, C], updates [E, C] and dimension numbers update_window_dims = [1],
  inserted_window_dims = [0], scatter_dims_to_operand_dims = [0], index_vector_dim = 1, element (s, j) of the result is
  the operand's element plus the sum of the updates (e, j) with k(e) = s; an edge with k(e) outside [0, N) contributes
  nothing. At the ideal values the elements are extended reals and the sum is exact.

  * Distributing a nonnegative real over a finite sum. On the extended reals (a + b) · r = a · r + b · r holds for
    every a and b when r is a REAL number with 0 ≤ r. (It fails for the infinite factor: (2 + (-1)) · ⊤ = ⊤ but
    2 · ⊤ + (-1) · ⊤ = ⊤ + ⊥ = ⊥. It fails for a negative factor: (⊤ + ⊥) · (-1) = ⊥ · (-1) = ⊤ but
    ⊤ · (-1) + ⊥ · (-1) = ⊥ + ⊤ = ⊥.) Hence (∑ a i) · r = ∑ (a i · r) over every finite set (`sum_mul_coe_of_nonneg`).
  * Where an update lands. If update (e, f) of a row scatter lands on an element i, then 0 ≤ k(e) < N, the row of i is
    k(e) and the column of i is f (`scatter_rows_lands`).
  * THE LAW. Let the operand be zero, and let every update row e be multiplied by a factor δ(e) that is a function
    dv of the arrival node: δ(e) = dv(k(e)) whenever 0 ≤ k(e) < N, where every dv(s) is a nonnegative real. Then at
    every element (s, j) the scatter of the multiplied rows is the scatter of the rows times dv(s)
    (`hostScatterAdd_rows_factor`): every update landing on (s, j) has k(e) = s, so its factor is dv(s), and dv(s)
    distributes over the sum.
  * Such a factor. "x⁻¹ᐟ² where x > 0, and 0 elsewhere" is a nonnegative real for EVERY extended real x
    (`gated_rsqrt_nonneg_real`): for x = ⊥ or a real x ≤ 0 it is 0; for x = ⊤ it is the reciprocal square root of ⊤,
    which is 0; for a real x > 0 it is (√x)⁻¹.
  * Index normalisation "if word < 0 then word + n else word" leaves a word that is nonnegative (read signed) alone
    (`normalise_of_nonneg`).

  The statement about the record of dimension numbers is about an ARBITRARY record whose fields are given by
  equations; for a record written with literal fields each equation holds by `rfl`.
-/
import Idealize.ShloMosaic.Lib.ValueIdx
import Idealize.ShloMosaic.PureOps.Ideal
import proofs.«160274_j87952340288037_2_alg».proof.Proof.LibEdgeIndex
import proofs.«160274_j87952340288037_2_alg».proof.Proof.LibEdgePerm

open Idealize.ShloMosaic Idealize.ShloMosaic.ValueIdx

namespace Cert.LibSegmentFactor

/-! ## A nonnegative real factor distributes over a finite sum of extended reals -/

/-- A finite sum of extended reals times a nonnegative REAL factor is the sum of the products. -/
theorem sum_mul_coe_of_nonneg {ι : Type*} (s : Finset ι) (a : ι → EReal) (r : ℝ) (hr : 0 ≤ r) :
    (∑ i ∈ s, a i) * (r : EReal) = ∑ i ∈ s, a i * (r : EReal) := by
  classical
  induction s using Finset.induction_on with
  | empty => simp
  | insert i s hi ih =>
    -- (a i + ∑ s) · r = a i · r + (∑ s) · r because 0 ≤ r and r ≠ ⊤
    rw [Finset.sum_insert hi, Finset.sum_insert hi,
      EReal.right_distrib_of_nonneg_of_ne_top (EReal.coe_nonneg.mpr hr) (EReal.coe_ne_top r), ih]

/-! ## Where an update of a row scatter lands -/

section Rows
variable {N E C w : Nat}

/-- AN UPDATE THAT LANDS HAS ITS EDGE WORD IN RANGE AND LANDS ON (THAT WORD, ITS OWN COLUMN): if update `(e, f)` of a
    row scatter lands on element `i`, then the edge word `idx[e, 0]`, read signed, is in `[0, N)`, the row of `i` is
    that word and the column of `i` is `f`. -/
theorem scatter_rows_lands (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (idx : IVec ⟨2, ![E, 1]⟩ w) (e : Fin E) (f : Fin C) (i : (⟨2, ![N, C]⟩ : Shape).Idx)
    (h : d.resultIdx? (ix2 e f) idx = some i) :
    0 ≤ (idx (ix2 e 0)).toInt ∧ (idx (ix2 e 0)).toInt < N ∧ ((i 0).val : Int) = (idx (ix2 e 0)).toInt
      ∧ (i 1).val = f.val := by
  obtain ⟨s0, s1, w0, w1⟩ := Cert.LibEdgePerm.scatter_rows_start_window d h1 h2 h3 h4 idx e f
  unfold ScatterDims.resultIdx? at h
  by_cases hc : ∀ a, 0 ≤ d.start (ix2 e f) idx a + d.window (ix2 e f) a ∧
      d.start (ix2 e f) idx a + d.window (ix2 e f) a < (⟨2, ![N, C]⟩ : Shape).size a
  · -- the update lands: the landing index is start + window coordinate on each axis, inside the operand
    rw [dif_pos hc] at h
    have hi := Option.some.inj h
    subst hi
    have hc0 := hc 0
    rw [s0, w0] at hc0
    have hc0' : 0 ≤ (idx (ix2 e 0)).toInt + ((0 : Nat) : Int) ∧
        (idx (ix2 e 0)).toInt + ((0 : Nat) : Int) < (N : Int) := hc0
    refine ⟨by omega, by omega, ?_, ?_⟩
    · show (((d.start (ix2 e f) idx 0 + d.window (ix2 e f) 0).toNat : Nat) : Int) = (idx (ix2 e 0)).toInt
      rw [s0, w0]
      omega
    · show (d.start (ix2 e f) idx 1 + d.window (ix2 e f) 1).toNat = f.val
      rw [s1, w1]
      omega
  · -- the update is dropped: it lands nowhere
    rw [dif_neg hc] at h
    exact absurd h (by simp)

/-- THE LAW: A FACTOR OF THE ARRIVAL NODE COMES OUT OF THE NODE'S SUM. Into a zero operand, if every update row `e` is
    multiplied by `δ e`, and `δ e = dv (idx[e, 0])` whenever that word (read signed) is in `[0, N)`, with every
    `dv s` a nonnegative real, then element `(s, j)` of the scatter of the multiplied rows is element `(s, j)` of the
    scatter of the rows, times `dv s`. -/
theorem hostScatterAdd_rows_factor (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (z : (⟨2, ![N, C]⟩ : Shape).Idx → EReal) (hz : ∀ i, z i = 0) (idx : IVec ⟨2, ![E, 1]⟩ w)
    (updK updR : (⟨2, ![E, C]⟩ : Shape).Idx → EReal) (δ : Fin E → EReal) (dv : Fin N → EReal)
    (hdv : ∀ s, ∃ r : ℝ, 0 ≤ r ∧ dv s = (r : EReal))
    (hR : ∀ e f, updR (ix2 e f) = updK (ix2 e f) * δ e)
    (hδ : ∀ e (hlo : 0 ≤ (idx (ix2 e 0)).toInt) (hhi : (idx (ix2 e 0)).toInt < N),
      δ e = dv ⟨(idx (ix2 e 0)).toInt.toNat, by omega⟩)
    (s : Fin N) (j : Fin C) :
    Ideal.hostScatterAdd d z idx updR (ix2 s j) = Ideal.hostScatterAdd d z idx updK (ix2 s j) * dv s := by
  obtain ⟨r, hr, hdvs⟩ := hdv s
  unfold Ideal.hostScatterAdd
  -- the operand is zero on both sides; the real factor dv s distributes over the sum
  rw [hz, zero_add, zero_add, hdvs, sum_mul_coe_of_nonneg _ _ r hr]
  -- term by term over the updates landing on (s, j)
  refine Finset.sum_congr rfl fun k hk => ?_
  have hk2 := (Finset.mem_filter.mp hk).2
  obtain ⟨e, f, rfl⟩ : ∃ e f, k = ix2 e f := ⟨k 0, k 1, eq_ix2 k⟩
  -- such an update has its edge word in range and equal to s, so its factor is dv s
  obtain ⟨hlo, hhi, h0, _⟩ := scatter_rows_lands d h1 h2 h3 h4 idx e f (ix2 s j) hk2
  have h0' : (s.val : Int) = (idx (ix2 e 0)).toInt := h0
  have hds : dv ⟨(idx (ix2 e 0)).toInt.toNat, by omega⟩ = dv s := congrArg dv (Fin.ext (by
    show (idx (ix2 e 0)).toInt.toNat = s.val
    omega))
  rw [hR, hδ e hlo hhi, hds, hdvs]

end Rows

/-! ## A factor that is a nonnegative real whatever its argument -/

/-- "The reciprocal square root of `x` where `x > 0`, and `0` elsewhere" is a nonnegative real for every extended real `x`:
    `0` for `⊥` and for a real `x ≤ 0`, the reciprocal square root of `⊤` (which is `0`) for `⊤`, and `(√x)⁻¹` for a real
    `x > 0`. -/
theorem gated_rsqrt_nonneg_real (x : EReal) :
    ∃ r : ℝ, 0 ≤ r ∧ Scalar.select (Ideal.cmp .ogt x 0) (Ideal.rsqrt x) (0 : EReal) = (r : EReal) := by
  -- the mask is the order's strict comparison 0 < x
  have hsel : Scalar.select (Ideal.cmp .ogt x 0) (Ideal.rsqrt x) (0 : EReal)
      = if (0 : EReal) < x then Ideal.rsqrt x else 0 := by
    unfold Scalar.select Ideal.cmp
    by_cases hx : (0 : EReal) < x
    · simp [hx]
    · simp [hx]
  rw [hsel]
  induction x using EReal.rec with
  | bot => exact ⟨0, le_refl _, by simp⟩
  | top => exact ⟨0, le_refl _, by simp⟩
  | coe v =>
    by_cases hv : 0 < v
    · refine ⟨(Real.sqrt v)⁻¹, inv_nonneg.mpr (Real.sqrt_nonneg v), ?_⟩
      rw [if_pos (EReal.coe_pos.mpr hv), Ideal.rsqrt_coe, if_neg (not_lt.mpr hv.le), if_neg hv.ne']
    · refine ⟨0, le_refl _, ?_⟩
      rw [if_neg (fun h => hv (EReal.coe_pos.mp h))]
      rfl

/-! ## Index normalisation leaves a nonnegative word alone -/

/-- "If the word is negative (read signed) add `k`, else keep it" keeps a word that is nonnegative read signed. -/
theorem normalise_of_nonneg (wd : BitVec 32) (h : 0 ≤ wd.toInt) (k : BitVec 32) :
    Scalar.select (IntOp.cmpi .slt wd 0#32) (wd + k) wd = wd := by
  -- the signed comparison wd < 0 is false
  have hs : wd.slt 0#32 = false := by
    rw [BitVec.slt_eq_decide, BitVec.toInt_zero]
    exact decide_eq_false (by omega)
  unfold Scalar.select IntOp.cmpi
  simp [hs]

end Cert.LibSegmentFactor
-- ==== Proof.LibEdgeNorm.lean ====
/-
  SYMMETRIC NORMALISATION OF A GRAPH CONVOLUTION: THE ARRIVAL NODE'S FACTOR COMES OUT OF THE NODE'S SUM.

  Setting. A graph has N nodes and E edges; edge e leaves node src(e) and arrives at node dst(e). One layer of a graph
  convolution with symmetric normalisation sums into each node s, over the edges e arriving at s, the rows
  H[src(e)] · (dinv[src(e)] · dinv[dst(e)]), where H is an N × C table and dinv a vector of N nonnegative reals (the
  reciprocal square roots of the degrees, 0 where the degree is not positive). For every edge arriving at s the second
  factor dinv[dst(e)] is dinv[s], a nonnegative real, so it comes out of the node's sum:

      ∑_{e arrives at s} H[src(e)] · (dinv[src(e)] · dinv[dst(e)])  =  (∑_{e arrives at s} H[src(e)] · dinv[src(e)]) · dinv[s].

  In the host program the pieces are spelt as follows. "Arrives at s" is the accumulating scatter of rows into a zero
  N × C operand along the RAW arrival words dst, given as an [E] array of 32-bit words broadcast to an [E, 1] index
  array: an edge whose word, read signed, is outside [0, N) contributes nothing. The rows H[src(e)] and the entries
  dinv[·] are gathers along NORMALISED words ("if word < 0 then word + N else word"), which clamp the word into
  [0, N − 1]. The per-edge factor, an [E] array, reaches the [E, C] rows through two broadcasts [E] → [E, 1] → [E, C].

  * The two broadcasts read at an index: an [E] array broadcast to [E, 1] reads, at (e, u), its entry e
    (`bcast_e1_apply`); an [E, 1] array broadcast to [E, C] reads, at (e, f), its entry (e, 0) (`bcast_ec_apply`).
  * THE LAYER LAW (`segsum_dst_factor`): the identity displayed above, between the two scatters as the host program spells
    them, at every element (s, j); it holds with ANY rows in place of H[src(e)] and any per-edge factor in place of
    dinv[src(e)] (`segsum_dst_factor_rows`). It is the factor law for row scatters, with per-edge factor
    δ(e) = (the gather of dinv along the normalised arrival word of e) and node factor dv(s) = dinv[s]: an edge that lands
    has its raw arrival word k in [0, N); a nonnegative word is left alone by the normalisation (the hypothesis
    `hnorm`), and its clamp min (max k 0) (N − 1) is k itself; so δ(e) = dinv[k] = dv(k). The rest is
    a · (b · c) = (a · b) · c.
  * The entries of dinv are nonnegative reals: "the reciprocal square root of x where x > 0, else 0", as the host
    program spells it on an element (`dinv_elt_nonneg_real`) and on a whole array read at an index
    (`dinv_vec_nonneg_real`), is a nonnegative real for every extended real x.

  The records of dimension numbers are ARBITRARY records whose fields are given by equations; for a record written
  with literal fields each equation holds by `rfl`. The shape facts of the broadcasts are arbitrary proofs.
-/
import Idealize.ShloMosaic.Lib.ValueIdx
import Idealize.ShloMosaic.Lib.Pipeline.Value
import Idealize.ShloMosaic.PureOps.Ideal.Laws
import proofs.«160274_j87952340288037_2_alg».proof.Proof.LibEdgeIndex
import proofs.«160274_j87952340288037_2_alg».proof.Proof.LibEdgePerm
import proofs.«160274_j87952340288037_2_alg».proof.Proof.LibSegmentFactor

open Idealize.ShloMosaic Idealize.ShloMosaic.ValueIdx

namespace Cert.LibEdgeNorm

/-! ## The two broadcasts of a per-edge array, read at an index -/

/-- An `[E]` array broadcast to `[E, 1]` (operand axis 0 to result axis 0) reads, at `(e, u)`, its entry `e`. -/
theorem bcast_e1_apply {α : Type} {E : Nat} (v : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h v (ix2 e u) = v (ix1 e) := by
  refine broadcastInDim_apply ![0] h v (ix2 e u) (ix1 e) fun a => ?_
  match a with
  | ⟨0, _⟩ =>
    -- when E = 1 the only coordinate is 0
    show e.val = if E = 1 then 0 else e.val
    split
    · have := e.isLt; omega
    · rfl

/-- An `[E, 1]` array broadcast to `[E, C]` (axis 0 to axis 0, the unit axis 1 stretched over axis 1) reads, at
    `(e, f)`, its entry `(e, 0)`. -/
theorem bcast_ec_apply {α : Type} {E C : Nat} (v : (⟨2, ![E, 1]⟩ : Shape).Idx → α)
    (h : (⟨2, ![E, 1]⟩ : Shape).BroadcastsInDim ⟨2, ![E, C]⟩ ![0, 1]) (e : Fin E) (f : Fin C) :
    broadcastInDim ⟨2, ![E, C]⟩ ![0, 1] h v (ix2 e f) = v (ix2 e (0 : Fin 1)) := by
  refine broadcastInDim_apply ![0, 1] h v (ix2 e f) (ix2 e (0 : Fin 1)) fun a => ?_
  match a with
  | ⟨0, _⟩ =>
    show e.val = if E = 1 then 0 else e.val
    split
    · have := e.isLt; omega
    · rfl
  | ⟨1, _⟩ => rfl

/-! ## The layer law -/

section Law
variable {N E C : Nat}

/-- THE LAW ON ARBITRARY ROWS. Into a zero `[N, C]` operand, along the raw arrival words `dst`: for ANY rows `G` and any
    per-edge factor `A`, the scatter of the rows `G[e] * (A[e] * dinv[dst e])` is, at `(s, j)`, the scatter of the rows
    `G[e] * A[e]` times `dinv[s]`, when every entry of `dinv` is a nonnegative real and the normalised arrival word of an
    edge is its raw word whenever that is nonnegative (read signed). `dinv[dst e]` is gathered along the normalised words
    `dstN`; the per-edge factor is broadcast `[E] → [E, 1] → [E, C]`. -/
theorem segsum_dst_factor_rows (hN : 0 < N)
    (dS : ScatterDims ⟨2, ![N, C]⟩ ⟨2, ![E, 1]⟩ ⟨2, ![E, C]⟩)
    (s1 : dS.updateWindowDims = [1]) (s2 : dS.insertedWindowDims = [0])
    (s3 : dS.scatterDimsToOperandDims = [0]) (s4 : dS.indexVectorDim = 1)
    (g1 : GatherDims ⟨1, ![N]⟩ ⟨2, ![E, 1]⟩ ⟨1, ![E]⟩)
    (e1 : g1.offsetDims = []) (e2 : g1.collapsedSliceDims = [0]) (e3 : g1.operandBatchingDims = [])
    (e4 : g1.startIndicesBatchingDims = []) (e5 : g1.startIndexMap = [0]) (e6 : g1.indexVectorDim = 1)
    (e7 : g1.sliceSizes = ![1])
    (hb1 : (⟨1, ![E]⟩ : Shape).BroadcastsInDim ⟨2, ![E, 1]⟩ ![0])
    (hb2 : (⟨2, ![E, 1]⟩ : Shape).BroadcastsInDim ⟨2, ![E, C]⟩ ![0, 1])
    (z : FVec Ideal ⟨2, ![N, C]⟩ .f32) (hz : ∀ i, z i = 0)
    (G : FVec Ideal ⟨2, ![E, C]⟩ .f32) (A : FVec Ideal ⟨1, ![E]⟩ .f32) (dinv : FVec Ideal ⟨1, ![N]⟩ .f32)
    (dstN dst : IVec ⟨1, ![E]⟩ 32)
    (hdinv : ∀ s : Fin N, ∃ r : ℝ, 0 ≤ r ∧ dinv (ix1 s) = (r : EReal))
    (hnorm : ∀ e : Fin E, 0 ≤ (dst (ix1 e)).toInt → dstN (ix1 e) = dst (ix1 e))
    (s : Fin N) (j : Fin C) :
    Ideal.hostScatterAdd dS z (broadcastInDim ⟨2, ![E, 1]⟩ ![0] hb1 dst)
        (mulf G (broadcastInDim ⟨2, ![E, C]⟩ ![0, 1] hb2 (broadcastInDim ⟨2, ![E, 1]⟩ ![0] hb1
          (mulf A (Host.gather g1 dinv (broadcastInDim ⟨2, ![E, 1]⟩ ![0] hb1 dstN)))))) (ix2 s j)
      = Ideal.hostScatterAdd dS z (broadcastInDim ⟨2, ![E, 1]⟩ ![0] hb1 dst)
          (mulf G (broadcastInDim ⟨2, ![E, C]⟩ ![0, 1] hb2 (broadcastInDim ⟨2, ![E, 1]⟩ ![0] hb1 A))) (ix2 s j)
        * dinv (ix1 s) := by
  -- the index array read at (e, 0) is the raw arrival word of e
  have hD : ∀ e : Fin E, broadcastInDim ⟨2, ![E, 1]⟩ ![0] hb1 dst (ix2 e 0) = dst (ix1 e) :=
    fun e => bcast_e1_apply dst hb1 e 0
  -- an edge whose raw arrival word k is in [0, N): its normalised word is k, the clamp of k is k, so the gathered
  -- factor is dinv[k]
  have hB : ∀ e : Fin E, 0 ≤ (dst (ix1 e)).toInt → ∀ hhi : (dst (ix1 e)).toInt < N,
      Host.gather g1 dinv (broadcastInDim ⟨2, ![E, 1]⟩ ![0] hb1 dstN) (ix1 e)
        = dinv (ix1 ⟨(dst (ix1 e)).toInt.toNat, by omega⟩) := by
    intro e hlo hhi
    have hDN : broadcastInDim ⟨2, ![E, 1]⟩ ![0] hb1 dstN (ix2 e 0) = dstN (ix1 e) := bcast_e1_apply dstN hb1 e 0
    have hn : dstN (ix1 e) = dst (ix1 e) := hnorm e hlo
    rw [Cert.LibEdgeIndex.gather_entries_apply hN g1 e1 e2 e3 e4 e5 e6 e7 dinv _ e]
    refine congrArg (fun q : Fin N => dinv (ix1 q)) (Fin.ext ?_)
    show min (broadcastInDim ⟨2, ![E, 1]⟩ ![0] hb1 dstN (ix2 e 0)).toInt.toNat (N - 1) = (dst (ix1 e)).toInt.toNat
    rw [hDN, hn]
    omega
  -- rows: G · (a · b) = (G · a) · b, the factor read through the two broadcasts
  have hR : ∀ (e : Fin E) (f : Fin C),
      mulf G (broadcastInDim ⟨2, ![E, C]⟩ ![0, 1] hb2 (broadcastInDim ⟨2, ![E, 1]⟩ ![0] hb1
          (mulf A (Host.gather g1 dinv (broadcastInDim ⟨2, ![E, 1]⟩ ![0] hb1 dstN))))) (ix2 e f)
        = mulf G (broadcastInDim ⟨2, ![E, C]⟩ ![0, 1] hb2 (broadcastInDim ⟨2, ![E, 1]⟩ ![0] hb1 A)) (ix2 e f)
          * Host.gather g1 dinv (broadcastInDim ⟨2, ![E, 1]⟩ ![0] hb1 dstN) (ix1 e) := by
    intro e f
    rw [mulf_apply, mulf_apply, bcast_ec_apply _ hb2 e f, bcast_e1_apply _ hb1 e 0, bcast_ec_apply _ hb2 e f,
      bcast_e1_apply _ hb1 e 0, mulf_apply]
    exact (mul_assoc _ _ _).symm
  -- name the two update arrays, the gathered factor and the index array; the factor law for row scatters then applies
  -- to them as they stand, with node factor dv s = dinv[s]
  generalize mulf G (broadcastInDim ⟨2, ![E, C]⟩ ![0, 1] hb2 (broadcastInDim ⟨2, ![E, 1]⟩ ![0] hb1
    (mulf A (Host.gather g1 dinv (broadcastInDim ⟨2, ![E, 1]⟩ ![0] hb1 dstN))))) = updR at hR ⊢
  generalize mulf G (broadcastInDim ⟨2, ![E, C]⟩ ![0, 1] hb2 (broadcastInDim ⟨2, ![E, 1]⟩ ![0] hb1 A)) = updK at hR ⊢
  generalize Host.gather g1 dinv (broadcastInDim ⟨2, ![E, 1]⟩ ![0] hb1 dstN) = B at hR hB
  generalize broadcastInDim ⟨2, ![E, 1]⟩ ![0] hb1 dst = idxD at hD ⊢
  refine Cert.LibSegmentFactor.hostScatterAdd_rows_factor dS s1 s2 s3 s4 z hz idxD updK updR
    (fun e => B (ix1 e)) (fun s => dinv (ix1 s)) hdinv hR (fun e hlo hhi => ?_) s j
  -- the word at (e, 0) of the index array is dst[e], in range by hypothesis
  have hlo' : 0 ≤ (dst (ix1 e)).toInt := by rw [← hD e]; exact hlo
  have hhi' : (dst (ix1 e)).toInt < N := by rw [← hD e]; exact hhi
  refine (hB e hlo' hhi').trans (congrArg (fun q : Fin N => dinv (ix1 q)) (Fin.ext ?_))
  show (dst (ix1 e)).toInt.toNat = (idxD (ix2 e 0)).toInt.toNat
  rw [hD e]

/-- At the ideal values the host's accumulating scatter is the exact one. -/
theorem scatterAdd_eq_ideal {s si su : Shape} {w : Nat} {φ : FTy} (d : ScatterDims s si su) (x : FVec Ideal s φ)
    (idx : IVec si w) (upd : FVec Ideal su φ) : Host.scatterAdd d x idx upd = Ideal.hostScatterAdd d x idx upd := rfl

/-- THE ARRIVAL NODE'S FACTOR COMES OUT OF THE NODE'S SUM, as the host program spells the two sides: the rows are
    `H[src e]` and the per-edge factor `dinv[src e]`, both gathered along the normalised words `srcN`. (The law holds for
    any rows and any per-edge factor, so nothing is asked of the row gather's dimension numbers; they are named only so
    that the statement has the program's shape.) -/
theorem segsum_dst_factor (hN : 0 < N)
    (dS : ScatterDims ⟨2, ![N, C]⟩ ⟨2, ![E, 1]⟩ ⟨2, ![E, C]⟩)
    (s1 : dS.updateWindowDims = [1]) (s2 : dS.insertedWindowDims = [0])
    (s3 : dS.scatterDimsToOperandDims = [0]) (s4 : dS.indexVectorDim = 1)
    (gR : GatherDims ⟨2, ![N, C]⟩ ⟨2, ![E, 1]⟩ ⟨2, ![E, C]⟩)
    (r1 : gR.offsetDims = [1]) (r2 : gR.collapsedSliceDims = [0]) (r3 : gR.operandBatchingDims = [])
    (r4 : gR.startIndicesBatchingDims = []) (r5 : gR.startIndexMap = [0]) (r6 : gR.indexVectorDim = 1)
    (r7 : gR.sliceSizes = ![1, C])
    (g1 : GatherDims ⟨1, ![N]⟩ ⟨2, ![E, 1]⟩ ⟨1, ![E]⟩)
    (e1 : g1.offsetDims = []) (e2 : g1.collapsedSliceDims = [0]) (e3 : g1.operandBatchingDims = [])
    (e4 : g1.startIndicesBatchingDims = []) (e5 : g1.startIndexMap = [0]) (e6 : g1.indexVectorDim = 1)
    (e7 : g1.sliceSizes = ![1])
    (hb1 : (⟨1, ![E]⟩ : Shape).BroadcastsInDim ⟨2, ![E, 1]⟩ ![0])
    (hb2 : (⟨2, ![E, 1]⟩ : Shape).BroadcastsInDim ⟨2, ![E, C]⟩ ![0, 1])
    (z : FVec Ideal ⟨2, ![N, C]⟩ .f32) (hz : ∀ i, z i = 0)
    (H : FVec Ideal ⟨2, ![N, C]⟩ .f32) (dinv : FVec Ideal ⟨1, ![N]⟩ .f32)
    (srcN dstN dst : IVec ⟨1, ![E]⟩ 32)
    (hdinv : ∀ s : Fin N, ∃ r : ℝ, 0 ≤ r ∧ dinv (ix1 s) = (r : EReal))
    (hnorm : ∀ e : Fin E, 0 ≤ (dst (ix1 e)).toInt → dstN (ix1 e) = dst (ix1 e))
    (s : Fin N) (j : Fin C) :
    Host.scatterAdd dS z (broadcastInDim ⟨2, ![E, 1]⟩ ![0] hb1 dst)
        (mulf (Host.gather gR H (broadcastInDim ⟨2, ![E, 1]⟩ ![0] hb1 srcN))
          (broadcastInDim ⟨2, ![E, C]⟩ ![0, 1] hb2 (broadcastInDim ⟨2, ![E, 1]⟩ ![0] hb1
            (mulf (Host.gather g1 dinv (broadcastInDim ⟨2, ![E, 1]⟩ ![0] hb1 srcN))
                  (Host.gather g1 dinv (broadcastInDim ⟨2, ![E, 1]⟩ ![0] hb1 dstN)))))) (ix2 s j)
      = Host.scatterAdd dS z (broadcastInDim ⟨2, ![E, 1]⟩ ![0] hb1 dst)
          (mulf (Host.gather gR H (broadcastInDim ⟨2, ![E, 1]⟩ ![0] hb1 srcN))
            (broadcastInDim ⟨2, ![E, C]⟩ ![0, 1] hb2 (broadcastInDim ⟨2, ![E, 1]⟩ ![0] hb1
              (Host.gather g1 dinv (broadcastInDim ⟨2, ![E, 1]⟩ ![0] hb1 srcN))))) (ix2 s j)
        * dinv (ix1 s) := by
  rw [scatterAdd_eq_ideal, scatterAdd_eq_ideal]
  -- the law asks nothing of the rows and of the per-edge factor: name them
  generalize Host.gather gR H (broadcastInDim ⟨2, ![E, 1]⟩ ![0] hb1 srcN) = G
  generalize Host.gather g1 dinv (broadcastInDim ⟨2, ![E, 1]⟩ ![0] hb1 srcN) = A
  exact segsum_dst_factor_rows hN dS s1 s2 s3 s4 g1 e1 e2 e3 e4 e5 e6 e7 hb1 hb2 z hz G A dinv dstN dst hdinv hnorm s j

end Law

/-! ## The entries of dinv are nonnegative reals -/

/-- "The reciprocal square root of `x` where `x > 0`, else `0`", as the host program spells it on one element (the zeros
    being the 32-bit pattern of the float `0`), is a nonnegative real for every extended real `x`. -/
theorem dinv_elt_nonneg_real (x : EReal) : ∃ r : ℝ, 0 ≤ r ∧
    Scalar.select (FloatOps.cmpf (F := Ideal) (φ := .f32) .ogt x (Ideal.ofBits .f32 0x00000000#32))
      (FloatOps.hostUnary (F := Ideal) (φ := .f32) .rsqrt x) (Ideal.ofBits .f32 0x00000000#32) = (r : EReal) := by
  rw [Ideal.ofBits_zero_f32]
  exact Cert.LibSegmentFactor.gated_rsqrt_nonneg_real x

/-- The same on a whole array read at an index: where `zeros` is zero everywhere,
    `select (deg > zeros) (rsqrt deg) zeros` is at every index a nonnegative real. -/
theorem dinv_vec_nonneg_real {s : Shape} (deg zeros : FVec Ideal s .f32) (hzero : ∀ i, zeros i = 0) (i : s.Idx) :
    ∃ r : ℝ, 0 ≤ r ∧ select (cmpf .ogt deg zeros) (Host.rsqrt deg) zeros i = (r : EReal) := by
  show ∃ r : ℝ, 0 ≤ r ∧ Scalar.select (Ideal.cmp .ogt (deg i) (zeros i)) (Ideal.rsqrt (deg i)) (zeros i) = (r : EReal)
  rw [hzero i]
  exact Cert.LibSegmentFactor.gated_rsqrt_nonneg_real (deg i)

end Cert.LibEdgeNorm
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.LayerLaw.lean ====
/-
  One layer of the graph convolution, the two programs' spellings joined.

  For a node table `H` (the product A·W), the reference sums into each node `s` the rows
  `H[src e] · (dinv[src e] · dinv[dst e])` of the edges `e` arriving at `s`, and adds the bias. The kernel's program first
  scales the rows, `P[r] = H[r] · dinv[r]`, sums into each node the rows `P[src e]` of the edges arriving, multiplies
  the node's sum by `dinv[s]` and adds the bias. The two agree at every entry, for ANY extended-real table `H`:
  a gathered row of `P` is the gathered row of `H` times the gathered factor (both gathers clamp the same word), and for
  the edges arriving at `s` the factor `dinv[dst e]` is `dinv[s]`, a nonnegative real, which comes out of the node's sum.
  No finiteness of `H` is needed.
-/
import proofs.«160274_j87952340288037_2_alg».proof.Proof.Glue
import proofs.«160274_j87952340288037_2_alg».proof.Proof.KGlue
import proofs.«160274_j87952340288037_2_alg».proof.Proof.LibEdgeNorm
import proofs.«160274_j87952340288037_2_alg».proof.Proof.LibRowOps
import Idealize.ShloMosaic.Lib.ValueLayout

set_option maxRecDepth 100000

noncomputable section

namespace Cert.LayerLaw

open Idealize.ShloMosaic Idealize.ShloMosaic.ValueIdx Cert.ReferenceIdeal Cert.ReferenceIdeal.Gen

/-! ## The two programs' host pieces are the same functions -/

theorem srcW_eq (e : Cert.Glue.Edges) : Cert.KGlue.srcW e = Cert.Glue.srcW e := rfl
theorem dstW_eq (e : Cert.Glue.Edges) : Cert.KGlue.dstW e = Cert.Glue.dstW e := rfl
theorem dinv_eq (e : Cert.Glue.Edges) : Cert.KGlue.dinv e = Cert.Glue.dinv e := rfl
theorem segSum_eq (e : Cert.Glue.Edges) (P : FVec Ideal S100000x128 .f32) :
    Cert.KGlue.segSum e P = Cert.Glue.segSum e P := rfl
theorem meanPool_eq (x2 : IVec S100000 32) (h : FVec Ideal S100000x128 .f32) :
    Cert.KGlue.meanPool x2 h = Cert.Glue.meanPool x2 h := rfl

/-! ## Reading the small pieces at an index -/

/-- Zeros on the nodes are zero. -/
theorem zerosN_apply (i : S100000.Idx) : Cert.Glue.zerosN i = 0 := by
  show Ideal.ofBits .f32 0x00000000#32 = 0
  exact Ideal.ofBits_zero_f32

/-- Zeros on nodes × features are zero. -/
theorem zerosNC_apply (i : S100000x128.Idx) : Cert.Glue.zerosNC i = 0 := by
  show Ideal.ofBits .f32 0x00000000#32 = 0
  exact Ideal.ofBits_zero_f32

/-- Every per-node factor is a nonnegative real. -/
theorem dinv_nonneg_real (e : Cert.Glue.Edges) (s : Fin 100000) :
    ∃ r : ℝ, 0 ≤ r ∧ Cert.Glue.dinv e (ix1 s) = (r : EReal) :=
  Cert.LibEdgeNorm.dinv_vec_nonneg_real (Cert.Glue.deg e) Cert.Glue.zerosN zerosN_apply (ix1 s)

/-- The column of per-node factors at `(r, 0)` is the factor of node `r`. -/
theorem dinvCol_apply (e : Cert.Glue.Edges) (r : Fin 100000) :
    Cert.KGlue.dinvCol e (ix2 r (0 : Fin 1)) = Cert.Glue.dinv e (ix1 r) :=
  Cert.LibRowOps.shapeCast_a_a1_apply (Cert.KGlue.dinv e) _ r 0

/-- A per-feature vector as a row, at `(0, j)`. -/
theorem rowOf_apply (b : FVec Ideal S128 .f32) (j : Fin 128) :
    Cert.KGlue.rowOf b (ix2 (0 : Fin 1) j) = b (ix1 j) :=
  shapeCast_a_1a_apply b _ 0 j

/-- A per-feature vector stretched over the nodes, at `(r, j)`. -/
theorem rows_apply (v : FVec Ideal S128 .f32) (r : Fin 100000) (j : Fin 128) :
    Cert.Glue.rows v (ix2 r j) = v (ix1 j) := by
  unfold Cert.Glue.rows
  refine (broadcastInDim_apply ![0, 1] bcast_S1x128_S100000x128_0_1 _ (ix2 r j) (ix2 (0 : Fin 1) j) fun a => ?_).trans ?_
  · match a with
    | ⟨0, _⟩ => rfl
    | ⟨1, _⟩ => rfl
  · refine broadcastInDim_apply ![1] bcast_S128_S1x128_1 v (ix2 (0 : Fin 1) j) (ix1 j) fun a => ?_
    match a with
    | ⟨0, _⟩ => rfl

/-! ## The layer -/

/-- The words' normalisation leaves a word that is nonnegative (read signed) alone. -/
theorem norm_of_nonneg (w : IVec S1700000 32) (k : Fin 1700000) (h : 0 ≤ (w (ix1 k)).toInt) :
    (select (cmpi .slt w (broadcastInDim S1700000 ![] bcast_S_S1700000 (constantI S_ 32 0#32)))
      (addi w (broadcastInDim S1700000 ![] bcast_S_S1700000 (constantI S_ 32 100000#32))) w : IVec S1700000 32) (ix1 k)
      = w (ix1 k) :=
  Cert.LibSegmentFactor.normalise_of_nonneg (w (ix1 k)) h 100000#32

/-- A gathered row of the scaled table is the gathered row of the table times the gathered factor. -/
theorem gather_scaled (e : Cert.Glue.Edges) (H P : FVec Ideal S100000x128 .f32)
    (hP : ∀ (r : Fin 100000) (j : Fin 128), P (ix2 r j) = H (ix2 r j) * Cert.Glue.dinv e (ix1 r)) :
    Cert.Glue.gatherRows P (Cert.Glue.srcW e)
      = mulf (Cert.Glue.gatherRows H (Cert.Glue.srcW e))
          (Cert.Glue.perEdge (Cert.Glue.gatherVec (Cert.Glue.dinv e) (Cert.Glue.srcW e))) := by
  funext i
  obtain ⟨k, f, rfl⟩ : ∃ (k : Fin 1700000) (f : Fin 128), i = ix2 k f := ⟨i 0, i 1, eq_ix2 i⟩
  unfold Cert.Glue.gatherRows Cert.Glue.gatherVec
  rw [mulf_apply, Cert.LibEdgeIndex.gather_rows_apply (N := 100000) (E := 1700000) (C := 128) (by decide) _ rfl rfl rfl rfl rfl rfl rfl P _ k f,
    Cert.LibEdgeIndex.gather_rows_apply (N := 100000) (E := 1700000) (C := 128) (by decide) _ rfl rfl rfl rfl rfl rfl rfl H _ k f,
    hP]
  refine congrArg (H _ * ·) ?_
  unfold Cert.Glue.perEdge
  rw [Cert.LibEdgeNorm.bcast_ec_apply _ bcast_S1700000x1_S1700000x128_0_1 k f,
    Cert.LibEdgeNorm.bcast_e1_apply _ bcast_S1700000_S1700000x1_0 k 0]
  exact (Cert.LibEdgeIndex.gather_entries_apply (N := 100000) (E := 1700000) (by decide) _ rfl rfl rfl rfl rfl rfl rfl
    (Cert.Glue.dinv e) _ k).symm

/-- The kernel side's post-aggregation table at an entry. -/
theorem postH_apply (A : FVec Ideal S100000x128 .f32) (D : FVec Ideal Cert.KernelIdeal.S100000x1 .f32)
    (B : FVec Ideal Cert.KernelIdeal.S1x128 .f32) (s : Fin 100000) (j : Fin 128) :
    Cert.Spec.postH A D B (ix2 s j) = A (ix2 s j) * D (ix2 s (0 : Fin 1)) + B (ix2 (0 : Fin 1) j) := rfl

/-- THE LAYER, JOINED: for any table `H` and its row-scaled copy `P`, the kernel's post-aggregation table is the
    reference's layer. -/
theorem hOf_eq_refConv (e : Cert.Glue.Edges) (H P : FVec Ideal S100000x128 .f32) (b : FVec Ideal S128 .f32)
    (hP : ∀ (r : Fin 100000) (j : Fin 128), P (ix2 r j) = H (ix2 r j) * Cert.Glue.dinv e (ix1 r)) :
    Cert.KGlue.hOf e P b = Cert.Glue.refConv e H b := by
  funext i
  obtain ⟨s, j, rfl⟩ : ∃ (s : Fin 100000) (j : Fin 128), i = ix2 s j := ⟨i 0, i 1, eq_ix2 i⟩
  unfold Cert.KGlue.hOf Cert.Glue.refConv
  rw [postH_apply, addf_apply, dinvCol_apply, rowOf_apply, rows_apply, segSum_eq]
  refine congrArg (· + b (ix1 j)) ?_
  unfold Cert.Glue.segSum
  rw [gather_scaled e H P hP]
  exact (Cert.LibEdgeNorm.segsum_dst_factor (N := 100000) (E := 1700000) (C := 128) (by decide)
    scatter_S100000x128_S1700000x1_S1700000x128_1_0_0_1 rfl rfl rfl rfl
    gather_S100000x128_S1700000x1_S1700000x128_1_0_n_n_0_1_1128 rfl rfl rfl rfl rfl rfl rfl
    gather_S100000_S1700000x1_S1700000_n_0_n_n_0_1_1 rfl rfl rfl rfl rfl rfl rfl
    bcast_S1700000_S1700000x1_0 bcast_S1700000x1_S1700000x128_0_1
    Cert.Glue.zerosNC zerosNC_apply H (Cert.Glue.dinv e) _ _ (Cert.Glue.dstW e)
    (dinv_nonneg_real e) (fun k hk => norm_of_nonneg (Cert.Glue.dstW e) k hk) s j).symm

end Cert.LayerLaw

end
-- ==== Proof.BNReal.lean ====
/-
  Batch normalisation of one column of real numbers, two ways.

  For real numbers a₁ … a_N (N > 0) write S = ∑ aₙ, Q = ∑ aₙ², μ = S/N. The two-pass (centred) variance is
  σ² = (∑ (aₙ − μ)²)/N, the one-pass variance is Q/N − μ². They are equal (expand the square: ∑ (aₙ − μ)² = Q − 2μS + Nμ²
  and S = Nμ), and σ² ≥ 0, so clamping the one-pass variance at 0 changes nothing. Hence, with r = (σ² + ε)^(−1/2) for
  an ε > 0, the affine form x·(γ·r) + (β − μ·(γ·r)) is the centred form (x − μ)·r·γ + β.
-/
import Mathlib

namespace Cert.BNReal

open Finset

variable {N : ℕ}

/-- The centred sum of squares expanded. -/
theorem centred_sq (a : Fin N → ℝ) (μ : ℝ) :
    ∑ n, (a n - μ) * (a n - μ) = (∑ n, a n * a n) - 2 * μ * (∑ n, a n) + (N : ℝ) * (μ * μ) := by
  have h : ∀ n, (a n - μ) * (a n - μ) = a n * a n - 2 * μ * a n + μ * μ := fun n => by ring
  simp only [h, sum_add_distrib, sum_sub_distrib, ← mul_sum, sum_const, card_univ, Fintype.card_fin, nsmul_eq_mul]
  ring

/-- The two variances are equal. -/
theorem var_eq (hN : 0 < N) (a : Fin N → ℝ) :
    (∑ n, (a n - (∑ n, a n) * (1 / (N : ℝ))) * (a n - (∑ n, a n) * (1 / (N : ℝ)))) * (1 / (N : ℝ))
      = (∑ n, a n * a n) * (1 / (N : ℝ)) - (∑ n, a n) * (1 / (N : ℝ)) * ((∑ n, a n) * (1 / (N : ℝ))) := by
  have hN' : (N : ℝ) ≠ 0 := by exact_mod_cast hN.ne'
  rw [centred_sq]
  field_simp
  ring

/-- The centred variance is nonnegative. -/
theorem var_nonneg (a : Fin N → ℝ) (μ : ℝ) : 0 ≤ (∑ n, (a n - μ) * (a n - μ)) * (1 / (N : ℝ)) :=
  mul_nonneg (sum_nonneg fun n _ => mul_self_nonneg _) (by positivity)

/-- Clamping the one-pass variance at 0 gives the centred variance. -/
theorem max_var_eq (hN : 0 < N) (a : Fin N → ℝ) :
    max ((∑ n, a n * a n) * (1 / (N : ℝ)) - (∑ n, a n) * (1 / (N : ℝ)) * ((∑ n, a n) * (1 / (N : ℝ)))) 0
      = (∑ n, (a n - (∑ n, a n) * (1 / (N : ℝ))) * (a n - (∑ n, a n) * (1 / (N : ℝ)))) * (1 / (N : ℝ)) := by
  rw [← var_eq hN a]
  exact max_eq_left (var_nonneg a _)

/-- The affine form is the centred form. -/
theorem affine_eq (x μ r γ β : ℝ) : x * (γ * r) + (β - μ * (γ * r)) = (x - μ) * r * γ + β := by ring

end Cert.BNReal
-- ==== Proof.LibReal.lean ====
/-
  Real-valuedness of array operations on the extended reals.

  An array of extended reals is REAL when every entry is a real number (`Cert.Net.AllReal`). This module
  collects, for the operations a host program is made of, the facts by which realness (or any other property
  of the entries) passes from the operands of an operation to its result:

  * operations that only MOVE entries (broadcast, reshape, slice, gather, concatenate): every entry of the result
    is an entry of an operand (`*_mem`), so every property of all the operand's entries holds of all the
    result's (`*_forall`);
  * entrywise arithmetic (sum, difference, product, maximum, power, square root, quotient, exponential): the
    result of real operands is real, the square root and the quotient away from the corners of their domains;
  * contractions and accumulating scatters: a finite sum of products, or of entries, of reals is real;
  * the single-precision constants `0`, `1`, `-1/2` as reals and `1e-5` as a positive real.
-/
import Idealize.ShloMosaic.PureOps.Ideal
import Idealize.ShloMosaic.PureOps.Ideal.Laws
import Idealize.ShloMosaic.PureOps.ShapeOps
import Idealize.ShloMosaic.PureOps.Vector
import Idealize.ShloMosaic.PureOps.Contract

noncomputable section

open scoped BigOperators

namespace Cert.Net

/-- Every entry of the array is a real number. -/
def AllReal {ι : Type} (x : ι → EReal) : Prop := ∀ i, ∃ r : ℝ, x i = (r : EReal)

end Cert.Net

namespace Cert.LibReal

open Idealize.ShloMosaic Cert.Net

/-! ### Operations that move entries -/

section Move
variable {α : Type} {s t : Shape}

/-- If every entry of `y` is an entry of `x`, whatever holds of all entries of `x` holds of all of `y`. -/
theorem forall_of_mem {ι κ : Type} {x : ι → α} {y : κ → α} (hm : ∀ j, ∃ i, y j = x i) {P : α → Prop}
    (hx : ∀ i, P (x i)) : ∀ j, P (y j) := fun j => by
  obtain ⟨i, hi⟩ := hm j
  rw [hi]; exact hx i

/-- Every entry of a broadcast is an entry of its operand. -/
theorem broadcastInDim_mem (dims : Fin s.rank → Fin t.rank) (h : s.BroadcastsInDim t dims) (x : s.Idx → α) :
    ∀ j, ∃ i, broadcastInDim t dims h x j = x i := fun _ => ⟨_, rfl⟩

/-- Every entry of a reshaped array is an entry of its operand. -/
theorem shapeCast_mem (x : s.Idx → α) (h : s.ShapeCasts t) : ∀ j, ∃ i, shapeCast t x h j = x i :=
  fun _ => ⟨_, rfl⟩

/-- Every entry of a slice is an entry of its operand. -/
theorem extractStridedSlice_mem (off : Fin s.rank → Nat) (x : s.Idx → α) (h : s.Slices off t) :
    ∀ j, ∃ i, extractStridedSlice t off x h j = x i := fun _ => ⟨_, rfl⟩

/-- Every entry of a gather is an entry of its operand (the start indices are clamped into the operand). -/
theorem gather_mem {si : Shape} {w : Nat} (d : GatherDims s si t) (x : s.Idx → α) (idx : IVec si w) :
    ∀ j, ∃ i, Host.gather d x idx j = x i := fun _ => ⟨_, rfl⟩

/-- Every entry of a concatenation is an entry of one of the concatenated arrays. -/
theorem concatenate_mem (a : Fin t.rank) (xs : List ((s : Shape) × (s.Idx → α)))
    (h : Shape.Concatenates (xs.map (·.1)) t a) :
    ∀ j, ∃ p ∈ xs, ∃ i, concatenate t a xs h j = p.2 i := fun _ => ⟨_, List.getElem_mem _, _, rfl⟩

/-- What holds of all entries of the operand holds of all entries of its broadcast. -/
theorem broadcastInDim_forall (dims : Fin s.rank → Fin t.rank) (h : s.BroadcastsInDim t dims) (x : s.Idx → α)
    {P : α → Prop} (hx : ∀ i, P (x i)) : ∀ j, P (broadcastInDim t dims h x j) :=
  forall_of_mem (broadcastInDim_mem dims h x) hx

/-- What holds of all entries of the operand holds of all entries of its reshape. -/
theorem shapeCast_forall (x : s.Idx → α) (h : s.ShapeCasts t) {P : α → Prop} (hx : ∀ i, P (x i)) :
    ∀ j, P (shapeCast t x h j) :=
  forall_of_mem (shapeCast_mem x h) hx

/-- What holds of all entries of the operand holds of all entries of a slice of it. -/
theorem extractStridedSlice_forall (off : Fin s.rank → Nat) (x : s.Idx → α) (h : s.Slices off t) {P : α → Prop}
    (hx : ∀ i, P (x i)) : ∀ j, P (extractStridedSlice t off x h j) :=
  forall_of_mem (extractStridedSlice_mem off x h) hx

/-- What holds of all entries of the operand holds of all entries gathered from it. -/
theorem gather_forall {si : Shape} {w : Nat} (d : GatherDims s si t) (x : s.Idx → α) (idx : IVec si w)
    {P : α → Prop} (hx : ∀ i, P (x i)) : ∀ j, P (Host.gather d x idx j) :=
  forall_of_mem (gather_mem d x idx) hx

/-- What holds of all entries of two arrays holds of all entries of their concatenation. -/
theorem concatenate2_forall (a : Fin t.rank) {s₁ s₂ : Shape} (x₁ : s₁.Idx → α) (x₂ : s₂.Idx → α)
    (h : Shape.Concatenates (([⟨s₁, x₁⟩, ⟨s₂, x₂⟩] : List ((s : Shape) × (s.Idx → α))).map (·.1)) t a) {P : α → Prop}
    (h₁ : ∀ i, P (x₁ i)) (h₂ : ∀ i, P (x₂ i)) : ∀ j, P (concatenate t a [⟨s₁, x₁⟩, ⟨s₂, x₂⟩] h j) := fun j => by
  obtain ⟨p, hp, i, hi⟩ := concatenate_mem a [⟨s₁, x₁⟩, ⟨s₂, x₂⟩] h j
  rw [hi]
  rcases List.mem_pair.mp hp with rfl | rfl
  · exact h₁ i
  · exact h₂ i

end Move

/-! ### Constants -/

/-- The pattern of `+0.0` denotes the real `0`. -/
theorem ofBits_zero : Ideal.ofBits .f32 0x00000000#32 = ((0 : ℝ) : EReal) := by
  simp [Ideal.ofBits, Ideal.ieee]

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of the single-precision `1e-5` denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-! ### Entrywise arithmetic -/

section Pointwise
variable {s : Shape} {φ : FTy}

/-- An array whose entries are all one real constant is real. -/
theorem allReal_constant (b : BitVec φ.bits) (h : ∃ r : ℝ, Ideal.ofBits φ b = (r : EReal)) :
    AllReal (constant (F := Ideal) s φ b) := fun _ => h

/-- The sum of two real arrays is real. -/
theorem allReal_addf {x y : FVec Ideal s φ} (hx : AllReal x) (hy : AllReal y) : AllReal (addf x y) := fun i => by
  obtain ⟨a, ha⟩ := hx i
  obtain ⟨b, hb⟩ := hy i
  exact ⟨a + b, by show x i + y i = _; rw [ha, hb, EReal.coe_add]⟩

/-- The difference of two real arrays is real. -/
theorem allReal_subf {x y : FVec Ideal s φ} (hx : AllReal x) (hy : AllReal y) : AllReal (subf x y) := fun i => by
  obtain ⟨a, ha⟩ := hx i
  obtain ⟨b, hb⟩ := hy i
  exact ⟨a - b, by show x i - y i = _; rw [ha, hb, EReal.coe_sub]⟩

/-- The product of two real arrays is real. -/
theorem allReal_mulf {x y : FVec Ideal s φ} (hx : AllReal x) (hy : AllReal y) : AllReal (mulf x y) := fun i => by
  obtain ⟨a, ha⟩ := hx i
  obtain ⟨b, hb⟩ := hy i
  exact ⟨a * b, by show x i * y i = _; rw [ha, hb, EReal.coe_mul]⟩

/-- The entrywise maximum of two real arrays is real. -/
theorem allReal_maximumf {x y : FVec Ideal s φ} (hx : AllReal x) (hy : AllReal y) : AllReal (maximumf x y) :=
  fun i => by
    obtain ⟨a, ha⟩ := hx i
    obtain ⟨b, hb⟩ := hy i
    exact ⟨max a b, by show max (x i) (y i) = _; rw [ha, hb]; exact (EReal.coe_strictMono.monotone.map_max).symm⟩

/-- A real array raised entrywise to a real array of exponents is real. -/
theorem allReal_powf {x y : FVec Ideal s φ} (hx : AllReal x) (hy : AllReal y) : AllReal (Host.powf x y) := fun i => by
  obtain ⟨a, ha⟩ := hx i
  obtain ⟨b, hb⟩ := hy i
  exact ⟨Real.rpow a b, by show Ideal.pow (x i) (y i) = _; rw [ha, hb]; rfl⟩

/-- The exponential of a real array is real. -/
theorem allReal_exp {x : FVec Ideal s φ} (hx : AllReal x) : AllReal (Host.exp x) := fun i => by
  obtain ⟨a, ha⟩ := hx i
  exact ⟨Real.exp a, by show Ideal.exp (x i) = _; rw [ha]; rfl⟩

/-- Every entry is a nonnegative real. -/
def AllNonneg (v : s.Idx → EReal) : Prop := ∀ i, ∃ r : ℝ, 0 ≤ r ∧ v i = (r : EReal)

/-- Every entry is a positive real. -/
def AllPos (v : s.Idx → EReal) : Prop := ∀ i, ∃ r : ℝ, 0 < r ∧ v i = (r : EReal)

/-- A nonnegative array is real. -/
theorem AllNonneg.allReal {v : s.Idx → EReal} (h : AllNonneg v) : AllReal v := fun i => by
  obtain ⟨r, _, hr⟩ := h i
  exact ⟨r, hr⟩

/-- A positive array is real. -/
theorem AllPos.allReal {v : s.Idx → EReal} (h : AllPos v) : AllReal v := fun i => by
  obtain ⟨r, _, hr⟩ := h i
  exact ⟨r, hr⟩

/-- An array whose entries are all one positive constant is positive. -/
theorem allPos_constant (b : BitVec φ.bits) (h : ∃ r : ℝ, 0 < r ∧ Ideal.ofBits φ b = (r : EReal)) :
    AllPos (constant (F := Ideal) s φ b) := fun _ => h

/-- A nonnegative array plus a positive array is positive. -/
theorem allPos_addf {x y : FVec Ideal s φ} (hx : AllNonneg x) (hy : AllPos y) : AllPos (addf x y) := fun i => by
  obtain ⟨a, ha0, ha⟩ := hx i
  obtain ⟨b, hb0, hb⟩ := hy i
  exact ⟨a + b, by linarith, by show x i + y i = _; rw [ha, hb, EReal.coe_add]⟩

/-- The square root of a positive array is positive. -/
theorem allPos_sqrt {x : FVec Ideal s φ} (hx : AllPos x) : AllPos (Host.sqrt x) := fun i => by
  obtain ⟨a, ha0, ha⟩ := hx i
  refine ⟨Real.sqrt a, Real.sqrt_pos.mpr ha0, ?_⟩
  show Ideal.sqrt (x i) = _
  rw [ha, Ideal.sqrt_coe, if_neg (not_lt.mpr ha0.le)]

/-- A real array divided entrywise by a positive array is real. -/
theorem allReal_divf {x y : FVec Ideal s φ} (hx : AllReal x) (hy : AllPos y) : AllReal (Host.divf x y) := fun i => by
  obtain ⟨a, ha⟩ := hx i
  obtain ⟨b, hb0, hb⟩ := hy i
  exact ⟨a * (1 / b), by show Ideal.div (x i) (y i) = _; rw [ha, hb, Ideal.div_coe hb0.ne', EReal.coe_mul]⟩

end Pointwise

/-! ### Moving entries keeps realness, nonnegativity and positivity -/

section MoveReal
variable {s t : Shape}

/-- A broadcast of a real array is real. -/
theorem allReal_broadcastInDim (dims : Fin s.rank → Fin t.rank) (h : s.BroadcastsInDim t dims) {x : s.Idx → EReal}
    (hx : AllReal x) : AllReal (broadcastInDim t dims h x) :=
  broadcastInDim_forall dims h x (P := fun v => ∃ r : ℝ, v = (r : EReal)) hx

/-- A broadcast of a nonnegative array is nonnegative. -/
theorem allNonneg_broadcastInDim (dims : Fin s.rank → Fin t.rank) (h : s.BroadcastsInDim t dims) {x : s.Idx → EReal}
    (hx : AllNonneg x) : AllNonneg (broadcastInDim t dims h x) :=
  broadcastInDim_forall dims h x (P := fun v => ∃ r : ℝ, 0 ≤ r ∧ v = (r : EReal)) hx

/-- A broadcast of a positive array is positive. -/
theorem allPos_broadcastInDim (dims : Fin s.rank → Fin t.rank) (h : s.BroadcastsInDim t dims) {x : s.Idx → EReal}
    (hx : AllPos x) : AllPos (broadcastInDim t dims h x) :=
  broadcastInDim_forall dims h x (P := fun v => ∃ r : ℝ, 0 < r ∧ v = (r : EReal)) hx

/-- A reshape of a real array is real. -/
theorem allReal_shapeCast {x : s.Idx → EReal} (h : s.ShapeCasts t) (hx : AllReal x) : AllReal (shapeCast t x h) :=
  shapeCast_forall x h (P := fun v => ∃ r : ℝ, v = (r : EReal)) hx

/-- A reshape of a nonnegative array is nonnegative. -/
theorem allNonneg_shapeCast {x : s.Idx → EReal} (h : s.ShapeCasts t) (hx : AllNonneg x) :
    AllNonneg (shapeCast t x h) :=
  shapeCast_forall x h (P := fun v => ∃ r : ℝ, 0 ≤ r ∧ v = (r : EReal)) hx

/-- A reshape of a positive array is positive. -/
theorem allPos_shapeCast {x : s.Idx → EReal} (h : s.ShapeCasts t) (hx : AllPos x) : AllPos (shapeCast t x h) :=
  shapeCast_forall x h (P := fun v => ∃ r : ℝ, 0 < r ∧ v = (r : EReal)) hx

/-- A slice of a real array is real. -/
theorem allReal_slice (off : Fin s.rank → Nat) {x : s.Idx → EReal} (h : s.Slices off t) (hx : AllReal x) :
    AllReal (extractStridedSlice t off x h) :=
  extractStridedSlice_forall off x h (P := fun v => ∃ r : ℝ, v = (r : EReal)) hx

/-- A slice of a nonnegative array is nonnegative. -/
theorem allNonneg_slice (off : Fin s.rank → Nat) {x : s.Idx → EReal} (h : s.Slices off t) (hx : AllNonneg x) :
    AllNonneg (extractStridedSlice t off x h) :=
  extractStridedSlice_forall off x h (P := fun v => ∃ r : ℝ, 0 ≤ r ∧ v = (r : EReal)) hx

/-- A slice of a positive array is positive. -/
theorem allPos_slice (off : Fin s.rank → Nat) {x : s.Idx → EReal} (h : s.Slices off t) (hx : AllPos x) :
    AllPos (extractStridedSlice t off x h) :=
  extractStridedSlice_forall off x h (P := fun v => ∃ r : ℝ, 0 < r ∧ v = (r : EReal)) hx

/-- Entries gathered from a real array are real. -/
theorem allReal_gather {si : Shape} {w : Nat} (d : GatherDims s si t) {x : s.Idx → EReal} (idx : IVec si w)
    (hx : AllReal x) : AllReal (Host.gather d x idx) :=
  gather_forall d x idx (P := fun v => ∃ r : ℝ, v = (r : EReal)) hx

/-- Entries gathered from a nonnegative array are nonnegative. -/
theorem allNonneg_gather {si : Shape} {w : Nat} (d : GatherDims s si t) {x : s.Idx → EReal} (idx : IVec si w)
    (hx : AllNonneg x) : AllNonneg (Host.gather d x idx) :=
  gather_forall d x idx (P := fun v => ∃ r : ℝ, 0 ≤ r ∧ v = (r : EReal)) hx

/-- The concatenation of two real arrays is real. -/
theorem allReal_concatenate2 (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllReal x₁) (h₂ : AllReal x₂) : AllReal (concatenate t a [⟨s₁, x₁⟩, ⟨s₂, x₂⟩] h) :=
  concatenate2_forall a x₁ x₂ h (P := fun v => ∃ r : ℝ, v = (r : EReal)) h₁ h₂

end MoveReal

/-! ### Contractions and accumulating scatters -/

/-- A finite sum of real extended reals is real. -/
theorem sum_real {ι : Type} (S : Finset ι) (f : ι → EReal) (hf : ∀ i ∈ S, ∃ r : ℝ, f i = (r : EReal)) :
    ∃ r : ℝ, (∑ i ∈ S, f i) = (r : EReal) := by
  classical
  induction S using Finset.induction_on with
  | empty => exact ⟨0, by simp⟩
  | insert x S hx ih =>
    obtain ⟨a, ha⟩ := hf x (Finset.mem_insert_self x S)
    obtain ⟨b, hb⟩ := ih fun i hi => hf i (Finset.mem_insert_of_mem hi)
    exact ⟨a + b, by rw [Finset.sum_insert hx, ha, hb, EReal.coe_add]⟩

/-- The host's contraction of two real arrays is real: each entry is a finite sum of products of reals. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show ∃ r : ℝ, FloatOps.dotGeneral d prec .single lhs rhs j = (r : EReal)
  rw [Ideal.dotGeneral_apply]
  refine sum_real _ _ fun k _ => ?_
  obtain ⟨a, ha⟩ := hl (d.lhsIdx j k)
  obtain ⟨b, hb⟩ := hr (d.rhsIdx j k)
  exact ⟨a * b, by rw [ha, hb, EReal.coe_mul]⟩

/-- The host's accumulating scatter of real updates into a real array is real: each entry is the operand's plus a
    finite sum of updates. -/
theorem allReal_scatterAdd {s si u : Shape} {w : Nat} {φ : FTy} (d : ScatterDims s si u) {x : FVec Ideal s φ}
    (idx : IVec si w) {upd : FVec Ideal u φ} (hx : AllReal x) (hu : AllReal upd) :
    AllReal (Host.scatterAdd d x idx upd) := fun i => by
  show ∃ r : ℝ, Ideal.hostScatterAdd d x idx upd i = (r : EReal)
  unfold Ideal.hostScatterAdd
  obtain ⟨a, ha⟩ := hx i
  obtain ⟨b, hb⟩ := sum_real (Finset.univ.filter fun j => d.resultIdx? j idx = some i) upd fun j _ => hu j
  exact ⟨a + b, by rw [ha, hb, EReal.coe_add]⟩

end Cert.LibReal

end
-- ==== Proof.BNLaw.lean ====
/-
  Batch normalisation followed by the leaky rectifier, the two programs' spellings joined, on a table of REAL entries.

  The reference centres each column, divides by the root of (the mean of the centred squares + ε), scales by g and
  shifts by β. The kernel's program accumulates each column's sum S and sum of squares Q, forms the mean μ = S/N, the
  clamped one-pass variance max(Q/N − μ², 0), the scale g·(var + ε)^(−1/2) and the shift β − μ·scale, and applies
  h·scale + shift. On a column of real numbers these are the same real number (BNReal: the two variances agree and are
  nonnegative, so the clamp is idle; the affine form is the centred form). Both are computed here as explicit reals, so
  the common value is also known to be real.
-/
import proofs.«160274_j87952340288037_2_alg».proof.Proof.Glue
import proofs.«160274_j87952340288037_2_alg».proof.Proof.KGlue
import proofs.«160274_j87952340288037_2_alg».proof.Proof.LayerLaw
import proofs.«160274_j87952340288037_2_alg».proof.Proof.BNReal
import proofs.«160274_j87952340288037_2_alg».proof.Proof.LibReal
import Idealize.ShloMosaic.PureOps.Ideal.Laws

noncomputable section

namespace Cert.BNLaw

open Idealize.ShloMosaic Idealize.ShloMosaic.ValueIdx Cert.ReferenceIdeal Cert.ReferenceIdeal.Gen Cert.Net

/-- A finite sum of real numbers read as extended reals is the real sum. -/
theorem coe_sum {ι : Type} (s : Finset ι) (a : ι → ℝ) : ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- The float word of 100000.0 denotes the real 100000. -/
theorem ofBits_1e5 : Ideal.ofBits .f32 0x47C35000#32 = (((100000 : ℕ) : ℝ) : EReal) := by
  simp [Ideal.ofBits, Ideal.ieee, -EReal.coe_mul]; norm_num

/-- The maximum of two reals read as extended reals. -/
theorem coe_max (x y : ℝ) : max (x : EReal) (y : EReal) = ((max x y : ℝ) : EReal) :=
  (EReal.coe_strictMono.monotone.map_max).symm

/-- The reciprocal square root of a positive real. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- The host's sum over the nodes of column `k`, started from the zero word. -/
theorem hostColSum_apply (y : FVec Ideal S100000x128 .f32) (k : Fin 128) :
    Host.reduceAdd (F := Ideal) y (constant (F := Ideal) S_ .f32 0x00000000#32) reducesTo_S100000x128_S128_d0 h_S_ (ix1 k)
      = ∑ n : Fin 100000, y (ix2 n k) := by
  simp only [Host.reduceAdd, Ideal.hostReduceAdd_def]
  rw [Ideal.hostReduceAdd_single reducesTo_S100000x128_S128_d0 (by decide)]
  refine (congrArg (· + _) (show (constant (F := Ideal) S_ .f32 0x00000000#32) (Shape.Idx.first h_S_) = 0 from Ideal.ofBits_zero_f32)).trans ?_
  rw [zero_add]
  refine Finset.sum_congr rfl fun n _ => ?_
  exact congrArg y (funext fun a => Fin.ext (by match a with | ⟨0, _⟩ => rfl | ⟨1, _⟩ => rfl))

/-- The reference's column mean, on a column of reals. -/
theorem colMean_apply (y : FVec Ideal S100000x128 .f32) (k : Fin 128) (a : Fin 100000 → ℝ)
    (ha : ∀ n, y (ix2 n k) = (a n : EReal)) :
    Cert.Glue.colMean y (ix1 k) = (((∑ n, a n) * (1 / ((100000 : ℕ) : ℝ)) : ℝ) : EReal) := by
  show Ideal.div (Host.reduceAdd (F := Ideal) y (constant (F := Ideal) S_ .f32 0x00000000#32) reducesTo_S100000x128_S128_d0 h_S_ (ix1 k))
      (Ideal.ofBits .f32 0x47C35000#32) = _
  rw [hostColSum_apply, Finset.sum_congr rfl (fun n _ => ha n), coe_sum, ofBits_1e5, Ideal.div_coe (by norm_num), ← EReal.coe_mul]

/-- The kernel side's column mean from an accumulated row. -/
theorem meanRow_apply (s : FVec Ideal Cert.KernelIdeal.S1x128 .f32) (k : Fin 128) (S : ℝ) (hS : s (ix2 (0 : Fin 1) k) = (S : EReal)) :
    Cert.KGlue.meanRow s (ix2 (0 : Fin 1) k) = ((S * (1 / ((100000 : ℕ) : ℝ)) : ℝ) : EReal) := by
  show Ideal.div (s (ix2 (0 : Fin 1) k)) (Ideal.ofBits .f32 0x47C35000#32) = _
  rw [hS, ofBits_1e5, Ideal.div_coe (by norm_num), ← EReal.coe_mul]

/-- THE NORMALISATION, JOINED, at one entry `(r, k)` of a real table with real `g`, `β`: the kernel side's
    `h·scale + shift` and the reference's normalised entry are one real number. -/
theorem affine_eq_refBN (h : FVec Ideal S100000x128 .f32) (g β : FVec Ideal S128 .f32)
    (hh : AllReal h) (hg : AllReal g) (hβ : AllReal β) (r : Fin 100000) (k : Fin 128) :
    ∃ y : ℝ,
      h (ix2 r k) * Cert.KGlue.scaleRow (Cert.Spec.colSum h) (Cert.Spec.colSumSq h) g (ix2 (0 : Fin 1) k)
          + Cert.KGlue.shiftRow (Cert.Spec.colSum h) (Cert.Spec.colSumSq h) g β (ix2 (0 : Fin 1) k) = (y : EReal)
      ∧ Cert.Glue.refBN h g β (ix2 r k) = (y : EReal) := by
  choose a ha using fun n : Fin 100000 => hh (ix2 n k)
  obtain ⟨γ, hγ⟩ := hg (ix1 k)
  obtain ⟨b, hb⟩ := hβ (ix1 k)
  obtain ⟨ε, hε0, hε⟩ := Cert.LibReal.ofBits_eps
  -- the kernel side: the accumulated rows, the mean, the clamped variance, the scale and the shift as reals
  have hS : Cert.Spec.colSum h (ix2 (0 : Fin 1) k) = ((∑ n, a n : ℝ) : EReal) := by
    show ∑ n : Fin 100000, h (ix2 n k) = _
    rw [Finset.sum_congr rfl (fun n _ => ha n), coe_sum]
  have hQ : Cert.Spec.colSumSq h (ix2 (0 : Fin 1) k) = ((∑ n, a n * a n : ℝ) : EReal) := by
    show ∑ n : Fin 100000, h (ix2 n k) * h (ix2 n k) = _
    rw [Finset.sum_congr rfl (fun n _ => by rw [ha n, ← EReal.coe_mul]), coe_sum]
  have hmS := meanRow_apply (Cert.Spec.colSum h) k _ hS
  have hmQ := meanRow_apply (Cert.Spec.colSumSq h) k _ hQ
  set μ : ℝ := (∑ n, a n) * (1 / ((100000 : ℕ) : ℝ)) with hμ
  set σ2 : ℝ := (∑ n, (a n - μ) * (a n - μ)) * (1 / ((100000 : ℕ) : ℝ)) with hσ2
  have hσ0 : 0 ≤ σ2 := Cert.BNReal.var_nonneg a μ
  have hpos : 0 < σ2 + ε := by linarith
  have hscale : Cert.KGlue.scaleRow (Cert.Spec.colSum h) (Cert.Spec.colSumSq h) g (ix2 (0 : Fin 1) k)
      = ((γ * (Real.sqrt (σ2 + ε))⁻¹ : ℝ) : EReal) := by
    show Cert.KGlue.rowOf g (ix2 (0 : Fin 1) k) * Ideal.rsqrt
        (max (Cert.KGlue.meanRow (Cert.Spec.colSumSq h) (ix2 (0 : Fin 1) k)
              - Cert.KGlue.meanRow (Cert.Spec.colSum h) (ix2 (0 : Fin 1) k) * Cert.KGlue.meanRow (Cert.Spec.colSum h) (ix2 (0 : Fin 1) k))
            (Ideal.ofBits .f32 0x00000000#32)
          + Ideal.ofBits .f32 0x3727C5AC#32) = _
    rw [Cert.LayerLaw.rowOf_apply, hγ, hmS, hmQ, hε, Cert.LibReal.ofBits_zero, ← EReal.coe_mul, ← EReal.coe_sub, coe_max,
      Cert.BNReal.max_var_eq (by decide) a, ← EReal.coe_add, rsqrt_pos hpos, ← EReal.coe_mul]
  have hshift : Cert.KGlue.shiftRow (Cert.Spec.colSum h) (Cert.Spec.colSumSq h) g β (ix2 (0 : Fin 1) k)
      = ((b - μ * (γ * (Real.sqrt (σ2 + ε))⁻¹) : ℝ) : EReal) := by
    show Cert.KGlue.rowOf β (ix2 (0 : Fin 1) k)
        - Cert.KGlue.meanRow (Cert.Spec.colSum h) (ix2 (0 : Fin 1) k)
          * Cert.KGlue.scaleRow (Cert.Spec.colSum h) (Cert.Spec.colSumSq h) g (ix2 (0 : Fin 1) k) = _
    rw [Cert.LayerLaw.rowOf_apply, hb, hmS, hscale, ← EReal.coe_mul, ← EReal.coe_sub]
  -- the reference side: the mean, the centred squares, their mean, the root, as reals
  have hmean : Cert.Glue.colMean h (ix1 k) = (μ : EReal) := colMean_apply h k a ha
  have hsq : ∀ n, mulf (subf h (Cert.Glue.rows (Cert.Glue.colMean h))) (subf h (Cert.Glue.rows (Cert.Glue.colMean h))) (ix2 n k)
      = (((a n - μ) * (a n - μ) : ℝ) : EReal) := fun n => by
    show (h (ix2 n k) - Cert.Glue.rows (Cert.Glue.colMean h) (ix2 n k)) * (h (ix2 n k) - Cert.Glue.rows (Cert.Glue.colMean h) (ix2 n k)) = _
    rw [Cert.LayerLaw.rows_apply, hmean, ha n, ← EReal.coe_sub, ← EReal.coe_mul]
  have hvar : Cert.Glue.colMean (mulf (subf h (Cert.Glue.rows (Cert.Glue.colMean h))) (subf h (Cert.Glue.rows (Cert.Glue.colMean h)))) (ix1 k)
      = (σ2 : EReal) := colMean_apply _ k _ hsq
  refine ⟨a r * (γ * (Real.sqrt (σ2 + ε))⁻¹) + (b - μ * (γ * (Real.sqrt (σ2 + ε))⁻¹)), ?_, ?_⟩
  · rw [hscale, hshift, ha r, ← EReal.coe_mul, ← EReal.coe_add]
  · show (h (ix2 r k) - Cert.Glue.rows (Cert.Glue.colMean h) (ix2 r k))
          * Cert.Glue.rows (Host.rsqrt (F := Ideal) (addf (Cert.Glue.colMean (mulf (subf h (Cert.Glue.rows (Cert.Glue.colMean h))) (subf h (Cert.Glue.rows (Cert.Glue.colMean h)))))
              (broadcastInDim S128 ![] bcast_S_S128 (constant (F := Ideal) S_ .f32 0x3727C5AC#32)))) (ix2 r k)
          * Cert.Glue.rows g (ix2 r k) + Cert.Glue.rows β (ix2 r k) = _
    rw [Cert.LayerLaw.rows_apply, Cert.LayerLaw.rows_apply, Cert.LayerLaw.rows_apply, Cert.LayerLaw.rows_apply, hmean, ha r, hγ, hb]
    show ((a r : ℝ) - (μ : ℝ)) * Ideal.rsqrt (Cert.Glue.colMean (mulf (subf h (Cert.Glue.rows (Cert.Glue.colMean h))) (subf h (Cert.Glue.rows (Cert.Glue.colMean h)))) (ix1 k)
        + Ideal.ofBits .f32 0x3727C5AC#32) * (γ : EReal) + (b : EReal) = _
    rw [hvar, hε, ← EReal.coe_add, rsqrt_pos hpos, ← EReal.coe_sub, ← EReal.coe_mul, ← EReal.coe_mul, ← EReal.coe_add,
      Cert.BNReal.affine_eq]

end Cert.BNLaw

end
-- ==== Proof.LibHostDot.lean ====
/-
  The host's matrix product read at an index, at the ideal values (extended reals, exact operations).

  A plain `stablehlo.dot_general` of an `M×K` by a `K×N` operand (no batch axis; the left operand contracted on its
  second axis, the right on its first) is, at `(r, j)`, the sum over `k : Fin K` of `lhs (r, k) * rhs (k, j)`,
  whatever the operands' float formats and the precision attribute.  It is the host's counterpart of a kernel's plain
  `tpu.matmul` into the zero accumulator read the same way; stated over the same sum, the two meet without any further
  re-indexing.  Standalone: imports only the Idealize library.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The host's plain `M×K` by `K×N` `dot_general` at `(r, j)`: the sum over `k` of `lhs (r, k) * rhs (k, j)`. -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    Host.dotGeneral d prec lhs rhs (ix2 r j) = ∑ k : Fin K, lhs (ix2 r k) * rhs (ix2 k j) := by
  subst hd
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

end Cert.LibHostDot

end
-- ==== Proof.Bridge.lean ====
/-
  The two networks are one function of real inputs.

  Layer by layer. The pre-aggregation table of each layer is, on both sides, a matrix product with its rows scaled by the
  per-node factor (the kernel's launches do the product as a sum over the contracted axis and the scaling in one pass);
  the layer law (LayerLaw) then makes the kernel side's post-aggregation table the reference's layer. The first two
  layers' tables have real entries when the inputs have (sums and products of reals, gathered and scattered), so the
  normalisation law (BNLaw) makes the kernel side's normalised, rectified table the reference's, again with real entries.
  The third layer needs no realness: rectifier, mean pooling and the final product-plus-bias are the same operations on
  equal tables.
-/
import proofs.«160274_j87952340288037_2_alg».proof.Proof.BNLaw
import proofs.«160274_j87952340288037_2_alg».proof.Proof.LibHostDot

set_option maxRecDepth 16384

noncomputable section

namespace Cert.Bridge

open Idealize.ShloMosaic Idealize.ShloMosaic.ValueIdx Cert.ReferenceIdeal Cert.ReferenceIdeal.Gen Cert.Net

/-! ## The launches' functions at an entry -/

theorem linScale_apply (x : FVec Ideal S100000x64 .f32) (w : FVec Ideal S64x128 .f32) (D : FVec Ideal Cert.KernelIdeal.S100000x1 .f32)
    (r : Fin 100000) (j : Fin 128) :
    Cert.Spec.linScale x w D (ix2 r j) = (∑ k : Fin 64, x (ix2 r k) * w (ix2 k j)) * D (ix2 r (0 : Fin 1)) := rfl

theorem bnLin_apply (h : FVec Ideal S100000x128 .f32) (s t : FVec Ideal Cert.KernelIdeal.S1x128 .f32) (w : FVec Ideal S128x128 .f32)
    (D : FVec Ideal Cert.KernelIdeal.S100000x1 .f32) (r : Fin 100000) (j : Fin 128) :
    Cert.Spec.bnLin h s t w D (ix2 r j)
      = (∑ k : Fin 128, Cert.Spec.lrelu (h (ix2 r k) * s (ix2 (0 : Fin 1) k) + t (ix2 (0 : Fin 1) k)) * w (ix2 k j))
        * D (ix2 r (0 : Fin 1)) := rfl

theorem postLrelu_apply (A : FVec Ideal S100000x128 .f32) (D : FVec Ideal Cert.KernelIdeal.S100000x1 .f32)
    (B : FVec Ideal Cert.KernelIdeal.S1x128 .f32) (i : S100000x128.Idx) :
    Cert.Spec.postLrelu A D B i = Cert.Spec.lrelu (Cert.Spec.postH A D B i) := rfl

theorem refLrelu_apply (y : FVec Ideal S100000x128 .f32) (i : S100000x128.Idx) :
    Cert.Glue.refLrelu y i = Cert.Spec.lrelu (y i) := rfl

theorem linBias_apply (p : FVec Ideal S128x128 .f32) (w : FVec Ideal S128x64 .f32) (b : FVec Ideal Cert.KernelIdeal.S1x64 .f32)
    (r : Fin 128) (j : Fin 64) :
    Cert.Spec.linBias p w b (ix2 r j) = (∑ k : Fin 128, p (ix2 r k) * w (ix2 k j)) + b (ix2 (0 : Fin 1) j) := rfl

/-! ## The pre-aggregation tables are row-scaled products -/

/-- The first launch's table is the host product with its rows scaled. -/
theorem linScale_scaled (e : Cert.Glue.Edges) (x : FVec Ideal S100000x64 .f32) (w : FVec Ideal S64x128 .f32)
    (r : Fin 100000) (j : Fin 128) :
    Cert.Spec.linScale x w (Cert.KGlue.dinvCol e) (ix2 r j)
      = Host.dotGeneral (F := Ideal) dot_S100000x64_S64x128_S100000x128_1_0_0_1_n_n none x w (ix2 r j) * Cert.Glue.dinv e (ix1 r) := by
  rw [linScale_apply, Cert.LayerLaw.dinvCol_apply,
    Cert.LibHostDot.dotGeneral_plain_apply (M := 100000) (K := 64) (N := 128) dot_S100000x64_S64x128_S100000x128_1_0_0_1_n_n rfl none x w r j]

/-- A later launch's table is the host product of the normalised, rectified table with its rows scaled. -/
theorem bnLin_scaled (e : Cert.Glue.Edges) (h A : FVec Ideal S100000x128 .f32) (s t : FVec Ideal Cert.KernelIdeal.S1x128 .f32)
    (w : FVec Ideal S128x128 .f32)
    (hA : ∀ (r : Fin 100000) (k : Fin 128), Cert.Spec.lrelu (h (ix2 r k) * s (ix2 (0 : Fin 1) k) + t (ix2 (0 : Fin 1) k)) = A (ix2 r k))
    (r : Fin 100000) (j : Fin 128) :
    Cert.Spec.bnLin h s t w (Cert.KGlue.dinvCol e) (ix2 r j)
      = Host.dotGeneral (F := Ideal) dot_S100000x128_S128x128_S100000x128_1_0_0_1_n_n none A w (ix2 r j) * Cert.Glue.dinv e (ix1 r) := by
  rw [bnLin_apply, Cert.LayerLaw.dinvCol_apply,
    Cert.LibHostDot.dotGeneral_plain_apply (M := 100000) (K := 128) (N := 128) dot_S100000x128_S128x128_S100000x128_1_0_0_1_n_n rfl none A w r j]
  simp only [hA]

/-! ## Realness -/

/-- The rectifier of a real is real. -/
theorem lrelu_real (y : ℝ) : ∃ z : ℝ, Cert.Spec.lrelu (y : EReal) = (z : EReal) := by
  have hs : ∃ c : ℝ, Ideal.ofBits .f32 0x3CF5C28F#32 = (c : EReal) :=
    ⟨_, by simp [Ideal.ofBits, Ideal.ieee, -EReal.coe_mul]; rfl⟩
  obtain ⟨c, hc⟩ := hs
  unfold Cert.Spec.lrelu Scalar.select
  split
  · exact ⟨y, rfl⟩
  · exact ⟨c * y, by rw [hc, EReal.coe_mul]⟩

/-- Every per-node factor is real. -/
theorem allReal_dinv (e : Cert.Glue.Edges) : AllReal (Cert.Glue.dinv e) := fun i => by
  obtain ⟨r, -, hr⟩ := Cert.LayerLaw.dinv_nonneg_real e (i 0)
  exact ⟨r, by rw [eq_ix1 i]; exact hr⟩

/-- The zero table is real. -/
theorem allReal_zerosNC : AllReal Cert.Glue.zerosNC := fun i => ⟨0, by rw [Cert.LayerLaw.zerosNC_apply]; rfl⟩

/-- The reference's layer on a real product with a real bias has real entries. -/
theorem allReal_refConv (e : Cert.Glue.Edges) {H : FVec Ideal S100000x128 .f32} {b : FVec Ideal S128 .f32}
    (hH : AllReal H) (hb : AllReal b) : AllReal (Cert.Glue.refConv e H b) := by
  unfold Cert.Glue.refConv Cert.Glue.scatterDst Cert.Glue.gatherRows Cert.Glue.gatherVec Cert.Glue.perEdge Cert.Glue.rows
  exact Cert.LibReal.allReal_addf
    (Cert.LibReal.allReal_scatterAdd _ _ allReal_zerosNC
      (Cert.LibReal.allReal_mulf (Cert.LibReal.allReal_gather _ _ hH)
        (Cert.LibReal.allReal_broadcastInDim _ _ (Cert.LibReal.allReal_broadcastInDim _ _
          (Cert.LibReal.allReal_mulf (Cert.LibReal.allReal_gather _ _ (allReal_dinv e))
            (Cert.LibReal.allReal_gather _ _ (allReal_dinv e)))))))
    (Cert.LibReal.allReal_broadcastInDim _ _ (Cert.LibReal.allReal_broadcastInDim _ _ hb))

/-! ## One normalisation stage -/

/-- On a real table with real `g`, `β`: the kernel side's normalised, rectified entries are the reference's, and the
    reference's normalised, rectified table is real. -/
theorem norm_stage (h : FVec Ideal S100000x128 .f32) (g β : FVec Ideal S128 .f32)
    (hh : AllReal h) (hg : AllReal g) (hβ : AllReal β) :
    (∀ (r : Fin 100000) (k : Fin 128),
      Cert.Spec.lrelu (h (ix2 r k) * Cert.KGlue.scaleRow (Cert.Spec.colSum h) (Cert.Spec.colSumSq h) g (ix2 (0 : Fin 1) k)
          + Cert.KGlue.shiftRow (Cert.Spec.colSum h) (Cert.Spec.colSumSq h) g β (ix2 (0 : Fin 1) k))
        = Cert.Glue.refLrelu (Cert.Glue.refBN h g β) (ix2 r k))
    ∧ AllReal (Cert.Glue.refLrelu (Cert.Glue.refBN h g β)) := by
  refine ⟨fun r k => ?_, fun i => ?_⟩
  · obtain ⟨y, hk, hr⟩ := Cert.BNLaw.affine_eq_refBN h g β hh hg hβ r k
    rw [refLrelu_apply, hk, hr]
  · obtain ⟨r, k, rfl⟩ : ∃ (r : Fin 100000) (k : Fin 128), i = ix2 r k := ⟨i 0, i 1, eq_ix2 i⟩
    obtain ⟨y, -, hr⟩ := Cert.BNLaw.affine_eq_refBN h g β hh hg hβ r k
    rw [refLrelu_apply, hr]
    exact lrelu_real y

/-! ## The final dense layer -/

theorem linBias_eq_refOut (p : FVec Ideal S128x128 .f32) (w : FVec Ideal S128x64 .f32) (b : FVec Ideal S64 .f32) :
    Cert.Spec.linBias p w (shapeCast Cert.KernelIdeal.S1x64 b Cert.KernelIdeal.Gen.shapeCasts_S64_S1x64) = Cert.Glue.refOut p w b := by
  funext i
  obtain ⟨r, j, rfl⟩ : ∃ (r : Fin 128) (j : Fin 64), i = ix2 r j := ⟨i 0, i 1, eq_ix2 i⟩
  rw [linBias_apply]
  unfold Cert.Glue.refOut
  rw [addf_apply, Cert.LibHostDot.dotGeneral_plain_apply (M := 128) (K := 128) (N := 64) dot_S128x128_S128x64_S128x64_1_0_0_1_n_n rfl none p w r j]
  refine congrArg (_ + ·) ?_
  refine (shapeCast_a_1a_apply b _ 0 j).trans ?_
  refine ((broadcastInDim_apply ![0, 1] bcast_S1x64_S128x64_0_1 _ (ix2 r j) (ix2 (0 : Fin 1) j) fun a => ?_).trans ?_).symm
  · match a with
    | ⟨0, _⟩ => rfl
    | ⟨1, _⟩ => rfl
  · refine broadcastInDim_apply ![1] bcast_S64_S1x64_1 b (ix2 (0 : Fin 1) j) (ix1 j) fun a => ?_
    match a with
    | ⟨0, _⟩ => rfl

/-! ## The networks -/

/-- THE TWO NETWORKS AGREE on inputs whose first two layers' parameters and features are real. -/
theorem kNet_eq_refNet (x0 : FVec Ideal S100000x64 .f32) (e : Cert.Glue.Edges) (x2 : IVec S100000 32) (w0 : FVec Ideal S64x128 .f32)
    (b0 : FVec Ideal S128 .f32) (w1 : FVec Ideal S128x128 .f32) (b1 : FVec Ideal S128 .f32) (w2 : FVec Ideal S128x128 .f32)
    (b2 g0 β0 g1 β1 : FVec Ideal S128 .f32) (lw : FVec Ideal S128x64 .f32) (lb : FVec Ideal S64 .f32)
    (hx0 : AllReal x0) (hw0 : AllReal w0) (hb0 : AllReal b0) (hw1 : AllReal w1) (hb1 : AllReal b1)
    (hg0 : AllReal g0) (hβ0 : AllReal β0) (hg1 : AllReal g1) (hβ1 : AllReal β1) :
    Cert.KGlue.kNet x0 e x2 w0 b0 w1 b1 w2 b2 g0 β0 g1 β1 lw lb = Cert.Glue.refNet x0 e x2 w0 b0 w1 b1 w2 b2 g0 β0 g1 β1 lw lb := by
  -- first layer
  have h0 : Cert.KGlue.hOf e (Cert.Spec.linScale x0 w0 (Cert.KGlue.dinvCol e)) b0
      = Cert.Glue.refConv e (Host.dotGeneral (F := Ideal) dot_S100000x64_S64x128_S100000x128_1_0_0_1_n_n none x0 w0) b0 :=
    Cert.LayerLaw.hOf_eq_refConv e _ _ b0 (linScale_scaled e x0 w0)
  have r0 : AllReal (Cert.Glue.refConv e (Host.dotGeneral (F := Ideal) dot_S100000x64_S64x128_S100000x128_1_0_0_1_n_n none x0 w0) b0) :=
    allReal_refConv e (Cert.LibReal.allReal_dotGeneral _ _ hx0 hw0) hb0
  obtain ⟨n0, ra0⟩ := norm_stage _ g0 β0 r0 hg0 hβ0
  -- second layer
  have h1 : Cert.KGlue.hOf e (Cert.KGlue.nextP e (Cert.Glue.refConv e (Host.dotGeneral (F := Ideal) dot_S100000x64_S64x128_S100000x128_1_0_0_1_n_n none x0 w0) b0) g0 β0 w1) b1
      = Cert.Glue.refConv e (Host.dotGeneral (F := Ideal) dot_S100000x128_S128x128_S100000x128_1_0_0_1_n_n none
          (Cert.Glue.refLrelu (Cert.Glue.refBN (Cert.Glue.refConv e (Host.dotGeneral (F := Ideal) dot_S100000x64_S64x128_S100000x128_1_0_0_1_n_n none x0 w0) b0) g0 β0)) w1) b1 :=
    Cert.LayerLaw.hOf_eq_refConv e _ _ b1 (bnLin_scaled e _ _ _ _ w1 n0)
  have r1 := allReal_refConv e (Cert.LibReal.allReal_dotGeneral dot_S100000x128_S128x128_S100000x128_1_0_0_1_n_n none ra0 hw1) hb1
  obtain ⟨n1, -⟩ := norm_stage _ g1 β1 r1 hg1 hβ1
  -- third layer, rectifier, pooling, final product
  unfold Cert.KGlue.kNet Cert.Glue.refNet
  dsimp only
  rw [h0, h1, linBias_eq_refOut, Cert.LayerLaw.meanPool_eq]
  refine congrArg (fun t => Cert.Glue.refOut (Cert.Glue.meanPool x2 t) lw lb) ?_
  funext i
  rw [postLrelu_apply, refLrelu_apply]
  refine congrArg Cert.Spec.lrelu ?_
  exact congrFun (Cert.LayerLaw.hOf_eq_refConv e _ _ b2 (bnLin_scaled e _ _ _ _ w2 n1)) i

end Cert.Bridge

end
-- ==== Proof.Finite.lean ====
/-
  The precondition read as realness.

  The precondition is the conjunction of thirteen tests "every entry x of the array satisfies |x| < +inf", one per
  floating-point argument. On the extended reals |x| = max x (-x), the word 0x7F800000 is +inf, and an extended
  real whose absolute value is below +inf is neither +inf nor -inf, hence a real number. So when the precondition
  holds, every entry of every floating-point argument is a real number.
-/
import proofs.«160274_j87952340288037_2_alg».proof.Pre_finite_inputs
import proofs.«160274_j87952340288037_2_alg».proof.Proof.LibReal
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx
open Cert.Pre_finite_inputs

/-- The rank-0 shape has one index. -/
instance : Subsingleton S_.Idx := ⟨fun a b => funext fun d => d.elim0⟩

/-- An extended real whose absolute value compares below the word of +inf is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- "all (|x| < +inf)" is 1, over any shape: every entry of x is a real number. -/
theorem real_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) :
    Cert.Net.AllReal x := by
  intro i
  have hi := Host.reduce_andi_all _ _ hr hu ix0 e i
  exact real_of_abs_lt_inf (x i) hi

/-- A conjunction of two one-entry truth values that is 1 has both 1. -/
theorem both_of_andi (a b : IVec S_ 1) (h : andi a b ix0 = 1#1) : a ix0 = 1#1 ∧ b ix0 = 1#1 :=
  IntOp.andi_eq_one.1 h

variable [Cert.Pre_finite_inputs.Facts]

/-- When the precondition holds, every floating-point argument is real, entry by entry. -/
theorem real_all (x0 : FVec Ideal S100000x64 .f32) (x1 : IVec S2x1600000 32) (x2 : IVec S100000 32)
    (x3 : FVec Ideal S64x128 .f32) (x4 : FVec Ideal S128 .f32) (x5 : FVec Ideal S128x128 .f32)
    (x6 : FVec Ideal S128 .f32) (x7 : FVec Ideal S128x128 .f32) (x8 x9 x10 x11 x12 : FVec Ideal S128 .f32)
    (x13 : FVec Ideal S128x64 .f32) (x14 : FVec Ideal S64 .f32)
    (h : Cert.Pre_finite_inputs.fn (F := Ideal) x0 x1 x2 x3 x4 x5 x6 x7 x8 x9 x10 x11 x12 x13 x14 = fun _ => 1#1) :
    Cert.Net.AllReal x0 ∧ Cert.Net.AllReal x3 ∧ Cert.Net.AllReal x4 ∧ Cert.Net.AllReal x5 ∧ Cert.Net.AllReal x6
      ∧ Cert.Net.AllReal x7 ∧ Cert.Net.AllReal x8 ∧ Cert.Net.AllReal x9 ∧ Cert.Net.AllReal x10
      ∧ Cert.Net.AllReal x11 ∧ Cert.Net.AllReal x12 ∧ Cert.Net.AllReal x13 ∧ Cert.Net.AllReal x14 := by
  have h0 := congrFun h ix0
  unfold Cert.Pre_finite_inputs.fn Cert.Pre_finite_inputs.fn_part1 Cert.Pre_finite_inputs.fn_part2
    Cert.Pre_finite_inputs.fn_part3 at h0
  dsimp only at h0
  obtain ⟨h0, t14⟩ := both_of_andi _ _ h0
  obtain ⟨h0, t13⟩ := both_of_andi _ _ h0
  obtain ⟨h0, t12⟩ := both_of_andi _ _ h0
  obtain ⟨h0, t11⟩ := both_of_andi _ _ h0
  obtain ⟨h0, t10⟩ := both_of_andi _ _ h0
  obtain ⟨h0, t9⟩ := both_of_andi _ _ h0
  obtain ⟨h0, t8⟩ := both_of_andi _ _ h0
  obtain ⟨h0, t7⟩ := both_of_andi _ _ h0
  obtain ⟨h0, t6⟩ := both_of_andi _ _ h0
  obtain ⟨h0, t5⟩ := both_of_andi _ _ h0
  obtain ⟨h0, t4⟩ := both_of_andi _ _ h0
  obtain ⟨t0, t3⟩ := both_of_andi _ _ h0
  exact ⟨real_of_all x0 _ _ _ t0, real_of_all x3 _ _ _ t3, real_of_all x4 _ _ _ t4, real_of_all x5 _ _ _ t5,
    real_of_all x6 _ _ _ t6, real_of_all x7 _ _ _ t7, real_of_all x8 _ _ _ t8, real_of_all x9 _ _ _ t9,
    real_of_all x10 _ _ _ t10, real_of_all x11 _ _ _ t11, real_of_all x12 _ _ _ t12, real_of_all x13 _ _ _ t13,
    real_of_all x14 _ _ _ t14⟩

/-- The nine arguments the layers' algebra needs real. -/
theorem real_args (x0 : FVec Ideal S100000x64 .f32) (x1 : IVec S2x1600000 32) (x2 : IVec S100000 32)
    (x3 : FVec Ideal S64x128 .f32) (x4 : FVec Ideal S128 .f32) (x5 : FVec Ideal S128x128 .f32)
    (x6 : FVec Ideal S128 .f32) (x7 : FVec Ideal S128x128 .f32) (x8 x9 x10 x11 x12 : FVec Ideal S128 .f32)
    (x13 : FVec Ideal S128x64 .f32) (x14 : FVec Ideal S64 .f32)
    (h : Cert.Pre_finite_inputs.fn (F := Ideal) x0 x1 x2 x3 x4 x5 x6 x7 x8 x9 x10 x11 x12 x13 x14 = fun _ => 1#1) :
    Cert.Net.AllReal x0 ∧ Cert.Net.AllReal x3 ∧ Cert.Net.AllReal x4 ∧ Cert.Net.AllReal x5 ∧ Cert.Net.AllReal x6
      ∧ Cert.Net.AllReal x9 ∧ Cert.Net.AllReal x10 ∧ Cert.Net.AllReal x11 ∧ Cert.Net.AllReal x12 := by
  obtain ⟨r0, r3, r4, r5, r6, -, -, r9, r10, r11, r12, -, -⟩ :=
    real_all x0 x1 x2 x3 x4 x5 x6 x7 x8 x9 x10 x11 x12 x13 x14 h
  exact ⟨r0, r3, r4, r5, r6, r9, r10, r11, r12⟩

end Cert.Finite

end
-- ==== Proof.lean ====
/-
  The certificate of a three-layer graph convolution network (three symmetric-normalised graph convolutions, batch
  normalisation and a leaky rectifier after the first two, a leaky rectifier after the third, mean pooling per graph, a
  final dense layer), computed by seven kernel launches among host operations, against its plain reference.

  The three frames are the generated ones (the reference's is its run with the result dropped). Nothing was rewritten
  when the kernel was idealised, so the preservation claim is empty. The value claim: the idealised kernel's run ends
  with its result at the composed function `KGlue.kNet` of the arguments (the run with the result named; the contents at
  each boundary between launches and host stretches read one by one; each launch's arrays as one whole-array function);
  the reference's run ends at `Glue.refNet` of the arguments (its 239 host operations read in eight stages); and the two
  functions agree on finite inputs: per layer, the arrival node's nonnegative real factor comes out of the node's sum,
  and per normalisation, the one-pass variance clamped at zero is the centred variance on a column of reals.
-/
import proofs.«160274_j87952340288037_2_alg».proof.Defs
import proofs.«160274_j87952340288037_2_alg».proof.Proof.Gen.Kernel
import proofs.«160274_j87952340288037_2_alg».proof.Proof.Gen.Kernel.Skeleton
import proofs.«160274_j87952340288037_2_alg».proof.Proof.Gen.Kernel.Launch
import proofs.«160274_j87952340288037_2_alg».proof.Proof.Gen.Kernel.Points
import proofs.«160274_j87952340288037_2_alg».proof.Proof.Gen.Kernel.Frame
import proofs.«160274_j87952340288037_2_alg».proof.Proof.Gen.KernelIdeal
import proofs.«160274_j87952340288037_2_alg».proof.Proof.Gen.KernelIdeal.Skeleton
import proofs.«160274_j87952340288037_2_alg».proof.Proof.Gen.KernelIdeal.Launch
import proofs.«160274_j87952340288037_2_alg».proof.Proof.Gen.KernelIdeal.Points
import proofs.«160274_j87952340288037_2_alg».proof.Proof.Gen.KernelIdeal.Frame
import proofs.«160274_j87952340288037_2_alg».proof.Proof.Gen.ReferenceIdeal
import proofs.«160274_j87952340288037_2_alg».proof.Proof.Gen.Pre_finite_inputs
import proofs.«160274_j87952340288037_2_alg».proof.Proof.KernelRun
import proofs.«160274_j87952340288037_2_alg».proof.Proof.KernelChain
import proofs.«160274_j87952340288037_2_alg».proof.Proof.RefRunP
import proofs.«160274_j87952340288037_2_alg».proof.Proof.RefStages
import proofs.«160274_j87952340288037_2_alg».proof.Proof.Bridge
import proofs.«160274_j87952340288037_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealised programs end with equal results: the kernel's at `kNet` of its arguments, the reference's at
    `refNet` of its own, which agree with the kernel's; the two functions agree on finite inputs. -/
theorem algebraic : Cert.algebraic_KernelIdeal_ReferenceIdeal := by
  intro m ρ m' ρ' hpre hagree
  refine ⟨fun c => Cert.KGlue.kNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.result_eq m ρ c), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14⟩ := hagree c
    obtain ⟨r0, r3, r4, r5, r6, r9, r10, r11, r12⟩ := Cert.Finite.real_args _ _ _ _ _ _ _ _ _ _ _ _ _ _ _ (hpre c)
    refine (Cert.ReferenceIdeal.Stages.res_eq m' c).trans ?_
    rw [e0, e1, e2, e3, e4, e5, e6, e7, e8, e9, e10, e11, e12, e13, e14]
    exact (Cert.Bridge.kNet_eq_refNet _ _ _ _ _ _ _ _ _ _ _ _ _ _ _ r0 r3 r4 r5 r6 r9 r10 r11 r12).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
